-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128x40 : Shape := ⟨2, ![128, 40]⟩
abbrev S40 : Shape := ⟨1, ![40]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_arg10 : FVec F S128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x40 .f32) (main_arg7 : FVec F S40 .f32) (main_arg8 : FVec F S128 .f32) (main_arg9 : FVec F S128 .f32) (main_arg10 : FVec F S128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x40 .f32 := Host.absf main_arg6
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128x128 .f32) (main_arg6 : FVec F S128x40 .f32) (main_arg7 : FVec F S40 .f32) (main_arg8 : FVec F S128 .f32) (main_arg9 : FVec F S128 .f32) (main_arg10 : FVec F S128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128x40 : Shape := ⟨2, ![128, 40]⟩
abbrev S40 : Shape := ⟨1, ![40]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 96
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x128, .f32⟩
  | .hbm, ⟨6, _⟩ => ⟨S128x40, .f32⟩
  | .hbm, ⟨7, _⟩ => ⟨S40, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x1, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S128, .f32⟩
  | .hbm, ⟨30, _⟩ => ⟨S1x128, .f32⟩
  | .hbm, ⟨31, _⟩ => ⟨S100000x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S1600000x1, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S128, .f32⟩
  | .hbm, ⟨63, _⟩ => ⟨S1x128, .f32⟩
  | .hbm, ⟨64, _⟩ => ⟨S100000x128, .f32⟩
  | .hbm, ⟨65, _⟩ => ⟨S1x128, .f32⟩
  | .hbm, ⟨66, _⟩ => ⟨S1x128, .f32⟩
  | .hbm, ⟨67, _⟩ => ⟨S_, .f32⟩
  | .hbm, ⟨68, _⟩ => ⟨S1x128, .f32⟩
  | .hbm, ⟨69, _⟩ => ⟨S1x128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S100000x128, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x128, .f32⟩
  | .hbm, ⟨87, _⟩ => ⟨S1600000x1, .f32⟩
  | .hbm, ⟨88, _⟩ => ⟨S1600000x128, .f32⟩
  | .hbm, ⟨89, _⟩ => ⟨S1600000x128, .f32⟩
  | .hbm, ⟨90, _⟩ => ⟨S_, .f32⟩
  | .hbm, ⟨91, _⟩ => ⟨S100000x128, .f32⟩
  | .hbm, ⟨92, _⟩ => ⟨S1600000x1, .i32⟩
  | .hbm, ⟨93, _⟩ => ⟨S100000x128, .f32⟩
  | .hbm, ⟨94, _⟩ => ⟨S1x40, .f32⟩
  | .hbm, ⟨95, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x40, .f32⟩
  | .local _ .vmem, ⟨39, _⟩ => ⟨S1x40, .f32⟩
  | .local _ .vmem, ⟨40, _⟩ => ⟨S5000x40, .f32⟩
  | .local _ .vmem, ⟨41, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v15_2 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40_0 : Ref sig .tc := ⟨.hbm, 64, rfl⟩
abbrev main_v40_1 : Ref sig .tc := ⟨.hbm, 65, rfl⟩
abbrev main_v40_2 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_scratch0 : Ref sig .tc := ⟨.vmem, 26, rfl⟩
abbrev cc2_scratch1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v29 : BitVec 1 := Scalar.cmpi .eq arg0 c19_i32
  let v30 : BitVec 32 := Scalar.extui v29
  let c0_i32_18 : BitVec 32 := 0#32
  let v31 : BitVec 1 := Scalar.cmpi .ne v30 c0_i32_18
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v29 : BitVec 1 := Scalar.cmpi .eq arg0 c19_i32
  let v30 : BitVec 32 := Scalar.extui v29
  let c0_i32_18 : BitVec 32 := 0#32
  let v31 : BitVec 1 := Scalar.cmpi .ne v30 c0_i32_18
  v31

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S128 : S_.BroadcastsInDim S128 (![] : Fin 0 → Fin S128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  broadcasts_S1x128_S5000x128 : S1x128.Broadcasts S5000x128
  reduces_S5000x128_S128 : S5000x128.Reduces [0] S128
  bcast_S_S1x128 : S_.BroadcastsInDim S1x128 (![] : Fin 0 → Fin S1x128.rank)
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x40.size a ≤ S100000x40.size a
  hwx4_3 : ∀ i : grid4.Coords, EltTy.bits .f32 = 32 ∨ (Rect.block (s := S100000x40) S5000x40.size (cc4_transform_3 i) (hinb4_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v15_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v40_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun i => !(k2_cond2 i == 1#1) | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v40_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v62) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S5000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128x40 : Shape := ⟨2, ![128, 40]⟩
abbrev S40 : Shape := ⟨1, ![40]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 160
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .f32⟩
  | 4 => ⟨S128x128, .f32⟩
  | 5 => ⟨S128x128, .f32⟩
  | 6 => ⟨S128x40, .f32⟩
  | 7 => ⟨S40, .f32⟩
  | 8 => ⟨S128, .f32⟩
  | 9 => ⟨S128, .f32⟩
  | 10 => ⟨S128, .f32⟩
  | 11 => ⟨S128, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S1600000x1, .f32⟩
  | 22 => ⟨S1600000x128, .f32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S100000x128, .f32⟩
  | 29 => ⟨S_, .f32⟩
  | 30 => ⟨S128, .f32⟩
  | 31 => ⟨S_, .f32⟩
  | 32 => ⟨S128, .f32⟩
  | 33 => ⟨S128, .f32⟩
  | 34 => ⟨S_, .i32⟩
  | 35 => ⟨S_, .f32⟩
  | 36 => ⟨S128, .f32⟩
  | 37 => ⟨S1x128, .f32⟩
  | 38 => ⟨S_, .f32⟩
  | 39 => ⟨S1x128, .f32⟩
  | 40 => ⟨S1x128, .f32⟩
  | 41 => ⟨S100000x128, .f32⟩
  | 42 => ⟨S100000x128, .f32⟩
  | 43 => ⟨S100000x128, .f32⟩
  | 44 => ⟨S_, .f32⟩
  | 45 => ⟨S_, .f32⟩
  | 46 => ⟨S_, .f32⟩
  | 47 => ⟨S_, .f32⟩
  | 48 => ⟨S128, .f32⟩
  | 49 => ⟨S128, .f32⟩
  | 50 => ⟨S128, .f32⟩
  | 51 => ⟨S_, .f32⟩
  | 52 => ⟨S_, .i1⟩
  | 53 => ⟨S_, .f32⟩
  | 54 => ⟨S_, .f32⟩
  | 55 => ⟨S128, .f32⟩
  | 56 => ⟨S128, .f32⟩
  | 57 => ⟨S1x128, .f32⟩
  | 58 => ⟨S100000x128, .f32⟩
  | 59 => ⟨S100000x128, .f32⟩
  | 60 => ⟨S_, .f32⟩
  | 61 => ⟨S128, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x128, .f32⟩
  | 85 => ⟨S1600000x1, .f32⟩
  | 86 => ⟨S1600000x128, .f32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S100000x128, .f32⟩
  | 93 => ⟨S_, .f32⟩
  | 94 => ⟨S128, .f32⟩
  | 95 => ⟨S_, .f32⟩
  | 96 => ⟨S128, .f32⟩
  | 97 => ⟨S128, .f32⟩
  | 98 => ⟨S_, .i32⟩
  | 99 => ⟨S_, .f32⟩
  | 100 => ⟨S128, .f32⟩
  | 101 => ⟨S1x128, .f32⟩
  | 102 => ⟨S_, .f32⟩
  | 103 => ⟨S1x128, .f32⟩
  | 104 => ⟨S1x128, .f32⟩
  | 105 => ⟨S100000x128, .f32⟩
  | 106 => ⟨S100000x128, .f32⟩
  | 107 => ⟨S100000x128, .f32⟩
  | 108 => ⟨S_, .f32⟩
  | 109 => ⟨S_, .f32⟩
  | 110 => ⟨S_, .f32⟩
  | 111 => ⟨S_, .f32⟩
  | 112 => ⟨S128, .f32⟩
  | 113 => ⟨S128, .f32⟩
  | 114 => ⟨S128, .f32⟩
  | 115 => ⟨S_, .f32⟩
  | 116 => ⟨S_, .i1⟩
  | 117 => ⟨S_, .f32⟩
  | 118 => ⟨S_, .f32⟩
  | 119 => ⟨S128, .f32⟩
  | 120 => ⟨S128, .f32⟩
  | 121 => ⟨S1x128, .f32⟩
  | 122 => ⟨S100000x128, .f32⟩
  | 123 => ⟨S100000x128, .f32⟩
  | 124 => ⟨S_, .f32⟩
  | 125 => ⟨S128, .f32⟩
  | 126 => ⟨S128, .f32⟩
  | 127 => ⟨S128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S1x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S1600000x1, .f32⟩
  | 22 => ⟨S1600000x128, .f32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S100000x40, .f32⟩
  | 29 => ⟨S1x40, .f32⟩
  | 30 => ⟨S100000x40, .f32⟩
  | 31 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_cst_1 : Ref sig .tc := ⟨.hbm, 45, rfl⟩
abbrev main_call0_v8 : Ref sig .tc := ⟨.hbm, 46, rfl⟩
abbrev main_call0_cst_2 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_cst_3 : Ref sig .tc := ⟨.hbm, 51, rfl⟩
abbrev main_call0_v12 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_4 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_call1_cst : Ref sig .tc := ⟨.hbm, 73, rfl⟩
abbrev main_call1_v0 : Ref sig .tc := ⟨.hbm, 74, rfl⟩
abbrev main_v33 : Ref sig .tc := ⟨.hbm, 75, rfl⟩
abbrev main_c_5 : Ref sig .tc := ⟨.hbm, 76, rfl⟩
abbrev main_v34 : Ref sig .tc := ⟨.hbm, 77, rfl⟩
abbrev main_v35 : Ref sig .tc := ⟨.hbm, 78, rfl⟩
abbrev main_c_6 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_7 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_cst_8 : Ref sig .tc := ⟨.hbm, 93, rfl⟩
abbrev main_v48 : Ref sig .tc := ⟨.hbm, 94, rfl⟩
abbrev main_cst_9 : Ref sig .tc := ⟨.hbm, 95, rfl⟩
abbrev main_v49 : Ref sig .tc := ⟨.hbm, 96, rfl⟩
abbrev main_v50 : Ref sig .tc := ⟨.hbm, 97, rfl⟩
abbrev main_c_10 : Ref sig .tc := ⟨.hbm, 98, rfl⟩
abbrev main_call2_cst : Ref sig .tc := ⟨.hbm, 99, rfl⟩
abbrev main_call2_v0 : Ref sig .tc := ⟨.hbm, 100, rfl⟩
abbrev main_call2_v1 : Ref sig .tc := ⟨.hbm, 101, rfl⟩
abbrev main_call2_cst_0 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_v6 : Ref sig .tc := ⟨.hbm, 107, rfl⟩
abbrev main_call2_v7 : Ref sig .tc := ⟨.hbm, 108, rfl⟩
abbrev main_call2_cst_1 : Ref sig .tc := ⟨.hbm, 109, rfl⟩
abbrev main_call2_v8 : Ref sig .tc := ⟨.hbm, 110, rfl⟩
abbrev main_call2_cst_2 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_cst_3 : Ref sig .tc := ⟨.hbm, 115, rfl⟩
abbrev main_call2_v12 : Ref sig .tc := ⟨.hbm, 116, rfl⟩
abbrev main_call2_cst_4 : Ref sig .tc := ⟨.hbm, 117, rfl⟩
abbrev main_call2_call0_v0 : Ref sig .tc := ⟨.hbm, 118, rfl⟩
abbrev main_call2_call0_v1 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_cst_11 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_call3_cst : Ref sig .tc := ⟨.hbm, 137, rfl⟩
abbrev main_call3_v0 : Ref sig .tc := ⟨.hbm, 138, rfl⟩
abbrev main_v67 : Ref sig .tc := ⟨.hbm, 139, rfl⟩
abbrev main_c_12 : Ref sig .tc := ⟨.hbm, 140, rfl⟩
abbrev main_v68 : Ref sig .tc := ⟨.hbm, 141, rfl⟩
abbrev main_v69 : Ref sig .tc := ⟨.hbm, 142, rfl⟩
abbrev main_c_13 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_cst_14 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.S0Defs.lean ====
/-
  The first matmul-with-statistics call (the grid's 20 points, blocks of 5000 rows): what its proofs share.
  The body branches twice on the grid coordinate: at the first point it zeroes the two [1,128] accumulators
  it keeps in scratch, at the last point it copies them into the two [1,128] result blocks. Between, every
  point adds its block's column sums (of h and of h*h) to the accumulators. So three cases: the first point,
  the points 1..18, the last point. The two [1,128] result windows are idle except at the last point.
-/
import proofs.«151566_j35021163331665_1_alg».proof.Proof.Gen.KernelIdeal.Launch
import proofs.«151566_j35021163331665_1_alg».proof.Proof.Gen.KernelIdeal.Skeleton
import proofs.«151566_j35021163331665_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "this is the first point": the scalar chain the body computes from the grid coordinate. -/
abbrev cond0_0 (i : grid0.Coords) : Prop :=
  (Scalar.cmpi .ne (Scalar.extui (Scalar.cmpi .eq (BitVec.ofNat 32 (i 0).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)

/-- "this is the last point". -/
abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the two statistics windows are idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last point they are stored. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

/-- One staging buffer of each output window, through which its contents are stated. -/
abbrev VO0_3 : View sig .tc .vmem S5000x128 .f32 := (Memref.whole cc0_stg3_0 : Memref sig .tc .vmem S5000x128 .f32).view
abbrev VO0_4 : View sig .tc .vmem S1x128 .f32 := (Memref.whole cc0_stg4_0 : Memref sig .tc .vmem S1x128 .f32).view
abbrev VO0_5 : View sig .tc .vmem S1x128 .f32 := (Memref.whole cc0_stg5_0 : Memref sig .tc .vmem S1x128 .f32).view

abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5000x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)

/-- The two scratch accumulators: whole scoped buffers of the call's own. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The scoped buffers this call neither stages nor uses as scratch: they ride along unopened. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The class invariant with the two scratch accumulators owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ restBut0 c) ∗ (∃ r, prngReg c r)) := by
  unfold Pipeline.ΦA; rw [scopedRest0_split]; simp only [scM0_0, scM0_1, owns_whole]; try rfl

end Cert.KernelIdeal.Hand

end
-- ==== Proof.S0RunA.lean ====
/-
  The body of the first matmul-with-statistics call at the FIRST grid point: it zeroes both accumulators, stores
  the block of h = a·w + b, and adds the block's column sums of h and of h*h to the accumulators. The two
  statistics result blocks are not touched. Stated on any whole memrefs, with the stores found by the run.
-/
import proofs.«151566_j35021163331665_1_alg».proof.Proof.Gen.KernelIdeal.Launch
import proofs.«151566_j35021163331665_1_alg».proof.Proof.Gen.KernelIdeal.Skeleton
import proofs.«151566_j35021163331665_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«151566_j35021163331665_1_alg».proof.Proof.S0Defs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .f32) (x2 : Vec F S1x128 .f32) :
    Σ' (L3 : List (View.Piece (Elt F) S5000x128 .f32)) (LS0 : List (View.Piece (Elt F) S1x128 .f32)), { LS1 : List (View.Piece (Elt F) S1x128 .f32) //
      ∀ (xi4 xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)
                ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__matmul_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc0__matmul_stats_kernel_eq_skeleton]; unfold cc0__matmul_stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.S0RunB.lean ====
/-
  The body of the first matmul-with-statistics call at a MIDDLE grid point (neither first nor last): it stores
  the block of h = a·w + b and adds the block's column sums of h and of h*h to the two accumulators, which
  hold what the point before left. The two statistics result blocks are not touched.
-/
import proofs.«151566_j35021163331665_1_alg».proof.Proof.Gen.KernelIdeal.Launch
import proofs.«151566_j35021163331665_1_alg».proof.Proof.Gen.KernelIdeal.Skeleton
import proofs.«151566_j35021163331665_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«151566_j35021163331665_1_alg».proof.Proof.S0Defs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .f32) (x2 : Vec F S1x128 .f32) (xs0 xs1 : Vec F S1x128 .f32) :
    Σ' (L3 : List (View.Piece (Elt F) S5000x128 .f32)) (LS0 : List (View.Piece (Elt F) S1x128 .f32)), { LS1 : List (View.Piece (Elt F) S1x128 .f32) //
      ∀ (xi4 xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)
                ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__matmul_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc0__matmul_stats_kernel_eq_skeleton]; unfold cc0__matmul_stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg5.eq_unread hf4; obtain rfl := harg6.eq_unread hf5
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.S0RunC.lean ====
/-
  The body of the first matmul-with-statistics call at the LAST grid point: as at a middle point, and then the
  two accumulators are copied into the two [1,128] statistics result blocks.
-/
import proofs.«151566_j35021163331665_1_alg».proof.Proof.Gen.KernelIdeal.Launch
import proofs.«151566_j35021163331665_1_alg».proof.Proof.Gen.KernelIdeal.Skeleton
import proofs.«151566_j35021163331665_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«151566_j35021163331665_1_alg».proof.Proof.S0Defs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S1x128 .f32) (xs0 xs1 : Vec F S1x128 .f32) :
    Σ' (L3 : List (View.Piece (Elt F) S5000x128 .f32)) (L4 L5 LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__matmul_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc0__matmul_stats_kernel_eq_skeleton]; unfold cc0__matmul_stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.KernelIdeal.Hand

end
-- ==== Proof.S0Dat.lean ====
/-
  The first matmul-with-statistics call: what its result blocks and its two accumulators hold after each grid
  point, the invariant that carries the accumulators from one point to the next, and the body's obligation at
  every point. After point t the accumulators hold the column sums of h and of h*h over the rows of the blocks
  0..t; the h result block of point t is written back at once, the two statistics blocks only at the last point.
-/
import proofs.«151566_j35021163331665_1_alg».proof.Proof.Gen.KernelIdeal.Launch
import proofs.«151566_j35021163331665_1_alg».proof.Proof.Gen.KernelIdeal.Skeleton
import proofs.«151566_j35021163331665_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«151566_j35021163331665_1_alg».proof.Proof.S0RunA
import proofs.«151566_j35021163331665_1_alg».proof.Proof.S0RunB
import proofs.«151566_j35021163331665_1_alg».proof.Proof.S0RunC
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks as the call finds them -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves, read back through a fixed view -/

theorem cover0_A_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .f32) (x2 : Vec F S1x128 .f32) (y : S5000x128.Idx) : ∃ pc ∈ (kernelRun0_A c i arg1 harg1 arg2 harg2 arg3 harg3 arg4 harg4 arg5 harg5 arg6 harg6 arg7 harg7 arg8 harg8 hc0 hc1 x0 x1 x2).1, y ∈ pc.1.set :=
  View.cover_of_tiledL (kernelRun0_A c i arg1 harg1 arg2 harg2 arg3 harg3 arg4 harg4 arg5 harg5 arg6 harg6 arg7 harg7 arg8 harg8 hc0 hc1 x0 x1 x2).1 S5000x128.size (by sl_kernel_rfl) y
def out0_A_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .f32) (x2 : Vec F S1x128 .f32) : Vec F S5000x128 .f32 :=
  VO0_3.read (Elt F) (VO0_3.writes (Elt F) VO0_3.junk (kernelRun0_A c i arg1 harg1 arg2 harg2 arg3 harg3 arg4 harg4 arg5 harg5 arg6 harg6 arg7 harg7 arg8 harg8 hc0 hc1 x0 x1 x2).1)

theorem scover0_A_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .f32) (x2 : Vec F S1x128 .f32) (y : S1x128.Idx) : ∃ pc ∈ (kernelRun0_A c i arg1 harg1 arg2 harg2 arg3 harg3 arg4 harg4 arg5 harg5 arg6 harg6 arg7 harg7 arg8 harg8 hc0 hc1 x0 x1 x2).2.1, y ∈ pc.1.set :=
  View.cover_of_tiledL (kernelRun0_A c i arg1 harg1 arg2 harg2 arg3 harg3 arg4 harg4 arg5 harg5 arg6 harg6 arg7 harg7 arg8 harg8 hc0 hc1 x0 x1 x2).2.1 S1x128.size (by sl_kernel_rfl) y
def sout0_A_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .f32) (x2 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2).2.1)

theorem scover0_A_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .f32) (x2 : Vec F S1x128 .f32) (y : S1x128.Idx) : ∃ pc ∈ (kernelRun0_A c i arg1 harg1 arg2 harg2 arg3 harg3 arg4 harg4 arg5 harg5 arg6 harg6 arg7 harg7 arg8 harg8 hc0 hc1 x0 x1 x2).2.2.1, y ∈ pc.1.set :=
  View.cover_of_tiledL (kernelRun0_A c i arg1 harg1 arg2 harg2 arg3 harg3 arg4 harg4 arg5 harg5 arg6 harg6 arg7 harg7 arg8 harg8 hc0 hc1 x0 x1 x2).2.2.1 S1x128.size (by sl_kernel_rfl) y
def sout0_A_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .f32) (x2 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1 x2).2.2.1)

theorem cover0_B_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .f32) (x2 : Vec F S1x128 .f32) (xs0 xs1 : Vec F S1x128 .f32) (y : S5000x128.Idx) : ∃ pc ∈ (kernelRun0_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun0_B c i arg1 harg1 arg2 harg2 arg3 harg3 arg4 harg4 arg5 harg5 arg6 harg6 arg7 harg7 arg8 harg8 hc0 hc1 x0 x1 x2 xs0 xs1).1 S5000x128.size (by sl_kernel_rfl) y
def out0_B_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .f32) (x2 : Vec F S1x128 .f32) (xs0 xs1 : Vec F S1x128 .f32) : Vec F S5000x128 .f32 :=
  VO0_3.read (Elt F) (VO0_3.writes (Elt F) VO0_3.junk (kernelRun0_B c i arg1 harg1 arg2 harg2 arg3 harg3 arg4 harg4 arg5 harg5 arg6 harg6 arg7 harg7 arg8 harg8 hc0 hc1 x0 x1 x2 xs0 xs1).1)

theorem scover0_B_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .f32) (x2 : Vec F S1x128 .f32) (xs0 xs1 : Vec F S1x128 .f32) (y : S1x128.Idx) : ∃ pc ∈ (kernelRun0_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun0_B c i arg1 harg1 arg2 harg2 arg3 harg3 arg4 harg4 arg5 harg5 arg6 harg6 arg7 harg7 arg8 harg8 hc0 hc1 x0 x1 x2 xs0 xs1).2.1 S1x128.size (by sl_kernel_rfl) y
def sout0_B_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .f32) (x2 : Vec F S1x128 .f32) (xs0 xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 xs0 xs1).2.1)

theorem scover0_B_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .f32) (x2 : Vec F S1x128 .f32) (xs0 xs1 : Vec F S1x128 .f32) (y : S1x128.Idx) : ∃ pc ∈ (kernelRun0_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun0_B c i arg1 harg1 arg2 harg2 arg3 harg3 arg4 harg4 arg5 harg5 arg6 harg6 arg7 harg7 arg8 harg8 hc0 hc1 x0 x1 x2 xs0 xs1).2.2.1 S1x128.size (by sl_kernel_rfl) y
def sout0_B_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .f32) (x2 : Vec F S1x128 .f32) (xs0 xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 x2 xs0 xs1).2.2.1)

theorem cover0_C_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) (y : S5000x128.Idx) : ∃ pc ∈ (kernelRun0_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 xs0 xs1).1 S5000x128.size (by sl_kernel_rfl) y
def out0_C_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) : Vec F S5000x128 .f32 :=
  VO0_3.read (Elt F) (VO0_3.writes (Elt F) VO0_3.junk (kernelRun0_C c i arg1 harg1 arg2 harg2 arg3 harg3 arg4 harg4 arg5 harg5 arg6 harg6 arg7 harg7 arg8 harg8 hc0 hc1 x0 x1 x2 xs0 xs1).1)

theorem cover0_C_4 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) (y : S1x128.Idx) : ∃ pc ∈ (kernelRun0_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 xs0 xs1).2.1 S1x128.size (by sl_kernel_rfl) y
def out0_C_4 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) : Vec F S1x128 .f32 :=
  VO0_4.read (Elt F) (VO0_4.writes (Elt F) VO0_4.junk (kernelRun0_C c i arg1 harg1 arg2 harg2 arg3 harg3 arg4 harg4 arg5 harg5 arg6 harg6 arg7 harg7 arg8 harg8 hc0 hc1 x0 x1 x2 xs0 xs1).2.1)

theorem cover0_C_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) (y : S1x128.Idx) : ∃ pc ∈ (kernelRun0_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 xs0 xs1).2.2.1 S1x128.size (by sl_kernel_rfl) y
def out0_C_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) : Vec F S1x128 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 xs0 xs1).2.2.1)

theorem scover0_C_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) (y : S1x128.Idx) : ∃ pc ∈ (kernelRun0_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 xs0 xs1).2.2.2.1 S1x128.size (by sl_kernel_rfl) y
def sout0_C_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 xs0 xs1).2.2.2.1)

theorem scover0_C_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) (y : S1x128.Idx) : ∃ pc ∈ (kernelRun0_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 xs0 xs1).2.2.2.2.1 S1x128.size (by sl_kernel_rfl) y
def sout0_C_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 x2 xs0 xs1).2.2.2.2.1)

/-! ## The accumulation over the grid -/

/-- After the body at position n: the h block, the two statistics blocks (placeholders away from the last point,
    where those windows are idle), and the two accumulators. -/
def outsAt0 (c : Dev nD) : (n : ℕ) → n < cfg0.N → Vec F S5000x128 .f32 × Vec F S1x128 .f32 × Vec F S1x128 .f32 × Vec F S1x128 .f32 × Vec F S1x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), VO0_4.read (Elt F) (VO0_4.writes (Elt F) VO0_4.junk []), VO0_5.read (Elt F) (VO0_5.writes (Elt F) VO0_5.junk []), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h1 : (n + 1) % 20 = 19 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => (fun h => by (try dsimp only at h); have hN : n + 1 < 20 := lt_of_lt_of_eq hn (show cfg0.N = 20 from N_0); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => (fun h => by (try dsimp only at h); have hN : n + 1 < 20 := lt_of_lt_of_eq hn (show cfg0.N = 20 from N_0); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => (fun h => by (try dsimp only at h); have hN : n + 1 < 20 := lt_of_lt_of_eq hn (show cfg0.N = 20 from N_0); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => (fun h => by (try dsimp only at h); have hN : n + 1 < 20 := lt_of_lt_of_eq hn (show cfg0.N = 20 from N_0); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => (fun h => by (try dsimp only at h); have hN : n + 1 < 20 := lt_of_lt_of_eq hn (show cfg0.N = 20 from N_0); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => (fun h => by (try dsimp only at h); have hN : n + 1 < 20 := lt_of_lt_of_eq hn (show cfg0.N = 20 from N_0); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, VO0_4.read (Elt F) (VO0_4.writes (Elt F) VO0_4.junk []), VO0_5.read (Elt F) (VO0_5.writes (Elt F) VO0_5.junk []), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => (fun h => by (try dsimp only at h); have hN : n + 1 < 20 := lt_of_lt_of_eq hn (show cfg0.N = 20 from N_0); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => (fun h => by (try dsimp only at h); have hN : n + 1 < 20 := lt_of_lt_of_eq hn (show cfg0.N = 20 from N_0); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val % 20 = 0) (h1 : ¬t.val % 20 = 19) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t), VO0_4.read (Elt F) (VO0_4.writes (Elt F) VO0_4.junk []), VO0_5.read (Elt F) (VO0_5.writes (Elt F) VO0_5.junk []), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exfalso; have hN : n + 1 < 20 := lt_of_lt_of_eq hn (show cfg0.N = 20 from N_0); (try dsimp only at h0); omega

theorem outsAt0_B (c : Dev nD) (t : Fin cfg0.N) (h0 : ¬t.val % 20 = 0) (h1 : ¬t.val % 20 = 19) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, VO0_4.read (Elt F) (VO0_4.writes (Elt F) VO0_4.junk []), VO0_5.read (Elt F) (VO0_5.writes (Elt F) VO0_5.junk []), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 20 = 0) (h1 : t.val % 20 = 19) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The invariant: the accumulators carried between points -/

def PhiS (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2)) ∗ restBut0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(iprop(owns (c : Thread nD τ) scM0_0 fullShare ((outsAt0 V c n hn).2.2.2.1) ∗ owns (c : Thread nD τ) scM0_1 fullShare ((outsAt0 V c n hn).2.2.2.2)) ∗ restBut0 c) ∗ (∃ r, prngReg c r)) := rfl
theorem PhiS_pos (c : Dev nD) (n : ℕ) (h : n ≤ cfg0.N) (hz : n ≠ 0) :
    PhiS V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2)) ∗ restBut0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 20 := lt_of_lt_of_eq t.isLt (show cfg0.N = 20 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  rw [show (dat0 V c).leavesExact 3 t = owns (c : Thread nD τ) (ms0_3 t) fullShare ((dat0 V c).after 3 t) from by
        unfold Dat.leavesExact; rw [liveAt0_3 t], after0_3]
  by_cases h0 : t.val % 20 = 0
  · have h1 : ¬t.val % 20 = 19 := by omega
    have hz : t.val = 0 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1), Dat.leavesExact_idle (dat0 V c) 5 t (idleAt0_5 t hc1) (noFlush0_5 t hc1)]
    rw [outsAt0_A V c t h0 h1]
    unfold out0_A_3 sout0_A_0 sout0_A_1; (try dsimp only)
    rw [PhiS_castSucc V c t, PhiS_zero V c _ _ hz, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ hc0 hc1 (iblk0 V c 0 t) (iblk0 V c 1 t) (iblk0 V c 2 t)).2.2.2 _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, ⟨%e3, H3⟩, H4, H5, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _ _ _ _)
    isplitl [H4]; · iexists _; iexact H4
    iexists _; iexact H5
  · have hz : t.val ≠ 0 := by omega
    have hc0 : ¬cond0_0 (grid0.coords t) := fun h => h0 ((hcond0_0 t).mp h)
    by_cases h1 : t.val % 20 = 19
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4]
      rw [show (dat0 V c).leavesExact 5 t = owns (c : Thread nD τ) (ms0_5 t) fullShare ((dat0 V c).after 5 t) from by
        unfold Dat.leavesExact; rw [liveAt0_5 t hc1], after0_5]
      rw [outsAt0_C V c t h0 h1]
      unfold out0_C_3 out0_C_4 out0_C_5 sout0_C_0 sout0_C_1; (try dsimp only)
      rw [PhiS_castSucc V c t, PhiS_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ hc0 hc1 (iblk0 V c 0 t) (iblk0 V c 1 t) (iblk0 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _ _ _)
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _ _ _)
    · have hc1 : ¬cond0_1 (grid0.coords t) := fun h => h1 ((hcond0_1 t).mp h)
      rw [Dat.leavesExact_idle (dat0 V c) 4 t (idleAt0_4 t hc1) (noFlush0_4 t hc1), Dat.leavesExact_idle (dat0 V c) 5 t (idleAt0_5 t hc1) (noFlush0_5 t hc1)]
      rw [outsAt0_B V c t h0 h1]
      unfold out0_B_3 sout0_B_0 sout0_B_1; (try dsimp only)
      rw [PhiS_castSucc V c t, PhiS_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ hc0 hc1 (iblk0 V c 0 t) (iblk0 V c 1 t) (iblk0 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _)
      isplitl [H4]; · iexists _; iexact H4
      iexists _; iexact H5

theorem body_obligation0 (c : Dev nD) : BodyObligation (dat0 (F := F) V c) (defs₀ (F := F)) Variants.none () Set.univ := fun t => by
  rw [bigSep_W0, bigSep_W0]
  exact sound_body0 V c t

/-- Before the first point the invariant is the class's. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first it gives the class's back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 20 := N_0; omega)

end Cert.KernelIdeal.Hand

end
-- ==== Proof.S2Defs.lean ====
/-
  The second matmul-with-statistics call (the grid's 20 points, blocks of 5000 rows): what its proofs share.
  The body branches twice on the grid coordinate: at the first point it zeroes the two [1,128] accumulators
  it keeps in scratch, at the last point it copies them into the two [1,128] result blocks. Between, every
  point adds its block's column sums (of h and of h*h) to the accumulators. So three cases: the first point,
  the points 1..18, the last point. The two [1,128] result windows are idle except at the last point.
-/
import proofs.«151566_j35021163331665_1_alg».proof.Proof.Gen.KernelIdeal.Launch
import proofs.«151566_j35021163331665_1_alg».proof.Proof.Gen.KernelIdeal.Skeleton
import proofs.«151566_j35021163331665_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "this is the first point": the scalar chain the body computes from the grid coordinate. -/
abbrev cond2_0 (i : grid2.Coords) : Prop :=
  (Scalar.cmpi .ne (Scalar.extui (Scalar.cmpi .eq (BitVec.ofNat 32 (i 0).val) 0#32)) 0#32) = 1#1
theorem hcond2_0 : ∀ t : Fin cfg2.N, cond2_0 (grid2.coords t) ↔ t.val % 20 = 0 :=
  (by decide +kernel : ∀ t : Fin grid2.N, cond2_0 (grid2.coords t) ↔ t.val % 20 = 0)

/-- "this is the last point". -/
abbrev cond2_1 (i : grid2.Coords) : Prop := k2_cond2 i = 1#1
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Away from the last point the two statistics windows are idle and not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
/-- At the last point they are stored. -/
theorem liveAt2_4 : ∀ t : Fin cfg2.N, cond2_1 (grid2.coords t) → cfg2.idle 4 (grid2.coords t) = false := by decide +kernel
theorem liveAt2_5 : ∀ t : Fin cfg2.N, cond2_1 (grid2.coords t) → cfg2.idle 5 (grid2.coords t) = false := by decide +kernel

/-! ## The memrefs the body is called with -/

/-- One staging buffer of each output window, through which its contents are stated. -/
abbrev VO2_3 : View sig .tc .vmem S5000x128 .f32 := (Memref.whole cc2_stg3_0 : Memref sig .tc .vmem S5000x128 .f32).view
abbrev VO2_4 : View sig .tc .vmem S1x128 .f32 := (Memref.whole cc2_stg4_0 : Memref sig .tc .vmem S1x128 .f32).view
abbrev VO2_5 : View sig .tc .vmem S1x128 .f32 := (Memref.whole cc2_stg5_0 : Memref sig .tc .vmem S1x128 .f32).view

abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S5000x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)

/-- The two scratch accumulators: whole scoped buffers of the call's own. -/
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- The scoped buffers this call neither stages nor uses as scratch: they ride along unopened. -/
abbrev restBut2 (c : Dev nD) : sProp 𝕄 :=
  Pipeline.scopedRestBut (Ix := Unit) (Name := ℕ) (U := UR sig nD τ) (Lvl := ℕ) (Val := Elt F) spec2 c [cc2_scratch0, cc2_scratch1]

/-- The class invariant with the two scratch accumulators owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ restBut2 c) ∗ (∃ r, prngReg c r)) := by
  unfold Pipeline.ΦA; rw [scopedRest2_split]; simp only [scM2_0, scM2_1, owns_whole]; try rfl

end Cert.KernelIdeal.Hand

end
-- ==== Proof.S2RunA.lean ====
/-
  The body of the second matmul-with-statistics call at the FIRST grid point: it zeroes both accumulators, stores
  the block of h = a·w + b, and adds the block's column sums of h and of h*h to the accumulators. The two
  statistics result blocks are not touched. Stated on any whole memrefs, with the stores found by the run.
-/
import proofs.«151566_j35021163331665_1_alg».proof.Proof.Gen.KernelIdeal.Launch
import proofs.«151566_j35021163331665_1_alg».proof.Proof.Gen.KernelIdeal.Skeleton
import proofs.«151566_j35021163331665_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«151566_j35021163331665_1_alg».proof.Proof.S2Defs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S128x128 .f32) (x2 : Vec F S1x128 .f32) :
    Σ' (L3 : List (View.Piece (Elt F) S5000x128 .f32)) (LS0 : List (View.Piece (Elt F) S1x128 .f32)), { LS1 : List (View.Piece (Elt F) S1x128 .f32) //
      ∀ (xi4 xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)
                ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__matmul_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc2__matmul_stats_kernel_eq_skeleton]; unfold cc2__matmul_stats_kernel_skel
    simp only [k2_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.S2RunB.lean ====
/-
  The body of the second matmul-with-statistics call at a MIDDLE grid point (neither first nor last): it stores
  the block of h = a·w + b and adds the block's column sums of h and of h*h to the two accumulators, which
  hold what the point before left. The two statistics result blocks are not touched.
-/
import proofs.«151566_j35021163331665_1_alg».proof.Proof.Gen.KernelIdeal.Launch
import proofs.«151566_j35021163331665_1_alg».proof.Proof.Gen.KernelIdeal.Skeleton
import proofs.«151566_j35021163331665_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«151566_j35021163331665_1_alg».proof.Proof.S2Defs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S128x128 .f32) (x2 : Vec F S1x128 .f32) (xs0 xs1 : Vec F S1x128 .f32) :
    Σ' (L3 : List (View.Piece (Elt F) S5000x128 .f32)) (LS0 : List (View.Piece (Elt F) S1x128 .f32)), { LS1 : List (View.Piece (Elt F) S1x128 .f32) //
      ∀ (xi4 xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)
                ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__matmul_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc2__matmul_stats_kernel_eq_skeleton]; unfold cc2__matmul_stats_kernel_skel
    simp only [k2_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg5.eq_unread hf4; obtain rfl := harg6.eq_unread hf5
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.S2RunC.lean ====
/-
  The body of the second matmul-with-statistics call at the LAST grid point: as at a middle point, and then the
  two accumulators are copied into the two [1,128] statistics result blocks.
-/
import proofs.«151566_j35021163331665_1_alg».proof.Proof.Gen.KernelIdeal.Launch
import proofs.«151566_j35021163331665_1_alg».proof.Proof.Gen.KernelIdeal.Skeleton
import proofs.«151566_j35021163331665_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«151566_j35021163331665_1_alg».proof.Proof.S2Defs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S1x128 .f32) (xs0 xs1 : Vec F S1x128 .f32) :
    Σ' (L3 : List (View.Piece (Elt F) S5000x128 .f32)) (L4 L5 LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__matmul_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc2__matmul_stats_kernel_eq_skeleton]; unfold cc2__matmul_stats_kernel_skel
    simp only [k2_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.KernelIdeal.Hand

end
-- ==== Proof.S2Dat.lean ====
/-
  The second matmul-with-statistics call: what its result blocks and its two accumulators hold after each grid
  point, the invariant that carries the accumulators from one point to the next, and the body's obligation at
  every point. After point t the accumulators hold the column sums of h and of h*h over the rows of the blocks
  0..t; the h result block of point t is written back at once, the two statistics blocks only at the last point.
-/
import proofs.«151566_j35021163331665_1_alg».proof.Proof.Gen.KernelIdeal.Launch
import proofs.«151566_j35021163331665_1_alg».proof.Proof.Gen.KernelIdeal.Skeleton
import proofs.«151566_j35021163331665_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«151566_j35021163331665_1_alg».proof.Proof.S2RunA
import proofs.«151566_j35021163331665_1_alg».proof.Proof.S2RunB
import proofs.«151566_j35021163331665_1_alg».proof.Proof.S2RunC
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks as the call finds them -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves, read back through a fixed view -/

theorem cover2_A_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i) (x0 : Vec F S5000x128 .f32) (x1 : Vec F S128x128 .f32) (x2 : Vec F S1x128 .f32) (y : S5000x128.Idx) : ∃ pc ∈ (kernelRun2_A c i arg1 harg1 arg2 harg2 arg3 harg3 arg4 harg4 arg5 harg5 arg6 harg6 arg7 harg7 arg8 harg8 hc0 hc1 x0 x1 x2).1, y ∈ pc.1.set :=
  View.cover_of_tiledL (kernelRun2_A c i arg1 harg1 arg2 harg2 arg3 harg3 arg4 harg4 arg5 harg5 arg6 harg6 arg7 harg7 arg8 harg8 hc0 hc1 x0 x1 x2).1 S5000x128.size (by sl_kernel_rfl) y
def out2_A_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i) (x0 : Vec F S5000x128 .f32) (x1 : Vec F S128x128 .f32) (x2 : Vec F S1x128 .f32) : Vec F S5000x128 .f32 :=
  VO2_3.read (Elt F) (VO2_3.writes (Elt F) VO2_3.junk (kernelRun2_A c i arg1 harg1 arg2 harg2 arg3 harg3 arg4 harg4 arg5 harg5 arg6 harg6 arg7 harg7 arg8 harg8 hc0 hc1 x0 x1 x2).1)

theorem scover2_A_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i) (x0 : Vec F S5000x128 .f32) (x1 : Vec F S128x128 .f32) (x2 : Vec F S1x128 .f32) (y : S1x128.Idx) : ∃ pc ∈ (kernelRun2_A c i arg1 harg1 arg2 harg2 arg3 harg3 arg4 harg4 arg5 harg5 arg6 harg6 arg7 harg7 arg8 harg8 hc0 hc1 x0 x1 x2).2.1, y ∈ pc.1.set :=
  View.cover_of_tiledL (kernelRun2_A c i arg1 harg1 arg2 harg2 arg3 harg3 arg4 harg4 arg5 harg5 arg6 harg6 arg7 harg7 arg8 harg8 hc0 hc1 x0 x1 x2).2.1 S1x128.size (by sl_kernel_rfl) y
def sout2_A_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i) (x0 : Vec F S5000x128 .f32) (x1 : Vec F S128x128 .f32) (x2 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2).2.1)

theorem scover2_A_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i) (x0 : Vec F S5000x128 .f32) (x1 : Vec F S128x128 .f32) (x2 : Vec F S1x128 .f32) (y : S1x128.Idx) : ∃ pc ∈ (kernelRun2_A c i arg1 harg1 arg2 harg2 arg3 harg3 arg4 harg4 arg5 harg5 arg6 harg6 arg7 harg7 arg8 harg8 hc0 hc1 x0 x1 x2).2.2.1, y ∈ pc.1.set :=
  View.cover_of_tiledL (kernelRun2_A c i arg1 harg1 arg2 harg2 arg3 harg3 arg4 harg4 arg5 harg5 arg6 harg6 arg7 harg7 arg8 harg8 hc0 hc1 x0 x1 x2).2.2.1 S1x128.size (by sl_kernel_rfl) y
def sout2_A_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i) (x0 : Vec F S5000x128 .f32) (x1 : Vec F S128x128 .f32) (x2 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 hc0 hc1 x0 x1 x2).2.2.1)

theorem cover2_B_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i) (x0 : Vec F S5000x128 .f32) (x1 : Vec F S128x128 .f32) (x2 : Vec F S1x128 .f32) (xs0 xs1 : Vec F S1x128 .f32) (y : S5000x128.Idx) : ∃ pc ∈ (kernelRun2_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun2_B c i arg1 harg1 arg2 harg2 arg3 harg3 arg4 harg4 arg5 harg5 arg6 harg6 arg7 harg7 arg8 harg8 hc0 hc1 x0 x1 x2 xs0 xs1).1 S5000x128.size (by sl_kernel_rfl) y
def out2_B_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i) (x0 : Vec F S5000x128 .f32) (x1 : Vec F S128x128 .f32) (x2 : Vec F S1x128 .f32) (xs0 xs1 : Vec F S1x128 .f32) : Vec F S5000x128 .f32 :=
  VO2_3.read (Elt F) (VO2_3.writes (Elt F) VO2_3.junk (kernelRun2_B c i arg1 harg1 arg2 harg2 arg3 harg3 arg4 harg4 arg5 harg5 arg6 harg6 arg7 harg7 arg8 harg8 hc0 hc1 x0 x1 x2 xs0 xs1).1)

theorem scover2_B_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i) (x0 : Vec F S5000x128 .f32) (x1 : Vec F S128x128 .f32) (x2 : Vec F S1x128 .f32) (xs0 xs1 : Vec F S1x128 .f32) (y : S1x128.Idx) : ∃ pc ∈ (kernelRun2_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun2_B c i arg1 harg1 arg2 harg2 arg3 harg3 arg4 harg4 arg5 harg5 arg6 harg6 arg7 harg7 arg8 harg8 hc0 hc1 x0 x1 x2 xs0 xs1).2.1 S1x128.size (by sl_kernel_rfl) y
def sout2_B_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i) (x0 : Vec F S5000x128 .f32) (x1 : Vec F S128x128 .f32) (x2 : Vec F S1x128 .f32) (xs0 xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 xs0 xs1).2.1)

theorem scover2_B_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i) (x0 : Vec F S5000x128 .f32) (x1 : Vec F S128x128 .f32) (x2 : Vec F S1x128 .f32) (xs0 xs1 : Vec F S1x128 .f32) (y : S1x128.Idx) : ∃ pc ∈ (kernelRun2_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun2_B c i arg1 harg1 arg2 harg2 arg3 harg3 arg4 harg4 arg5 harg5 arg6 harg6 arg7 harg7 arg8 harg8 hc0 hc1 x0 x1 x2 xs0 xs1).2.2.1 S1x128.size (by sl_kernel_rfl) y
def sout2_B_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i) (x0 : Vec F S5000x128 .f32) (x1 : Vec F S128x128 .f32) (x2 : Vec F S1x128 .f32) (xs0 xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 hc0 hc1 x0 x1 x2 xs0 xs1).2.2.1)

theorem cover2_C_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) (y : S5000x128.Idx) : ∃ pc ∈ (kernelRun2_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).1 S5000x128.size (by sl_kernel_rfl) y
def out2_C_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) : Vec F S5000x128 .f32 :=
  VO2_3.read (Elt F) (VO2_3.writes (Elt F) VO2_3.junk (kernelRun2_C c i arg1 harg1 arg2 harg2 arg3 harg3 arg4 harg4 arg5 harg5 arg6 harg6 arg7 harg7 arg8 harg8 hc0 hc1 x0 x1 x2 xs0 xs1).1)

theorem cover2_C_4 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) (y : S1x128.Idx) : ∃ pc ∈ (kernelRun2_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.1 S1x128.size (by sl_kernel_rfl) y
def out2_C_4 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) : Vec F S1x128 .f32 :=
  VO2_4.read (Elt F) (VO2_4.writes (Elt F) VO2_4.junk (kernelRun2_C c i arg1 harg1 arg2 harg2 arg3 harg3 arg4 harg4 arg5 harg5 arg6 harg6 arg7 harg7 arg8 harg8 hc0 hc1 x0 x1 x2 xs0 xs1).2.1)

theorem cover2_C_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) (y : S1x128.Idx) : ∃ pc ∈ (kernelRun2_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.2.1 S1x128.size (by sl_kernel_rfl) y
def out2_C_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) : Vec F S1x128 .f32 :=
  VO2_5.read (Elt F) (VO2_5.writes (Elt F) VO2_5.junk (kernelRun2_C c i arg1 harg1 arg2 harg2 arg3 harg3 arg4 harg4 arg5 harg5 arg6 harg6 arg7 harg7 arg8 harg8 hc0 hc1 x0 x1 x2 xs0 xs1).2.2.1)

theorem scover2_C_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) (y : S1x128.Idx) : ∃ pc ∈ (kernelRun2_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.2.2.1 S1x128.size (by sl_kernel_rfl) y
def sout2_C_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 xs0 xs1).2.2.2.1)

theorem scover2_C_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) (y : S1x128.Idx) : ∃ pc ∈ (kernelRun2_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.2.2.2.1 S1x128.size (by sl_kernel_rfl) y
def sout2_C_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 hc0 hc1 x0 x1 x2 xs0 xs1).2.2.2.2.1)

/-! ## The accumulation over the grid -/

/-- After the body at position n: the h block, the two statistics blocks (placeholders away from the last point,
    where those windows are idle), and the two accumulators. -/
def outsAt2 (c : Dev nD) : (n : ℕ) → n < cfg2.N → Vec F S5000x128 .f32 × Vec F S1x128 .f32 × Vec F S1x128 .f32 × Vec F S1x128 .f32 × Vec F S1x128 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), VO2_4.read (Elt F) (VO2_4.writes (Elt F) VO2_4.junk []), VO2_5.read (Elt F) (VO2_5.writes (Elt F) VO2_5.junk []), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h1 : (n + 1) % 20 = 19 then
      (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); have hN : n + 1 < 20 := lt_of_lt_of_eq hn (show cfg2.N = 20 from N_2); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); have hN : n + 1 < 20 := lt_of_lt_of_eq hn (show cfg2.N = 20 from N_2); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); have hN : n + 1 < 20 := lt_of_lt_of_eq hn (show cfg2.N = 20 from N_2); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); have hN : n + 1 < 20 := lt_of_lt_of_eq hn (show cfg2.N = 20 from N_2); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); have hN : n + 1 < 20 := lt_of_lt_of_eq hn (show cfg2.N = 20 from N_2); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2)
    else
      (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); have hN : n + 1 < 20 := lt_of_lt_of_eq hn (show cfg2.N = 20 from N_2); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, VO2_4.read (Elt F) (VO2_4.writes (Elt F) VO2_4.junk []), VO2_5.read (Elt F) (VO2_5.writes (Elt F) VO2_5.junk []), sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); have hN : n + 1 < 20 := lt_of_lt_of_eq hn (show cfg2.N = 20 from N_2); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); have hN : n + 1 < 20 := lt_of_lt_of_eq hn (show cfg2.N = 20 from N_2); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2)

theorem outsAt2_A (c : Dev nD) (t : Fin cfg2.N) (h0 : t.val % 20 = 0) (h1 : ¬t.val % 20 = 19) :
    outsAt2 V c t.val t.isLt = (out2_A_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t), VO2_4.read (Elt F) (VO2_4.writes (Elt F) VO2_4.junk []), VO2_5.read (Elt F) (VO2_5.writes (Elt F) VO2_5.junk []), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exfalso; have hN : n + 1 < 20 := lt_of_lt_of_eq hn (show cfg2.N = 20 from N_2); (try dsimp only at h0); omega

theorem outsAt2_B (c : Dev nD) (t : Fin cfg2.N) (h0 : ¬t.val % 20 = 0) (h1 : ¬t.val % 20 = 19) :
    outsAt2 V c t.val t.isLt = (out2_B_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, VO2_4.read (Elt F) (VO2_4.writes (Elt F) VO2_4.junk []), VO2_5.read (Elt F) (VO2_5.writes (Elt F) VO2_5.junk []), sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt2_C (c : Dev nD) (t : Fin cfg2.N) (h0 : ¬t.val % 20 = 0) (h1 : t.val % 20 = 19) :
    outsAt2 V c t.val t.isLt = (out2_C_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The invariant: the accumulators carried between points -/

def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2)) ∗ restBut2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2)) ∗ restBut2 c) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2)) ∗ restBut2 c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
    | ⟨5, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem after2_5 (c : Dev nD) (t : Fin cfg2.N) : (dat2 V c).after 5 t = (outsAt2 V c t.val t.isLt).2.2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
        unfold Dat.leavesExact; rw [liveAt2_0 t], after2_0]
  rw [show (dat2 V c).leavesExact 1 t = owns (c : Thread nD τ) (ms2_1 t) fullShare ((dat2 V c).after 1 t) from by
        unfold Dat.leavesExact; rw [liveAt2_1 t], after2_1]
  rw [show (dat2 V c).leavesExact 2 t = owns (c : Thread nD τ) (ms2_2 t) fullShare ((dat2 V c).after 2 t) from by
        unfold Dat.leavesExact; rw [liveAt2_2 t], after2_2]
  rw [show (dat2 V c).leavesExact 3 t = owns (c : Thread nD τ) (ms2_3 t) fullShare ((dat2 V c).after 3 t) from by
        unfold Dat.leavesExact; rw [liveAt2_3 t], after2_3]
  by_cases h0 : t.val % 20 = 0
  · have h1 : ¬t.val % 20 = 19 := by omega
    have hz : t.val = 0 := by omega
    have hc0 : cond2_0 (grid2.coords t) := (hcond2_0 t).mpr h0
    have hc1 : ¬cond2_1 (grid2.coords t) := fun h => h1 ((hcond2_1 t).mp h)
    rw [Dat.leavesExact_idle (dat2 V c) 4 t (idleAt2_4 t hc1) (noFlush2_4 t hc1), Dat.leavesExact_idle (dat2 V c) 5 t (idleAt2_5 t hc1) (noFlush2_5 t hc1)]
    rw [outsAt2_A V c t h0 h1]
    unfold out2_A_3 sout2_A_0 sout2_A_1; (try dsimp only)
    rw [PhiS2_castSucc V c t, PhiS2_zero V c _ _ hz, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ _ _ hc0 hc1 (iblk2 V c 0 t) (iblk2 V c 1 t) (iblk2 V c 2 t)).2.2.2 _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, ⟨%e3, H3⟩, H4, H5, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2_A_3 c _ _ _ _ _ _ _ _ _ _ _ _ _ _ _ _ _ _ _ _ _ _)
    isplitl [H4]; · iexists _; iexact H4
    iexists _; iexact H5
  · have hz : t.val ≠ 0 := by omega
    have hc0 : ¬cond2_0 (grid2.coords t) := fun h => h0 ((hcond2_0 t).mp h)
    by_cases h1 : t.val % 20 = 19
    · have hc1 : cond2_1 (grid2.coords t) := (hcond2_1 t).mpr h1
      rw [show (dat2 V c).leavesExact 4 t = owns (c : Thread nD τ) (ms2_4 t) fullShare ((dat2 V c).after 4 t) from by
        unfold Dat.leavesExact; rw [liveAt2_4 t hc1], after2_4]
      rw [show (dat2 V c).leavesExact 5 t = owns (c : Thread nD τ) (ms2_5 t) fullShare ((dat2 V c).after 5 t) from by
        unfold Dat.leavesExact; rw [liveAt2_5 t hc1], after2_5]
      rw [outsAt2_C V c t h0 h1]
      unfold out2_C_3 out2_C_4 out2_C_5 sout2_C_0 sout2_C_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ _ _ hc0 hc1 (iblk2 V c 0 t) (iblk2 V c 1 t) (iblk2 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_C_3 c _ _ _ _ _ _ _ _ _ _ _ _ _ _ _ _ _ _ _ _ _ _ _ _)
      isplitl [H4]
      · unfold owns; iexists _; isplitr
        swap; · iexact H4
        ipureintro; exact View.read_writes_of_cover _ _ _ _ _ (cover2_C_4 c _ _ _ _ _ _ _ _ _ _ _ _ _ _ _ _ _ _ _ _ _ _ _ _)
      unfold owns; iexists _; isplitr
      swap; · iexact H5
      ipureintro; exact View.read_writes_of_cover _ _ _ _ _ (cover2_C_5 c _ _ _ _ _ _ _ _ _ _ _ _ _ _ _ _ _ _ _ _ _ _ _ _)
    · have hc1 : ¬cond2_1 (grid2.coords t) := fun h => h1 ((hcond2_1 t).mp h)
      rw [Dat.leavesExact_idle (dat2 V c) 4 t (idleAt2_4 t hc1) (noFlush2_4 t hc1), Dat.leavesExact_idle (dat2 V c) 5 t (idleAt2_5 t hc1) (noFlush2_5 t hc1)]
      rw [outsAt2_B V c t h0 h1]
      unfold out2_B_3 sout2_B_0 sout2_B_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ _ _ hc0 hc1 (iblk2 V c 0 t) (iblk2 V c 1 t) (iblk2 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_B_3 c _ _ _ _ _ _ _ _ _ _ _ _ _ _ _ _ _ _ _ _ _ _ _ _)
      isplitl [H4]; · iexists _; iexact H4
      iexists _; iexact H5

theorem body_obligation2 (c : Dev nD) : BodyObligation (dat2 (F := F) V c) (defs₀ (F := F)) Variants.none () Set.univ := fun t => by
  rw [bigSep_W2, bigSep_W2]
  exact sound_body2 V c t

/-- Before the first point the invariant is the class's. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first it gives the class's back: the accumulators' contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

theorem hout2 (c : Dev nD) : (dat2 V c).Φ (Fin.last cfg2.N) ⊢ Pipeline.ΦA spec2 c :=
  Phi_out2 V c _ (by rw [Fin.val_last]; have : cfg2.N = 20 := N_2; omega)

end Cert.KernelIdeal.Hand

end
-- ==== Proof.Cls1.lean ====
/- Region 1 of the program: the batch-normalisation-and-rectifier kernel `cc1__bn_relu_kernel` on a grid of 20 points.
   Each point stages one block of 5000 rows of the [100000,128] activations and the four [1,128] rows (mean, variance,
   scale, shift), and stores, as one whole block, max(((h - mean) * rsqrt(variance + eps)) * scale + shift, 0).
   This module states, at any float instance and at any region-entry contents `V`: each window's block at a point,
   the output block as a function of the input blocks, the body's triple, the pipeline's proof data and the
   body obligation the launch theorems ask for. -/
import proofs.«151566_j35021163331665_1_alg».proof.Proof.Gen.KernelIdeal.Launch
import proofs.«151566_j35021163331665_1_alg».proof.Proof.Gen.KernelIdeal.Skeleton
import proofs.«151566_j35021163331665_1_alg».proof.Proof.Gen.KernelIdeal.Points
import Idealize.ShloMosaic.Lib.Pipeline.FrameBody
import Idealize.ShloMosaic.Lib.Ring
import Idealize.ShloMosaic.Lib.Tactic

-- membership in a rectangle of 5000 rows: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (a window
    not fetched at a point has the block index of the point before), for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not (a window
    not fetched at a point has the block index of the point before), for any proof data whose array is `V`'s and
    whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (a window
    not fetched at a point has the block index of the point before), for any proof data whose array is `V`'s and
    whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not (a window
    not fetched at a point has the block index of the point before), for any proof data whose array is `V`'s and
    whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not (a window
    not fetched at a point has the block index of the point before), for any proof data whose array is `V`'s and
    whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole [5000,128] block and the whole [1,128] row -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

/-! ## What the body leaves in the output window's buffer -/

/-- Window 5's staging buffer after the body, from the input windows' blocks (`x0` the activations, `x1` the mean,
    `x2` the variance, `x3` the scale, `x4` the shift): its one whole-block store. The payload takes the variance
    row before the mean row, the order in which the body loads them. -/
def out1_5 (x0 : Vec F S5000x128 .f32) (x1 x2 x3 x4 : Vec F S1x128 .f32) : Vec F S5000x128 .f32 :=
  View.canon [⟨r1_0, k1_pay1 (View.ld x0 r1_0) (View.ld x2 r1_1) (View.ld x1 r1_1) (View.ld x3 r1_1) (View.ld x4 r1_1)⟩]

/-- The one store is of the whole buffer, so it covers it. -/
theorem cover1_5 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at contents `x0 … x4` and the output's at anything, runs to
    the continuation holding the inputs' as they were and the output's at `out1_5` of the inputs'. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t`
    each input's buffer at its block and the output's at `out1_5` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Cls3.lean ====
/- Region 3 of the program: the batch-normalisation-and-rectifier kernel `cc3__bn_relu_kernel` on a grid of 20 points.
   Each point stages one block of 5000 rows of the [100000,128] activations and the four [1,128] rows (mean, variance,
   scale, shift), and stores, as one whole block, max(((h - mean) * rsqrt(variance + eps)) * scale + shift, 0).
   This module states, at any float instance and at any region-entry contents `V`: each window's block at a point,
   the output block as a function of the input blocks, the body's triple, the pipeline's proof data and the
   body obligation the launch theorems ask for. -/
import proofs.«151566_j35021163331665_1_alg».proof.Proof.Gen.KernelIdeal.Launch
import proofs.«151566_j35021163331665_1_alg».proof.Proof.Gen.KernelIdeal.Skeleton
import proofs.«151566_j35021163331665_1_alg».proof.Proof.Gen.KernelIdeal.Points
import Idealize.ShloMosaic.Lib.Pipeline.FrameBody
import Idealize.ShloMosaic.Lib.Ring
import Idealize.ShloMosaic.Lib.Tactic

-- membership in a rectangle of 5000 rows: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (a window
    not fetched at a point has the block index of the point before), for any proof data whose array is `V`'s and
    whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not (a window
    not fetched at a point has the block index of the point before), for any proof data whose array is `V`'s and
    whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not (a window
    not fetched at a point has the block index of the point before), for any proof data whose array is `V`'s and
    whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not (a window
    not fetched at a point has the block index of the point before), for any proof data whose array is `V`'s and
    whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not (a window
    not fetched at a point has the block index of the point before), for any proof data whose array is `V`'s and
    whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: the whole [5000,128] block and the whole [1,128] row -/

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0

/-! ## What the body leaves in the output window's buffer -/

/-- Window 5's staging buffer after the body, from the input windows' blocks (`x0` the activations, `x1` the mean,
    `x2` the variance, `x3` the scale, `x4` the shift): its one whole-block store. The payload takes the variance
    row before the mean row, the order in which the body loads them. -/
def out3_5 (x0 : Vec F S5000x128 .f32) (x1 x2 x3 x4 : Vec F S1x128 .f32) : Vec F S5000x128 .f32 :=
  View.canon [⟨r3_0, k3_pay1 (View.ld x0 r3_0) (View.ld x2 r3_1) (View.ld x1 r3_1) (View.ld x3 r3_1) (View.ld x4 r3_1)⟩]

/-- The one store is of the whole buffer, so it covers it. -/
theorem cover3_5 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at contents `x0 … x4` and the output's at anything, runs to
    the continuation holding the inputs' as they were and the output's at `out3_5` of the inputs'. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point `t`
    each input's buffer at its block and the output's at `out3_5` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Cls4.lean ====
/- Region 4 of the program: the matmul-plus-bias kernel `cc4__matmul_bias_kernel` on a grid of 20 points. Each point stages
   one block of 5000 rows of the [100000,128] left operand, the whole [128,40] weight and the [1,40] bias row, and
   stores, as one whole [5000,40] block, the product of the block with the weight plus the bias row.
   This module states, at any float instance and at any region-entry contents `V`: each window's block at a point,
   the output block as a function of the input blocks, the body's triple, the pipeline's proof data and the
   body obligation the launch theorems ask for. -/
import proofs.«151566_j35021163331665_1_alg».proof.Proof.Gen.KernelIdeal.Launch
import proofs.«151566_j35021163331665_1_alg».proof.Proof.Gen.KernelIdeal.Skeleton
import proofs.«151566_j35021163331665_1_alg».proof.Proof.Gen.KernelIdeal.Points
import Idealize.ShloMosaic.Lib.Pipeline.FrameBody
import Idealize.ShloMosaic.Lib.Ring
import Idealize.ShloMosaic.Lib.Tactic

-- membership in a rectangle of 5000 rows: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (a window
    not fetched at a point has the block index of the point before), for any proof data whose array is `V`'s and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not (a window
    not fetched at a point has the block index of the point before), for any proof data whose array is `V`'s and
    whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not (a window
    not fetched at a point has the block index of the point before), for any proof data whose array is `V`'s and
    whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each staging buffer whole -/

abbrev r4_0 : Rect S5000x128 := Rect.unit (s := S5000x128) ![0, 0] S5000x128.size inb_S5000x128_S5000x128_0_0
abbrev r4_1 : Rect S128x40 := Rect.unit (s := S128x40) ![0, 0] S128x40.size inb_S128x40_S128x40_0_0
abbrev r4_2 : Rect S1x40 := Rect.unit (s := S1x40) ![0, 0] S1x40.size inb_S1x40_S1x40_0_0
abbrev r4_3 : Rect S5000x40 := Rect.unit (s := S5000x40) ![0, 0] S5000x40.size inb_S5000x40_S5000x40_0_0

/-! ## What the body leaves in the output window's buffer -/

/-- Window 3's staging buffer after the body, from the input windows' blocks (`x0` the left operand's block, `x1`
    the weight, `x2` the bias row): its one whole-block store. -/
def out4_3 (x0 : Vec F S5000x128 .f32) (x1 : Vec F S128x40 .f32) (x2 : Vec F S1x40 .f32) : Vec F S5000x40 .f32 :=
  View.canon [⟨r4_3, k4_pay1 (View.ld x0 r4_0) (View.ld x1 r4_1) (View.ld x2 r4_2)⟩]

/-- The one store is of the whole buffer, so it covers it. -/
theorem cover4_3 (p0 : Vec F S5000x40 .f32) (y : S5000x40.Idx) :
    ∃ pc ∈ ([⟨r4_3, p0⟩] : List (View.Piece (Elt F) S5000x40 .f32)), y ∈ pc.1.set :=
  View.cover_of_tiled [⟨r4_3, p0⟩] S5000x40.size (by rfl) y

/-! ## The body's triple -/

set_option maxHeartbeats 1000000 in
/-- The kernel body on whole staging memrefs, the inputs' at contents `x0 x1 x2` and the output's at anything, runs
    to the continuation holding the inputs' as they were and the output's at `out4_3` of the inputs'. -/
theorem sound_kernel4 (c : Dev nD) (E : Set ℕ) (i : grid4.Coords)
    (arg1 : Memref sig .tc .vmem S5000x128 .f32) (harg1 : arg1.IsWhole) (arg2 : Memref sig .tc .vmem S128x40 .f32) (harg2 : arg2.IsWhole)
    (arg3 : Memref sig .tc .vmem S1x40 .f32) (harg3 : arg3.IsWhole) (arg4 : Memref sig .tc .vmem S5000x40 .f32) (harg4 : arg4.IsWhole)
    (x0 : Vec F S5000x128 .f32) (x1 : Vec F S128x40 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__matmul_bias_kernel i arg1 harg1 arg2 harg2 arg3 harg3 arg4 harg4) K := by
  simp only [cc4__matmul_bias_kernel_eq_skeleton]; unfold cc4__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them; after the body at point `t`
    each input's buffer at its block and the output's at `out4_3` of the input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KRun.lean ====
/-
  The kernel program as a whole: @main is five host stretches alternating with five kernel regions. The contents of
  the unscoped buffers between the items are named one after the other (after a host stretch: the stretch's
  operations applied; after a region: its arrays at what the pipeline leaves, the rest untouched), each region is
  entered from the contents before it and left at the contents after it, and the run ends with every unscoped
  buffer at the last contents. The frame claim and the result's value are both read off that.
-/
import proofs.«151566_j35021163331665_1_alg».proof.Proof.S0Dat
import proofs.«151566_j35021163331665_1_alg».proof.Proof.S2Dat
import proofs.«151566_j35021163331665_1_alg».proof.Proof.Cls1
import proofs.«151566_j35021163331665_1_alg».proof.Proof.Cls3
import proofs.«151566_j35021163331665_1_alg».proof.Proof.Cls4
import proofs.«151566_j35021163331665_1_alg».proof.Proof.Gen.KernelIdeal.Regions
import Idealize.ShloMosaic.Lib.Pipeline.RegionsLoop
import Idealize.ShloMosaic.Lib.Pipeline.Regions
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

abbrev W0 : Dev nD → Valuation τ sig (Elt F) := fun c b => m (c, b)

/-- After the host stretch 0. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- After region 0: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the host stretch 1. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b

/-- After region 1: its arrays at what the pipeline leaves, every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-- After the host stretch 2. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b

/-- After region 2: its arrays at what the pipeline leaves, every other buffer as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

/-- After the host stretch 3. -/
abbrev W7 : Dev nD → Valuation τ sig (Elt F) := fun c => StableHlo.after hostOps3 (W6 m c)
abbrev U7 : (c : Dev nD) → (b : Ref sig .tc) → Buf (Elt F) ((c : Thread nD τ).loc b) := fun c b => W7 m c b

/-- After region 3: its arrays at what the pipeline leaves, every other buffer as entered. -/
def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)

/-- After the host stretch 4. -/
abbrev W9 : Dev nD → Valuation τ sig (Elt F) := fun c => StableHlo.after hostOps4 (W8 m c)
abbrev U9 : (c : Dev nD) → (b : Ref sig .tc) → Buf (Elt F) ((c : Thread nD τ).loc b) := fun c b => W9 m c b

/-- After region 4: its arrays at what the pipeline leaves, every other buffer as entered. -/
def W10 (c : Dev nD) : Valuation τ sig (Elt F) :=
  Pipeline.withArrays spec4 c (W9 m c) fun w => (dat4 (U9 m) c).arrAt w cfg4.N
theorem W10_arr (c : Dev nD) (w : Fin cfg4.W) :
    W10 m c (Proc.devRef .tc (Pipeline.arrRef spec4 w)) = (dat4 (U9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev U10 : (c : Dev nD) → (b : Ref sig .tc) → Buf (Elt F) ((c : Thread nD τ).loc b) := fun c b => W10 m c b
theorem hF4 (c : Dev nD) (w : Fin cfg4.W) : (dat4 (U9 m) c).arrAt w cfg4.N = U10 m c (Pipeline.arrRef spec4 w) :=
  (W10_arr m c w).symm
theorem hrest4 (c : Dev nD) : ∀ b, b ∉ Finset.univ.image (Pipeline.arrRef spec4) → U10 m c b = U9 m c b :=
  fun b hb => W10_of_ne m c b fun w e => hb (Finset.mem_image.mpr ⟨w, Finset.mem_univ _, e⟩)

/-! ## The proof data family and what rides along -/

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
abbrev 𝒱₀ : Variants := Variants.none
abbrev L : GSem nD τ sig → Finset Unit := fun _ => ∅
abbrev lv : GSem nD τ sig → Unit → ℕ := fun _ _ => 0
/-- Beside the buffers: the core's generator register at some state and its owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 over the thread state: entered with every unscoped buffer at the contents before it, left with them at
    the contents after it; its arrays split out of the unscoped buffers and put back at what the pipeline leaves;
    the generator register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it; its arrays split out of the unscoped buffers and put back at what the pipeline leaves;
    the generator register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at
    the contents after it; its arrays split out of the unscoped buffers and put back at what the pipeline leaves;
    the generator register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from hout2 (U5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the contents before it, left with them at
    the contents after it; its arrays split out of the unscoped buffers and put back at what the pipeline leaves;
    the generator register into the invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdats m 3 c).Φ (Fin.last _) = Pipeline.ΦA spec3 c from rfl]
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U7 m c) (U8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at the contents before it, left with them at
    the contents after it; its arrays split out of the unscoped buffers and put back at what the pipeline leaves;
    the generator register into the invariant and out; nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    rw [show (pdats m 4 c).Φ (Fin.last _) = Pipeline.ΦA spec4 c from rfl]
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U9 m c) (U10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the list of its items, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m) ]

set_option backward.isDefEq.respectTransparency.types false in
/-- Every weakly fair execution of @main from memory m with zero counters terminates, nothing faulting, and every final
    memory holds each unscoped buffer at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W10 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.KernelIdeal.Hand

end
-- ==== Proof.KFrame.lean ====
/-
  The kernel program's frame: every argument array ends as launched. No host stretch writes an argument and no region
  changes one (a region hands its input arrays back as it found them), so the last contents of an argument are the
  launch contents; the run ends with every unscoped buffer at the last contents.
-/
import proofs.«151566_j35021163331665_1_alg».proof.Proof.KRun
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W1_keep (c : Dev nD) (r : Ref sig .tc) (hr : r ∉ hostOps0_W) :
    W1 m c (Proc.devRef .tc r) = W0 m c (Proc.devRef .tc r) :=
  StableHlo.after_of_writes_sub hostOps0 _ hostOps0_writes hr

/-- A window of region 0 that is an output stages one of its result arrays. -/
theorem outs0_mem : ∀ w : Fin 6, (cfg0.win w).isOut = true → Pipeline.arrRef spec0 w ∈ ([main_v15_0, main_v15_1, main_v15_2] : List (Ref sig .tc)) := by
  decide +kernel

/-- Region 0 changes only its result arrays: any other buffer is as entered (an input window's array is never
    written; a buffer no window stages is untouched by definition). -/
theorem W2_keep (c : Dev nD) (r : Ref sig .tc) (hr : r ∉ ([main_v15_0, main_v15_1, main_v15_2] : List (Ref sig .tc))) :
    W2 m c (Proc.devRef .tc r) = W1 m c (Proc.devRef .tc r) := by
  by_cases h : ∃ w, Pipeline.arrRef spec0 w = r
  · obtain ⟨w, rfl⟩ := h
    have hw : (cfg0.win w).isOut = false := by
      cases hb : (cfg0.win w).isOut with
      | false => rfl
      | true => exact absurd (outs0_mem w hb) hr
    rw [W2_arr]
    exact ((dat0 (U1 m) c).arrAt_in w hw _).trans (A_eq0 (U1 m) c w)
  · exact W2_of_ne m c r fun w e => h ⟨w, e⟩

theorem W3_keep (c : Dev nD) (r : Ref sig .tc) (hr : r ∉ hostOps1_W) :
    W3 m c (Proc.devRef .tc r) = W2 m c (Proc.devRef .tc r) :=
  StableHlo.after_of_writes_sub hostOps1 _ hostOps1_writes hr

/-- A window of region 1 that is an output stages one of its result arrays. -/
theorem outs1_mem : ∀ w : Fin 6, (cfg1.win w).isOut = true → Pipeline.arrRef spec1 w ∈ ([main_v24] : List (Ref sig .tc)) := by
  decide +kernel

/-- Region 1 changes only its result arrays: any other buffer is as entered (an input window's array is never
    written; a buffer no window stages is untouched by definition). -/
theorem W4_keep (c : Dev nD) (r : Ref sig .tc) (hr : r ∉ ([main_v24] : List (Ref sig .tc))) :
    W4 m c (Proc.devRef .tc r) = W3 m c (Proc.devRef .tc r) := by
  by_cases h : ∃ w, Pipeline.arrRef spec1 w = r
  · obtain ⟨w, rfl⟩ := h
    have hw : (cfg1.win w).isOut = false := by
      cases hb : (cfg1.win w).isOut with
      | false => rfl
      | true => exact absurd (outs1_mem w hb) hr
    rw [W4_arr]
    exact ((dat1 (U3 m) c).arrAt_in w hw _).trans (A_eq1 (U3 m) c w)
  · exact W4_of_ne m c r fun w e => h ⟨w, e⟩

theorem W5_keep (c : Dev nD) (r : Ref sig .tc) (hr : r ∉ hostOps2_W) :
    W5 m c (Proc.devRef .tc r) = W4 m c (Proc.devRef .tc r) :=
  StableHlo.after_of_writes_sub hostOps2 _ hostOps2_writes hr

/-- A window of region 2 that is an output stages one of its result arrays. -/
theorem outs2_mem : ∀ w : Fin 6, (cfg2.win w).isOut = true → Pipeline.arrRef spec2 w ∈ ([main_v40_0, main_v40_1, main_v40_2] : List (Ref sig .tc)) := by
  decide +kernel

/-- Region 2 changes only its result arrays: any other buffer is as entered (an input window's array is never
    written; a buffer no window stages is untouched by definition). -/
theorem W6_keep (c : Dev nD) (r : Ref sig .tc) (hr : r ∉ ([main_v40_0, main_v40_1, main_v40_2] : List (Ref sig .tc))) :
    W6 m c (Proc.devRef .tc r) = W5 m c (Proc.devRef .tc r) := by
  by_cases h : ∃ w, Pipeline.arrRef spec2 w = r
  · obtain ⟨w, rfl⟩ := h
    have hw : (cfg2.win w).isOut = false := by
      cases hb : (cfg2.win w).isOut with
      | false => rfl
      | true => exact absurd (outs2_mem w hb) hr
    rw [W6_arr]
    exact ((dat2 (U5 m) c).arrAt_in w hw _).trans (A_eq2 (U5 m) c w)
  · exact W6_of_ne m c r fun w e => h ⟨w, e⟩

theorem W7_keep (c : Dev nD) (r : Ref sig .tc) (hr : r ∉ hostOps3_W) :
    W7 m c (Proc.devRef .tc r) = W6 m c (Proc.devRef .tc r) :=
  StableHlo.after_of_writes_sub hostOps3 _ hostOps3_writes hr

/-- A window of region 3 that is an output stages one of its result arrays. -/
theorem outs3_mem : ∀ w : Fin 6, (cfg3.win w).isOut = true → Pipeline.arrRef spec3 w ∈ ([main_v49] : List (Ref sig .tc)) := by
  decide +kernel

/-- Region 3 changes only its result arrays: any other buffer is as entered (an input window's array is never
    written; a buffer no window stages is untouched by definition). -/
theorem W8_keep (c : Dev nD) (r : Ref sig .tc) (hr : r ∉ ([main_v49] : List (Ref sig .tc))) :
    W8 m c (Proc.devRef .tc r) = W7 m c (Proc.devRef .tc r) := by
  by_cases h : ∃ w, Pipeline.arrRef spec3 w = r
  · obtain ⟨w, rfl⟩ := h
    have hw : (cfg3.win w).isOut = false := by
      cases hb : (cfg3.win w).isOut with
      | false => rfl
      | true => exact absurd (outs3_mem w hb) hr
    rw [W8_arr]
    exact ((dat3 (U7 m) c).arrAt_in w hw _).trans (A_eq3 (U7 m) c w)
  · exact W8_of_ne m c r fun w e => h ⟨w, e⟩

theorem W9_keep (c : Dev nD) (r : Ref sig .tc) (hr : r ∉ hostOps4_W) :
    W9 m c (Proc.devRef .tc r) = W8 m c (Proc.devRef .tc r) :=
  StableHlo.after_of_writes_sub hostOps4 _ hostOps4_writes hr

/-- A window of region 4 that is an output stages one of its result arrays. -/
theorem outs4_mem : ∀ w : Fin 4, (cfg4.win w).isOut = true → Pipeline.arrRef spec4 w ∈ ([main_v64] : List (Ref sig .tc)) := by
  decide +kernel

/-- Region 4 changes only its result arrays: any other buffer is as entered (an input window's array is never
    written; a buffer no window stages is untouched by definition). -/
theorem W10_keep (c : Dev nD) (r : Ref sig .tc) (hr : r ∉ ([main_v64] : List (Ref sig .tc))) :
    W10 m c (Proc.devRef .tc r) = W9 m c (Proc.devRef .tc r) := by
  by_cases h : ∃ w, Pipeline.arrRef spec4 w = r
  · obtain ⟨w, rfl⟩ := h
    have hw : (cfg4.win w).isOut = false := by
      cases hb : (cfg4.win w).isOut with
      | false => rfl
      | true => exact absurd (outs4_mem w hb) hr
    rw [W10_arr]
    exact ((dat4 (U9 m) c).arrAt_in w hw _).trans (A_eq4 (U9 m) c w)
  · exact W10_of_ne m c r fun w e => h ⟨w, e⟩

/-- A buffer nothing writes reaches the end as launched. -/
theorem W10_arg (c : Dev nD) (r : Ref sig .tc) (h0 : r ∉ hostOps0_W) (h1 : r ∉ ([main_v15_0, main_v15_1, main_v15_2] : List (Ref sig .tc)))
    (h2 : r ∉ hostOps1_W) (h3 : r ∉ ([main_v24] : List (Ref sig .tc))) (h4 : r ∉ hostOps2_W)
    (h5 : r ∉ ([main_v40_0, main_v40_1, main_v40_2] : List (Ref sig .tc))) (h6 : r ∉ hostOps3_W) (h7 : r ∉ ([main_v49] : List (Ref sig .tc)))
    (h8 : r ∉ hostOps4_W) (h9 : r ∉ ([main_v64] : List (Ref sig .tc))) :
    W10 m c (Proc.devRef .tc r) = m ((c : Thread nD τ).loc r) :=
  (W10_keep m c r h9).trans <| (W9_keep m c r h8).trans <| (W8_keep m c r h7).trans <| (W7_keep m c r h6).trans <|
    (W6_keep m c r h5).trans <| (W5_keep m c r h4).trans <| (W4_keep m c r h3).trans <| (W3_keep m c r h2).trans <|
    (W2_keep m c r h1).trans <| (W1_keep m c r h0).trans rfl

/-- THE FRAME, at any float instance: @main runs to the end, nothing faulting, and every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c _ (mem_uc main_arg0 (by decide))).trans (W10_arg m c main_arg0 (by decide) (by decide) (by decide) (by decide) (by decide) (by decide) (by decide) (by decide) (by decide) (by decide)),
    (h c _ (mem_uc main_arg1 (by decide))).trans (W10_arg m c main_arg1 (by decide) (by decide) (by decide) (by decide) (by decide) (by decide) (by decide) (by decide) (by decide) (by decide)),
    (h c _ (mem_uc main_arg2 (by decide))).trans (W10_arg m c main_arg2 (by decide) (by decide) (by decide) (by decide) (by decide) (by decide) (by decide) (by decide) (by decide) (by decide)),
    (h c _ (mem_uc main_arg3 (by decide))).trans (W10_arg m c main_arg3 (by decide) (by decide) (by decide) (by decide) (by decide) (by decide) (by decide) (by decide) (by decide) (by decide)),
    (h c _ (mem_uc main_arg4 (by decide))).trans (W10_arg m c main_arg4 (by decide) (by decide) (by decide) (by decide) (by decide) (by decide) (by decide) (by decide) (by decide) (by decide)),
    (h c _ (mem_uc main_arg5 (by decide))).trans (W10_arg m c main_arg5 (by decide) (by decide) (by decide) (by decide) (by decide) (by decide) (by decide) (by decide) (by decide) (by decide)),
    (h c _ (mem_uc main_arg6 (by decide))).trans (W10_arg m c main_arg6 (by decide) (by decide) (by decide) (by decide) (by decide) (by decide) (by decide) (by decide) (by decide) (by decide)),
    (h c _ (mem_uc main_arg7 (by decide))).trans (W10_arg m c main_arg7 (by decide) (by decide) (by decide) (by decide) (by decide) (by decide) (by decide) (by decide) (by decide) (by decide)),
    (h c _ (mem_uc main_arg8 (by decide))).trans (W10_arg m c main_arg8 (by decide) (by decide) (by decide) (by decide) (by decide) (by decide) (by decide) (by decide) (by decide) (by decide)),
    (h c _ (mem_uc main_arg9 (by decide))).trans (W10_arg m c main_arg9 (by decide) (by decide) (by decide) (by decide) (by decide) (by decide) (by decide) (by decide) (by decide) (by decide)),
    (h c _ (mem_uc main_arg10 (by decide))).trans (W10_arg m c main_arg10 (by decide) (by decide) (by decide) (by decide) (by decide) (by decide) (by decide) (by decide) (by decide) (by decide)),
    (h c _ (mem_uc main_arg11 (by decide))).trans (W10_arg m c main_arg11 (by decide) (by decide) (by decide) (by decide) (by decide) (by decide) (by decide) (by decide) (by decide) (by decide))⟩) (run_all m ρ)

end Cert.KernelIdeal.Hand

end
-- ==== Proof.WS0Defs.lean ====
/-
  The first matmul-with-statistics call (the grid's 20 points, blocks of 5000 rows): what its proofs share.
  The body branches twice on the grid coordinate: at the first point it zeroes the two [1,128] accumulators
  it keeps in scratch, at the last point it copies them into the two [1,128] result blocks. Between, every
  point adds its block's column sums (of h and of h*h) to the accumulators. So three cases: the first point,
  the points 1..18, the last point. The two [1,128] result windows are idle except at the last point.
-/
import proofs.«151566_j35021163331665_1_alg».proof.Proof.Gen.Kernel.Launch
import proofs.«151566_j35021163331665_1_alg».proof.Proof.Gen.Kernel.Skeleton
import proofs.«151566_j35021163331665_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "this is the first point": the scalar chain the body computes from the grid coordinate. -/
abbrev cond0_0 (i : grid0.Coords) : Prop :=
  (Scalar.cmpi .ne (Scalar.extui (Scalar.cmpi .eq (BitVec.ofNat 32 (i 0).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)

/-- "this is the last point". -/
abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the two statistics windows are idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last point they are stored. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

/-- One staging buffer of each output window, through which its contents are stated. -/
abbrev VO0_3 : View sig .tc .vmem S5000x128 .f32 := (Memref.whole cc0_stg3_0 : Memref sig .tc .vmem S5000x128 .f32).view
abbrev VO0_4 : View sig .tc .vmem S1x128 .f32 := (Memref.whole cc0_stg4_0 : Memref sig .tc .vmem S1x128 .f32).view
abbrev VO0_5 : View sig .tc .vmem S1x128 .f32 := (Memref.whole cc0_stg5_0 : Memref sig .tc .vmem S1x128 .f32).view

abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5000x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)

/-- The two scratch accumulators: whole scoped buffers of the call's own. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The scoped buffers this call neither stages nor uses as scratch: they ride along unopened. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The class invariant with the two scratch accumulators owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ restBut0 c) ∗ (∃ r, prngReg c r)) := by
  unfold Pipeline.ΦA; rw [scopedRest0_split]; simp only [scM0_0, scM0_1, owns_whole]; try rfl

end Cert.Kernel.Hand

end
-- ==== Proof.WS0RunA.lean ====
/-
  The body of the first matmul-with-statistics call at the FIRST grid point: it zeroes both accumulators, stores
  the block of h = a·w + b, and adds the block's column sums of h and of h*h to the accumulators. The two
  statistics result blocks are not touched. Stated on any whole memrefs, with the stores found by the run.
-/
import proofs.«151566_j35021163331665_1_alg».proof.Proof.Gen.Kernel.Launch
import proofs.«151566_j35021163331665_1_alg».proof.Proof.Gen.Kernel.Skeleton
import proofs.«151566_j35021163331665_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«151566_j35021163331665_1_alg».proof.Proof.WS0Defs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .f32) (x2 : Vec F S1x128 .f32) :
    Σ' (L3 : List (View.Piece (Elt F) S5000x128 .f32)) (LS0 : List (View.Piece (Elt F) S1x128 .f32)), { LS1 : List (View.Piece (Elt F) S1x128 .f32) //
      ∀ (xi4 xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)
                ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__matmul_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc0__matmul_stats_kernel_eq_skeleton]; unfold cc0__matmul_stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.WS0RunB.lean ====
/-
  The body of the first matmul-with-statistics call at a MIDDLE grid point (neither first nor last): it stores
  the block of h = a·w + b and adds the block's column sums of h and of h*h to the two accumulators, which
  hold what the point before left. The two statistics result blocks are not touched.
-/
import proofs.«151566_j35021163331665_1_alg».proof.Proof.Gen.Kernel.Launch
import proofs.«151566_j35021163331665_1_alg».proof.Proof.Gen.Kernel.Skeleton
import proofs.«151566_j35021163331665_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«151566_j35021163331665_1_alg».proof.Proof.WS0Defs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .f32) (x2 : Vec F S1x128 .f32) (xs0 xs1 : Vec F S1x128 .f32) :
    Σ' (L3 : List (View.Piece (Elt F) S5000x128 .f32)) (LS0 : List (View.Piece (Elt F) S1x128 .f32)), { LS1 : List (View.Piece (Elt F) S1x128 .f32) //
      ∀ (xi4 xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)
                ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__matmul_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc0__matmul_stats_kernel_eq_skeleton]; unfold cc0__matmul_stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg5.eq_unread hf4; obtain rfl := harg6.eq_unread hf5
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.WS0RunC.lean ====
/-
  The body of the first matmul-with-statistics call at the LAST grid point: as at a middle point, and then the
  two accumulators are copied into the two [1,128] statistics result blocks.
-/
import proofs.«151566_j35021163331665_1_alg».proof.Proof.Gen.Kernel.Launch
import proofs.«151566_j35021163331665_1_alg».proof.Proof.Gen.Kernel.Skeleton
import proofs.«151566_j35021163331665_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«151566_j35021163331665_1_alg».proof.Proof.WS0Defs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S1x128 .f32) (xs0 xs1 : Vec F S1x128 .f32) :
    Σ' (L3 : List (View.Piece (Elt F) S5000x128 .f32)) (L4 L5 LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__matmul_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc0__matmul_stats_kernel_eq_skeleton]; unfold cc0__matmul_stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.Kernel.Hand

end
-- ==== Proof.WS0Dat.lean ====
/-
  The first matmul-with-statistics call: what its result blocks and its two accumulators hold after each grid
  point, the invariant that carries the accumulators from one point to the next, and the body's obligation at
  every point. After point t the accumulators hold the column sums of h and of h*h over the rows of the blocks
  0..t; the h result block of point t is written back at once, the two statistics blocks only at the last point.
-/
import proofs.«151566_j35021163331665_1_alg».proof.Proof.Gen.Kernel.Launch
import proofs.«151566_j35021163331665_1_alg».proof.Proof.Gen.Kernel.Skeleton
import proofs.«151566_j35021163331665_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«151566_j35021163331665_1_alg».proof.Proof.WS0RunA
import proofs.«151566_j35021163331665_1_alg».proof.Proof.WS0RunB
import proofs.«151566_j35021163331665_1_alg».proof.Proof.WS0RunC
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks as the call finds them -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves, read back through a fixed view -/

theorem cover0_A_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .f32) (x2 : Vec F S1x128 .f32) (y : S5000x128.Idx) : ∃ pc ∈ (kernelRun0_A c i arg1 harg1 arg2 harg2 arg3 harg3 arg4 harg4 arg5 harg5 arg6 harg6 arg7 harg7 arg8 harg8 hc0 hc1 x0 x1 x2).1, y ∈ pc.1.set :=
  View.cover_of_tiledL (kernelRun0_A c i arg1 harg1 arg2 harg2 arg3 harg3 arg4 harg4 arg5 harg5 arg6 harg6 arg7 harg7 arg8 harg8 hc0 hc1 x0 x1 x2).1 S5000x128.size (by sl_kernel_rfl) y
def out0_A_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .f32) (x2 : Vec F S1x128 .f32) : Vec F S5000x128 .f32 :=
  VO0_3.read (Elt F) (VO0_3.writes (Elt F) VO0_3.junk (kernelRun0_A c i arg1 harg1 arg2 harg2 arg3 harg3 arg4 harg4 arg5 harg5 arg6 harg6 arg7 harg7 arg8 harg8 hc0 hc1 x0 x1 x2).1)

theorem scover0_A_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .f32) (x2 : Vec F S1x128 .f32) (y : S1x128.Idx) : ∃ pc ∈ (kernelRun0_A c i arg1 harg1 arg2 harg2 arg3 harg3 arg4 harg4 arg5 harg5 arg6 harg6 arg7 harg7 arg8 harg8 hc0 hc1 x0 x1 x2).2.1, y ∈ pc.1.set :=
  View.cover_of_tiledL (kernelRun0_A c i arg1 harg1 arg2 harg2 arg3 harg3 arg4 harg4 arg5 harg5 arg6 harg6 arg7 harg7 arg8 harg8 hc0 hc1 x0 x1 x2).2.1 S1x128.size (by sl_kernel_rfl) y
def sout0_A_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .f32) (x2 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2).2.1)

theorem scover0_A_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .f32) (x2 : Vec F S1x128 .f32) (y : S1x128.Idx) : ∃ pc ∈ (kernelRun0_A c i arg1 harg1 arg2 harg2 arg3 harg3 arg4 harg4 arg5 harg5 arg6 harg6 arg7 harg7 arg8 harg8 hc0 hc1 x0 x1 x2).2.2.1, y ∈ pc.1.set :=
  View.cover_of_tiledL (kernelRun0_A c i arg1 harg1 arg2 harg2 arg3 harg3 arg4 harg4 arg5 harg5 arg6 harg6 arg7 harg7 arg8 harg8 hc0 hc1 x0 x1 x2).2.2.1 S1x128.size (by sl_kernel_rfl) y
def sout0_A_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .f32) (x2 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1 x2).2.2.1)

theorem cover0_B_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .f32) (x2 : Vec F S1x128 .f32) (xs0 xs1 : Vec F S1x128 .f32) (y : S5000x128.Idx) : ∃ pc ∈ (kernelRun0_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun0_B c i arg1 harg1 arg2 harg2 arg3 harg3 arg4 harg4 arg5 harg5 arg6 harg6 arg7 harg7 arg8 harg8 hc0 hc1 x0 x1 x2 xs0 xs1).1 S5000x128.size (by sl_kernel_rfl) y
def out0_B_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .f32) (x2 : Vec F S1x128 .f32) (xs0 xs1 : Vec F S1x128 .f32) : Vec F S5000x128 .f32 :=
  VO0_3.read (Elt F) (VO0_3.writes (Elt F) VO0_3.junk (kernelRun0_B c i arg1 harg1 arg2 harg2 arg3 harg3 arg4 harg4 arg5 harg5 arg6 harg6 arg7 harg7 arg8 harg8 hc0 hc1 x0 x1 x2 xs0 xs1).1)

theorem scover0_B_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .f32) (x2 : Vec F S1x128 .f32) (xs0 xs1 : Vec F S1x128 .f32) (y : S1x128.Idx) : ∃ pc ∈ (kernelRun0_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun0_B c i arg1 harg1 arg2 harg2 arg3 harg3 arg4 harg4 arg5 harg5 arg6 harg6 arg7 harg7 arg8 harg8 hc0 hc1 x0 x1 x2 xs0 xs1).2.1 S1x128.size (by sl_kernel_rfl) y
def sout0_B_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .f32) (x2 : Vec F S1x128 .f32) (xs0 xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 xs0 xs1).2.1)

theorem scover0_B_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .f32) (x2 : Vec F S1x128 .f32) (xs0 xs1 : Vec F S1x128 .f32) (y : S1x128.Idx) : ∃ pc ∈ (kernelRun0_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun0_B c i arg1 harg1 arg2 harg2 arg3 harg3 arg4 harg4 arg5 harg5 arg6 harg6 arg7 harg7 arg8 harg8 hc0 hc1 x0 x1 x2 xs0 xs1).2.2.1 S1x128.size (by sl_kernel_rfl) y
def sout0_B_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .f32) (x2 : Vec F S1x128 .f32) (xs0 xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 x2 xs0 xs1).2.2.1)

theorem cover0_C_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) (y : S5000x128.Idx) : ∃ pc ∈ (kernelRun0_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 xs0 xs1).1 S5000x128.size (by sl_kernel_rfl) y
def out0_C_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) : Vec F S5000x128 .f32 :=
  VO0_3.read (Elt F) (VO0_3.writes (Elt F) VO0_3.junk (kernelRun0_C c i arg1 harg1 arg2 harg2 arg3 harg3 arg4 harg4 arg5 harg5 arg6 harg6 arg7 harg7 arg8 harg8 hc0 hc1 x0 x1 x2 xs0 xs1).1)

theorem cover0_C_4 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) (y : S1x128.Idx) : ∃ pc ∈ (kernelRun0_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 xs0 xs1).2.1 S1x128.size (by sl_kernel_rfl) y
def out0_C_4 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) : Vec F S1x128 .f32 :=
  VO0_4.read (Elt F) (VO0_4.writes (Elt F) VO0_4.junk (kernelRun0_C c i arg1 harg1 arg2 harg2 arg3 harg3 arg4 harg4 arg5 harg5 arg6 harg6 arg7 harg7 arg8 harg8 hc0 hc1 x0 x1 x2 xs0 xs1).2.1)

theorem cover0_C_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) (y : S1x128.Idx) : ∃ pc ∈ (kernelRun0_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 xs0 xs1).2.2.1 S1x128.size (by sl_kernel_rfl) y
def out0_C_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) : Vec F S1x128 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 xs0 xs1).2.2.1)

theorem scover0_C_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) (y : S1x128.Idx) : ∃ pc ∈ (kernelRun0_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 xs0 xs1).2.2.2.1 S1x128.size (by sl_kernel_rfl) y
def sout0_C_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 xs0 xs1).2.2.2.1)

theorem scover0_C_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) (y : S1x128.Idx) : ∃ pc ∈ (kernelRun0_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 xs0 xs1).2.2.2.2.1 S1x128.size (by sl_kernel_rfl) y
def sout0_C_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 x2 xs0 xs1).2.2.2.2.1)

/-! ## The accumulation over the grid -/

/-- After the body at position n: the h block, the two statistics blocks (placeholders away from the last point,
    where those windows are idle), and the two accumulators. -/
def outsAt0 (c : Dev nD) : (n : ℕ) → n < cfg0.N → Vec F S5000x128 .f32 × Vec F S1x128 .f32 × Vec F S1x128 .f32 × Vec F S1x128 .f32 × Vec F S1x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), VO0_4.read (Elt F) (VO0_4.writes (Elt F) VO0_4.junk []), VO0_5.read (Elt F) (VO0_5.writes (Elt F) VO0_5.junk []), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h1 : (n + 1) % 20 = 19 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => (fun h => by (try dsimp only at h); have hN : n + 1 < 20 := lt_of_lt_of_eq hn (show cfg0.N = 20 from N_0); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => (fun h => by (try dsimp only at h); have hN : n + 1 < 20 := lt_of_lt_of_eq hn (show cfg0.N = 20 from N_0); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => (fun h => by (try dsimp only at h); have hN : n + 1 < 20 := lt_of_lt_of_eq hn (show cfg0.N = 20 from N_0); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => (fun h => by (try dsimp only at h); have hN : n + 1 < 20 := lt_of_lt_of_eq hn (show cfg0.N = 20 from N_0); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => (fun h => by (try dsimp only at h); have hN : n + 1 < 20 := lt_of_lt_of_eq hn (show cfg0.N = 20 from N_0); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => (fun h => by (try dsimp only at h); have hN : n + 1 < 20 := lt_of_lt_of_eq hn (show cfg0.N = 20 from N_0); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, VO0_4.read (Elt F) (VO0_4.writes (Elt F) VO0_4.junk []), VO0_5.read (Elt F) (VO0_5.writes (Elt F) VO0_5.junk []), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => (fun h => by (try dsimp only at h); have hN : n + 1 < 20 := lt_of_lt_of_eq hn (show cfg0.N = 20 from N_0); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => (fun h => by (try dsimp only at h); have hN : n + 1 < 20 := lt_of_lt_of_eq hn (show cfg0.N = 20 from N_0); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val % 20 = 0) (h1 : ¬t.val % 20 = 19) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t), VO0_4.read (Elt F) (VO0_4.writes (Elt F) VO0_4.junk []), VO0_5.read (Elt F) (VO0_5.writes (Elt F) VO0_5.junk []), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exfalso; have hN : n + 1 < 20 := lt_of_lt_of_eq hn (show cfg0.N = 20 from N_0); (try dsimp only at h0); omega

theorem outsAt0_B (c : Dev nD) (t : Fin cfg0.N) (h0 : ¬t.val % 20 = 0) (h1 : ¬t.val % 20 = 19) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, VO0_4.read (Elt F) (VO0_4.writes (Elt F) VO0_4.junk []), VO0_5.read (Elt F) (VO0_5.writes (Elt F) VO0_5.junk []), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 20 = 0) (h1 : t.val % 20 = 19) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The invariant: the accumulators carried between points -/

def PhiS (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2)) ∗ restBut0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(iprop(owns (c : Thread nD τ) scM0_0 fullShare ((outsAt0 V c n hn).2.2.2.1) ∗ owns (c : Thread nD τ) scM0_1 fullShare ((outsAt0 V c n hn).2.2.2.2)) ∗ restBut0 c) ∗ (∃ r, prngReg c r)) := rfl
theorem PhiS_pos (c : Dev nD) (n : ℕ) (h : n ≤ cfg0.N) (hz : n ≠ 0) :
    PhiS V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2)) ∗ restBut0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 20 := lt_of_lt_of_eq t.isLt (show cfg0.N = 20 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  rw [show (dat0 V c).leavesExact 3 t = owns (c : Thread nD τ) (ms0_3 t) fullShare ((dat0 V c).after 3 t) from by
        unfold Dat.leavesExact; rw [liveAt0_3 t], after0_3]
  by_cases h0 : t.val % 20 = 0
  · have h1 : ¬t.val % 20 = 19 := by omega
    have hz : t.val = 0 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1), Dat.leavesExact_idle (dat0 V c) 5 t (idleAt0_5 t hc1) (noFlush0_5 t hc1)]
    rw [outsAt0_A V c t h0 h1]
    unfold out0_A_3 sout0_A_0 sout0_A_1; (try dsimp only)
    rw [PhiS_castSucc V c t, PhiS_zero V c _ _ hz, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ hc0 hc1 (iblk0 V c 0 t) (iblk0 V c 1 t) (iblk0 V c 2 t)).2.2.2 _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, ⟨%e3, H3⟩, H4, H5, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _ _ _ _)
    isplitl [H4]; · iexists _; iexact H4
    iexists _; iexact H5
  · have hz : t.val ≠ 0 := by omega
    have hc0 : ¬cond0_0 (grid0.coords t) := fun h => h0 ((hcond0_0 t).mp h)
    by_cases h1 : t.val % 20 = 19
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4]
      rw [show (dat0 V c).leavesExact 5 t = owns (c : Thread nD τ) (ms0_5 t) fullShare ((dat0 V c).after 5 t) from by
        unfold Dat.leavesExact; rw [liveAt0_5 t hc1], after0_5]
      rw [outsAt0_C V c t h0 h1]
      unfold out0_C_3 out0_C_4 out0_C_5 sout0_C_0 sout0_C_1; (try dsimp only)
      rw [PhiS_castSucc V c t, PhiS_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ hc0 hc1 (iblk0 V c 0 t) (iblk0 V c 1 t) (iblk0 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _ _ _)
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _ _ _)
    · have hc1 : ¬cond0_1 (grid0.coords t) := fun h => h1 ((hcond0_1 t).mp h)
      rw [Dat.leavesExact_idle (dat0 V c) 4 t (idleAt0_4 t hc1) (noFlush0_4 t hc1), Dat.leavesExact_idle (dat0 V c) 5 t (idleAt0_5 t hc1) (noFlush0_5 t hc1)]
      rw [outsAt0_B V c t h0 h1]
      unfold out0_B_3 sout0_B_0 sout0_B_1; (try dsimp only)
      rw [PhiS_castSucc V c t, PhiS_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ hc0 hc1 (iblk0 V c 0 t) (iblk0 V c 1 t) (iblk0 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _)
      isplitl [H4]; · iexists _; iexact H4
      iexists _; iexact H5

theorem body_obligation0 (c : Dev nD) : BodyObligation (dat0 (F := F) V c) (defs₀ (F := F)) Variants.none () Set.univ := fun t => by
  rw [bigSep_W0, bigSep_W0]
  exact sound_body0 V c t

/-- Before the first point the invariant is the class's. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first it gives the class's back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 20 := N_0; omega)

end Cert.Kernel.Hand

end
-- ==== Proof.WS2Defs.lean ====
/-
  The second matmul-with-statistics call (the grid's 20 points, blocks of 5000 rows): what its proofs share.
  The body branches twice on the grid coordinate: at the first point it zeroes the two [1,128] accumulators
  it keeps in scratch, at the last point it copies them into the two [1,128] result blocks. Between, every
  point adds its block's column sums (of h and of h*h) to the accumulators. So three cases: the first point,
  the points 1..18, the last point. The two [1,128] result windows are idle except at the last point.
-/
import proofs.«151566_j35021163331665_1_alg».proof.Proof.Gen.Kernel.Launch
import proofs.«151566_j35021163331665_1_alg».proof.Proof.Gen.Kernel.Skeleton
import proofs.«151566_j35021163331665_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "this is the first point": the scalar chain the body computes from the grid coordinate. -/
abbrev cond2_0 (i : grid2.Coords) : Prop :=
  (Scalar.cmpi .ne (Scalar.extui (Scalar.cmpi .eq (BitVec.ofNat 32 (i 0).val) 0#32)) 0#32) = 1#1
theorem hcond2_0 : ∀ t : Fin cfg2.N, cond2_0 (grid2.coords t) ↔ t.val % 20 = 0 :=
  (by decide +kernel : ∀ t : Fin grid2.N, cond2_0 (grid2.coords t) ↔ t.val % 20 = 0)

/-- "this is the last point". -/
abbrev cond2_1 (i : grid2.Coords) : Prop := k2_cond2 i = 1#1
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Away from the last point the two statistics windows are idle and not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
/-- At the last point they are stored. -/
theorem liveAt2_4 : ∀ t : Fin cfg2.N, cond2_1 (grid2.coords t) → cfg2.idle 4 (grid2.coords t) = false := by decide +kernel
theorem liveAt2_5 : ∀ t : Fin cfg2.N, cond2_1 (grid2.coords t) → cfg2.idle 5 (grid2.coords t) = false := by decide +kernel

/-! ## The memrefs the body is called with -/

/-- One staging buffer of each output window, through which its contents are stated. -/
abbrev VO2_3 : View sig .tc .vmem S5000x128 .f32 := (Memref.whole cc2_stg3_0 : Memref sig .tc .vmem S5000x128 .f32).view
abbrev VO2_4 : View sig .tc .vmem S1x128 .f32 := (Memref.whole cc2_stg4_0 : Memref sig .tc .vmem S1x128 .f32).view
abbrev VO2_5 : View sig .tc .vmem S1x128 .f32 := (Memref.whole cc2_stg5_0 : Memref sig .tc .vmem S1x128 .f32).view

abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S5000x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)

/-- The two scratch accumulators: whole scoped buffers of the call's own. -/
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- The scoped buffers this call neither stages nor uses as scratch: they ride along unopened. -/
abbrev restBut2 (c : Dev nD) : sProp 𝕄 :=
  Pipeline.scopedRestBut (Ix := Unit) (Name := ℕ) (U := UR sig nD τ) (Lvl := ℕ) (Val := Elt F) spec2 c [cc2_scratch0, cc2_scratch1]

/-- The class invariant with the two scratch accumulators owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ restBut2 c) ∗ (∃ r, prngReg c r)) := by
  unfold Pipeline.ΦA; rw [scopedRest2_split]; simp only [scM2_0, scM2_1, owns_whole]; try rfl

end Cert.Kernel.Hand

end
-- ==== Proof.WS2RunA.lean ====
/-
  The body of the second matmul-with-statistics call at the FIRST grid point: it zeroes both accumulators, stores
  the block of h = a·w + b, and adds the block's column sums of h and of h*h to the accumulators. The two
  statistics result blocks are not touched. Stated on any whole memrefs, with the stores found by the run.
-/
import proofs.«151566_j35021163331665_1_alg».proof.Proof.Gen.Kernel.Launch
import proofs.«151566_j35021163331665_1_alg».proof.Proof.Gen.Kernel.Skeleton
import proofs.«151566_j35021163331665_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«151566_j35021163331665_1_alg».proof.Proof.WS2Defs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S128x128 .f32) (x2 : Vec F S1x128 .f32) :
    Σ' (L3 : List (View.Piece (Elt F) S5000x128 .f32)) (LS0 : List (View.Piece (Elt F) S1x128 .f32)), { LS1 : List (View.Piece (Elt F) S1x128 .f32) //
      ∀ (xi4 xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)
                ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__matmul_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc2__matmul_stats_kernel_eq_skeleton]; unfold cc2__matmul_stats_kernel_skel
    simp only [k2_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.WS2RunB.lean ====
/-
  The body of the second matmul-with-statistics call at a MIDDLE grid point (neither first nor last): it stores
  the block of h = a·w + b and adds the block's column sums of h and of h*h to the two accumulators, which
  hold what the point before left. The two statistics result blocks are not touched.
-/
import proofs.«151566_j35021163331665_1_alg».proof.Proof.Gen.Kernel.Launch
import proofs.«151566_j35021163331665_1_alg».proof.Proof.Gen.Kernel.Skeleton
import proofs.«151566_j35021163331665_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«151566_j35021163331665_1_alg».proof.Proof.WS2Defs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S128x128 .f32) (x2 : Vec F S1x128 .f32) (xs0 xs1 : Vec F S1x128 .f32) :
    Σ' (L3 : List (View.Piece (Elt F) S5000x128 .f32)) (LS0 : List (View.Piece (Elt F) S1x128 .f32)), { LS1 : List (View.Piece (Elt F) S1x128 .f32) //
      ∀ (xi4 xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)
                ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__matmul_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc2__matmul_stats_kernel_eq_skeleton]; unfold cc2__matmul_stats_kernel_skel
    simp only [k2_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg5.eq_unread hf4; obtain rfl := harg6.eq_unread hf5
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.WS2RunC.lean ====
/-
  The body of the second matmul-with-statistics call at the LAST grid point: as at a middle point, and then the
  two accumulators are copied into the two [1,128] statistics result blocks.
-/
import proofs.«151566_j35021163331665_1_alg».proof.Proof.Gen.Kernel.Launch
import proofs.«151566_j35021163331665_1_alg».proof.Proof.Gen.Kernel.Skeleton
import proofs.«151566_j35021163331665_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«151566_j35021163331665_1_alg».proof.Proof.WS2Defs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S1x128 .f32) (xs0 xs1 : Vec F S1x128 .f32) :
    Σ' (L3 : List (View.Piece (Elt F) S5000x128 .f32)) (L4 L5 LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__matmul_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc2__matmul_stats_kernel_eq_skeleton]; unfold cc2__matmul_stats_kernel_skel
    simp only [k2_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.Kernel.Hand

end
-- ==== Proof.WS2Dat.lean ====
/-
  The second matmul-with-statistics call: what its result blocks and its two accumulators hold after each grid
  point, the invariant that carries the accumulators from one point to the next, and the body's obligation at
  every point. After point t the accumulators hold the column sums of h and of h*h over the rows of the blocks
  0..t; the h result block of point t is written back at once, the two statistics blocks only at the last point.
-/
import proofs.«151566_j35021163331665_1_alg».proof.Proof.Gen.Kernel.Launch
import proofs.«151566_j35021163331665_1_alg».proof.Proof.Gen.Kernel.Skeleton
import proofs.«151566_j35021163331665_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«151566_j35021163331665_1_alg».proof.Proof.WS2RunA
import proofs.«151566_j35021163331665_1_alg».proof.Proof.WS2RunB
import proofs.«151566_j35021163331665_1_alg».proof.Proof.WS2RunC
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks as the call finds them -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves, read back through a fixed view -/

theorem cover2_A_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i) (x0 : Vec F S5000x128 .f32) (x1 : Vec F S128x128 .f32) (x2 : Vec F S1x128 .f32) (y : S5000x128.Idx) : ∃ pc ∈ (kernelRun2_A c i arg1 harg1 arg2 harg2 arg3 harg3 arg4 harg4 arg5 harg5 arg6 harg6 arg7 harg7 arg8 harg8 hc0 hc1 x0 x1 x2).1, y ∈ pc.1.set :=
  View.cover_of_tiledL (kernelRun2_A c i arg1 harg1 arg2 harg2 arg3 harg3 arg4 harg4 arg5 harg5 arg6 harg6 arg7 harg7 arg8 harg8 hc0 hc1 x0 x1 x2).1 S5000x128.size (by sl_kernel_rfl) y
def out2_A_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i) (x0 : Vec F S5000x128 .f32) (x1 : Vec F S128x128 .f32) (x2 : Vec F S1x128 .f32) : Vec F S5000x128 .f32 :=
  VO2_3.read (Elt F) (VO2_3.writes (Elt F) VO2_3.junk (kernelRun2_A c i arg1 harg1 arg2 harg2 arg3 harg3 arg4 harg4 arg5 harg5 arg6 harg6 arg7 harg7 arg8 harg8 hc0 hc1 x0 x1 x2).1)

theorem scover2_A_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i) (x0 : Vec F S5000x128 .f32) (x1 : Vec F S128x128 .f32) (x2 : Vec F S1x128 .f32) (y : S1x128.Idx) : ∃ pc ∈ (kernelRun2_A c i arg1 harg1 arg2 harg2 arg3 harg3 arg4 harg4 arg5 harg5 arg6 harg6 arg7 harg7 arg8 harg8 hc0 hc1 x0 x1 x2).2.1, y ∈ pc.1.set :=
  View.cover_of_tiledL (kernelRun2_A c i arg1 harg1 arg2 harg2 arg3 harg3 arg4 harg4 arg5 harg5 arg6 harg6 arg7 harg7 arg8 harg8 hc0 hc1 x0 x1 x2).2.1 S1x128.size (by sl_kernel_rfl) y
def sout2_A_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i) (x0 : Vec F S5000x128 .f32) (x1 : Vec F S128x128 .f32) (x2 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2).2.1)

theorem scover2_A_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i) (x0 : Vec F S5000x128 .f32) (x1 : Vec F S128x128 .f32) (x2 : Vec F S1x128 .f32) (y : S1x128.Idx) : ∃ pc ∈ (kernelRun2_A c i arg1 harg1 arg2 harg2 arg3 harg3 arg4 harg4 arg5 harg5 arg6 harg6 arg7 harg7 arg8 harg8 hc0 hc1 x0 x1 x2).2.2.1, y ∈ pc.1.set :=
  View.cover_of_tiledL (kernelRun2_A c i arg1 harg1 arg2 harg2 arg3 harg3 arg4 harg4 arg5 harg5 arg6 harg6 arg7 harg7 arg8 harg8 hc0 hc1 x0 x1 x2).2.2.1 S1x128.size (by sl_kernel_rfl) y
def sout2_A_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i) (x0 : Vec F S5000x128 .f32) (x1 : Vec F S128x128 .f32) (x2 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 hc0 hc1 x0 x1 x2).2.2.1)

theorem cover2_B_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i) (x0 : Vec F S5000x128 .f32) (x1 : Vec F S128x128 .f32) (x2 : Vec F S1x128 .f32) (xs0 xs1 : Vec F S1x128 .f32) (y : S5000x128.Idx) : ∃ pc ∈ (kernelRun2_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun2_B c i arg1 harg1 arg2 harg2 arg3 harg3 arg4 harg4 arg5 harg5 arg6 harg6 arg7 harg7 arg8 harg8 hc0 hc1 x0 x1 x2 xs0 xs1).1 S5000x128.size (by sl_kernel_rfl) y
def out2_B_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i) (x0 : Vec F S5000x128 .f32) (x1 : Vec F S128x128 .f32) (x2 : Vec F S1x128 .f32) (xs0 xs1 : Vec F S1x128 .f32) : Vec F S5000x128 .f32 :=
  VO2_3.read (Elt F) (VO2_3.writes (Elt F) VO2_3.junk (kernelRun2_B c i arg1 harg1 arg2 harg2 arg3 harg3 arg4 harg4 arg5 harg5 arg6 harg6 arg7 harg7 arg8 harg8 hc0 hc1 x0 x1 x2 xs0 xs1).1)

theorem scover2_B_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i) (x0 : Vec F S5000x128 .f32) (x1 : Vec F S128x128 .f32) (x2 : Vec F S1x128 .f32) (xs0 xs1 : Vec F S1x128 .f32) (y : S1x128.Idx) : ∃ pc ∈ (kernelRun2_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun2_B c i arg1 harg1 arg2 harg2 arg3 harg3 arg4 harg4 arg5 harg5 arg6 harg6 arg7 harg7 arg8 harg8 hc0 hc1 x0 x1 x2 xs0 xs1).2.1 S1x128.size (by sl_kernel_rfl) y
def sout2_B_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i) (x0 : Vec F S5000x128 .f32) (x1 : Vec F S128x128 .f32) (x2 : Vec F S1x128 .f32) (xs0 xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 xs0 xs1).2.1)

theorem scover2_B_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i) (x0 : Vec F S5000x128 .f32) (x1 : Vec F S128x128 .f32) (x2 : Vec F S1x128 .f32) (xs0 xs1 : Vec F S1x128 .f32) (y : S1x128.Idx) : ∃ pc ∈ (kernelRun2_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun2_B c i arg1 harg1 arg2 harg2 arg3 harg3 arg4 harg4 arg5 harg5 arg6 harg6 arg7 harg7 arg8 harg8 hc0 hc1 x0 x1 x2 xs0 xs1).2.2.1 S1x128.size (by sl_kernel_rfl) y
def sout2_B_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i) (x0 : Vec F S5000x128 .f32) (x1 : Vec F S128x128 .f32) (x2 : Vec F S1x128 .f32) (xs0 xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 hc0 hc1 x0 x1 x2 xs0 xs1).2.2.1)

theorem cover2_C_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) (y : S5000x128.Idx) : ∃ pc ∈ (kernelRun2_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).1 S5000x128.size (by sl_kernel_rfl) y
def out2_C_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) : Vec F S5000x128 .f32 :=
  VO2_3.read (Elt F) (VO2_3.writes (Elt F) VO2_3.junk (kernelRun2_C c i arg1 harg1 arg2 harg2 arg3 harg3 arg4 harg4 arg5 harg5 arg6 harg6 arg7 harg7 arg8 harg8 hc0 hc1 x0 x1 x2 xs0 xs1).1)

theorem cover2_C_4 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) (y : S1x128.Idx) : ∃ pc ∈ (kernelRun2_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.1 S1x128.size (by sl_kernel_rfl) y
def out2_C_4 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) : Vec F S1x128 .f32 :=
  VO2_4.read (Elt F) (VO2_4.writes (Elt F) VO2_4.junk (kernelRun2_C c i arg1 harg1 arg2 harg2 arg3 harg3 arg4 harg4 arg5 harg5 arg6 harg6 arg7 harg7 arg8 harg8 hc0 hc1 x0 x1 x2 xs0 xs1).2.1)

theorem cover2_C_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) (y : S1x128.Idx) : ∃ pc ∈ (kernelRun2_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.2.1 S1x128.size (by sl_kernel_rfl) y
def out2_C_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) : Vec F S1x128 .f32 :=
  VO2_5.read (Elt F) (VO2_5.writes (Elt F) VO2_5.junk (kernelRun2_C c i arg1 harg1 arg2 harg2 arg3 harg3 arg4 harg4 arg5 harg5 arg6 harg6 arg7 harg7 arg8 harg8 hc0 hc1 x0 x1 x2 xs0 xs1).2.2.1)

theorem scover2_C_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) (y : S1x128.Idx) : ∃ pc ∈ (kernelRun2_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.2.2.1 S1x128.size (by sl_kernel_rfl) y
def sout2_C_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 xs0 xs1).2.2.2.1)

theorem scover2_C_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) (y : S1x128.Idx) : ∃ pc ∈ (kernelRun2_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.2.2.2.1 S1x128.size (by sl_kernel_rfl) y
def sout2_C_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 hc0 hc1 x0 x1 x2 xs0 xs1).2.2.2.2.1)

/-! ## The accumulation over the grid -/

/-- After the body at position n: the h block, the two statistics blocks (placeholders away from the last point,
    where those windows are idle), and the two accumulators. -/
def outsAt2 (c : Dev nD) : (n : ℕ) → n < cfg2.N → Vec F S5000x128 .f32 × Vec F S1x128 .f32 × Vec F S1x128 .f32 × Vec F S1x128 .f32 × Vec F S1x128 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), VO2_4.read (Elt F) (VO2_4.writes (Elt F) VO2_4.junk []), VO2_5.read (Elt F) (VO2_5.writes (Elt F) VO2_5.junk []), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h1 : (n + 1) % 20 = 19 then
      (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); have hN : n + 1 < 20 := lt_of_lt_of_eq hn (show cfg2.N = 20 from N_2); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); have hN : n + 1 < 20 := lt_of_lt_of_eq hn (show cfg2.N = 20 from N_2); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); have hN : n + 1 < 20 := lt_of_lt_of_eq hn (show cfg2.N = 20 from N_2); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); have hN : n + 1 < 20 := lt_of_lt_of_eq hn (show cfg2.N = 20 from N_2); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); have hN : n + 1 < 20 := lt_of_lt_of_eq hn (show cfg2.N = 20 from N_2); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2)
    else
      (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); have hN : n + 1 < 20 := lt_of_lt_of_eq hn (show cfg2.N = 20 from N_2); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, VO2_4.read (Elt F) (VO2_4.writes (Elt F) VO2_4.junk []), VO2_5.read (Elt F) (VO2_5.writes (Elt F) VO2_5.junk []), sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); have hN : n + 1 < 20 := lt_of_lt_of_eq hn (show cfg2.N = 20 from N_2); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => (fun h => by (try dsimp only at h); have hN : n + 1 < 20 := lt_of_lt_of_eq hn (show cfg2.N = 20 from N_2); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2)

theorem outsAt2_A (c : Dev nD) (t : Fin cfg2.N) (h0 : t.val % 20 = 0) (h1 : ¬t.val % 20 = 19) :
    outsAt2 V c t.val t.isLt = (out2_A_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t), VO2_4.read (Elt F) (VO2_4.writes (Elt F) VO2_4.junk []), VO2_5.read (Elt F) (VO2_5.writes (Elt F) VO2_5.junk []), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exfalso; have hN : n + 1 < 20 := lt_of_lt_of_eq hn (show cfg2.N = 20 from N_2); (try dsimp only at h0); omega

theorem outsAt2_B (c : Dev nD) (t : Fin cfg2.N) (h0 : ¬t.val % 20 = 0) (h1 : ¬t.val % 20 = 19) :
    outsAt2 V c t.val t.isLt = (out2_B_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, VO2_4.read (Elt F) (VO2_4.writes (Elt F) VO2_4.junk []), VO2_5.read (Elt F) (VO2_5.writes (Elt F) VO2_5.junk []), sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt2_C (c : Dev nD) (t : Fin cfg2.N) (h0 : ¬t.val % 20 = 0) (h1 : t.val % 20 = 19) :
    outsAt2 V c t.val t.isLt = (out2_C_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The invariant: the accumulators carried between points -/

def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2)) ∗ restBut2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2)) ∗ restBut2 c) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2)) ∗ restBut2 c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
    | ⟨5, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem after2_5 (c : Dev nD) (t : Fin cfg2.N) : (dat2 V c).after 5 t = (outsAt2 V c t.val t.isLt).2.2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
        unfold Dat.leavesExact; rw [liveAt2_0 t], after2_0]
  rw [show (dat2 V c).leavesExact 1 t = owns (c : Thread nD τ) (ms2_1 t) fullShare ((dat2 V c).after 1 t) from by
        unfold Dat.leavesExact; rw [liveAt2_1 t], after2_1]
  rw [show (dat2 V c).leavesExact 2 t = owns (c : Thread nD τ) (ms2_2 t) fullShare ((dat2 V c).after 2 t) from by
        unfold Dat.leavesExact; rw [liveAt2_2 t], after2_2]
  rw [show (dat2 V c).leavesExact 3 t = owns (c : Thread nD τ) (ms2_3 t) fullShare ((dat2 V c).after 3 t) from by
        unfold Dat.leavesExact; rw [liveAt2_3 t], after2_3]
  by_cases h0 : t.val % 20 = 0
  · have h1 : ¬t.val % 20 = 19 := by omega
    have hz : t.val = 0 := by omega
    have hc0 : cond2_0 (grid2.coords t) := (hcond2_0 t).mpr h0
    have hc1 : ¬cond2_1 (grid2.coords t) := fun h => h1 ((hcond2_1 t).mp h)
    rw [Dat.leavesExact_idle (dat2 V c) 4 t (idleAt2_4 t hc1) (noFlush2_4 t hc1), Dat.leavesExact_idle (dat2 V c) 5 t (idleAt2_5 t hc1) (noFlush2_5 t hc1)]
    rw [outsAt2_A V c t h0 h1]
    unfold out2_A_3 sout2_A_0 sout2_A_1; (try dsimp only)
    rw [PhiS2_castSucc V c t, PhiS2_zero V c _ _ hz, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ _ _ hc0 hc1 (iblk2 V c 0 t) (iblk2 V c 1 t) (iblk2 V c 2 t)).2.2.2 _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, ⟨%e3, H3⟩, H4, H5, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2_A_3 c _ _ _ _ _ _ _ _ _ _ _ _ _ _ _ _ _ _ _ _ _ _)
    isplitl [H4]; · iexists _; iexact H4
    iexists _; iexact H5
  · have hz : t.val ≠ 0 := by omega
    have hc0 : ¬cond2_0 (grid2.coords t) := fun h => h0 ((hcond2_0 t).mp h)
    by_cases h1 : t.val % 20 = 19
    · have hc1 : cond2_1 (grid2.coords t) := (hcond2_1 t).mpr h1
      rw [show (dat2 V c).leavesExact 4 t = owns (c : Thread nD τ) (ms2_4 t) fullShare ((dat2 V c).after 4 t) from by
        unfold Dat.leavesExact; rw [liveAt2_4 t hc1], after2_4]
      rw [show (dat2 V c).leavesExact 5 t = owns (c : Thread nD τ) (ms2_5 t) fullShare ((dat2 V c).after 5 t) from by
        unfold Dat.leavesExact; rw [liveAt2_5 t hc1], after2_5]
      rw [outsAt2_C V c t h0 h1]
      unfold out2_C_3 out2_C_4 out2_C_5 sout2_C_0 sout2_C_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ _ _ hc0 hc1 (iblk2 V c 0 t) (iblk2 V c 1 t) (iblk2 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_C_3 c _ _ _ _ _ _ _ _ _ _ _ _ _ _ _ _ _ _ _ _ _ _ _ _)
      isplitl [H4]
      · unfold owns; iexists _; isplitr
        swap; · iexact H4
        ipureintro; exact View.read_writes_of_cover _ _ _ _ _ (cover2_C_4 c _ _ _ _ _ _ _ _ _ _ _ _ _ _ _ _ _ _ _ _ _ _ _ _)
      unfold owns; iexists _; isplitr
      swap; · iexact H5
      ipureintro; exact View.read_writes_of_cover _ _ _ _ _ (cover2_C_5 c _ _ _ _ _ _ _ _ _ _ _ _ _ _ _ _ _ _ _ _ _ _ _ _)
    · have hc1 : ¬cond2_1 (grid2.coords t) := fun h => h1 ((hcond2_1 t).mp h)
      rw [Dat.leavesExact_idle (dat2 V c) 4 t (idleAt2_4 t hc1) (noFlush2_4 t hc1), Dat.leavesExact_idle (dat2 V c) 5 t (idleAt2_5 t hc1) (noFlush2_5 t hc1)]
      rw [outsAt2_B V c t h0 h1]
      unfold out2_B_3 sout2_B_0 sout2_B_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ _ _ hc0 hc1 (iblk2 V c 0 t) (iblk2 V c 1 t) (iblk2 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_B_3 c _ _ _ _ _ _ _ _ _ _ _ _ _ _ _ _ _ _ _ _ _ _ _ _)
      isplitl [H4]; · iexists _; iexact H4
      iexists _; iexact H5

theorem body_obligation2 (c : Dev nD) : BodyObligation (dat2 (F := F) V c) (defs₀ (F := F)) Variants.none () Set.univ := fun t => by
  rw [bigSep_W2, bigSep_W2]
  exact sound_body2 V c t

/-- Before the first point the invariant is the class's. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first it gives the class's back: the accumulators' contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

theorem hout2 (c : Dev nD) : (dat2 V c).Φ (Fin.last cfg2.N) ⊢ Pipeline.ΦA spec2 c :=
  Phi_out2 V c _ (by rw [Fin.val_last]; have : cfg2.N = 20 := N_2; omega)

end Cert.Kernel.Hand

end
-- ==== Proof.WCls1.lean ====
/- Region 1 of the program: the batch-normalisation-and-rectifier kernel `cc1__bn_relu_kernel` on a grid of 20 points.
   Each point stages one block of 5000 rows of the [100000,128] activations and the four [1,128] rows (mean, variance,
   scale, shift), and stores, as one whole block, max(((h - mean) * rsqrt(variance + eps)) * scale + shift, 0).
   This module states, at any float instance and at any region-entry contents `V`: each window's block at a point,
   the output block as a function of the input blocks, the body's triple, the pipeline's proof data and the
   body obligation the launch theorems ask for. -/
import proofs.«151566_j35021163331665_1_alg».proof.Proof.Gen.Kernel.Launch
import proofs.«151566_j35021163331665_1_alg».proof.Proof.Gen.Kernel.Skeleton
import proofs.«151566_j35021163331665_1_alg».proof.Proof.Gen.Kernel.Points
import Idealize.ShloMosaic.Lib.Pipeline.FrameBody
import Idealize.ShloMosaic.Lib.Ring
import Idealize.ShloMosaic.Lib.Tactic

-- membership in a rectangle of 5000 rows: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (a window
    not fetched at a point has the block index of the point before), for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not (a window
    not fetched at a point has the block index of the point before), for any proof data whose array is `V`'s and
    whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (a window
    not fetched at a point has the block index of the point before), for any proof data whose array is `V`'s and
    whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not (a window
    not fetched at a point has the block index of the point before), for any proof data whose array is `V`'s and
    whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not (a window
    not fetched at a point has the block index of the point before), for any proof data whose array is `V`'s and
    whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole [5000,128] block and the whole [1,128] row -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

/-! ## What the body leaves in the output window's buffer -/

/-- Window 5's staging buffer after the body, from the input windows' blocks (`x0` the activations, `x1` the mean,
    `x2` the variance, `x3` the scale, `x4` the shift): its one whole-block store. The payload takes the variance
    row before the mean row, the order in which the body loads them. -/
def out1_5 (x0 : Vec F S5000x128 .f32) (x1 x2 x3 x4 : Vec F S1x128 .f32) : Vec F S5000x128 .f32 :=
  View.canon [⟨r1_0, k1_pay1 (View.ld x0 r1_0) (View.ld x2 r1_1) (View.ld x1 r1_1) (View.ld x3 r1_1) (View.ld x4 r1_1)⟩]

/-- The one store is of the whole buffer, so it covers it. -/
theorem cover1_5 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at contents `x0 … x4` and the output's at anything, runs to
    the continuation holding the inputs' as they were and the output's at `out1_5` of the inputs'. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t`
    each input's buffer at its block and the output's at `out1_5` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.WCls3.lean ====
/- Region 3 of the program: the batch-normalisation-and-rectifier kernel `cc3__bn_relu_kernel` on a grid of 20 points.
   Each point stages one block of 5000 rows of the [100000,128] activations and the four [1,128] rows (mean, variance,
   scale, shift), and stores, as one whole block, max(((h - mean) * rsqrt(variance + eps)) * scale + shift, 0).
   This module states, at any float instance and at any region-entry contents `V`: each window's block at a point,
   the output block as a function of the input blocks, the body's triple, the pipeline's proof data and the
   body obligation the launch theorems ask for. -/
import proofs.«151566_j35021163331665_1_alg».proof.Proof.Gen.Kernel.Launch
import proofs.«151566_j35021163331665_1_alg».proof.Proof.Gen.Kernel.Skeleton
import proofs.«151566_j35021163331665_1_alg».proof.Proof.Gen.Kernel.Points
import Idealize.ShloMosaic.Lib.Pipeline.FrameBody
import Idealize.ShloMosaic.Lib.Ring
import Idealize.ShloMosaic.Lib.Tactic

-- membership in a rectangle of 5000 rows: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (a window
    not fetched at a point has the block index of the point before), for any proof data whose array is `V`'s and
    whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not (a window
    not fetched at a point has the block index of the point before), for any proof data whose array is `V`'s and
    whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not (a window
    not fetched at a point has the block index of the point before), for any proof data whose array is `V`'s and
    whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not (a window
    not fetched at a point has the block index of the point before), for any proof data whose array is `V`'s and
    whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not (a window
    not fetched at a point has the block index of the point before), for any proof data whose array is `V`'s and
    whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: the whole [5000,128] block and the whole [1,128] row -/

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0

/-! ## What the body leaves in the output window's buffer -/

/-- Window 5's staging buffer after the body, from the input windows' blocks (`x0` the activations, `x1` the mean,
    `x2` the variance, `x3` the scale, `x4` the shift): its one whole-block store. The payload takes the variance
    row before the mean row, the order in which the body loads them. -/
def out3_5 (x0 : Vec F S5000x128 .f32) (x1 x2 x3 x4 : Vec F S1x128 .f32) : Vec F S5000x128 .f32 :=
  View.canon [⟨r3_0, k3_pay1 (View.ld x0 r3_0) (View.ld x2 r3_1) (View.ld x1 r3_1) (View.ld x3 r3_1) (View.ld x4 r3_1)⟩]

/-- The one store is of the whole buffer, so it covers it. -/
theorem cover3_5 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at contents `x0 … x4` and the output's at anything, runs to
    the continuation holding the inputs' as they were and the output's at `out3_5` of the inputs'. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point `t`
    each input's buffer at its block and the output's at `out3_5` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.WCls4.lean ====
/- Region 4 of the program: the matmul-plus-bias kernel `cc4__matmul_bias_kernel` on a grid of 20 points. Each point stages
   one block of 5000 rows of the [100000,128] left operand, the whole [128,40] weight and the [1,40] bias row, and
   stores, as one whole [5000,40] block, the product of the block with the weight plus the bias row.
   This module states, at any float instance and at any region-entry contents `V`: each window's block at a point,
   the output block as a function of the input blocks, the body's triple, the pipeline's proof data and the
   body obligation the launch theorems ask for. -/
import proofs.«151566_j35021163331665_1_alg».proof.Proof.Gen.Kernel.Launch
import proofs.«151566_j35021163331665_1_alg».proof.Proof.Gen.Kernel.Skeleton
import proofs.«151566_j35021163331665_1_alg».proof.Proof.Gen.Kernel.Points
import Idealize.ShloMosaic.Lib.Pipeline.FrameBody
import Idealize.ShloMosaic.Lib.Ring
import Idealize.ShloMosaic.Lib.Tactic

-- membership in a rectangle of 5000 rows: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (a window
    not fetched at a point has the block index of the point before), for any proof data whose array is `V`'s and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not (a window
    not fetched at a point has the block index of the point before), for any proof data whose array is `V`'s and
    whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not (a window
    not fetched at a point has the block index of the point before), for any proof data whose array is `V`'s and
    whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each staging buffer whole -/

abbrev r4_0 : Rect S5000x128 := Rect.unit (s := S5000x128) ![0, 0] S5000x128.size inb_S5000x128_S5000x128_0_0
abbrev r4_1 : Rect S128x40 := Rect.unit (s := S128x40) ![0, 0] S128x40.size inb_S128x40_S128x40_0_0
abbrev r4_2 : Rect S1x40 := Rect.unit (s := S1x40) ![0, 0] S1x40.size inb_S1x40_S1x40_0_0
abbrev r4_3 : Rect S5000x40 := Rect.unit (s := S5000x40) ![0, 0] S5000x40.size inb_S5000x40_S5000x40_0_0

/-! ## What the body leaves in the output window's buffer -/

/-- Window 3's staging buffer after the body, from the input windows' blocks (`x0` the left operand's block, `x1`
    the weight, `x2` the bias row): its one whole-block store. -/
def out4_3 (x0 : Vec F S5000x128 .f32) (x1 : Vec F S128x40 .f32) (x2 : Vec F S1x40 .f32) : Vec F S5000x40 .f32 :=
  View.canon [⟨r4_3, k4_pay1 (View.ld x0 r4_0) (View.ld x1 r4_1) (View.ld x2 r4_2)⟩]

/-- The one store is of the whole buffer, so it covers it. -/
theorem cover4_3 (p0 : Vec F S5000x40 .f32) (y : S5000x40.Idx) :
    ∃ pc ∈ ([⟨r4_3, p0⟩] : List (View.Piece (Elt F) S5000x40 .f32)), y ∈ pc.1.set :=
  View.cover_of_tiled [⟨r4_3, p0⟩] S5000x40.size (by rfl) y

/-! ## The body's triple -/

set_option maxHeartbeats 1000000 in
/-- The kernel body on whole staging memrefs, the inputs' at contents `x0 x1 x2` and the output's at anything, runs
    to the continuation holding the inputs' as they were and the output's at `out4_3` of the inputs'. -/
theorem sound_kernel4 (c : Dev nD) (E : Set ℕ) (i : grid4.Coords)
    (arg1 : Memref sig .tc .vmem S5000x128 .f32) (harg1 : arg1.IsWhole) (arg2 : Memref sig .tc .vmem S128x40 .f32) (harg2 : arg2.IsWhole)
    (arg3 : Memref sig .tc .vmem S1x40 .f32) (harg3 : arg3.IsWhole) (arg4 : Memref sig .tc .vmem S5000x40 .f32) (harg4 : arg4.IsWhole)
    (x0 : Vec F S5000x128 .f32) (x1 : Vec F S128x40 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__matmul_bias_kernel i arg1 harg1 arg2 harg2 arg3 harg3 arg4 harg4) K := by
  simp only [cc4__matmul_bias_kernel_eq_skeleton]; unfold cc4__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them; after the body at point `t`
    each input's buffer at its block and the output's at `out4_3` of the input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.WKRun.lean ====
/-
  The kernel program as a whole: @main is five host stretches alternating with five kernel regions. The contents of
  the unscoped buffers between the items are named one after the other (after a host stretch: the stretch's
  operations applied; after a region: its arrays at what the pipeline leaves, the rest untouched), each region is
  entered from the contents before it and left at the contents after it, and the run ends with every unscoped
  buffer at the last contents. The frame claim and the result's value are both read off that.
-/
import proofs.«151566_j35021163331665_1_alg».proof.Proof.WS0Dat
import proofs.«151566_j35021163331665_1_alg».proof.Proof.WS2Dat
import proofs.«151566_j35021163331665_1_alg».proof.Proof.WCls1
import proofs.«151566_j35021163331665_1_alg».proof.Proof.WCls3
import proofs.«151566_j35021163331665_1_alg».proof.Proof.WCls4
import proofs.«151566_j35021163331665_1_alg».proof.Proof.Gen.Kernel.Regions
import Idealize.ShloMosaic.Lib.Pipeline.RegionsLoop
import Idealize.ShloMosaic.Lib.Pipeline.Regions
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

abbrev W0 : Dev nD → Valuation τ sig (Elt F) := fun c b => m (c, b)

/-- After the host stretch 0. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- After region 0: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the host stretch 1. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b

/-- After region 1: its arrays at what the pipeline leaves, every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-- After the host stretch 2. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b

/-- After region 2: its arrays at what the pipeline leaves, every other buffer as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

/-- After the host stretch 3. -/
abbrev W7 : Dev nD → Valuation τ sig (Elt F) := fun c => StableHlo.after hostOps3 (W6 m c)
abbrev U7 : (c : Dev nD) → (b : Ref sig .tc) → Buf (Elt F) ((c : Thread nD τ).loc b) := fun c b => W7 m c b

/-- After region 3: its arrays at what the pipeline leaves, every other buffer as entered. -/
def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)

/-- After the host stretch 4. -/
abbrev W9 : Dev nD → Valuation τ sig (Elt F) := fun c => StableHlo.after hostOps4 (W8 m c)
abbrev U9 : (c : Dev nD) → (b : Ref sig .tc) → Buf (Elt F) ((c : Thread nD τ).loc b) := fun c b => W9 m c b

/-- After region 4: its arrays at what the pipeline leaves, every other buffer as entered. -/
def W10 (c : Dev nD) : Valuation τ sig (Elt F) :=
  Pipeline.withArrays spec4 c (W9 m c) fun w => (dat4 (U9 m) c).arrAt w cfg4.N
theorem W10_arr (c : Dev nD) (w : Fin cfg4.W) :
    W10 m c (Proc.devRef .tc (Pipeline.arrRef spec4 w)) = (dat4 (U9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev U10 : (c : Dev nD) → (b : Ref sig .tc) → Buf (Elt F) ((c : Thread nD τ).loc b) := fun c b => W10 m c b
theorem hF4 (c : Dev nD) (w : Fin cfg4.W) : (dat4 (U9 m) c).arrAt w cfg4.N = U10 m c (Pipeline.arrRef spec4 w) :=
  (W10_arr m c w).symm
theorem hrest4 (c : Dev nD) : ∀ b, b ∉ Finset.univ.image (Pipeline.arrRef spec4) → U10 m c b = U9 m c b :=
  fun b hb => W10_of_ne m c b fun w e => hb (Finset.mem_image.mpr ⟨w, Finset.mem_univ _, e⟩)

/-! ## The proof data family and what rides along -/

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
abbrev 𝒱₀ : Variants := Variants.none
abbrev L : GSem nD τ sig → Finset Unit := fun _ => ∅
abbrev lv : GSem nD τ sig → Unit → ℕ := fun _ _ => 0
/-- Beside the buffers: the core's generator register at some state and its owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 over the thread state: entered with every unscoped buffer at the contents before it, left with them at
    the contents after it; its arrays split out of the unscoped buffers and put back at what the pipeline leaves;
    the generator register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it; its arrays split out of the unscoped buffers and put back at what the pipeline leaves;
    the generator register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at
    the contents after it; its arrays split out of the unscoped buffers and put back at what the pipeline leaves;
    the generator register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from hout2 (U5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the contents before it, left with them at
    the contents after it; its arrays split out of the unscoped buffers and put back at what the pipeline leaves;
    the generator register into the invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdats m 3 c).Φ (Fin.last _) = Pipeline.ΦA spec3 c from rfl]
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U7 m c) (U8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at the contents before it, left with them at
    the contents after it; its arrays split out of the unscoped buffers and put back at what the pipeline leaves;
    the generator register into the invariant and out; nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    rw [show (pdats m 4 c).Φ (Fin.last _) = Pipeline.ΦA spec4 c from rfl]
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U9 m c) (U10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the list of its items, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m) ]

set_option backward.isDefEq.respectTransparency.types false in
/-- Every weakly fair execution of @main from memory m with zero counters terminates, nothing faulting, and every final
    memory holds each unscoped buffer at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W10 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.Kernel.Hand

end
-- ==== Proof.WKFrame.lean ====
/-
  The kernel program's frame: every argument array ends as launched. No host stretch writes an argument and no region
  changes one (a region hands its input arrays back as it found them), so the last contents of an argument are the
  launch contents; the run ends with every unscoped buffer at the last contents.
-/
import proofs.«151566_j35021163331665_1_alg».proof.Proof.WKRun
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W1_keep (c : Dev nD) (r : Ref sig .tc) (hr : r ∉ hostOps0_W) :
    W1 m c (Proc.devRef .tc r) = W0 m c (Proc.devRef .tc r) :=
  StableHlo.after_of_writes_sub hostOps0 _ hostOps0_writes hr

/-- A window of region 0 that is an output stages one of its result arrays. -/
theorem outs0_mem : ∀ w : Fin 6, (cfg0.win w).isOut = true → Pipeline.arrRef spec0 w ∈ ([main_v15_0, main_v15_1, main_v15_2] : List (Ref sig .tc)) := by
  decide +kernel

/-- Region 0 changes only its result arrays: any other buffer is as entered (an input window's array is never
    written; a buffer no window stages is untouched by definition). -/
theorem W2_keep (c : Dev nD) (r : Ref sig .tc) (hr : r ∉ ([main_v15_0, main_v15_1, main_v15_2] : List (Ref sig .tc))) :
    W2 m c (Proc.devRef .tc r) = W1 m c (Proc.devRef .tc r) := by
  by_cases h : ∃ w, Pipeline.arrRef spec0 w = r
  · obtain ⟨w, rfl⟩ := h
    have hw : (cfg0.win w).isOut = false := by
      cases hb : (cfg0.win w).isOut with
      | false => rfl
      | true => exact absurd (outs0_mem w hb) hr
    rw [W2_arr]
    exact ((dat0 (U1 m) c).arrAt_in w hw _).trans (A_eq0 (U1 m) c w)
  · exact W2_of_ne m c r fun w e => h ⟨w, e⟩

theorem W3_keep (c : Dev nD) (r : Ref sig .tc) (hr : r ∉ hostOps1_W) :
    W3 m c (Proc.devRef .tc r) = W2 m c (Proc.devRef .tc r) :=
  StableHlo.after_of_writes_sub hostOps1 _ hostOps1_writes hr

/-- A window of region 1 that is an output stages one of its result arrays. -/
theorem outs1_mem : ∀ w : Fin 6, (cfg1.win w).isOut = true → Pipeline.arrRef spec1 w ∈ ([main_v24] : List (Ref sig .tc)) := by
  decide +kernel

/-- Region 1 changes only its result arrays: any other buffer is as entered (an input window's array is never
    written; a buffer no window stages is untouched by definition). -/
theorem W4_keep (c : Dev nD) (r : Ref sig .tc) (hr : r ∉ ([main_v24] : List (Ref sig .tc))) :
    W4 m c (Proc.devRef .tc r) = W3 m c (Proc.devRef .tc r) := by
  by_cases h : ∃ w, Pipeline.arrRef spec1 w = r
  · obtain ⟨w, rfl⟩ := h
    have hw : (cfg1.win w).isOut = false := by
      cases hb : (cfg1.win w).isOut with
      | false => rfl
      | true => exact absurd (outs1_mem w hb) hr
    rw [W4_arr]
    exact ((dat1 (U3 m) c).arrAt_in w hw _).trans (A_eq1 (U3 m) c w)
  · exact W4_of_ne m c r fun w e => h ⟨w, e⟩

theorem W5_keep (c : Dev nD) (r : Ref sig .tc) (hr : r ∉ hostOps2_W) :
    W5 m c (Proc.devRef .tc r) = W4 m c (Proc.devRef .tc r) :=
  StableHlo.after_of_writes_sub hostOps2 _ hostOps2_writes hr

/-- A window of region 2 that is an output stages one of its result arrays. -/
theorem outs2_mem : ∀ w : Fin 6, (cfg2.win w).isOut = true → Pipeline.arrRef spec2 w ∈ ([main_v40_0, main_v40_1, main_v40_2] : List (Ref sig .tc)) := by
  decide +kernel

/-- Region 2 changes only its result arrays: any other buffer is as entered (an input window's array is never
    written; a buffer no window stages is untouched by definition). -/
theorem W6_keep (c : Dev nD) (r : Ref sig .tc) (hr : r ∉ ([main_v40_0, main_v40_1, main_v40_2] : List (Ref sig .tc))) :
    W6 m c (Proc.devRef .tc r) = W5 m c (Proc.devRef .tc r) := by
  by_cases h : ∃ w, Pipeline.arrRef spec2 w = r
  · obtain ⟨w, rfl⟩ := h
    have hw : (cfg2.win w).isOut = false := by
      cases hb : (cfg2.win w).isOut with
      | false => rfl
      | true => exact absurd (outs2_mem w hb) hr
    rw [W6_arr]
    exact ((dat2 (U5 m) c).arrAt_in w hw _).trans (A_eq2 (U5 m) c w)
  · exact W6_of_ne m c r fun w e => h ⟨w, e⟩

theorem W7_keep (c : Dev nD) (r : Ref sig .tc) (hr : r ∉ hostOps3_W) :
    W7 m c (Proc.devRef .tc r) = W6 m c (Proc.devRef .tc r) :=
  StableHlo.after_of_writes_sub hostOps3 _ hostOps3_writes hr

/-- A window of region 3 that is an output stages one of its result arrays. -/
theorem outs3_mem : ∀ w : Fin 6, (cfg3.win w).isOut = true → Pipeline.arrRef spec3 w ∈ ([main_v49] : List (Ref sig .tc)) := by
  decide +kernel

/-- Region 3 changes only its result arrays: any other buffer is as entered (an input window's array is never
    written; a buffer no window stages is untouched by definition). -/
theorem W8_keep (c : Dev nD) (r : Ref sig .tc) (hr : r ∉ ([main_v49] : List (Ref sig .tc))) :
    W8 m c (Proc.devRef .tc r) = W7 m c (Proc.devRef .tc r) := by
  by_cases h : ∃ w, Pipeline.arrRef spec3 w = r
  · obtain ⟨w, rfl⟩ := h
    have hw : (cfg3.win w).isOut = false := by
      cases hb : (cfg3.win w).isOut with
      | false => rfl
      | true => exact absurd (outs3_mem w hb) hr
    rw [W8_arr]
    exact ((dat3 (U7 m) c).arrAt_in w hw _).trans (A_eq3 (U7 m) c w)
  · exact W8_of_ne m c r fun w e => h ⟨w, e⟩

theorem W9_keep (c : Dev nD) (r : Ref sig .tc) (hr : r ∉ hostOps4_W) :
    W9 m c (Proc.devRef .tc r) = W8 m c (Proc.devRef .tc r) :=
  StableHlo.after_of_writes_sub hostOps4 _ hostOps4_writes hr

/-- A window of region 4 that is an output stages one of its result arrays. -/
theorem outs4_mem : ∀ w : Fin 4, (cfg4.win w).isOut = true → Pipeline.arrRef spec4 w ∈ ([main_v64] : List (Ref sig .tc)) := by
  decide +kernel

/-- Region 4 changes only its result arrays: any other buffer is as entered (an input window's array is never
    written; a buffer no window stages is untouched by definition). -/
theorem W10_keep (c : Dev nD) (r : Ref sig .tc) (hr : r ∉ ([main_v64] : List (Ref sig .tc))) :
    W10 m c (Proc.devRef .tc r) = W9 m c (Proc.devRef .tc r) := by
  by_cases h : ∃ w, Pipeline.arrRef spec4 w = r
  · obtain ⟨w, rfl⟩ := h
    have hw : (cfg4.win w).isOut = false := by
      cases hb : (cfg4.win w).isOut with
      | false => rfl
      | true => exact absurd (outs4_mem w hb) hr
    rw [W10_arr]
    exact ((dat4 (U9 m) c).arrAt_in w hw _).trans (A_eq4 (U9 m) c w)
  · exact W10_of_ne m c r fun w e => h ⟨w, e⟩

/-- A buffer nothing writes reaches the end as launched. -/
theorem W10_arg (c : Dev nD) (r : Ref sig .tc) (h0 : r ∉ hostOps0_W) (h1 : r ∉ ([main_v15_0, main_v15_1, main_v15_2] : List (Ref sig .tc)))
    (h2 : r ∉ hostOps1_W) (h3 : r ∉ ([main_v24] : List (Ref sig .tc))) (h4 : r ∉ hostOps2_W)
    (h5 : r ∉ ([main_v40_0, main_v40_1, main_v40_2] : List (Ref sig .tc))) (h6 : r ∉ hostOps3_W) (h7 : r ∉ ([main_v49] : List (Ref sig .tc)))
    (h8 : r ∉ hostOps4_W) (h9 : r ∉ ([main_v64] : List (Ref sig .tc))) :
    W10 m c (Proc.devRef .tc r) = m ((c : Thread nD τ).loc r) :=
  (W10_keep m c r h9).trans <| (W9_keep m c r h8).trans <| (W8_keep m c r h7).trans <| (W7_keep m c r h6).trans <|
    (W6_keep m c r h5).trans <| (W5_keep m c r h4).trans <| (W4_keep m c r h3).trans <| (W3_keep m c r h2).trans <|
    (W2_keep m c r h1).trans <| (W1_keep m c r h0).trans rfl

/-- THE FRAME, at any float instance: @main runs to the end, nothing faulting, and every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c _ (mem_uc main_arg0 (by decide))).trans (W10_arg m c main_arg0 (by decide) (by decide) (by decide) (by decide) (by decide) (by decide) (by decide) (by decide) (by decide) (by decide)),
    (h c _ (mem_uc main_arg1 (by decide))).trans (W10_arg m c main_arg1 (by decide) (by decide) (by decide) (by decide) (by decide) (by decide) (by decide) (by decide) (by decide) (by decide)),
    (h c _ (mem_uc main_arg2 (by decide))).trans (W10_arg m c main_arg2 (by decide) (by decide) (by decide) (by decide) (by decide) (by decide) (by decide) (by decide) (by decide) (by decide)),
    (h c _ (mem_uc main_arg3 (by decide))).trans (W10_arg m c main_arg3 (by decide) (by decide) (by decide) (by decide) (by decide) (by decide) (by decide) (by decide) (by decide) (by decide)),
    (h c _ (mem_uc main_arg4 (by decide))).trans (W10_arg m c main_arg4 (by decide) (by decide) (by decide) (by decide) (by decide) (by decide) (by decide) (by decide) (by decide) (by decide)),
    (h c _ (mem_uc main_arg5 (by decide))).trans (W10_arg m c main_arg5 (by decide) (by decide) (by decide) (by decide) (by decide) (by decide) (by decide) (by decide) (by decide) (by decide)),
    (h c _ (mem_uc main_arg6 (by decide))).trans (W10_arg m c main_arg6 (by decide) (by decide) (by decide) (by decide) (by decide) (by decide) (by decide) (by decide) (by decide) (by decide)),
    (h c _ (mem_uc main_arg7 (by decide))).trans (W10_arg m c main_arg7 (by decide) (by decide) (by decide) (by decide) (by decide) (by decide) (by decide) (by decide) (by decide) (by decide)),
    (h c _ (mem_uc main_arg8 (by decide))).trans (W10_arg m c main_arg8 (by decide) (by decide) (by decide) (by decide) (by decide) (by decide) (by decide) (by decide) (by decide) (by decide)),
    (h c _ (mem_uc main_arg9 (by decide))).trans (W10_arg m c main_arg9 (by decide) (by decide) (by decide) (by decide) (by decide) (by decide) (by decide) (by decide) (by decide) (by decide)),
    (h c _ (mem_uc main_arg10 (by decide))).trans (W10_arg m c main_arg10 (by decide) (by decide) (by decide) (by decide) (by decide) (by decide) (by decide) (by decide) (by decide) (by decide)),
    (h c _ (mem_uc main_arg11 (by decide))).trans (W10_arg m c main_arg11 (by decide) (by decide) (by decide) (by decide) (by decide) (by decide) (by decide) (by decide) (by decide) (by decide))⟩) (run_all m ρ)

end Cert.Kernel.Hand

end
-- ==== Proof.RefFn.lean ====
/- The reference program's value as composed pure terms of its argument arrays.

   One graph-convolution layer aggregates the node features along the edges: every edge `e` gathers row
   `src e` of the features (a negative index wrapped by the number of nodes), scales it by the edge
   weight `ew e`, and the scaled rows are summed into row `dst e` of a zero array (`agg`); the
   aggregate is then multiplied by the layer's weight matrix. Layers 1 and 2 are followed by a batch
   normalisation over the node axis — subtract the column mean, multiply by the reciprocal square root
   of the column variance plus a small constant, scale by `gamma`, shift by `beta` — and a rectifier
   (`bnRelu`); layer 3 adds a bias row. The three layers apply the same operations, literal for
   literal, so each is the same definition at other arguments. -/
import proofs.«151566_j35021163331665_1_alg».proof.Proof.Gen.ReferenceIdeal

noncomputable section

namespace Cert.ReferenceIdeal.Hand

open Cert.ReferenceIdeal Cert.ReferenceIdeal.Gen Idealize.ShloMosaic Idealize.SL.Sem

variable {F : FTy → Type} [FloatOps F]

/-! ## One layer's aggregation -/

/-- The edge aggregation: `out[dst e, :] += x[src e, :] * ew e` over all edges `e`, from a zero array;
    a negative source index is first wrapped by adding the number of nodes. -/
def agg (x : FVec F S100000x128 .f32) (src dst : Vec F S1600000 .i32) (ew : FVec F S1600000 .f32) :
    FVec F S100000x128 .f32 :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 dst)
    (mulf
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 ew)))

/-! ## Batch normalisation over the node axis, then the rectifier -/

/-- The column sums of `h`, from zero. -/
def colSum (h : FVec F S100000x128 .f32) : FVec F S128 .f32 :=
  Host.reduceAdd h (constant (F := F) S_ .f32 0x00000000#32) reducesTo_S100000x128_S128_d0 h_S_

/-- The column means: the column sums over the number of nodes (the float 100000). -/
def mean128 (h : FVec F S100000x128 .f32) : FVec F S128 .f32 :=
  Host.divf (colSum h) (broadcastInDim S128 ![] bcast_S_S128 (constant (F := F) S_ .f32 0x47C35000#32))

/-- The same means as the variance computes them for itself: as a row `[1, 128]`. -/
def meanRow (h : FVec F S100000x128 .f32) : FVec F S1x128 .f32 :=
  Host.divf (broadcastInDim S1x128 ![1] bcast_S128_S1x128_1 (colSum h))
    (broadcastInDim S1x128 ![] bcast_S_S1x128 (constant (F := F) S_ .f32 0x47C35000#32))

/-- `h` minus its column means. -/
def centered (h : FVec F S100000x128 .f32) : FVec F S100000x128 .f32 :=
  subf h (broadcastInDim S100000x128 ![0, 1] bcast_S1x128_S100000x128_0_1 (meanRow h))

/-- The variance's divisor: the number of nodes minus the (zero) degrees-of-freedom correction. -/
def count : FVec F S_ .f32 :=
  subf (constant (F := F) S_ .f32 0x47C35000#32) (sitofp .f32 (constantI S_ 32 0#32))

/-- The column variances: the column sums of the squared centred entries over `count`, where `count` is
    positive; the quiet-NaN word otherwise. -/
def var128 (h : FVec F S100000x128 .f32) : FVec F S128 .f32 :=
  select (broadcastInDim S128 ![] bcast_S_S128 (cmpf .ogt (count (F := F)) (constant (F := F) S_ .f32 0x00000000#32)))
    (Host.divf
      (Host.reduceAdd (mulf (centered h) (centered h)) (constant (F := F) S_ .f32 0x00000000#32)
        reducesTo_S100000x128_S128_d0 h_S_)
      (broadcastInDim S128 ![] bcast_S_S128 (count (F := F))))
    (broadcastInDim S128 ![] bcast_S_S128 (constant (F := F) S_ .f32 0x7FC00000#32))

/-- Normalise each column of `h`, scale by `gamma`, shift by `beta`, and keep the positive part. -/
def bnRelu (h : FVec F S100000x128 .f32) (gamma beta : FVec F S128 .f32) : FVec F S100000x128 .f32 :=
  maximumf
    (addf
      (mulf
        (mulf
          (subf h (broadcastInDim S100000x128 ![0, 1] bcast_S1x128_S100000x128_0_1
            (broadcastInDim S1x128 ![1] bcast_S128_S1x128_1 (mean128 h))))
          (broadcastInDim S100000x128 ![0, 1] bcast_S1x128_S100000x128_0_1
            (broadcastInDim S1x128 ![1] bcast_S128_S1x128_1
              (Host.rsqrt (addf (var128 h)
                (broadcastInDim S128 ![] bcast_S_S128 (constant (F := F) S_ .f32 0x3727C5AC#32)))))))
        (broadcastInDim S100000x128 ![0, 1] bcast_S1x128_S100000x128_0_1
          (broadcastInDim S1x128 ![1] bcast_S128_S1x128_1 gamma)))
      (broadcastInDim S100000x128 ![0, 1] bcast_S1x128_S100000x128_0_1
        (broadcastInDim S1x128 ![1] bcast_S128_S1x128_1 beta)))
    (broadcastInDim S100000x128 ![] bcast_S_S100000x128 (constant (F := F) S_ .f32 0x00000000#32))

/-! ## The three layers -/

/-- A hidden layer before its normalisation: the aggregate times the layer's square weight matrix. -/
def hidden (x : FVec F S100000x128 .f32) (src dst : Vec F S1600000 .i32) (ew : FVec F S1600000 .f32)
    (w : FVec F S128x128 .f32) : FVec F S100000x128 .f32 :=
  Host.dotGeneral dot_S100000x128_S128x128_S100000x128_1_0_0_1_n_n none (agg x src dst ew) w

/-- The output layer: the aggregate times the `[128, 40]` weight matrix, plus the bias row. -/
def outLayer (x : FVec F S100000x128 .f32) (src dst : Vec F S1600000 .i32) (ew : FVec F S1600000 .f32)
    (w : FVec F S128x40 .f32) (b : FVec F S40 .f32) : FVec F S100000x40 .f32 :=
  addf (Host.dotGeneral dot_S100000x128_S128x40_S100000x40_1_0_0_1_n_n none (agg x src dst ew) w)
    (broadcastInDim S100000x40 ![0, 1] bcast_S1x40_S100000x40_0_1 (broadcastInDim S1x40 ![1] bcast_S40_S1x40_1 b))

/-- The reference's result as one function of its twelve argument arrays. -/
def result (a0 : FVec F S100000x128 .f32) (a1 a2 : Vec F S1600000 .i32) (a3 : FVec F S1600000 .f32)
    (a4 a5 : FVec F S128x128 .f32) (a6 : FVec F S128x40 .f32) (a7 : FVec F S40 .f32)
    (a8 a9 a10 a11 : FVec F S128 .f32) : FVec F S100000x40 .f32 :=
  outLayer (bnRelu (hidden (bnRelu (hidden a0 a1 a2 a3 a4) a8 a9) a1 a2 a3 a5) a10 a11) a1 a2 a3 a6 a7

/-- `result` spelt with the contractions in place. -/
theorem result_eq (a0 : FVec F S100000x128 .f32) (a1 a2 : Vec F S1600000 .i32) (a3 : FVec F S1600000 .f32)
    (a4 a5 : FVec F S128x128 .f32) (a6 : FVec F S128x40 .f32) (a7 : FVec F S40 .f32)
    (a8 a9 a10 a11 : FVec F S128 .f32) :
    result a0 a1 a2 a3 a4 a5 a6 a7 a8 a9 a10 a11
      = addf (Host.dotGeneral dot_S100000x128_S128x40_S100000x40_1_0_0_1_n_n none
          (agg (bnRelu (Host.dotGeneral dot_S100000x128_S128x128_S100000x128_1_0_0_1_n_n none
            (agg (bnRelu (Host.dotGeneral dot_S100000x128_S128x128_S100000x128_1_0_0_1_n_n none
              (agg a0 a1 a2 a3) a4) a8 a9) a1 a2 a3) a5) a10 a11) a1 a2 a3) a6)
          (broadcastInDim S100000x40 ![0, 1] bcast_S1x40_S100000x40_0_1 (broadcastInDim S1x40 ![1] bcast_S40_S1x40_1 a7)) :=
  rfl

end Cert.ReferenceIdeal.Hand

end
-- ==== Proof.RefOps.lean ====
/- The reference's @main as a list of host operations, the three outlined functions written out at
   their call sites over each call's own buffers, and the list cut where the layers meet: the first
   layer's aggregation and contraction, its normalisation and rectifier, the same two for the second
   layer, and the output layer. For each stretch, the buffers it writes. -/
import proofs.«151566_j35021163331665_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.SL.Sem Idealize.ShloMosaic.StableHlo

variable {F : FTy → Type} [FloatOps F]

/-- Operations 1 … 17 — layer 1: the edge aggregation and the contraction with the first weight matrix. -/
abbrev ops1 : List (HloOp τ sig (Elt F)) :=
  [ StableHlo.nullary main_c (constantI S_ 32 0#32),
    StableHlo.unary main_c main_v0 (broadcastInDim S1600000 ![] bcast_S_S1600000 : (⟨S_, .i32⟩ : BufTy).Contents (Elt F) → (⟨S1600000, .i32⟩ : BufTy).Contents (Elt F)),
    StableHlo.binary main_arg1 main_v0 main_v1 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v2 (broadcastInDim S1600000 ![] bcast_S_S1600000 : (⟨S_, .i32⟩ : BufTy).Contents (Elt F) → (⟨S1600000, .i32⟩ : BufTy).Contents (Elt F)),
    StableHlo.binary main_arg1 main_v2 main_v3 (addi : (⟨S1600000, .i32⟩ : BufTy).Contents (Elt F) → (⟨S1600000, .i32⟩ : BufTy).Contents (Elt F) → (⟨S1600000, .i32⟩ : BufTy).Contents (Elt F)),
    StableHlo.ternary main_v1 main_v3 main_arg1 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v4 main_v5 (broadcastInDim S1600000x1 ![0] bcast_S1600000_S1600000x1_0 : (⟨S1600000, .i32⟩ : BufTy).Contents (Elt F) → (⟨S1600000x1, .i32⟩ : BufTy).Contents (Elt F)),
    StableHlo.binary main_arg0 main_v5 main_v6 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_arg3 main_v7 (broadcastInDim S1600000x1 ![0] bcast_S1600000_S1600000x1_0 : (⟨S1600000, .f32⟩ : BufTy).Contents (Elt F) → (⟨S1600000x1, .f32⟩ : BufTy).Contents (Elt F)),
    StableHlo.unary main_v7 main_v8 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v6 main_v8 main_v9 (mulf : (⟨S1600000x128, .f32⟩ : BufTy).Contents (Elt F) → (⟨S1600000x128, .f32⟩ : BufTy).Contents (Elt F) → (⟨S1600000x128, .f32⟩ : BufTy).Contents (Elt F)),
    StableHlo.nullary main_cst (constant S_ .f32 0x00000000#32),
    StableHlo.unary main_cst main_v10 (broadcastInDim S100000x128 ![] bcast_S_S100000x128 : (⟨S_, .f32⟩ : BufTy).Contents (Elt F) → (⟨S100000x128, .f32⟩ : BufTy).Contents (Elt F)),
    StableHlo.unary main_arg2 main_v11 (broadcastInDim S1600000x1 ![0] bcast_S1600000_S1600000x1_0 : (⟨S1600000, .i32⟩ : BufTy).Contents (Elt F) → (⟨S1600000x1, .i32⟩ : BufTy).Contents (Elt F)),
    StableHlo.ternary main_v10 main_v11 main_v9 main_v12 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v12 main_arg4 main_v13 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 18 … 64 — layer 1: the column mean and variance, the normalisation, and the rectifier. -/
abbrev ops2 : List (HloOp τ sig (Elt F)) :=
  [ StableHlo.nullary main_cst_1 (constant S_ .f32 0x00000000#32),
    StableHlo.binary main_v13 main_cst_1 main_v14 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v15 (broadcastInDim S128 ![] bcast_S_S128 : (⟨S_, .f32⟩ : BufTy).Contents (Elt F) → (⟨S128, .f32⟩ : BufTy).Contents (Elt F)),
    StableHlo.binary main_v14 main_v15 main_v16 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (StableHlo.TRef.of main_v13 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (StableHlo.TRef.of main_v13 : StableHlo.TRef sig ⟨S100000x128, .f32⟩) main_call0.v4 main_call0.v5 subf,
    StableHlo.TRef.binary main_call0.v5 main_call0.v5 main_call0.v6 mulf,
    StableHlo.TRef.unary (StableHlo.TRef.of main_c_3 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v16 main_v18 (broadcastInDim S1x128 ![1] bcast_S128_S1x128_1 : (⟨S128, .f32⟩ : BufTy).Contents (Elt F) → (⟨S1x128, .f32⟩ : BufTy).Contents (Elt F)),
    StableHlo.unary main_v18 main_v19 (broadcastInDim S100000x128 ![0, 1] bcast_S1x128_S100000x128_0_1 : (⟨S1x128, .f32⟩ : BufTy).Contents (Elt F) → (⟨S100000x128, .f32⟩ : BufTy).Contents (Elt F)),
    StableHlo.binary main_v13 main_v19 main_v20 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v21 (broadcastInDim S128 ![] bcast_S_S128 : (⟨S_, .f32⟩ : BufTy).Contents (Elt F) → (⟨S128, .f32⟩ : BufTy).Contents (Elt F)),
    StableHlo.binary main_v17 main_v21 main_v22 (addf : (⟨S128, .f32⟩ : BufTy).Contents (Elt F) → (⟨S128, .f32⟩ : BufTy).Contents (Elt F) → (⟨S128, .f32⟩ : BufTy).Contents (Elt F)),
    StableHlo.unary main_v22 main_v23 (Host.rsqrt : (⟨S128, .f32⟩ : BufTy).Contents (Elt F) → (⟨S128, .f32⟩ : BufTy).Contents (Elt F)),
    StableHlo.unary main_v23 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S100000x128 ![0, 1] bcast_S1x128_S100000x128_0_1 : (⟨S1x128, .f32⟩ : BufTy).Contents (Elt F) → (⟨S100000x128, .f32⟩ : BufTy).Contents (Elt F)),
    StableHlo.binary main_v20 main_v25 main_v26 (mulf : (⟨S100000x128, .f32⟩ : BufTy).Contents (Elt F) → (⟨S100000x128, .f32⟩ : BufTy).Contents (Elt F) → (⟨S100000x128, .f32⟩ : BufTy).Contents (Elt F)),
    StableHlo.unary main_arg8 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S100000x128 ![0, 1] bcast_S1x128_S100000x128_0_1 : (⟨S1x128, .f32⟩ : BufTy).Contents (Elt F) → (⟨S100000x128, .f32⟩ : BufTy).Contents (Elt F)),
    StableHlo.binary main_v26 main_v28 main_v29 (mulf : (⟨S100000x128, .f32⟩ : BufTy).Contents (Elt F) → (⟨S100000x128, .f32⟩ : BufTy).Contents (Elt F) → (⟨S100000x128, .f32⟩ : BufTy).Contents (Elt F)),
    StableHlo.unary main_arg9 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S100000x128 ![0, 1] bcast_S1x128_S100000x128_0_1 : (⟨S1x128, .f32⟩ : BufTy).Contents (Elt F) → (⟨S100000x128, .f32⟩ : BufTy).Contents (Elt F)),
    StableHlo.binary main_v29 main_v31 main_v32 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (StableHlo.TRef.of main_v32 : StableHlo.TRef sig ⟨S100000x128, .f32⟩) main_call1.v0 main_call1.v1 maximumf ]

/-- Operations 65 … 81 — layer 2: the edge aggregation and the contraction with the second weight matrix. -/
abbrev ops3 : List (HloOp τ sig (Elt F)) :=
  [ StableHlo.nullary main_c_5 (constantI S_ 32 0#32),
    StableHlo.unary main_c_5 main_v34 (broadcastInDim S1600000 ![] bcast_S_S1600000 : (⟨S_, .i32⟩ : BufTy).Contents (Elt F) → (⟨S1600000, .i32⟩ : BufTy).Contents (Elt F)),
    StableHlo.binary main_arg1 main_v34 main_v35 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v36 (broadcastInDim S1600000 ![] bcast_S_S1600000 : (⟨S_, .i32⟩ : BufTy).Contents (Elt F) → (⟨S1600000, .i32⟩ : BufTy).Contents (Elt F)),
    StableHlo.binary main_arg1 main_v36 main_v37 (addi : (⟨S1600000, .i32⟩ : BufTy).Contents (Elt F) → (⟨S1600000, .i32⟩ : BufTy).Contents (Elt F) → (⟨S1600000, .i32⟩ : BufTy).Contents (Elt F)),
    StableHlo.ternary main_v35 main_v37 main_arg1 main_v38 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v38 main_v39 (broadcastInDim S1600000x1 ![0] bcast_S1600000_S1600000x1_0 : (⟨S1600000, .i32⟩ : BufTy).Contents (Elt F) → (⟨S1600000x1, .i32⟩ : BufTy).Contents (Elt F)),
    StableHlo.binary main_v33 main_v39 main_v40 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_arg3 main_v41 (broadcastInDim S1600000x1 ![0] bcast_S1600000_S1600000x1_0 : (⟨S1600000, .f32⟩ : BufTy).Contents (Elt F) → (⟨S1600000x1, .f32⟩ : BufTy).Contents (Elt F)),
    StableHlo.unary main_v41 main_v42 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v40 main_v42 main_v43 (mulf : (⟨S1600000x128, .f32⟩ : BufTy).Contents (Elt F) → (⟨S1600000x128, .f32⟩ : BufTy).Contents (Elt F) → (⟨S1600000x128, .f32⟩ : BufTy).Contents (Elt F)),
    StableHlo.nullary main_cst_7 (constant S_ .f32 0x00000000#32),
    StableHlo.unary main_cst_7 main_v44 (broadcastInDim S100000x128 ![] bcast_S_S100000x128 : (⟨S_, .f32⟩ : BufTy).Contents (Elt F) → (⟨S100000x128, .f32⟩ : BufTy).Contents (Elt F)),
    StableHlo.unary main_arg2 main_v45 (broadcastInDim S1600000x1 ![0] bcast_S1600000_S1600000x1_0 : (⟨S1600000, .i32⟩ : BufTy).Contents (Elt F) → (⟨S1600000x1, .i32⟩ : BufTy).Contents (Elt F)),
    StableHlo.ternary main_v44 main_v45 main_v43 main_v46 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v46 main_arg5 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 82 … 128 — layer 2: the column mean and variance, the normalisation, and the rectifier. -/
abbrev ops4 : List (HloOp τ sig (Elt F)) :=
  [ StableHlo.nullary main_cst_8 (constant S_ .f32 0x00000000#32),
    StableHlo.binary main_v47 main_cst_8 main_v48 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v49 (broadcastInDim S128 ![] bcast_S_S128 : (⟨S_, .f32⟩ : BufTy).Contents (Elt F) → (⟨S128, .f32⟩ : BufTy).Contents (Elt F)),
    StableHlo.binary main_v48 main_v49 main_v50 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call2.cst (constant S_ .f32 0x00000000#32),
    StableHlo.TRef.binary (StableHlo.TRef.of main_v47 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (StableHlo.TRef.of main_v47 : StableHlo.TRef sig ⟨S100000x128, .f32⟩) main_call2.v4 main_call2.v5 subf,
    StableHlo.TRef.binary main_call2.v5 main_call2.v5 main_call2.v6 mulf,
    StableHlo.TRef.unary (StableHlo.TRef.of main_c_10 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v50 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v53 main_v54 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v55 (broadcastInDim S128 ![] bcast_S_S128 : (⟨S_, .f32⟩ : BufTy).Contents (Elt F) → (⟨S128, .f32⟩ : BufTy).Contents (Elt F)),
    StableHlo.binary main_v51 main_v55 main_v56 (addf : (⟨S128, .f32⟩ : BufTy).Contents (Elt F) → (⟨S128, .f32⟩ : BufTy).Contents (Elt F) → (⟨S128, .f32⟩ : BufTy).Contents (Elt F)),
    StableHlo.unary main_v56 main_v57 (Host.rsqrt : (⟨S128, .f32⟩ : BufTy).Contents (Elt F) → (⟨S128, .f32⟩ : BufTy).Contents (Elt F)),
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v59 main_v60 (mulf : (⟨S100000x128, .f32⟩ : BufTy).Contents (Elt F) → (⟨S100000x128, .f32⟩ : BufTy).Contents (Elt F) → (⟨S100000x128, .f32⟩ : BufTy).Contents (Elt F)),
    StableHlo.unary main_arg10 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (mulf : (⟨S100000x128, .f32⟩ : BufTy).Contents (Elt F) → (⟨S100000x128, .f32⟩ : BufTy).Contents (Elt F) → (⟨S100000x128, .f32⟩ : BufTy).Contents (Elt F)),
    StableHlo.unary main_arg11 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v65 main_v66 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (StableHlo.TRef.of main_v66 : StableHlo.TRef sig ⟨S100000x128, .f32⟩) main_call3.v0 main_call3.v1 maximumf ]

/-- Operations 129 … 148 — layer 3: the edge aggregation, the contraction with the output weights, and the bias. -/
abbrev ops5 : List (HloOp τ sig (Elt F)) :=
  [ StableHlo.nullary main_c_12 (constantI S_ 32 0#32),
    StableHlo.unary main_c_12 main_v68 (broadcastInDim S1600000 ![] bcast_S_S1600000 : (⟨S_, .i32⟩ : BufTy).Contents (Elt F) → (⟨S1600000, .i32⟩ : BufTy).Contents (Elt F)),
    StableHlo.binary main_arg1 main_v68 main_v69 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v70 (broadcastInDim S1600000 ![] bcast_S_S1600000 : (⟨S_, .i32⟩ : BufTy).Contents (Elt F) → (⟨S1600000, .i32⟩ : BufTy).Contents (Elt F)),
    StableHlo.binary main_arg1 main_v70 main_v71 (addi : (⟨S1600000, .i32⟩ : BufTy).Contents (Elt F) → (⟨S1600000, .i32⟩ : BufTy).Contents (Elt F) → (⟨S1600000, .i32⟩ : BufTy).Contents (Elt F)),
    StableHlo.ternary main_v69 main_v71 main_arg1 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v72 main_v73 (broadcastInDim S1600000x1 ![0] bcast_S1600000_S1600000x1_0 : (⟨S1600000, .i32⟩ : BufTy).Contents (Elt F) → (⟨S1600000x1, .i32⟩ : BufTy).Contents (Elt F)),
    StableHlo.binary main_v67 main_v73 main_v74 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_arg3 main_v75 (broadcastInDim S1600000x1 ![0] bcast_S1600000_S1600000x1_0 : (⟨S1600000, .f32⟩ : BufTy).Contents (Elt F) → (⟨S1600000x1, .f32⟩ : BufTy).Contents (Elt F)),
    StableHlo.unary main_v75 main_v76 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v74 main_v76 main_v77 (mulf : (⟨S1600000x128, .f32⟩ : BufTy).Contents (Elt F) → (⟨S1600000x128, .f32⟩ : BufTy).Contents (Elt F) → (⟨S1600000x128, .f32⟩ : BufTy).Contents (Elt F)),
    StableHlo.nullary main_cst_14 (constant S_ .f32 0x00000000#32),
    StableHlo.unary main_cst_14 main_v78 (broadcastInDim S100000x128 ![] bcast_S_S100000x128 : (⟨S_, .f32⟩ : BufTy).Contents (Elt F) → (⟨S100000x128, .f32⟩ : BufTy).Contents (Elt F)),
    StableHlo.unary main_arg2 main_v79 (broadcastInDim S1600000x1 ![0] bcast_S1600000_S1600000x1_0 : (⟨S1600000, .i32⟩ : BufTy).Contents (Elt F) → (⟨S1600000x1, .i32⟩ : BufTy).Contents (Elt F)),
    StableHlo.ternary main_v78 main_v79 main_v77 main_v80 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v80 main_arg6 main_v81 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.unary main_arg7 main_v82 (broadcastInDim S1x40 ![1] bcast_S40_S1x40_1 : (⟨S40, .f32⟩ : BufTy).Contents (Elt F) → (⟨S1x40, .f32⟩ : BufTy).Contents (Elt F)),
    StableHlo.unary main_v82 main_v83 (broadcastInDim S100000x40 ![0, 1] bcast_S1x40_S100000x40_0_1 : (⟨S1x40, .f32⟩ : BufTy).Contents (Elt F) → (⟨S100000x40, .f32⟩ : BufTy).Contents (Elt F)),
    StableHlo.binary main_v81 main_v83 main_v84 (addf : (⟨S100000x40, .f32⟩ : BufTy).Contents (Elt F) → (⟨S100000x40, .f32⟩ : BufTy).Contents (Elt F) → (⟨S100000x40, .f32⟩ : BufTy).Contents (Elt F)) ]

/-- @main's 148 operations, in order. -/
abbrev ops : List (HloOp τ sig (Elt F)) :=
  [ StableHlo.nullary main_c (constantI S_ 32 0#32),
    StableHlo.unary main_c main_v0 (broadcastInDim S1600000 ![] bcast_S_S1600000 : (⟨S_, .i32⟩ : BufTy).Contents (Elt F) → (⟨S1600000, .i32⟩ : BufTy).Contents (Elt F)),
    StableHlo.binary main_arg1 main_v0 main_v1 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v2 (broadcastInDim S1600000 ![] bcast_S_S1600000 : (⟨S_, .i32⟩ : BufTy).Contents (Elt F) → (⟨S1600000, .i32⟩ : BufTy).Contents (Elt F)),
    StableHlo.binary main_arg1 main_v2 main_v3 (addi : (⟨S1600000, .i32⟩ : BufTy).Contents (Elt F) → (⟨S1600000, .i32⟩ : BufTy).Contents (Elt F) → (⟨S1600000, .i32⟩ : BufTy).Contents (Elt F)),
    StableHlo.ternary main_v1 main_v3 main_arg1 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v4 main_v5 (broadcastInDim S1600000x1 ![0] bcast_S1600000_S1600000x1_0 : (⟨S1600000, .i32⟩ : BufTy).Contents (Elt F) → (⟨S1600000x1, .i32⟩ : BufTy).Contents (Elt F)),
    StableHlo.binary main_arg0 main_v5 main_v6 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_arg3 main_v7 (broadcastInDim S1600000x1 ![0] bcast_S1600000_S1600000x1_0 : (⟨S1600000, .f32⟩ : BufTy).Contents (Elt F) → (⟨S1600000x1, .f32⟩ : BufTy).Contents (Elt F)),
    StableHlo.unary main_v7 main_v8 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v6 main_v8 main_v9 (mulf : (⟨S1600000x128, .f32⟩ : BufTy).Contents (Elt F) → (⟨S1600000x128, .f32⟩ : BufTy).Contents (Elt F) → (⟨S1600000x128, .f32⟩ : BufTy).Contents (Elt F)),
    StableHlo.nullary main_cst (constant S_ .f32 0x00000000#32),
    StableHlo.unary main_cst main_v10 (broadcastInDim S100000x128 ![] bcast_S_S100000x128 : (⟨S_, .f32⟩ : BufTy).Contents (Elt F) → (⟨S100000x128, .f32⟩ : BufTy).Contents (Elt F)),
    StableHlo.unary main_arg2 main_v11 (broadcastInDim S1600000x1 ![0] bcast_S1600000_S1600000x1_0 : (⟨S1600000, .i32⟩ : BufTy).Contents (Elt F) → (⟨S1600000x1, .i32⟩ : BufTy).Contents (Elt F)),
    StableHlo.ternary main_v10 main_v11 main_v9 main_v12 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v12 main_arg4 main_v13 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_1 (constant S_ .f32 0x00000000#32),
    StableHlo.binary main_v13 main_cst_1 main_v14 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v15 (broadcastInDim S128 ![] bcast_S_S128 : (⟨S_, .f32⟩ : BufTy).Contents (Elt F) → (⟨S128, .f32⟩ : BufTy).Contents (Elt F)),
    StableHlo.binary main_v14 main_v15 main_v16 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (StableHlo.TRef.of main_v13 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (StableHlo.TRef.of main_v13 : StableHlo.TRef sig ⟨S100000x128, .f32⟩) main_call0.v4 main_call0.v5 subf,
    StableHlo.TRef.binary main_call0.v5 main_call0.v5 main_call0.v6 mulf,
    StableHlo.TRef.unary (StableHlo.TRef.of main_c_3 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v16 main_v18 (broadcastInDim S1x128 ![1] bcast_S128_S1x128_1 : (⟨S128, .f32⟩ : BufTy).Contents (Elt F) → (⟨S1x128, .f32⟩ : BufTy).Contents (Elt F)),
    StableHlo.unary main_v18 main_v19 (broadcastInDim S100000x128 ![0, 1] bcast_S1x128_S100000x128_0_1 : (⟨S1x128, .f32⟩ : BufTy).Contents (Elt F) → (⟨S100000x128, .f32⟩ : BufTy).Contents (Elt F)),
    StableHlo.binary main_v13 main_v19 main_v20 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v21 (broadcastInDim S128 ![] bcast_S_S128 : (⟨S_, .f32⟩ : BufTy).Contents (Elt F) → (⟨S128, .f32⟩ : BufTy).Contents (Elt F)),
    StableHlo.binary main_v17 main_v21 main_v22 (addf : (⟨S128, .f32⟩ : BufTy).Contents (Elt F) → (⟨S128, .f32⟩ : BufTy).Contents (Elt F) → (⟨S128, .f32⟩ : BufTy).Contents (Elt F)),
    StableHlo.unary main_v22 main_v23 (Host.rsqrt : (⟨S128, .f32⟩ : BufTy).Contents (Elt F) → (⟨S128, .f32⟩ : BufTy).Contents (Elt F)),
    StableHlo.unary main_v23 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S100000x128 ![0, 1] bcast_S1x128_S100000x128_0_1 : (⟨S1x128, .f32⟩ : BufTy).Contents (Elt F) → (⟨S100000x128, .f32⟩ : BufTy).Contents (Elt F)),
    StableHlo.binary main_v20 main_v25 main_v26 (mulf : (⟨S100000x128, .f32⟩ : BufTy).Contents (Elt F) → (⟨S100000x128, .f32⟩ : BufTy).Contents (Elt F) → (⟨S100000x128, .f32⟩ : BufTy).Contents (Elt F)),
    StableHlo.unary main_arg8 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S100000x128 ![0, 1] bcast_S1x128_S100000x128_0_1 : (⟨S1x128, .f32⟩ : BufTy).Contents (Elt F) → (⟨S100000x128, .f32⟩ : BufTy).Contents (Elt F)),
    StableHlo.binary main_v26 main_v28 main_v29 (mulf : (⟨S100000x128, .f32⟩ : BufTy).Contents (Elt F) → (⟨S100000x128, .f32⟩ : BufTy).Contents (Elt F) → (⟨S100000x128, .f32⟩ : BufTy).Contents (Elt F)),
    StableHlo.unary main_arg9 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S100000x128 ![0, 1] bcast_S1x128_S100000x128_0_1 : (⟨S1x128, .f32⟩ : BufTy).Contents (Elt F) → (⟨S100000x128, .f32⟩ : BufTy).Contents (Elt F)),
    StableHlo.binary main_v29 main_v31 main_v32 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (StableHlo.TRef.of main_v32 : StableHlo.TRef sig ⟨S100000x128, .f32⟩) main_call1.v0 main_call1.v1 maximumf,
    StableHlo.nullary main_c_5 (constantI S_ 32 0#32),
    StableHlo.unary main_c_5 main_v34 (broadcastInDim S1600000 ![] bcast_S_S1600000 : (⟨S_, .i32⟩ : BufTy).Contents (Elt F) → (⟨S1600000, .i32⟩ : BufTy).Contents (Elt F)),
    StableHlo.binary main_arg1 main_v34 main_v35 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v36 (broadcastInDim S1600000 ![] bcast_S_S1600000 : (⟨S_, .i32⟩ : BufTy).Contents (Elt F) → (⟨S1600000, .i32⟩ : BufTy).Contents (Elt F)),
    StableHlo.binary main_arg1 main_v36 main_v37 (addi : (⟨S1600000, .i32⟩ : BufTy).Contents (Elt F) → (⟨S1600000, .i32⟩ : BufTy).Contents (Elt F) → (⟨S1600000, .i32⟩ : BufTy).Contents (Elt F)),
    StableHlo.ternary main_v35 main_v37 main_arg1 main_v38 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v38 main_v39 (broadcastInDim S1600000x1 ![0] bcast_S1600000_S1600000x1_0 : (⟨S1600000, .i32⟩ : BufTy).Contents (Elt F) → (⟨S1600000x1, .i32⟩ : BufTy).Contents (Elt F)),
    StableHlo.binary main_v33 main_v39 main_v40 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_arg3 main_v41 (broadcastInDim S1600000x1 ![0] bcast_S1600000_S1600000x1_0 : (⟨S1600000, .f32⟩ : BufTy).Contents (Elt F) → (⟨S1600000x1, .f32⟩ : BufTy).Contents (Elt F)),
    StableHlo.unary main_v41 main_v42 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v40 main_v42 main_v43 (mulf : (⟨S1600000x128, .f32⟩ : BufTy).Contents (Elt F) → (⟨S1600000x128, .f32⟩ : BufTy).Contents (Elt F) → (⟨S1600000x128, .f32⟩ : BufTy).Contents (Elt F)),
    StableHlo.nullary main_cst_7 (constant S_ .f32 0x00000000#32),
    StableHlo.unary main_cst_7 main_v44 (broadcastInDim S100000x128 ![] bcast_S_S100000x128 : (⟨S_, .f32⟩ : BufTy).Contents (Elt F) → (⟨S100000x128, .f32⟩ : BufTy).Contents (Elt F)),
    StableHlo.unary main_arg2 main_v45 (broadcastInDim S1600000x1 ![0] bcast_S1600000_S1600000x1_0 : (⟨S1600000, .i32⟩ : BufTy).Contents (Elt F) → (⟨S1600000x1, .i32⟩ : BufTy).Contents (Elt F)),
    StableHlo.ternary main_v44 main_v45 main_v43 main_v46 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v46 main_arg5 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_8 (constant S_ .f32 0x00000000#32),
    StableHlo.binary main_v47 main_cst_8 main_v48 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v49 (broadcastInDim S128 ![] bcast_S_S128 : (⟨S_, .f32⟩ : BufTy).Contents (Elt F) → (⟨S128, .f32⟩ : BufTy).Contents (Elt F)),
    StableHlo.binary main_v48 main_v49 main_v50 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call2.cst (constant S_ .f32 0x00000000#32),
    StableHlo.TRef.binary (StableHlo.TRef.of main_v47 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (StableHlo.TRef.of main_v47 : StableHlo.TRef sig ⟨S100000x128, .f32⟩) main_call2.v4 main_call2.v5 subf,
    StableHlo.TRef.binary main_call2.v5 main_call2.v5 main_call2.v6 mulf,
    StableHlo.TRef.unary (StableHlo.TRef.of main_c_10 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v50 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v53 main_v54 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v55 (broadcastInDim S128 ![] bcast_S_S128 : (⟨S_, .f32⟩ : BufTy).Contents (Elt F) → (⟨S128, .f32⟩ : BufTy).Contents (Elt F)),
    StableHlo.binary main_v51 main_v55 main_v56 (addf : (⟨S128, .f32⟩ : BufTy).Contents (Elt F) → (⟨S128, .f32⟩ : BufTy).Contents (Elt F) → (⟨S128, .f32⟩ : BufTy).Contents (Elt F)),
    StableHlo.unary main_v56 main_v57 (Host.rsqrt : (⟨S128, .f32⟩ : BufTy).Contents (Elt F) → (⟨S128, .f32⟩ : BufTy).Contents (Elt F)),
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v59 main_v60 (mulf : (⟨S100000x128, .f32⟩ : BufTy).Contents (Elt F) → (⟨S100000x128, .f32⟩ : BufTy).Contents (Elt F) → (⟨S100000x128, .f32⟩ : BufTy).Contents (Elt F)),
    StableHlo.unary main_arg10 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (mulf : (⟨S100000x128, .f32⟩ : BufTy).Contents (Elt F) → (⟨S100000x128, .f32⟩ : BufTy).Contents (Elt F) → (⟨S100000x128, .f32⟩ : BufTy).Contents (Elt F)),
    StableHlo.unary main_arg11 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v65 main_v66 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (StableHlo.TRef.of main_v66 : StableHlo.TRef sig ⟨S100000x128, .f32⟩) main_call3.v0 main_call3.v1 maximumf,
    StableHlo.nullary main_c_12 (constantI S_ 32 0#32),
    StableHlo.unary main_c_12 main_v68 (broadcastInDim S1600000 ![] bcast_S_S1600000 : (⟨S_, .i32⟩ : BufTy).Contents (Elt F) → (⟨S1600000, .i32⟩ : BufTy).Contents (Elt F)),
    StableHlo.binary main_arg1 main_v68 main_v69 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v70 (broadcastInDim S1600000 ![] bcast_S_S1600000 : (⟨S_, .i32⟩ : BufTy).Contents (Elt F) → (⟨S1600000, .i32⟩ : BufTy).Contents (Elt F)),
    StableHlo.binary main_arg1 main_v70 main_v71 (addi : (⟨S1600000, .i32⟩ : BufTy).Contents (Elt F) → (⟨S1600000, .i32⟩ : BufTy).Contents (Elt F) → (⟨S1600000, .i32⟩ : BufTy).Contents (Elt F)),
    StableHlo.ternary main_v69 main_v71 main_arg1 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v72 main_v73 (broadcastInDim S1600000x1 ![0] bcast_S1600000_S1600000x1_0 : (⟨S1600000, .i32⟩ : BufTy).Contents (Elt F) → (⟨S1600000x1, .i32⟩ : BufTy).Contents (Elt F)),
    StableHlo.binary main_v67 main_v73 main_v74 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_arg3 main_v75 (broadcastInDim S1600000x1 ![0] bcast_S1600000_S1600000x1_0 : (⟨S1600000, .f32⟩ : BufTy).Contents (Elt F) → (⟨S1600000x1, .f32⟩ : BufTy).Contents (Elt F)),
    StableHlo.unary main_v75 main_v76 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v74 main_v76 main_v77 (mulf : (⟨S1600000x128, .f32⟩ : BufTy).Contents (Elt F) → (⟨S1600000x128, .f32⟩ : BufTy).Contents (Elt F) → (⟨S1600000x128, .f32⟩ : BufTy).Contents (Elt F)),
    StableHlo.nullary main_cst_14 (constant S_ .f32 0x00000000#32),
    StableHlo.unary main_cst_14 main_v78 (broadcastInDim S100000x128 ![] bcast_S_S100000x128 : (⟨S_, .f32⟩ : BufTy).Contents (Elt F) → (⟨S100000x128, .f32⟩ : BufTy).Contents (Elt F)),
    StableHlo.unary main_arg2 main_v79 (broadcastInDim S1600000x1 ![0] bcast_S1600000_S1600000x1_0 : (⟨S1600000, .i32⟩ : BufTy).Contents (Elt F) → (⟨S1600000x1, .i32⟩ : BufTy).Contents (Elt F)),
    StableHlo.ternary main_v78 main_v79 main_v77 main_v80 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v80 main_arg6 main_v81 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.unary main_arg7 main_v82 (broadcastInDim S1x40 ![1] bcast_S40_S1x40_1 : (⟨S40, .f32⟩ : BufTy).Contents (Elt F) → (⟨S1x40, .f32⟩ : BufTy).Contents (Elt F)),
    StableHlo.unary main_v82 main_v83 (broadcastInDim S100000x40 ![0, 1] bcast_S1x40_S100000x40_0_1 : (⟨S1x40, .f32⟩ : BufTy).Contents (Elt F) → (⟨S100000x40, .f32⟩ : BufTy).Contents (Elt F)),
    StableHlo.binary main_v81 main_v83 main_v84 (addf : (⟨S100000x40, .f32⟩ : BufTy).Contents (Elt F) → (⟨S100000x40, .f32⟩ : BufTy).Contents (Elt F) → (⟨S100000x40, .f32⟩ : BufTy).Contents (Elt F)) ]

/-- The whole line is the five stretches in a row. -/
theorem ops_eq : (ops : List (HloOp τ sig (Elt F))) = ops1 ++ (ops2 ++ (ops3 ++ (ops4 ++ ops5))) := rfl

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub ..⟩

/-- The buffers stretch 1 writes. -/
abbrev written1 : List (Ref sig .tc) := [main_c, main_v0, main_v1, main_c_0, main_v2, main_v3, main_v4, main_v5, main_v6, main_v7, main_v8, main_v9, main_cst, main_v10, main_v11, main_v12, main_v13]
theorem ops1_writes : (ops1 : List (HloOp τ sig (Elt F))).Forall fun op =>
    op.writes ⊆ (written1.map (Proc.devRef (τ := τ) .tc)).toFinset := by
  simp only [List.Forall]
  exact ⟨by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide)⟩
/-- A buffer stretch 1 does not write keeps its contents through it. -/
theorem keep1 (V : Valuation τ sig (Elt F)) (r : Ref sig .tc) (h : r ∉ written1) :
    after ops1 V (Proc.devRef .tc r) = V (Proc.devRef .tc r) :=
  after_of_writes_sub ops1 V ops1_writes h

/-- The buffers stretch 2 writes. -/
abbrev written2 : List (Ref sig .tc) := [main_cst_1, main_v14, main_cst_2, main_v15, main_v16, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v17, main_v18, main_v19, main_v20, main_cst_4, main_v21, main_v22, main_v23, main_v24, main_v25, main_v26, main_v27, main_v28, main_v29, main_v30, main_v31, main_v32, main_call1_cst, main_call1_v0, main_v33]
theorem ops2_writes : (ops2 : List (HloOp τ sig (Elt F))).Forall fun op =>
    op.writes ⊆ (written2.map (Proc.devRef (τ := τ) .tc)).toFinset := by
  simp only [List.Forall]
  exact ⟨by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide)⟩
/-- A buffer stretch 2 does not write keeps its contents through it. -/
theorem keep2 (V : Valuation τ sig (Elt F)) (r : Ref sig .tc) (h : r ∉ written2) :
    after ops2 V (Proc.devRef .tc r) = V (Proc.devRef .tc r) :=
  after_of_writes_sub ops2 V ops2_writes h

/-- The buffers stretch 3 writes. -/
abbrev written3 : List (Ref sig .tc) := [main_c_5, main_v34, main_v35, main_c_6, main_v36, main_v37, main_v38, main_v39, main_v40, main_v41, main_v42, main_v43, main_cst_7, main_v44, main_v45, main_v46, main_v47]
theorem ops3_writes : (ops3 : List (HloOp τ sig (Elt F))).Forall fun op =>
    op.writes ⊆ (written3.map (Proc.devRef (τ := τ) .tc)).toFinset := by
  simp only [List.Forall]
  exact ⟨by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide)⟩
/-- A buffer stretch 3 does not write keeps its contents through it. -/
theorem keep3 (V : Valuation τ sig (Elt F)) (r : Ref sig .tc) (h : r ∉ written3) :
    after ops3 V (Proc.devRef .tc r) = V (Proc.devRef .tc r) :=
  after_of_writes_sub ops3 V ops3_writes h

/-- The buffers stretch 4 writes. -/
abbrev written4 : List (Ref sig .tc) := [main_cst_8, main_v48, main_cst_9, main_v49, main_v50, main_c_10, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v51, main_v52, main_v53, main_v54, main_cst_11, main_v55, main_v56, main_v57, main_v58, main_v59, main_v60, main_v61, main_v62, main_v63, main_v64, main_v65, main_v66, main_call3_cst, main_call3_v0, main_v67]
theorem ops4_writes : (ops4 : List (HloOp τ sig (Elt F))).Forall fun op =>
    op.writes ⊆ (written4.map (Proc.devRef (τ := τ) .tc)).toFinset := by
  simp only [List.Forall]
  exact ⟨by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide)⟩
/-- A buffer stretch 4 does not write keeps its contents through it. -/
theorem keep4 (V : Valuation τ sig (Elt F)) (r : Ref sig .tc) (h : r ∉ written4) :
    after ops4 V (Proc.devRef .tc r) = V (Proc.devRef .tc r) :=
  after_of_writes_sub ops4 V ops4_writes h

/-- The buffers stretch 5 writes. -/
abbrev written5 : List (Ref sig .tc) := [main_c_12, main_v68, main_v69, main_c_13, main_v70, main_v71, main_v72, main_v73, main_v74, main_v75, main_v76, main_v77, main_cst_14, main_v78, main_v79, main_v80, main_v81, main_v82, main_v83, main_v84]
theorem ops5_writes : (ops5 : List (HloOp τ sig (Elt F))).Forall fun op =>
    op.writes ⊆ (written5.map (Proc.devRef (τ := τ) .tc)).toFinset := by
  simp only [List.Forall]
  exact ⟨by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide)⟩
/-- A buffer stretch 5 does not write keeps its contents through it. -/
theorem keep5 (V : Valuation τ sig (Elt F)) (r : Ref sig .tc) (h : r ∉ written5) :
    after ops5 V (Proc.devRef .tc r) = V (Proc.devRef .tc r) :=
  after_of_writes_sub ops5 V ops5_writes h

end Cert.ReferenceIdeal.Hand

end
-- ==== Proof.RefStretch1.lean ====
/- What stretch 1 of the reference's operations leaves in its result buffer, from any contents. -/
import proofs.«151566_j35021163331665_1_alg».proof.Proof.RefFn
import proofs.«151566_j35021163331665_1_alg».proof.Proof.RefOps

noncomputable section

namespace Cert.ReferenceIdeal.Hand

open Cert.ReferenceIdeal Cert.ReferenceIdeal.Gen Idealize.ShloMosaic Idealize.SL.Sem Idealize.ShloMosaic.StableHlo

variable {F : FTy → Type} [FloatOps F]

-- the reductions, the gather and the scatter are folds over their operands' elements; the equations below
-- never look inside them
attribute [local irreducible] Host.reduceAdd Host.gather Host.scatterAdd broadcastInDim select

set_option maxHeartbeats 4000000 in
/-- After the first stretch the hidden layer's buffer holds the aggregate of the input features times the first weight matrix. -/
theorem res1 (V : Valuation τ sig (Elt F)) :
    after ops1 V (Proc.devRef .tc main_v13) = hidden (V (Proc.devRef .tc main_arg0)) (V (Proc.devRef .tc main_arg1)) (V (Proc.devRef .tc main_arg2)) (V (Proc.devRef .tc main_arg3)) (V (Proc.devRef .tc main_arg4)) := by
  simp only [ops1]
  after_results_simp
  rfl

end Cert.ReferenceIdeal.Hand

end
-- ==== Proof.RefStretch2.lean ====
/- What stretch 2 of the reference's operations leaves in its result buffer, from any contents. -/
import proofs.«151566_j35021163331665_1_alg».proof.Proof.RefFn
import proofs.«151566_j35021163331665_1_alg».proof.Proof.RefOps

noncomputable section

namespace Cert.ReferenceIdeal.Hand

open Cert.ReferenceIdeal Cert.ReferenceIdeal.Gen Idealize.ShloMosaic Idealize.SL.Sem Idealize.ShloMosaic.StableHlo

variable {F : FTy → Type} [FloatOps F]

-- the reductions, the gather and the scatter are folds over their operands' elements; the equations below
-- never look inside them
attribute [local irreducible] Host.reduceAdd Host.gather Host.scatterAdd broadcastInDim select

set_option maxHeartbeats 4000000 in
/-- After the second stretch the rectifier's buffer holds the normalised, scaled, shifted and rectified hidden layer. -/
theorem res2 (V : Valuation τ sig (Elt F)) :
    after ops2 V (Proc.devRef .tc main_v33) = bnRelu (V (Proc.devRef .tc main_v13)) (V (Proc.devRef .tc main_arg8)) (V (Proc.devRef .tc main_arg9)) := by
  simp only [ops2]
  after_results_simp
  rfl

end Cert.ReferenceIdeal.Hand

end
-- ==== Proof.RefStretch3.lean ====
/- What stretch 3 of the reference's operations leaves in its result buffer, from any contents. -/
import proofs.«151566_j35021163331665_1_alg».proof.Proof.RefFn
import proofs.«151566_j35021163331665_1_alg».proof.Proof.RefOps

noncomputable section

namespace Cert.ReferenceIdeal.Hand

open Cert.ReferenceIdeal Cert.ReferenceIdeal.Gen Idealize.ShloMosaic Idealize.SL.Sem Idealize.ShloMosaic.StableHlo

variable {F : FTy → Type} [FloatOps F]

-- the reductions, the gather and the scatter are folds over their operands' elements; the equations below
-- never look inside them
attribute [local irreducible] Host.reduceAdd Host.gather Host.scatterAdd broadcastInDim select

set_option maxHeartbeats 4000000 in
/-- The third stretch is the first at the second layer's buffers. -/
theorem res3 (V : Valuation τ sig (Elt F)) :
    after ops3 V (Proc.devRef .tc main_v47) = hidden (V (Proc.devRef .tc main_v33)) (V (Proc.devRef .tc main_arg1)) (V (Proc.devRef .tc main_arg2)) (V (Proc.devRef .tc main_arg3)) (V (Proc.devRef .tc main_arg5)) := by
  simp only [ops3]
  after_results_simp
  rfl

end Cert.ReferenceIdeal.Hand

end
-- ==== Proof.RefStretch4.lean ====
/- What stretch 4 of the reference's operations leaves in its result buffer, from any contents. -/
import proofs.«151566_j35021163331665_1_alg».proof.Proof.RefFn
import proofs.«151566_j35021163331665_1_alg».proof.Proof.RefOps

noncomputable section

namespace Cert.ReferenceIdeal.Hand

open Cert.ReferenceIdeal Cert.ReferenceIdeal.Gen Idealize.ShloMosaic Idealize.SL.Sem Idealize.ShloMosaic.StableHlo

variable {F : FTy → Type} [FloatOps F]

-- the reductions, the gather and the scatter are folds over their operands' elements; the equations below
-- never look inside them
attribute [local irreducible] Host.reduceAdd Host.gather Host.scatterAdd broadcastInDim select

set_option maxHeartbeats 4000000 in
/-- The fourth stretch is the second at the second layer's buffers. -/
theorem res4 (V : Valuation τ sig (Elt F)) :
    after ops4 V (Proc.devRef .tc main_v67) = bnRelu (V (Proc.devRef .tc main_v47)) (V (Proc.devRef .tc main_arg10)) (V (Proc.devRef .tc main_arg11)) := by
  simp only [ops4]
  after_results_simp
  rfl

end Cert.ReferenceIdeal.Hand

end
-- ==== Proof.RefStretch5.lean ====
/- What stretch 5 of the reference's operations leaves in its result buffer, from any contents. -/
import proofs.«151566_j35021163331665_1_alg».proof.Proof.RefFn
import proofs.«151566_j35021163331665_1_alg».proof.Proof.RefOps

noncomputable section

namespace Cert.ReferenceIdeal.Hand

open Cert.ReferenceIdeal Cert.ReferenceIdeal.Gen Idealize.ShloMosaic Idealize.SL.Sem Idealize.ShloMosaic.StableHlo

variable {F : FTy → Type} [FloatOps F]

-- the reductions, the gather and the scatter are folds over their operands' elements; the equations below
-- never look inside them
attribute [local irreducible] Host.reduceAdd Host.gather Host.scatterAdd broadcastInDim select

set_option maxHeartbeats 4000000 in
/-- After the last stretch the result buffer holds the output layer of the second rectifier's buffer. -/
theorem res5 (V : Valuation τ sig (Elt F)) :
    after ops5 V (Proc.devRef .tc main_v84) = outLayer (V (Proc.devRef .tc main_v67)) (V (Proc.devRef .tc main_arg1)) (V (Proc.devRef .tc main_arg2)) (V (Proc.devRef .tc main_arg3)) (V (Proc.devRef .tc main_arg6)) (V (Proc.devRef .tc main_arg7)) := by
  simp only [ops5]
  after_results_simp
  rfl

end Cert.ReferenceIdeal.Hand

end
-- ==== Proof.RefMainEq.lean ====
/- The reference's @main IS its list of operations run in order: the two windows of @main and the bodies
   of the functions it calls (the variance, its `where`, the rectifier) unfolded at their calls, the
   sequencing reassociated. And the signature scopes no buffer and no semaphore. -/
import proofs.«151566_j35021163331665_1_alg».proof.Proof.RefOps

noncomputable section

namespace Cert.ReferenceIdeal.Hand

open Cert.ReferenceIdeal Cert.ReferenceIdeal.Gen Idealize.ShloMosaic Idealize.SL.Sem Idealize.ShloMosaic.StableHlo

variable {F : FTy → Type} [FloatOps F]

-- 148 binds reassociated: `simp`'s rewrite under the chain recurses once per statement
set_option maxRecDepth 65536 in
set_option maxHeartbeats 4000000 in
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.RefRun.lean ====
/- The reference's run: every weakly fair execution of its @main terminates with the result buffer at
   `result` of the twelve argument arrays and every argument array as it was. The five stretches'
   results are chained — each stretch reads the previous one's result buffer and argument buffers that
   no stretch writes. -/
import proofs.«151566_j35021163331665_1_alg».proof.Proof.RefFn
import proofs.«151566_j35021163331665_1_alg».proof.Proof.RefOps
import proofs.«151566_j35021163331665_1_alg».proof.Proof.RefStretch1
import proofs.«151566_j35021163331665_1_alg».proof.Proof.RefStretch2
import proofs.«151566_j35021163331665_1_alg».proof.Proof.RefStretch3
import proofs.«151566_j35021163331665_1_alg».proof.Proof.RefStretch4
import proofs.«151566_j35021163331665_1_alg».proof.Proof.RefStretch5
import proofs.«151566_j35021163331665_1_alg».proof.Proof.RefMainEq

noncomputable section

namespace Cert.ReferenceIdeal.Hand

open Cert.ReferenceIdeal Cert.ReferenceIdeal.Gen Idealize.ShloMosaic Idealize.SL.Sem Idealize.ShloMosaic.StableHlo Idealize.ShloMosaic.TcCoe

variable {F : FTy → Type} [FloatOps F]

/-- The contents after two stretches in a row: the second's from the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The stretches' lemmas, in the form the simplifier matches (the buffer not part of the key) -/

theorem keep1' (V : Valuation τ sig (Elt F)) (r : Ref sig .tc) (h : r ∉ written1) :
    after ops1 V (no_index (Proc.devRef .tc r)) = V (Proc.devRef .tc r) := keep1 V r h
theorem keep2' (V : Valuation τ sig (Elt F)) (r : Ref sig .tc) (h : r ∉ written2) :
    after ops2 V (no_index (Proc.devRef .tc r)) = V (Proc.devRef .tc r) := keep2 V r h
theorem keep3' (V : Valuation τ sig (Elt F)) (r : Ref sig .tc) (h : r ∉ written3) :
    after ops3 V (no_index (Proc.devRef .tc r)) = V (Proc.devRef .tc r) := keep3 V r h
theorem keep4' (V : Valuation τ sig (Elt F)) (r : Ref sig .tc) (h : r ∉ written4) :
    after ops4 V (no_index (Proc.devRef .tc r)) = V (Proc.devRef .tc r) := keep4 V r h
theorem keep5' (V : Valuation τ sig (Elt F)) (r : Ref sig .tc) (h : r ∉ written5) :
    after ops5 V (no_index (Proc.devRef .tc r)) = V (Proc.devRef .tc r) := keep5 V r h
theorem res1' (V : Valuation τ sig (Elt F)) :
    after ops1 V (no_index (Proc.devRef .tc main_v13)) = hidden (V (Proc.devRef .tc main_arg0)) (V (Proc.devRef .tc main_arg1)) (V (Proc.devRef .tc main_arg2)) (V (Proc.devRef .tc main_arg3)) (V (Proc.devRef .tc main_arg4)) := res1 V
theorem res2' (V : Valuation τ sig (Elt F)) :
    after ops2 V (no_index (Proc.devRef .tc main_v33)) = bnRelu (V (Proc.devRef .tc main_v13)) (V (Proc.devRef .tc main_arg8)) (V (Proc.devRef .tc main_arg9)) := res2 V
theorem res3' (V : Valuation τ sig (Elt F)) :
    after ops3 V (no_index (Proc.devRef .tc main_v47)) = hidden (V (Proc.devRef .tc main_v33)) (V (Proc.devRef .tc main_arg1)) (V (Proc.devRef .tc main_arg2)) (V (Proc.devRef .tc main_arg3)) (V (Proc.devRef .tc main_arg5)) := res3 V
theorem res4' (V : Valuation τ sig (Elt F)) :
    after ops4 V (no_index (Proc.devRef .tc main_v67)) = bnRelu (V (Proc.devRef .tc main_v47)) (V (Proc.devRef .tc main_arg10)) (V (Proc.devRef .tc main_arg11)) := res4 V
theorem res5' (V : Valuation τ sig (Elt F)) :
    after ops5 V (no_index (Proc.devRef .tc main_v84)) = outLayer (V (Proc.devRef .tc main_v67)) (V (Proc.devRef .tc main_arg1)) (V (Proc.devRef .tc main_arg2)) (V (Proc.devRef .tc main_arg3)) (V (Proc.devRef .tc main_arg6)) (V (Proc.devRef .tc main_arg7)) := res5 V

/-! ## The whole line -/

/-- The result buffer after the whole line, from any contents. -/
theorem out_eq (V : Valuation τ sig (Elt F)) :
    after ops V (Proc.devRef .tc main_v84)
      = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [ops_eq]
  simp (disch := decide) only [after_app, res5', res4', res3', res2', res1', keep5', keep4', keep3', keep2', keep1']
  rfl

/-- No operation writes an argument buffer. -/
theorem arg_eq (V : Valuation τ sig (Elt F)) (r : Ref sig .tc)
    (h1 : r ∉ written1) (h2 : r ∉ written2) (h3 : r ∉ written3) (h4 : r ∉ written4) (h5 : r ∉ written5) :
    after ops V (Proc.devRef .tc r) = V (Proc.devRef .tc r) := by
  rw [ops_eq, after_app, after_app, after_app, after_app,
    keep5 _ r h5, keep4 _ r h4, keep3 _ r h3, keep2 _ r h2, keep1 _ r h1]

/-- On every device, for any float values, from any memory with zero counters: every weakly fair execution of
    @main terminates with the result at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84)
        = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v84).trans (out_eq (launchContents m c)),
      (h c main_arg0).trans (arg_eq (launchContents m c) main_arg0 (by decide) (by decide) (by decide) (by decide) (by decide)),
      (h c main_arg1).trans (arg_eq (launchContents m c) main_arg1 (by decide) (by decide) (by decide) (by decide) (by decide)),
      (h c main_arg2).trans (arg_eq (launchContents m c) main_arg2 (by decide) (by decide) (by decide) (by decide) (by decide)),
      (h c main_arg3).trans (arg_eq (launchContents m c) main_arg3 (by decide) (by decide) (by decide) (by decide) (by decide)),
      (h c main_arg4).trans (arg_eq (launchContents m c) main_arg4 (by decide) (by decide) (by decide) (by decide) (by decide)),
      (h c main_arg5).trans (arg_eq (launchContents m c) main_arg5 (by decide) (by decide) (by decide) (by decide) (by decide)),
      (h c main_arg6).trans (arg_eq (launchContents m c) main_arg6 (by decide) (by decide) (by decide) (by decide) (by decide)),
      (h c main_arg7).trans (arg_eq (launchContents m c) main_arg7 (by decide) (by decide) (by decide) (by decide) (by decide)),
      (h c main_arg8).trans (arg_eq (launchContents m c) main_arg8 (by decide) (by decide) (by decide) (by decide) (by decide)),
      (h c main_arg9).trans (arg_eq (launchContents m c) main_arg9 (by decide) (by decide) (by decide) (by decide) (by decide)),
      (h c main_arg10).trans (arg_eq (launchContents m c) main_arg10 (by decide) (by decide) (by decide) (by decide) (by decide)),
      (h c main_arg11).trans (arg_eq (launchContents m c) main_arg11 (by decide) (by decide) (by decide) (by decide) (by decide))⟩)
    (run_seq scopedRefs_eq scopedSems_eq defs main (fun _ => ops) main_eq (fun _ => ops_sub) m ρ)

end Cert.ReferenceIdeal.Hand

end
-- ==== Proof.RefFrame.lean ====
/- The reference's frame: under the precondition (unused here) every weakly fair execution terminates and
   the argument arrays end as they began — the run with its result dropped. -/
import proofs.«151566_j35021163331665_1_alg».proof.Defs
import proofs.«151566_j35021163331665_1_alg».proof.Proof.Gen.Pre_finite_inputs
import proofs.«151566_j35021163331665_1_alg».proof.Proof.RefRun

noncomputable section

namespace Cert.ReferenceIdeal.Hand

open Idealize.ShloMosaic Idealize.SL.Sem

theorem frame_ri : Cert.frame_ReferenceIdeal :=
  fun m ρ _ => (θ_run Cert.ReferenceIdeal.defs _ _).mono (fun _ h c => (h c).2) (run (F := Ideal) m ρ)

end Cert.ReferenceIdeal.Hand

end
-- ==== Proof.Claims.lean ====
/- The four conjuncts of the claim that need no value reasoning, each against the claim's own statement: the three
   frames (every weakly fair execution of each program terminates without a fault and leaves the twelve argument
   arrays as they were; the precondition is not used) and the idealization conjunct, which is `True` because the
   idealized kernel is the kernel's own text read at the exact-real instance. The instances are the generated
   witnesses of the programs' stated side conditions. -/
import proofs.«151566_j35021163331665_1_alg».proof.Defs
import proofs.«151566_j35021163331665_1_alg».proof.Proof.Gen.Kernel
import proofs.«151566_j35021163331665_1_alg».proof.Proof.Gen.KernelIdeal
import proofs.«151566_j35021163331665_1_alg».proof.Proof.Gen.ReferenceIdeal
import proofs.«151566_j35021163331665_1_alg».proof.Proof.Gen.Pre_finite_inputs
import proofs.«151566_j35021163331665_1_alg».proof.Proof.KFrame
import proofs.«151566_j35021163331665_1_alg».proof.Proof.WKFrame
import proofs.«151566_j35021163331665_1_alg».proof.Proof.RefFrame

noncomputable section

namespace Cert.Proof.Claims

open Idealize.ShloMosaic Idealize.SL.Sem

/-- The word-level kernel's frame. -/
theorem frame_k : Cert.frame_Kernel (hKernel := Cert.Kernel.Gen.facts) (hPre_finite_inputs := Cert.Pre_finite_inputs.Gen.facts) :=
  fun m ρ _ => Cert.Kernel.Hand.frame_all (F := Bits) m ρ

/-- The idealized kernel's frame. -/
theorem frame_ki : Cert.frame_KernelIdeal (hKernelIdeal := Cert.KernelIdeal.Gen.facts) (hPre_finite_inputs := Cert.Pre_finite_inputs.Gen.facts) :=
  fun m ρ _ => Cert.KernelIdeal.Hand.frame_all (F := Ideal) m ρ

/-- The reference's frame. -/
theorem frame_ri : Cert.frame_ReferenceIdeal (hReferenceIdeal := Cert.ReferenceIdeal.Gen.facts) (hPre_finite_inputs := Cert.Pre_finite_inputs.Gen.facts) :=
  Cert.ReferenceIdeal.Hand.frame_ri

/-- The idealization conjunct: no operation was rewritten. -/
theorem preserves : Cert.preserves_Kernel_KernelIdeal := trivial

end Cert.Proof.Claims

end
-- ==== Proof.KHost.lean ====
/-
  What the kernel program's five host stretches leave in the buffers the kernel regions read: the edge aggregation of
  the current features (the same composed operations in every layer), a zero bias row, and between a statistics
  region and its normalisation region the column means and the variances in the kernel's form, with gamma and beta
  reshaped to rows.
-/
import proofs.«151566_j35021163331665_1_alg».proof.Proof.KRun
import Idealize.ShloMosaic.Lib.StableHlo.Run
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000

/-- The edge aggregation: out[dst e, :] += x[src e, :] * ew e over all edges e, from a zero array; a negative source
    index is first wrapped by adding the number of nodes. -/
def aggK (x : FVec F S100000x128 .f32) (src dst : Vec F S1600000 .i32) (ew : FVec F S1600000 .f32) :
    FVec F S100000x128 .f32 :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 dst)
    (mulf
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 ew)))

/-- The zero bias row the statistics kernels are given. -/
def zeroRow : FVec F S1x128 .f32 :=
  shapeCast S1x128 (broadcastInDim S128 ![] bcast_S_S128 (constant (F := F) S_ .f32 0x00000000#32)) shapeCasts_S128_S1x128

/-- The node count 100000 as a [1,128] row. -/
def nRow : FVec F S1x128 .f32 :=
  broadcastInDim S1x128 ![] bcast_S_S1x128 (constant (F := F) S_ .f32 0x47C35000#32)

variable (m : (ℓ : Loc nD τ sig) → Buf (Elt F) ℓ)

/-- After host stretch 0: the aggregation of the features it finds, and a zero bias row. -/
theorem W1_v12 (c : Dev nD) :
    W1 m c (Proc.devRef .tc main_v12) = aggK (W0 m c (Proc.devRef .tc main_arg0)) (W0 m c (Proc.devRef .tc main_arg1)) (W0 m c (Proc.devRef .tc main_arg2)) (W0 m c (Proc.devRef .tc main_arg3)) := by
  show StableHlo.after hostOps0 (W0 m c) (Proc.devRef .tc main_v12) = _
  after_results
  rfl
theorem W1_v14 (c : Dev nD) :
    W1 m c (Proc.devRef .tc main_v14) = zeroRow (F := F) := by
  show StableHlo.after hostOps0 (W0 m c) (Proc.devRef .tc main_v14) = _
  after_results
  rfl

/-- After host stretch 1: the column means (the sums over the node count), the variances in the kernel's form
    (mean of squares minus squared mean), and gamma and beta as rows. -/
theorem W3_v17 (c : Dev nD) :
    W3 m c (Proc.devRef .tc main_v17) = Host.divf (W2 m c (Proc.devRef .tc main_v15_1)) (nRow (F := F)) := by
  show StableHlo.after hostOps1 (W2 m c) (Proc.devRef .tc main_v17) = _
  after_results
  rfl
theorem W3_v21 (c : Dev nD) :
    W3 m c (Proc.devRef .tc main_v21) = subf (Host.divf (W2 m c (Proc.devRef .tc main_v15_2)) (nRow (F := F)))
      (mulf (Host.divf (W2 m c (Proc.devRef .tc main_v15_1)) (nRow (F := F))) (Host.divf (W2 m c (Proc.devRef .tc main_v15_1)) (nRow (F := F)))) := by
  show StableHlo.after hostOps1 (W2 m c) (Proc.devRef .tc main_v21) = _
  after_results
  rfl
theorem W3_v22 (c : Dev nD) :
    W3 m c (Proc.devRef .tc main_v22) = shapeCast S1x128 (W2 m c (Proc.devRef .tc main_arg8)) shapeCasts_S128_S1x128 := by
  show StableHlo.after hostOps1 (W2 m c) (Proc.devRef .tc main_v22) = _
  after_results
  rfl
theorem W3_v23 (c : Dev nD) :
    W3 m c (Proc.devRef .tc main_v23) = shapeCast S1x128 (W2 m c (Proc.devRef .tc main_arg9)) shapeCasts_S128_S1x128 := by
  show StableHlo.after hostOps1 (W2 m c) (Proc.devRef .tc main_v23) = _
  after_results
  rfl

/-- After host stretch 2: the aggregation of the features it finds, and a zero bias row. -/
theorem W5_v37 (c : Dev nD) :
    W5 m c (Proc.devRef .tc main_v37) = aggK (W4 m c (Proc.devRef .tc main_v24)) (W4 m c (Proc.devRef .tc main_arg1)) (W4 m c (Proc.devRef .tc main_arg2)) (W4 m c (Proc.devRef .tc main_arg3)) := by
  show StableHlo.after hostOps2 (W4 m c) (Proc.devRef .tc main_v37) = _
  after_results
  rfl
theorem W5_v39 (c : Dev nD) :
    W5 m c (Proc.devRef .tc main_v39) = zeroRow (F := F) := by
  show StableHlo.after hostOps2 (W4 m c) (Proc.devRef .tc main_v39) = _
  after_results
  rfl

/-- After host stretch 3: the column means (the sums over the node count), the variances in the kernel's form
    (mean of squares minus squared mean), and gamma and beta as rows. -/
theorem W7_v42 (c : Dev nD) :
    W7 m c (Proc.devRef .tc main_v42) = Host.divf (W6 m c (Proc.devRef .tc main_v40_1)) (nRow (F := F)) := by
  show StableHlo.after hostOps3 (W6 m c) (Proc.devRef .tc main_v42) = _
  after_results
  rfl
theorem W7_v46 (c : Dev nD) :
    W7 m c (Proc.devRef .tc main_v46) = subf (Host.divf (W6 m c (Proc.devRef .tc main_v40_2)) (nRow (F := F)))
      (mulf (Host.divf (W6 m c (Proc.devRef .tc main_v40_1)) (nRow (F := F))) (Host.divf (W6 m c (Proc.devRef .tc main_v40_1)) (nRow (F := F)))) := by
  show StableHlo.after hostOps3 (W6 m c) (Proc.devRef .tc main_v46) = _
  after_results
  rfl
theorem W7_v47 (c : Dev nD) :
    W7 m c (Proc.devRef .tc main_v47) = shapeCast S1x128 (W6 m c (Proc.devRef .tc main_arg10)) shapeCasts_S128_S1x128 := by
  show StableHlo.after hostOps3 (W6 m c) (Proc.devRef .tc main_v47) = _
  after_results
  rfl
theorem W7_v48 (c : Dev nD) :
    W7 m c (Proc.devRef .tc main_v48) = shapeCast S1x128 (W6 m c (Proc.devRef .tc main_arg11)) shapeCasts_S128_S1x128 := by
  show StableHlo.after hostOps3 (W6 m c) (Proc.devRef .tc main_v48) = _
  after_results
  rfl

/-- After host stretch 4: the aggregation of the features it finds, and a zero bias row. -/
theorem W9_v62 (c : Dev nD) :
    W9 m c (Proc.devRef .tc main_v62) = aggK (W8 m c (Proc.devRef .tc main_v49)) (W8 m c (Proc.devRef .tc main_arg1)) (W8 m c (Proc.devRef .tc main_arg2)) (W8 m c (Proc.devRef .tc main_arg3)) := by
  show StableHlo.after hostOps4 (W8 m c) (Proc.devRef .tc main_v62) = _
  after_results
  rfl

/-- After host stretch 4 also the last layer's bias as a row. -/
theorem W9_v63 (c : Dev nD) :
    W9 m c (Proc.devRef .tc main_v63) = shapeCast S1x40 (W8 m c (Proc.devRef .tc main_arg7)) shapeCasts_S40_S1x40 := by
  show StableHlo.after hostOps4 (W8 m c) (Proc.devRef .tc main_v63) = _
  after_results
  rfl

end Cert.KernelIdeal.Hand

end
-- ==== Proof.KArgs.lean ====
/-
  A buffer that nothing has written up to a given item of @main still holds its launch contents there.
-/
import proofs.«151566_j35021163331665_1_alg».proof.Proof.KFrame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W1_a (c : Dev nD) (r : Ref sig .tc) (h0 : r ∉ hostOps0_W) : W1 m c (Proc.devRef .tc r) = m ((c : Thread nD τ).loc r) :=
  (W1_keep m c r h0).trans rfl
theorem W2_a (c : Dev nD) (r : Ref sig .tc) (h0 : r ∉ hostOps0_W) (h1 : r ∉ ([main_v15_0, main_v15_1, main_v15_2] : List (Ref sig .tc))) : W2 m c (Proc.devRef .tc r) = m ((c : Thread nD τ).loc r) :=
  (W2_keep m c r h1).trans (W1_a m c r h0)
theorem W3_a (c : Dev nD) (r : Ref sig .tc) (h0 : r ∉ hostOps0_W) (h1 : r ∉ ([main_v15_0, main_v15_1, main_v15_2] : List (Ref sig .tc))) (h2 : r ∉ hostOps1_W) : W3 m c (Proc.devRef .tc r) = m ((c : Thread nD τ).loc r) :=
  (W3_keep m c r h2).trans (W2_a m c r h0 h1)
theorem W4_a (c : Dev nD) (r : Ref sig .tc) (h0 : r ∉ hostOps0_W) (h1 : r ∉ ([main_v15_0, main_v15_1, main_v15_2] : List (Ref sig .tc))) (h2 : r ∉ hostOps1_W) (h3 : r ∉ ([main_v24] : List (Ref sig .tc))) : W4 m c (Proc.devRef .tc r) = m ((c : Thread nD τ).loc r) :=
  (W4_keep m c r h3).trans (W3_a m c r h0 h1 h2)
theorem W5_a (c : Dev nD) (r : Ref sig .tc) (h0 : r ∉ hostOps0_W) (h1 : r ∉ ([main_v15_0, main_v15_1, main_v15_2] : List (Ref sig .tc))) (h2 : r ∉ hostOps1_W) (h3 : r ∉ ([main_v24] : List (Ref sig .tc))) (h4 : r ∉ hostOps2_W) : W5 m c (Proc.devRef .tc r) = m ((c : Thread nD τ).loc r) :=
  (W5_keep m c r h4).trans (W4_a m c r h0 h1 h2 h3)
theorem W6_a (c : Dev nD) (r : Ref sig .tc) (h0 : r ∉ hostOps0_W) (h1 : r ∉ ([main_v15_0, main_v15_1, main_v15_2] : List (Ref sig .tc))) (h2 : r ∉ hostOps1_W) (h3 : r ∉ ([main_v24] : List (Ref sig .tc))) (h4 : r ∉ hostOps2_W) (h5 : r ∉ ([main_v40_0, main_v40_1, main_v40_2] : List (Ref sig .tc))) : W6 m c (Proc.devRef .tc r) = m ((c : Thread nD τ).loc r) :=
  (W6_keep m c r h5).trans (W5_a m c r h0 h1 h2 h3 h4)
theorem W7_a (c : Dev nD) (r : Ref sig .tc) (h0 : r ∉ hostOps0_W) (h1 : r ∉ ([main_v15_0, main_v15_1, main_v15_2] : List (Ref sig .tc))) (h2 : r ∉ hostOps1_W) (h3 : r ∉ ([main_v24] : List (Ref sig .tc))) (h4 : r ∉ hostOps2_W) (h5 : r ∉ ([main_v40_0, main_v40_1, main_v40_2] : List (Ref sig .tc))) (h6 : r ∉ hostOps3_W) : W7 m c (Proc.devRef .tc r) = m ((c : Thread nD τ).loc r) :=
  (W7_keep m c r h6).trans (W6_a m c r h0 h1 h2 h3 h4 h5)
theorem W8_a (c : Dev nD) (r : Ref sig .tc) (h0 : r ∉ hostOps0_W) (h1 : r ∉ ([main_v15_0, main_v15_1, main_v15_2] : List (Ref sig .tc))) (h2 : r ∉ hostOps1_W) (h3 : r ∉ ([main_v24] : List (Ref sig .tc))) (h4 : r ∉ hostOps2_W) (h5 : r ∉ ([main_v40_0, main_v40_1, main_v40_2] : List (Ref sig .tc))) (h6 : r ∉ hostOps3_W) (h7 : r ∉ ([main_v49] : List (Ref sig .tc))) : W8 m c (Proc.devRef .tc r) = m ((c : Thread nD τ).loc r) :=
  (W8_keep m c r h7).trans (W7_a m c r h0 h1 h2 h3 h4 h5 h6)
theorem W9_a (c : Dev nD) (r : Ref sig .tc) (h0 : r ∉ hostOps0_W) (h1 : r ∉ ([main_v15_0, main_v15_1, main_v15_2] : List (Ref sig .tc))) (h2 : r ∉ hostOps1_W) (h3 : r ∉ ([main_v24] : List (Ref sig .tc))) (h4 : r ∉ hostOps2_W) (h5 : r ∉ ([main_v40_0, main_v40_1, main_v40_2] : List (Ref sig .tc))) (h6 : r ∉ hostOps3_W) (h7 : r ∉ ([main_v49] : List (Ref sig .tc))) (h8 : r ∉ hostOps4_W) : W9 m c (Proc.devRef .tc r) = m ((c : Thread nD τ).loc r) :=
  (W9_keep m c r h8).trans (W8_a m c r h0 h1 h2 h3 h4 h5 h6 h7)

end Cert.KernelIdeal.Hand

end
-- ==== Proof.S0Pieces.lean ====
/-
  The first matmul-with-statistics call: what each case of the body leaves, as the body's own arithmetic. The h
  block is the block product plus the bias row; an accumulator after a point is the accumulator before it (zero at
  the first point) plus the block's column sums; at the last point the statistics blocks receive the accumulators.
-/
import proofs.«151566_j35021163331665_1_alg».proof.Proof.Gen.KernelIdeal.Launch
import proofs.«151566_j35021163331665_1_alg».proof.Proof.Gen.KernelIdeal.Skeleton
import proofs.«151566_j35021163331665_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«151566_j35021163331665_1_alg».proof.Proof.S0Dat
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl

theorem out0_A_3_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .f32) (x2 : Vec F S1x128 .f32) :
    out0_A_3 c i arg1 harg1 arg2 harg2 arg3 harg3 arg4 harg4 arg5 harg5 arg6 harg6 arg7 harg7 arg8 harg8 hc0 hc1 x0 x1 x2 = k0_pay3 x0 x1 x2 := by
  unfold out0_A_3
  rw [View.read_writes_eq_canon _ _ _ (cover0_A_3 c i arg1 harg1 arg2 harg2 arg3 harg3 arg4 harg4 arg5 harg5 arg6 harg6 arg7 harg7 arg8 harg8 hc0 hc1 x0 x1 x2)]
  unfold kernelRun0_A; dsimp only
  sl_unfold_words
  simp only [View.readCov_unit_zero (S := S1x128) _ hz2, View.canon_cons_unit_zero (S := S1x128) hz2, View.canon_unit_zero (S := S1x128) hz2, View.canon_unit_zero (S := S5000x128) hz2, View.readAt_eq_ld, harg1.read_unread, harg2.read_unread, harg3.read_unread, harg7.read_unread, harg8.read_unread, View.ld_unit_zero (S := S5000x128) hz2, View.ld_unit_zero (S := S128x128) hz2, View.ld_unit_zero (S := S1x128) hz2]

theorem sout0_A_0_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .f32) (x2 : Vec F S1x128 .f32) :
    sout0_A_0 c i arg1 harg1 arg2 harg2 arg3 harg3 arg4 harg4 arg5 harg5 arg6 harg6 arg7 harg7 arg8 harg8 hc0 hc1 x0 x1 x2 = k0_pay4 x0 x1 x2 (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2)]
  unfold kernelRun0_A; dsimp only
  sl_unfold_words
  simp only [View.readCov_unit_zero (S := S1x128) _ hz2, View.canon_cons_unit_zero (S := S1x128) hz2, View.canon_unit_zero (S := S1x128) hz2, View.canon_unit_zero (S := S5000x128) hz2, View.readAt_eq_ld, harg1.read_unread, harg2.read_unread, harg3.read_unread, harg7.read_unread, harg8.read_unread, View.ld_unit_zero (S := S5000x128) hz2, View.ld_unit_zero (S := S128x128) hz2, View.ld_unit_zero (S := S1x128) hz2]

theorem sout0_A_1_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S128x128 .f32) (x2 : Vec F S1x128 .f32) :
    sout0_A_1 c i arg1 harg1 arg2 harg2 arg3 harg3 arg4 harg4 arg5 harg5 arg6 harg6 arg7 harg7 arg8 harg8 hc0 hc1 x0 x1 x2 = k0_pay5 x0 x1 x2 (k0_pay2 (F := F)) := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2)]
  unfold kernelRun0_A; dsimp only
  sl_unfold_words
  simp only [View.readCov_unit_zero (S := S1x128) _ hz2, View.canon_cons_unit_zero (S := S1x128) hz2, View.canon_unit_zero (S := S1x128) hz2, View.canon_unit_zero (S := S5000x128) hz2, View.readAt_eq_ld, harg1.read_unread, harg2.read_unread, harg3.read_unread, harg7.read_unread, harg8.read_unread, View.ld_unit_zero (S := S5000x128) hz2, View.ld_unit_zero (S := S128x128) hz2, View.ld_unit_zero (S := S1x128) hz2]

theorem out0_B_3_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .f32) (x2 : Vec F S1x128 .f32) (xs0 xs1 : Vec F S1x128 .f32) :
    out0_B_3 c i arg1 harg1 arg2 harg2 arg3 harg3 arg4 harg4 arg5 harg5 arg6 harg6 arg7 harg7 arg8 harg8 hc0 hc1 x0 x1 x2 xs0 xs1 = k0_pay3 x0 x1 x2 := by
  unfold out0_B_3
  rw [View.read_writes_eq_canon _ _ _ (cover0_B_3 c i arg1 harg1 arg2 harg2 arg3 harg3 arg4 harg4 arg5 harg5 arg6 harg6 arg7 harg7 arg8 harg8 hc0 hc1 x0 x1 x2 xs0 xs1)]
  unfold kernelRun0_B; dsimp only
  sl_unfold_words
  simp only [View.readCov_unit_zero (S := S1x128) _ hz2, View.canon_cons_unit_zero (S := S1x128) hz2, View.canon_unit_zero (S := S1x128) hz2, View.canon_unit_zero (S := S5000x128) hz2, View.readAt_eq_ld, harg1.read_unread, harg2.read_unread, harg3.read_unread, harg7.read_unread, harg8.read_unread, View.ld_unit_zero (S := S5000x128) hz2, View.ld_unit_zero (S := S128x128) hz2, View.ld_unit_zero (S := S1x128) hz2]

theorem sout0_B_0_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .f32) (x2 : Vec F S1x128 .f32) (xs0 xs1 : Vec F S1x128 .f32) :
    sout0_B_0 c i arg1 harg1 arg2 harg2 arg3 harg3 arg4 harg4 arg5 harg5 arg6 harg6 arg7 harg7 arg8 harg8 hc0 hc1 x0 x1 x2 xs0 xs1 = k0_pay4 x0 x1 x2 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 xs0 xs1)]
  unfold kernelRun0_B; dsimp only
  sl_unfold_words
  simp only [View.readCov_unit_zero (S := S1x128) _ hz2, View.canon_cons_unit_zero (S := S1x128) hz2, View.canon_unit_zero (S := S1x128) hz2, View.canon_unit_zero (S := S5000x128) hz2, View.readAt_eq_ld, harg1.read_unread, harg2.read_unread, harg3.read_unread, harg7.read_unread, harg8.read_unread, View.ld_unit_zero (S := S5000x128) hz2, View.ld_unit_zero (S := S128x128) hz2, View.ld_unit_zero (S := S1x128) hz2]

theorem sout0_B_1_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S128x128 .f32) (x2 : Vec F S1x128 .f32) (xs0 xs1 : Vec F S1x128 .f32) :
    sout0_B_1 c i arg1 harg1 arg2 harg2 arg3 harg3 arg4 harg4 arg5 harg5 arg6 harg6 arg7 harg7 arg8 harg8 hc0 hc1 x0 x1 x2 xs0 xs1 = k0_pay5 x0 x1 x2 xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 xs0 xs1)]
  unfold kernelRun0_B; dsimp only
  sl_unfold_words
  simp only [View.readCov_unit_zero (S := S1x128) _ hz2, View.canon_cons_unit_zero (S := S1x128) hz2, View.canon_unit_zero (S := S1x128) hz2, View.canon_unit_zero (S := S5000x128) hz2, View.readAt_eq_ld, harg1.read_unread, harg2.read_unread, harg3.read_unread, harg7.read_unread, harg8.read_unread, View.ld_unit_zero (S := S5000x128) hz2, View.ld_unit_zero (S := S128x128) hz2, View.ld_unit_zero (S := S1x128) hz2]

theorem out0_C_3_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) :
    out0_C_3 c i arg1 harg1 arg2 harg2 arg3 harg3 arg4 harg4 arg5 harg5 arg6 harg6 arg7 harg7 arg8 harg8 hc0 hc1 x0 x1 x2 xs0 xs1 = k0_pay3 x0 x1 x2 := by
  unfold out0_C_3
  rw [View.read_writes_eq_canon _ _ _ (cover0_C_3 c i arg1 harg1 arg2 harg2 arg3 harg3 arg4 harg4 arg5 harg5 arg6 harg6 arg7 harg7 arg8 harg8 hc0 hc1 x0 x1 x2 xs0 xs1)]
  unfold kernelRun0_C; dsimp only
  sl_unfold_words
  simp only [View.readCov_unit_zero (S := S1x128) _ hz2, View.canon_cons_unit_zero (S := S1x128) hz2, View.canon_unit_zero (S := S1x128) hz2, View.canon_unit_zero (S := S5000x128) hz2, View.readAt_eq_ld, harg1.read_unread, harg2.read_unread, harg3.read_unread, harg7.read_unread, harg8.read_unread, View.ld_unit_zero (S := S5000x128) hz2, View.ld_unit_zero (S := S128x128) hz2, View.ld_unit_zero (S := S1x128) hz2]

theorem out0_C_4_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) :
    out0_C_4 c i arg1 harg1 arg2 harg2 arg3 harg3 arg4 harg4 arg5 harg5 arg6 harg6 arg7 harg7 arg8 harg8 hc0 hc1 x0 x1 x2 xs0 xs1 = k0_pay4 x0 x1 x2 xs0 := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 xs0 xs1)]
  unfold kernelRun0_C; dsimp only
  sl_unfold_words
  simp only [View.readCov_unit_zero (S := S1x128) _ hz2, View.canon_cons_unit_zero (S := S1x128) hz2, View.canon_unit_zero (S := S1x128) hz2, View.canon_unit_zero (S := S5000x128) hz2, View.readAt_eq_ld, harg1.read_unread, harg2.read_unread, harg3.read_unread, harg7.read_unread, harg8.read_unread, View.ld_unit_zero (S := S5000x128) hz2, View.ld_unit_zero (S := S128x128) hz2, View.ld_unit_zero (S := S1x128) hz2]

theorem out0_C_5_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) :
    out0_C_5 c i arg1 harg1 arg2 harg2 arg3 harg3 arg4 harg4 arg5 harg5 arg6 harg6 arg7 harg7 arg8 harg8 hc0 hc1 x0 x1 x2 xs0 xs1 = k0_pay5 x0 x1 x2 xs1 := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 xs0 xs1)]
  unfold kernelRun0_C; dsimp only
  sl_unfold_words
  simp only [View.readCov_unit_zero (S := S1x128) _ hz2, View.canon_cons_unit_zero (S := S1x128) hz2, View.canon_unit_zero (S := S1x128) hz2, View.canon_unit_zero (S := S5000x128) hz2, View.readAt_eq_ld, harg1.read_unread, harg2.read_unread, harg3.read_unread, harg7.read_unread, harg8.read_unread, View.ld_unit_zero (S := S5000x128) hz2, View.ld_unit_zero (S := S128x128) hz2, View.ld_unit_zero (S := S1x128) hz2]

theorem sout0_C_0_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) :
    sout0_C_0 c i arg1 harg1 arg2 harg2 arg3 harg3 arg4 harg4 arg5 harg5 arg6 harg6 arg7 harg7 arg8 harg8 hc0 hc1 x0 x1 x2 xs0 xs1 = k0_pay4 x0 x1 x2 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 xs0 xs1)]
  unfold kernelRun0_C; dsimp only
  sl_unfold_words
  simp only [View.readCov_unit_zero (S := S1x128) _ hz2, View.canon_cons_unit_zero (S := S1x128) hz2, View.canon_unit_zero (S := S1x128) hz2, View.canon_unit_zero (S := S5000x128) hz2, View.readAt_eq_ld, harg1.read_unread, harg2.read_unread, harg3.read_unread, harg7.read_unread, harg8.read_unread, View.ld_unit_zero (S := S5000x128) hz2, View.ld_unit_zero (S := S128x128) hz2, View.ld_unit_zero (S := S1x128) hz2]

theorem sout0_C_1_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S128x128 .f32) (x2 : Vec F S1x128 .f32) (xs0 xs1 : Vec F S1x128 .f32) :
    sout0_C_1 c i arg1 harg1 arg2 harg2 arg3 harg3 arg4 harg4 arg5 harg5 arg6 harg6 arg7 harg7 arg8 harg8 hc0 hc1 x0 x1 x2 xs0 xs1 = k0_pay5 x0 x1 x2 xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 x2 xs0 xs1)]
  unfold kernelRun0_C; dsimp only
  sl_unfold_words
  simp only [View.readCov_unit_zero (S := S1x128) _ hz2, View.canon_cons_unit_zero (S := S1x128) hz2, View.canon_unit_zero (S := S1x128) hz2, View.canon_unit_zero (S := S5000x128) hz2, View.readAt_eq_ld, harg1.read_unread, harg2.read_unread, harg3.read_unread, harg7.read_unread, harg8.read_unread, View.ld_unit_zero (S := S5000x128) hz2, View.ld_unit_zero (S := S128x128) hz2, View.ld_unit_zero (S := S1x128) hz2]

end Cert.KernelIdeal.Hand

end
-- ==== Proof.S0Acc.lean ====
/-
  The first matmul-with-statistics call: the two accumulators over the grid, in closed form. After point n the
  sum accumulator is the payload "previous accumulator + column sums of this point's h block" applied n+1 times from
  zero, and likewise the sum of squares; the contents the runs found ARE these, by induction on the point. The two
  [1,128] statistics arrays are written back once, after the last point, and so end holding the accumulators after
  point 19. The h block a point leaves is the block payload of that point's input blocks.
-/
import proofs.«151566_j35021163331665_1_alg».proof.Proof.Gen.KernelIdeal.Launch
import proofs.«151566_j35021163331665_1_alg».proof.Proof.Gen.KernelIdeal.Skeleton
import proofs.«151566_j35021163331665_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«151566_j35021163331665_1_alg».proof.Proof.S0Pieces
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The sum accumulator after point n. -/
def accS (c : Dev nD) : (n : ℕ) → n < cfg0.N → Vec F S1x128 .f32
  | 0, h => k0_pay4 (iblk0 V c 0 ⟨0, h⟩) (iblk0 V c 1 ⟨0, h⟩) (iblk0 V c 2 ⟨0, h⟩) (k0_pay1 (F := F))
  | n + 1, h => k0_pay4 (iblk0 V c 0 ⟨n + 1, h⟩) (iblk0 V c 1 ⟨n + 1, h⟩) (iblk0 V c 2 ⟨n + 1, h⟩) (accS c n (Nat.lt_of_succ_lt h))

/-- The sum-of-squares accumulator after point n. -/
def accSS (c : Dev nD) : (n : ℕ) → n < cfg0.N → Vec F S1x128 .f32
  | 0, h => k0_pay5 (iblk0 V c 0 ⟨0, h⟩) (iblk0 V c 1 ⟨0, h⟩) (iblk0 V c 2 ⟨0, h⟩) (k0_pay2 (F := F))
  | n + 1, h => k0_pay5 (iblk0 V c 0 ⟨n + 1, h⟩) (iblk0 V c 1 ⟨n + 1, h⟩) (iblk0 V c 2 ⟨n + 1, h⟩) (accSS c n (Nat.lt_of_succ_lt h))

/-- What the runs found in the two scratch accumulators after point n is the closed form. -/
theorem outsS_eq (c : Dev nD) : ∀ (n : ℕ) (h : n < cfg0.N),
    (outsAt0 V c n h).2.2.2.1 = accS V c n h ∧ (outsAt0 V c n h).2.2.2.2 = accSS V c n h
  | 0, h => by
    have hh0 : (⟨0, h⟩ : Fin cfg0.N).val % 20 = 0 := rfl
    have hh1 : ¬(⟨0, h⟩ : Fin cfg0.N).val % 20 = 19 := by show ¬(0 % 20 = 19); decide
    have e : outsAt0 V c 0 h = _ := outsAt0_A V c ⟨0, h⟩ hh0 hh1
    rw [e]
    exact ⟨sout0_A_0_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr hh0) (fun hc => hh1 ((hcond0_1 ⟨0, h⟩).mp hc)) (iblk0 V c 0 ⟨0, h⟩) (iblk0 V c 1 ⟨0, h⟩) (iblk0 V c 2 ⟨0, h⟩),
      sout0_A_1_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr hh0) (fun hc => hh1 ((hcond0_1 ⟨0, h⟩).mp hc)) (iblk0 V c 0 ⟨0, h⟩) (iblk0 V c 1 ⟨0, h⟩) (iblk0 V c 2 ⟨0, h⟩)⟩
  | n + 1, h => by
    have hN : cfg0.N = 20 := N_0
    have h0 : ¬(⟨n + 1, h⟩ : Fin cfg0.N).val % 20 = 0 := by dsimp only; omega
    obtain ⟨ih0, ih1⟩ := outsS_eq c n (Nat.lt_of_succ_lt h)
    by_cases h1 : (⟨n + 1, h⟩ : Fin cfg0.N).val % 20 = 19
    · have e : outsAt0 V c (n + 1) h = _ := outsAt0_C V c ⟨n + 1, h⟩ h0 h1
      rw [e]; dsimp only
      constructor
      · refine (sout0_C_0_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hc => h0 ((hcond0_0 ⟨n + 1, h⟩).mp hc)) ((hcond0_1 ⟨n + 1, h⟩).mpr h1) (iblk0 V c 0 ⟨n + 1, h⟩) (iblk0 V c 1 ⟨n + 1, h⟩) (iblk0 V c 2 ⟨n + 1, h⟩) (outsAt0 V c n (Nat.lt_of_succ_lt h)).2.2.2.1 (outsAt0 V c n (Nat.lt_of_succ_lt h)).2.2.2.2).trans ?_
        show k0_pay4 _ _ _ (outsAt0 V c n _).2.2.2.1 = k0_pay4 _ _ _ (accS V c n _)
        rw [ih0]
      · refine (sout0_C_1_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hc => h0 ((hcond0_0 ⟨n + 1, h⟩).mp hc)) ((hcond0_1 ⟨n + 1, h⟩).mpr h1) (iblk0 V c 0 ⟨n + 1, h⟩) (iblk0 V c 1 ⟨n + 1, h⟩) (iblk0 V c 2 ⟨n + 1, h⟩) (outsAt0 V c n (Nat.lt_of_succ_lt h)).2.2.2.1 (outsAt0 V c n (Nat.lt_of_succ_lt h)).2.2.2.2).trans ?_
        show k0_pay5 _ _ _ (outsAt0 V c n _).2.2.2.2 = k0_pay5 _ _ _ (accSS V c n _)
        rw [ih1]
    · have e : outsAt0 V c (n + 1) h = _ := outsAt0_B V c ⟨n + 1, h⟩ h0 h1
      rw [e]; dsimp only
      constructor
      · refine (sout0_B_0_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hc => h0 ((hcond0_0 ⟨n + 1, h⟩).mp hc)) (fun hc => h1 ((hcond0_1 ⟨n + 1, h⟩).mp hc)) (iblk0 V c 0 ⟨n + 1, h⟩) (iblk0 V c 1 ⟨n + 1, h⟩) (iblk0 V c 2 ⟨n + 1, h⟩) (outsAt0 V c n (Nat.lt_of_succ_lt h)).2.2.2.1 (outsAt0 V c n (Nat.lt_of_succ_lt h)).2.2.2.2).trans ?_
        show k0_pay4 _ _ _ (outsAt0 V c n _).2.2.2.1 = k0_pay4 _ _ _ (accS V c n _)
        rw [ih0]
      · refine (sout0_B_1_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hc => h0 ((hcond0_0 ⟨n + 1, h⟩).mp hc)) (fun hc => h1 ((hcond0_1 ⟨n + 1, h⟩).mp hc)) (iblk0 V c 0 ⟨n + 1, h⟩) (iblk0 V c 1 ⟨n + 1, h⟩) (iblk0 V c 2 ⟨n + 1, h⟩) (outsAt0 V c n (Nat.lt_of_succ_lt h)).2.2.2.1 (outsAt0 V c n (Nat.lt_of_succ_lt h)).2.2.2.2).trans ?_
        show k0_pay5 _ _ _ (outsAt0 V c n _).2.2.2.2 = k0_pay5 _ _ _ (accSS V c n _)
        rw [ih1]

/-- The h block every point leaves is the block payload of its input blocks. -/
theorem outs3_eq (c : Dev nD) (t : Fin cfg0.N) :
    (outsAt0 V c t.val t.isLt).1 = k0_pay3 (iblk0 V c 0 t) (iblk0 V c 1 t) (iblk0 V c 2 t) := by
  have hN : t.val < 20 := lt_of_lt_of_eq t.isLt (show cfg0.N = 20 from N_0)
  by_cases h0 : t.val % 20 = 0
  · have h1 : ¬t.val % 20 = 19 := by omega
    rw [outsAt0_A V c t h0 h1]; dsimp only
    exact out0_A_3_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun hc => h1 ((hcond0_1 t).mp hc)) (iblk0 V c 0 t) (iblk0 V c 1 t) (iblk0 V c 2 t)
  · by_cases h1 : t.val % 20 = 19
    · rw [outsAt0_C V c t h0 h1]; dsimp only
      exact out0_C_3_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hc => h0 ((hcond0_0 t).mp hc)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
    · rw [outsAt0_B V c t h0 h1]; dsimp only
      exact out0_B_3_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hc => h0 ((hcond0_0 t).mp hc)) (fun hc => h1 ((hcond0_1 t).mp hc)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- At the last point the two statistics blocks receive the accumulators after it. -/
theorem outs4_last (c : Dev nD) (t : Fin cfg0.N) (h1 : t.val % 20 = 19) :
    (outsAt0 V c t.val t.isLt).2.1 = accS V c t.val t.isLt := by
  have hN : t.val < 20 := lt_of_lt_of_eq t.isLt (show cfg0.N = 20 from N_0)
  have h0 : ¬t.val % 20 = 0 := by omega
  rw [← (outsS_eq V c t.val t.isLt).1, outsAt0_C V c t h0 h1]; dsimp only
  exact (out0_C_4_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hc => h0 ((hcond0_0 t).mp hc)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans
    (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hc => h0 ((hcond0_0 t).mp hc)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm
theorem outs5_last (c : Dev nD) (t : Fin cfg0.N) (h1 : t.val % 20 = 19) :
    (outsAt0 V c t.val t.isLt).2.2.1 = accSS V c t.val t.isLt := by
  have hN : t.val < 20 := lt_of_lt_of_eq t.isLt (show cfg0.N = 20 from N_0)
  have h0 : ¬t.val % 20 = 0 := by omega
  rw [← (outsS_eq V c t.val t.isLt).2, outsAt0_C V c t h0 h1]; dsimp only
  exact (out0_C_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hc => h0 ((hcond0_0 t).mp hc)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans
    (sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hc => h0 ((hcond0_0 t).mp hc)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm

theorem lt19 : 19 < cfg0.N := by rw [show cfg0.N = 20 from N_0]; decide
/-- The last grid point. -/
abbrev t19 : Fin cfg0.N := ⟨19, lt19⟩

/-- The one write-back of statistics window 4, at the last point, writes the accumulator after it. -/
theorem flushed0_4_eq (c : Dev nD) (t : Fin cfg0.N) (hf : (cfg0.win 4).flush t = true) :
    (dat0 V c).flushed 4 t = ((cfg0.win 4).blk t).view.read (Elt F) (accS V c 19 lt19) := by
  have hN : cfg0.N = 20 := N_0
  have h19 : t.val = 19 := by have := (flush0_4 t).mp hf; have := t.isLt; omega
  obtain rfl : t = t19 := Fin.ext h19
  show (cfg0.win 4).cut (grid0.coords t19) ((dat0 V c).after 4 t19) = _
  rw [after0_4, outs4_last V c t19 rfl]
  have hz' : (fun a => win0_4.index t19 a * main_v15_1.ty.shape.size a) = fun _ => 0 := funext fun a => by fin_cases a <;> decide
  exact (Memref.read_access_unit_zero (Elt F) main_v15_1 hz' (fun a => by rw [congrFun hz' a]; simp) (accS V c 19 lt19)).symm

/-- So that array ends holding it: the last point's block is the whole [1,128] array. -/
theorem final0_4 (c : Dev nD) : (dat0 V c).arrAt 4 cfg0.N = accS V c 19 lt19 :=
  (dat0 V c).arrAt_eq_of_cover 4 (accS V c 19 lt19) (flushed0_4_eq V c) fun i =>
    ⟨t19, (flush0_4 t19).mpr rfl, by
      show i ∈ ((View.whole main_v15_1).slice (win0_4.rect t19)).set
      rw [View.set_slice_whole, Rect.mem_set_unit]
      intro a
      have h0 : (i 0 : Nat) < 1 := (i 0).isLt
      have h1 : (i 1 : Nat) < 128 := (i 1).isLt
      match a with
      | ⟨0, _⟩ => show win0_4.index t19 0 * win0_4.size 0 ≤ (i 0 : Nat) ∧ (i 0 : Nat) < win0_4.index t19 0 * win0_4.size 0 + win0_4.xsize (grid0.coords t19) 0
                  rw [show win0_4.index t19 0 * win0_4.size 0 = 0 from by decide +kernel, show win0_4.xsize (grid0.coords t19) 0 = 1 from by decide +kernel]; omega
      | ⟨1, _⟩ => show win0_4.index t19 1 * win0_4.size 1 ≤ (i 1 : Nat) ∧ (i 1 : Nat) < win0_4.index t19 1 * win0_4.size 1 + win0_4.xsize (grid0.coords t19) 1
                  rw [show win0_4.index t19 1 * win0_4.size 1 = 0 from by decide +kernel, show win0_4.xsize (grid0.coords t19) 1 = 128 from by decide +kernel]; omega⟩

/-- The one write-back of statistics window 5, at the last point, writes the accumulator after it. -/
theorem flushed0_5_eq (c : Dev nD) (t : Fin cfg0.N) (hf : (cfg0.win 5).flush t = true) :
    (dat0 V c).flushed 5 t = ((cfg0.win 5).blk t).view.read (Elt F) (accSS V c 19 lt19) := by
  have hN : cfg0.N = 20 := N_0
  have h19 : t.val = 19 := by have := (flush0_5 t).mp hf; have := t.isLt; omega
  obtain rfl : t = t19 := Fin.ext h19
  show (cfg0.win 5).cut (grid0.coords t19) ((dat0 V c).after 5 t19) = _
  rw [after0_5, outs5_last V c t19 rfl]
  have hz' : (fun a => win0_5.index t19 a * main_v15_2.ty.shape.size a) = fun _ => 0 := funext fun a => by fin_cases a <;> decide
  exact (Memref.read_access_unit_zero (Elt F) main_v15_2 hz' (fun a => by rw [congrFun hz' a]; simp) (accSS V c 19 lt19)).symm

/-- So that array ends holding it: the last point's block is the whole [1,128] array. -/
theorem final0_5 (c : Dev nD) : (dat0 V c).arrAt 5 cfg0.N = accSS V c 19 lt19 :=
  (dat0 V c).arrAt_eq_of_cover 5 (accSS V c 19 lt19) (flushed0_5_eq V c) fun i =>
    ⟨t19, (flush0_5 t19).mpr rfl, by
      show i ∈ ((View.whole main_v15_2).slice (win0_5.rect t19)).set
      rw [View.set_slice_whole, Rect.mem_set_unit]
      intro a
      have h0 : (i 0 : Nat) < 1 := (i 0).isLt
      have h1 : (i 1 : Nat) < 128 := (i 1).isLt
      match a with
      | ⟨0, _⟩ => show win0_5.index t19 0 * win0_5.size 0 ≤ (i 0 : Nat) ∧ (i 0 : Nat) < win0_5.index t19 0 * win0_5.size 0 + win0_5.xsize (grid0.coords t19) 0
                  rw [show win0_5.index t19 0 * win0_5.size 0 = 0 from by decide +kernel, show win0_5.xsize (grid0.coords t19) 0 = 1 from by decide +kernel]; omega
      | ⟨1, _⟩ => show win0_5.index t19 1 * win0_5.size 1 ≤ (i 1 : Nat) ∧ (i 1 : Nat) < win0_5.index t19 1 * win0_5.size 1 + win0_5.xsize (grid0.coords t19) 1
                  rw [show win0_5.index t19 1 * win0_5.size 1 = 0 from by decide +kernel, show win0_5.xsize (grid0.coords t19) 1 = 128 from by decide +kernel]; omega⟩

end Cert.KernelIdeal.Hand

end
-- ==== Proof.LibColReduce.lean ====
/-
  A reduction over the FIRST axis of a matrix, read at a coordinate.

  A matrix `[a, b]` summed over its row axis gives, at column `c`, the sum over `r : Fin a` of the entry `(r, c)`:
  the library states the sum over the reduced index with the coordinate re-inserted; here the re-inserted index is
  written by its coordinates. (The companion of the last-axis forms.) Library imports only.
-/
import Idealize.ShloMosaic.PureOps.Ideal.Laws
import Idealize.ShloMosaic.Lib.ValueIdx

noncomputable section

namespace Cert.LibColReduce

open Idealize.ShloMosaic Idealize.ShloMosaic.ValueIdx

variable {φ : FTy}

/-- Column `c` with row `r` put back is the entry `(r, c)`. -/
theorem lift_col {a b : ℕ} (h : (⟨2, ![a, b]⟩ : Shape).Reduces [0] ⟨1, ![b]⟩) (c : Fin b) (r : Fin a) :
    h.lift (ix1 c) r = ix2 r c := by
  funext d; apply Fin.ext
  fin_cases d <;> rfl

/-- A sum of a matrix down its rows, at column `c`: the sum of the column's entries. -/
theorem multiReduction_add_col {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) :=
  (Ideal.multiReduction_add_single src acc h hφ hacc (ix1 c)).trans
    (Finset.sum_congr rfl fun r _ => congrArg src (lift_col h c r))

end Cert.LibColReduce

end
-- ==== Proof.S0Stats.lean ====
/-
  The first matmul-with-statistics call at the ideal instance: the two accumulators read at an entry. One step adds,
  in column j, the sum over the block's 5000 rows of the h entries (or of their squares) to the previous entry; so after
  point n the entry is zero plus the column sums of the blocks 0..n.
-/
import proofs.«151566_j35021163331665_1_alg».proof.Proof.S0Acc
import proofs.«151566_j35021163331665_1_alg».proof.Proof.LibColReduce
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

/-- The zero the accumulators start from. -/
theorem pay1_apply (i : S1x128.Idx) : (k0_pay1 (F := Ideal)) i = 0 := by
  unfold k0_pay1
  rw [shapeCast_self]
  exact Ideal.ofBits_zero_f32
theorem pay2_apply (i : S1x128.Idx) : (k0_pay2 (F := Ideal)) i = 0 := by
  unfold k0_pay2
  rw [shapeCast_self]
  exact Ideal.ofBits_zero_f32

/-- One step of the sum accumulator at column j: the previous entry plus the block's column sum of h. -/
theorem pay4_apply (v3 : Vec Ideal S5000x128 .f32) (v6 : Vec Ideal S128x128 .f32) (v9 v14 : Vec Ideal S1x128 .f32) (j : Fin 128) :
    k0_pay4 v3 v6 v9 v14 (ix2 (0 : Fin 1) j) = v14 (ix2 (0 : Fin 1) j) + ∑ i : Fin 5000, k0_pay3 v3 v6 v9 (ix2 i j) := by
  unfold k0_pay4; dsimp only
  rw [shapeCast_self, addf_apply]
  refine congrArg (v14 (ix2 (0 : Fin 1) j) + ·) ((shapeCast_a_1a_apply _ _ (0 : Fin 1) j).trans ?_)
  exact (Cert.LibColReduce.multiReduction_add_col (a := 5000) (b := 128) (k0_pay3 v3 v6 v9) 0x00000000#32 reduces_S5000x128_S128 (.inl rfl) rfl j)

/-- One step of the sum-of-squares accumulator at column j. -/
theorem pay5_apply (v3 : Vec Ideal S5000x128 .f32) (v6 : Vec Ideal S128x128 .f32) (v9 v21 : Vec Ideal S1x128 .f32) (j : Fin 128) :
    k0_pay5 v3 v6 v9 v21 (ix2 (0 : Fin 1) j)
      = v21 (ix2 (0 : Fin 1) j) + ∑ i : Fin 5000, k0_pay3 v3 v6 v9 (ix2 i j) * k0_pay3 v3 v6 v9 (ix2 i j) := by
  unfold k0_pay5; dsimp only
  rw [shapeCast_self, addf_apply]
  refine congrArg (v21 (ix2 (0 : Fin 1) j) + ·) ((shapeCast_a_1a_apply _ _ (0 : Fin 1) j).trans ?_)
  exact (Cert.LibColReduce.multiReduction_add_col (a := 5000) (b := 128) (mulf (k0_pay3 v3 v6 v9) (k0_pay3 v3 v6 v9)) 0x00000000#32 reduces_S5000x128_S128 (.inl rfl) rfl j)

variable (V : (c : Dev nD) → (b : Ref sig .tc) → Buf (Elt Ideal) ((c : Thread nD τ).loc b))

/-- Block t's column sum of h at column j (zero past the grid). -/
def colS (c : Dev nD) (t : ℕ) (j : Fin 128) : EReal :=
  if h : t < cfg0.N then ∑ i : Fin 5000, k0_pay3 (iblk0 V c 0 ⟨t, h⟩) (iblk0 V c 1 ⟨t, h⟩) (iblk0 V c 2 ⟨t, h⟩) (ix2 i j) else 0
/-- Block t's column sum of h squared at column j. -/
def colSS (c : Dev nD) (t : ℕ) (j : Fin 128) : EReal :=
  if h : t < cfg0.N then ∑ i : Fin 5000, k0_pay3 (iblk0 V c 0 ⟨t, h⟩) (iblk0 V c 1 ⟨t, h⟩) (iblk0 V c 2 ⟨t, h⟩) (ix2 i j) * k0_pay3 (iblk0 V c 0 ⟨t, h⟩) (iblk0 V c 1 ⟨t, h⟩) (iblk0 V c 2 ⟨t, h⟩) (ix2 i j) else 0

/-- The sum accumulator after point n, at column j: zero plus the column sums of the blocks 0..n. -/
theorem accS_apply (c : Dev nD) : ∀ (n : ℕ) (h : n < cfg0.N) (j : Fin 128),
    accS V c n h (ix2 (0 : Fin 1) j) = 0 + ∑ t ∈ Finset.range (n + 1), colS V c t j
  | 0, h, j => by
    show k0_pay4 (F := Ideal) (iblk0 V c 0 ⟨0, h⟩) (iblk0 V c 1 ⟨0, h⟩) (iblk0 V c 2 ⟨0, h⟩) (k0_pay1 (F := Ideal)) (ix2 (0 : Fin 1) j) = _
    rw [pay4_apply, pay1_apply, Finset.sum_range_one, colS, dif_pos h]
  | n + 1, h, j => by
    show k0_pay4 (F := Ideal) (iblk0 V c 0 ⟨n + 1, h⟩) (iblk0 V c 1 ⟨n + 1, h⟩) (iblk0 V c 2 ⟨n + 1, h⟩) (accS V c n (Nat.lt_of_succ_lt h)) (ix2 (0 : Fin 1) j) = _
    rw [pay4_apply, accS_apply c n (Nat.lt_of_succ_lt h) j, Finset.sum_range_succ _ (n + 1), add_assoc]
    congr 2
    rw [colS, dif_pos h]

/-- The sum-of-squares accumulator after point n, at column j. -/
theorem accSS_apply (c : Dev nD) : ∀ (n : ℕ) (h : n < cfg0.N) (j : Fin 128),
    accSS V c n h (ix2 (0 : Fin 1) j) = 0 + ∑ t ∈ Finset.range (n + 1), colSS V c t j
  | 0, h, j => by
    show k0_pay5 (F := Ideal) (iblk0 V c 0 ⟨0, h⟩) (iblk0 V c 1 ⟨0, h⟩) (iblk0 V c 2 ⟨0, h⟩) (k0_pay2 (F := Ideal)) (ix2 (0 : Fin 1) j) = _
    rw [pay5_apply, pay2_apply, Finset.sum_range_one, colSS, dif_pos h]
  | n + 1, h, j => by
    show k0_pay5 (F := Ideal) (iblk0 V c 0 ⟨n + 1, h⟩) (iblk0 V c 1 ⟨n + 1, h⟩) (iblk0 V c 2 ⟨n + 1, h⟩) (accSS V c n (Nat.lt_of_succ_lt h)) (ix2 (0 : Fin 1) j) = _
    rw [pay5_apply, accSS_apply c n (Nat.lt_of_succ_lt h) j, Finset.sum_range_succ _ (n + 1), add_assoc]
    congr 2
    rw [colSS, dif_pos h]

end Cert.KernelIdeal.Hand

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.HPay.lean ====
/- The block payload of the two statistics-carrying kernels read at one element, at the exact-real instance: at row `i`
   and column `j` of a [5000,128] block it is (Σ_k x[i,k] · w[k,j]) + b[0,j]. The two narrowings to bf16 are the
   identity on extended reals, the matrix unit's product into a zero accumulator is the plain sum over the one
   contracted axis, and the [1,128] bias row is broadcast down the rows. Then the same formula over the whole
   [100000,128] array. -/
import proofs.«151566_j35021163331665_1_alg».proof.Proof.Gen.KernelIdeal.Skeleton
import proofs.«151566_j35021163331665_1_alg».proof.Proof.LibDot
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- The kernels' dimension numbers: the left operand's axis 1 against the right operand's axis 0, no batch axis. -/
abbrev hDims : DotDims S5000x128 S128x128 S5000x128 := dot_S5000x128_S128x128_S5000x128_1_0_0_1_n_n

theorem hDims_rank : hDims.contr.rank = 1 := rfl
theorem hDims_size : hDims.contr.size ⟨0, by rw [hDims_rank]; exact Nat.one_pos⟩ = 128 := rfl
theorem hDims_l0 (j : S5000x128.Idx) (k : hDims.contr.Idx) : (hDims.lhsIdx j k 0).val = (j 0).val := rfl
theorem hDims_l1 (j : S5000x128.Idx) (k : hDims.contr.Idx) : (hDims.lhsIdx j k 1).val = (k ⟨0, by rw [hDims_rank]; exact Nat.one_pos⟩).val := rfl
theorem hDims_r0 (j : S5000x128.Idx) (k : hDims.contr.Idx) : (hDims.rhsIdx j k 0).val = (k ⟨0, by rw [hDims_rank]; exact Nat.one_pos⟩).val := rfl
theorem hDims_r1 (j : S5000x128.Idx) (k : hDims.contr.Idx) : (hDims.rhsIdx j k 1).val = (j 1).val := rfl

/-- Region 0's block payload at an element. -/
theorem pay3_apply (x0 : Vec Ideal S5000x128 .f32) (x1 : Vec Ideal S128x128 .f32) (x2 : Vec Ideal S1x128 .f32) (i : Fin 5000) (j : Fin 128) :
    k0_pay3 x0 x1 x2 (ix2 i j) = (∑ k : Fin 128, x0 (ix2 i k) * x1 (ix2 k j)) + x2 (ix2 (0 : Fin 1) j) := by
  unfold k0_pay3
  simp only [shapeCast_self, addf_apply, broadcastTo_1b_ab_apply]
  exact congrArg (· + x2 (ix2 (0 : Fin 1) j))
    (Cert.LibDot.matmul_zero_apply hDims hDims_rank hDims_size hDims_l0 hDims_l1 hDims_r0 hDims_r1 none
      (truncf .bf16 x0 bitsLt_bf16_f32) (truncf .bf16 x1 bitsLt_bf16_f32) i j)

/-- Region 2's block payload at an element: the same operations. -/
theorem pay3_apply2 (x0 : Vec Ideal S5000x128 .f32) (x1 : Vec Ideal S128x128 .f32) (x2 : Vec Ideal S1x128 .f32) (i : Fin 5000) (j : Fin 128) :
    k2_pay3 x0 x1 x2 (ix2 i j) = (∑ k : Fin 128, x0 (ix2 i k) * x1 (ix2 k j)) + x2 (ix2 (0 : Fin 1) j) := by
  unfold k2_pay3
  simp only [shapeCast_self, addf_apply, broadcastTo_1b_ab_apply]
  exact congrArg (· + x2 (ix2 (0 : Fin 1) j))
    (Cert.LibDot.matmul_zero_apply hDims hDims_rank hDims_size hDims_l0 hDims_l1 hDims_r0 hDims_r1 none
      (truncf .bf16 x0 bitsLt_bf16_f32) (truncf .bf16 x1 bitsLt_bf16_f32) i j)

/-- The whole result array: element (r, j) is row r of the left operand against column j of the weight, plus the
    bias row's entry j. -/
def hArr (A : S100000x128.Idx → EReal) (W : S128x128.Idx → EReal) (B : S1x128.Idx → EReal) : S100000x128.Idx → EReal :=
  fun i => (∑ k : Fin 128, A (ix2 (i 0 : Fin 100000) k) * W (ix2 k (i 1 : Fin 128))) + B (ix2 (0 : Fin 1) (i 1 : Fin 128))

theorem hArr_ix2 (A : S100000x128.Idx → EReal) (W : S128x128.Idx → EReal) (B : S1x128.Idx → EReal) (r : Fin 100000) (j : Fin 128) :
    hArr A W B (ix2 r j) = (∑ k : Fin 128, A (ix2 r k) * W (ix2 k j)) + B (ix2 (0 : Fin 1) j) := rfl

/-- A block's payload at the element `y` is the array's formula at `i`, when row `y 0` of the block of the left
    operand is row `i 0` of the array, `i` is in `y`'s column, and the weight and bias blocks are the two arrays. -/
theorem h_point0 (x0 : Vec Ideal S5000x128 .f32) (x1 : Vec Ideal S128x128 .f32) (x2 : Vec Ideal S1x128 .f32)
    (A : S100000x128.Idx → EReal) (W : S128x128.Idx → EReal) (B : S1x128.Idx → EReal) (y : S5000x128.Idx) (i : S100000x128.Idx)
    (hi : (i 1).val = (y 1).val) (h0 : ∀ k : Fin 128, x0 (ix2 (y 0 : Fin 5000) k) = A (ix2 (i 0 : Fin 100000) k))
    (h1 : x1 = W) (h2 : x2 = B) :
    k0_pay3 x0 x1 x2 y = hArr A W B i := by
  subst h1 h2
  obtain ⟨p, q, rfl⟩ : ∃ (p : Fin 5000) (q : Fin 128), y = ix2 p q := ⟨y 0, y 1, eq_ix2 y⟩
  have hq : (i 1 : Fin 128) = q := Fin.ext hi
  rw [pay3_apply]
  unfold hArr
  rw [hq]
  exact congrArg (· + x2 (ix2 (0 : Fin 1) q)) (Finset.sum_congr rfl fun k _ => congrArg (· * x1 (ix2 k q)) (h0 k))

theorem h_point2 (x0 : Vec Ideal S5000x128 .f32) (x1 : Vec Ideal S128x128 .f32) (x2 : Vec Ideal S1x128 .f32)
    (A : S100000x128.Idx → EReal) (W : S128x128.Idx → EReal) (B : S1x128.Idx → EReal) (y : S5000x128.Idx) (i : S100000x128.Idx)
    (hi : (i 1).val = (y 1).val) (h0 : ∀ k : Fin 128, x0 (ix2 (y 0 : Fin 5000) k) = A (ix2 (i 0 : Fin 100000) k))
    (h1 : x1 = W) (h2 : x2 = B) :
    k2_pay3 x0 x1 x2 y = hArr A W B i := by
  subst h1 h2
  obtain ⟨p, q, rfl⟩ : ∃ (p : Fin 5000) (q : Fin 128), y = ix2 p q := ⟨y 0, y 1, eq_ix2 y⟩
  have hq : (i 1 : Fin 128) = q := Fin.ext hi
  rw [pay3_apply2]
  unfold hArr
  rw [hq]
  exact congrArg (· + x2 (ix2 (0 : Fin 1) q)) (Finset.sum_congr rfl fun k _ => congrArg (· * x1 (ix2 k q)) (h0 k))

end Cert.KernelIdeal.Hand

end
-- ==== Proof.S0HValue.lean ====
/- Region 0's result array h at the exact-real instance: after the region the [100000,128] array of window 3 holds,
   at (r, j), (Σ_k a[r,k] · w[k,j]) + b[0,j] of the three arrays the region finds. Every point `t` of the 20 stores
   and writes back the block payload of its input blocks, rows 5000·t … 5000·t + 4999: its left-operand block is
   those rows of the [100000,128] array, its weight and bias blocks are the [128,128] and [1,128] arrays whole, and
   row `r` is covered by point `r / 5000`. -/
import proofs.«151566_j35021163331665_1_alg».proof.Proof.S0Acc
import proofs.«151566_j35021163331665_1_alg».proof.Proof.HPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The printed index maps, decided over the 20 points: the left operand's and the result's block index is (t, 0),
    the weight's and the bias row's is (0, 0). -/
theorem idx_factsH0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three arrays the region finds, at their shapes: the left operand, the weight and the bias row. -/
abbrev arrA0 (c : Dev nD) : S100000x128.Idx → EReal := V c (Pipeline.arrRef spec0 0)
abbrev arrW0 (c : Dev nD) : S128x128.Idx → EReal := V c (Pipeline.arrRef spec0 1)
abbrev arrB0 (c : Dev nD) : S1x128.Idx → EReal := V c (Pipeline.arrRef spec0 2)

/-- The result array as one function of the three arrays the region finds. -/
def GH0 (c : Dev nD) : S100000x128.Idx → EReal := hArr (arrA0 V c) (arrW0 V c) (arrB0 V c)

/-- The left operand's block at point `t`, at (i, k), is the array at row 5000·t + i. -/
theorem iblk0_0_apply (c : Dev nD) (t : Fin cfg0.N) (i : Fin 5000) (k : Fin 128) (r : Fin 100000) (hr : r.val = 5000 * t.val + i.val) :
    (iblk0 V c 0 t : S5000x128.Idx → EReal) (ix2 i k) = arrA0 V c (ix2 r k) := by
  obtain ⟨e00, e01, e10, e11, e20, e21, e30, e31⟩ := idx_factsH0 t
  show (V c (Pipeline.arrRef spec0 0) : S100000x128.Idx → EReal) (((cfg0.win 0).blk t).view.emb (ix2 i k)) = _
  refine congrArg _ (funext fun a => Fin.ext ?_)
  match a with
  | ⟨0, _⟩ => show win0_0.index t (0 : Fin 2) * 5000 + 1 * i.val = r.val; omega
  | ⟨1, _⟩ => show win0_0.index t (1 : Fin 2) * 128 + 1 * k.val = k.val; omega

/-- The weight window's block at any point is the [128,128] array whole. -/
theorem iblk0_weight (c : Dev nD) (t : Fin cfg0.N) :
    (iblk0 V c 1 t : S128x128.Idx → EReal) = arrW0 V c := by
  obtain ⟨e00, e01, e10, e11, e20, e21, e30, e31⟩ := idx_factsH0 t
  funext y
  show (V c (Pipeline.arrRef spec0 1) : S128x128.Idx → EReal) (((cfg0.win 1).blk t).view.emb y) = _
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias window's block at any point is the [1,128] array whole. -/
theorem iblk0_bias (c : Dev nD) (t : Fin cfg0.N) :
    (iblk0 V c 2 t : S1x128.Idx → EReal) = arrB0 V c := by
  obtain ⟨e00, e01, e10, e11, e20, e21, e30, e31⟩ := idx_factsH0 t
  funext y
  show (V c (Pipeline.arrRef spec0 2) : S1x128.Idx → EReal) (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What point `t` writes back to the result array is block `t` of `GH0`. -/
theorem flushed0_3_eq (c : Dev nD) (t : Fin cfg0.N) :
    (dat0 V c).flushed 3 t = ((cfg0.win 3).blk t).view.read (Elt Ideal) (GH0 V c) := by
  show (cfg0.win 3).cut (grid0.coords t) ((dat0 V c).after 3 t) = _
  rw [after0_3, outs3_eq]
  obtain ⟨e00, e01, e10, e11, e20, e21, e30, e31⟩ := idx_factsH0 t
  funext y
  refine h_point0 (iblk0 V c 0 t) (iblk0 V c 1 t) (iblk0 V c 2 t)
    (arrA0 V c) (arrW0 V c) (arrB0 V c) y (((cfg0.win 3).blk t).view.emb y) ?_ ?_
    (iblk0_weight V c t) (iblk0_bias V c t)
  · show win0_3.index t (1 : Fin 2) * 128 + 1 * (y 1).val = (y 1).val
    omega
  · intro k
    show (V c (Pipeline.arrRef spec0 0) : S100000x128.Idx → EReal) (((cfg0.win 0).blk t).view.emb (ix2 (y 0 : Fin 5000) k)) = _
    refine congrArg _ (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 128 + 1 * k.val = k.val; omega

/-- An index of the array is in point `t`'s block iff each coordinate is in the block's range on its axis. -/
theorem mem_blk0_3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole (Pipeline.arrRef spec0 3)).slice (win0_3.rect t)).set ↔ _
  rw [View.set_slice_whole, Rect.mem_set_unit]
  exact Iff.rfl

/-- Every index of the array is in the block of the point its row falls in. -/
theorem cover0_3_arr (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  obtain ⟨e00, e01, e10, e11, e20, e21, e30, e31⟩ := idx_factsH0 ⟨(i 0).val / 5000, by rw [hN]; omega⟩
  rw [mem_blk0_3]
  intro a
  match a with
  | ⟨0, _⟩ =>
    show win0_3.index _ (0 : Fin 2) * 5000 ≤ (i 0).val ∧ (i 0).val < win0_3.index _ (0 : Fin 2) * 5000 + 5000
    rw [e30]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e31]; omega

/-- The result array after the region is `GH0`. -/
theorem final0_3 (c : Dev nD) : (dat0 V c).arrAt 3 cfg0.N = GH0 V c :=
  (dat0 V c).arrAt_eq_of_cover 3 (GH0 V c) (fun t _ => flushed0_3_eq V c t) (cover0_3_arr)

/-- The result array after the region, element by element. -/
theorem h0_value (c : Dev nD) (r : Fin 100000) (j : Fin 128) :
    (dat0 V c).arrAt 3 cfg0.N (ix2 r j)
      = ((∑ k : Fin 128, arrA0 V c (ix2 r k) * arrW0 V c (ix2 k j)) + arrB0 V c (ix2 (0 : Fin 1) j) : EReal) := by
  rw [final0_3]
  rfl

end Cert.KernelIdeal.Hand

end
-- ==== Proof.LibBlocks.lean ====
/-
  A sum over rows grouped into equal consecutive blocks: summing each block and then the block sums is the sum
  over all rows, in any commutative monoid (no finiteness is involved: the regrouping of a finite sum).
-/
import Mathlib.Algebra.BigOperators.Fin
import Mathlib.Logic.Equiv.Fin.Basic
import Mathlib.Tactic

namespace Cert.LibBlocks

/-- Row `q` of block `t`, when `B` blocks of `T` rows make up `R` rows. -/
def blockRow {B T R : ℕ} (h : B * T = R) (t : Fin B) (q : Fin T) : Fin R :=
  ⟨t.val * T + q.val, by
    have ht := t.isLt
    have hq := q.isLt
    calc t.val * T + q.val < t.val * T + T := by omega
      _ = (t.val + 1) * T := by ring
      _ ≤ B * T := Nat.mul_le_mul_right T ht
      _ = R := h⟩

theorem blockRow_val {B T R : ℕ} (h : B * T = R) (t : Fin B) (q : Fin T) : (blockRow h t q).val = t.val * T + q.val := rfl

/-- The block sums add up to the whole sum. -/
theorem sum_blocks {M : Type*} [AddCommMonoid M] {B T R : ℕ} (h : B * T = R) (f : Fin R → M) :
    ∑ t : Fin B, ∑ q : Fin T, f (blockRow h t q) = ∑ r : Fin R, f r := by
  subst h
  rw [← Equiv.sum_comp finProdFinEquiv f, Fintype.sum_prod_type]
  refine Finset.sum_congr rfl fun t _ => Finset.sum_congr rfl fun q _ => ?_
  congr 1
  apply Fin.ext
  simp only [blockRow_val, finProdFinEquiv_apply_val]
  ring

end Cert.LibBlocks
-- ==== Proof.S0Sums.lean ====
/-
  The first matmul-with-statistics call at the ideal instance: the two statistics rows in terms of the h array. Block t's
  column sum runs over the rows 5000 t .. 5000 t + 4999 of the h array, and the twenty blocks make up the 100000 rows; so
  after the region, statistics row 1 at column j is zero plus the sum of h(r, j) over all rows r, and row 2 the same of
  the squares.
-/
import proofs.«151566_j35021163331665_1_alg».proof.Proof.S0Stats
import proofs.«151566_j35021163331665_1_alg».proof.Proof.S0HValue
import proofs.«151566_j35021163331665_1_alg».proof.Proof.LibBlocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

variable (V : (c : Dev nD) → (b : Ref sig .tc) → Buf (Elt Ideal) ((c : Thread nD τ).loc b))

theorem blocks_rows : 20 * 5000 = 100000 := by norm_num

/-- Row i of block t is row 5000 t + i of the array. -/
theorem blockRow_eq (t : Fin 20) (i : Fin 5000) : (Cert.LibBlocks.blockRow blocks_rows t i).val = 5000 * t.val + i.val := by
  rw [Cert.LibBlocks.blockRow_val]; omega

/-- The h entry that block t's payload holds at (i, j) is the h array's entry at (5000 t + i, j). -/
theorem pay3_row (c : Dev nD) (t : Fin 20) (ht : t.val < cfg0.N) (i : Fin 5000) (j : Fin 128) :
    k0_pay3 (iblk0 V c 0 ⟨t.val, ht⟩) (iblk0 V c 1 ⟨t.val, ht⟩) (iblk0 V c 2 ⟨t.val, ht⟩) (ix2 i j) = GH0 V c (ix2 (Cert.LibBlocks.blockRow blocks_rows t i) j) := by
  rw [pay3_apply]
  show _ = hArr (arrA0 V c) (arrW0 V c) (arrB0 V c) (ix2 _ j)
  rw [hArr_ix2, iblk0_weight V c ⟨t.val, ht⟩, iblk0_bias V c ⟨t.val, ht⟩]
  congr 1
  refine Finset.sum_congr rfl fun k _ => ?_
  rw [iblk0_0_apply V c ⟨t.val, ht⟩ i k (Cert.LibBlocks.blockRow blocks_rows t i) (blockRow_eq t i)]

theorem colS_rows (c : Dev nD) (t : Fin 20) (j : Fin 128) :
    colS V c t.val j = ∑ i : Fin 5000, GH0 V c (ix2 (Cert.LibBlocks.blockRow blocks_rows t i) j) := by
  have ht : t.val < cfg0.N := by rw [show cfg0.N = 20 from N_0]; exact t.isLt
  rw [colS, dif_pos ht]
  exact Finset.sum_congr rfl fun i _ => pay3_row V c t ht i j

theorem colSS_rows (c : Dev nD) (t : Fin 20) (j : Fin 128) :
    colSS V c t.val j = ∑ i : Fin 5000, GH0 V c (ix2 (Cert.LibBlocks.blockRow blocks_rows t i) j) * GH0 V c (ix2 (Cert.LibBlocks.blockRow blocks_rows t i) j) := by
  have ht : t.val < cfg0.N := by rw [show cfg0.N = 20 from N_0]; exact t.isLt
  rw [colSS, dif_pos ht]
  exact Finset.sum_congr rfl fun i _ => by rw [pay3_row V c t ht i j]

/-- After the region, statistics row 1 at column j: zero plus the column sum of the h array over all rows. -/
theorem stat4_rows (c : Dev nD) (j : Fin 128) :
    (dat0 V c).arrAt 4 cfg0.N (ix2 (0 : Fin 1) j) = 0 + ∑ r : Fin 100000, GH0 V c (ix2 r j) := by
  rw [final0_4, accS_apply]
  show (0 : EReal) + ∑ t ∈ Finset.range 20, colS V c t j = _
  rw [Finset.sum_range fun t => colS V c t j, ← Cert.LibBlocks.sum_blocks blocks_rows (fun r => GH0 V c (ix2 r j))]
  exact congrArg ((0 : EReal) + ·) (Finset.sum_congr rfl fun t _ => colS_rows V c t j)

/-- After the region, statistics row 2 at column j: zero plus the column sum of the squared h entries. -/
theorem stat5_rows (c : Dev nD) (j : Fin 128) :
    (dat0 V c).arrAt 5 cfg0.N (ix2 (0 : Fin 1) j) = 0 + ∑ r : Fin 100000, GH0 V c (ix2 r j) * GH0 V c (ix2 r j) := by
  rw [final0_5, accSS_apply]
  show (0 : EReal) + ∑ t ∈ Finset.range 20, colSS V c t j = _
  rw [Finset.sum_range fun t => colSS V c t j, ← Cert.LibBlocks.sum_blocks blocks_rows (fun r => GH0 V c (ix2 r j) * GH0 V c (ix2 r j))]
  exact congrArg ((0 : EReal) + ·) (Finset.sum_congr rfl fun t _ => colSS_rows V c t j)

end Cert.KernelIdeal.Hand

end
-- ==== Proof.S2Pieces.lean ====
/-
  The second matmul-with-statistics call: what each case of the body leaves, as the body's own arithmetic. The h
  block is the block product plus the bias row; an accumulator after a point is the accumulator before it (zero at
  the first point) plus the block's column sums; at the last point the statistics blocks receive the accumulators.
-/
import proofs.«151566_j35021163331665_1_alg».proof.Proof.Gen.KernelIdeal.Launch
import proofs.«151566_j35021163331665_1_alg».proof.Proof.Gen.KernelIdeal.Skeleton
import proofs.«151566_j35021163331665_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«151566_j35021163331665_1_alg».proof.Proof.S2Dat
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2' : (![0, 0] : Fin 2 → Nat) = fun _ => 0 := by funext a; fin_cases a <;> rfl

theorem out2_A_3_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i) (x0 : Vec F S5000x128 .f32) (x1 : Vec F S128x128 .f32) (x2 : Vec F S1x128 .f32) :
    out2_A_3 c i arg1 harg1 arg2 harg2 arg3 harg3 arg4 harg4 arg5 harg5 arg6 harg6 arg7 harg7 arg8 harg8 hc0 hc1 x0 x1 x2 = k2_pay3 x0 x1 x2 := by
  unfold out2_A_3
  rw [View.read_writes_eq_canon _ _ _ (cover2_A_3 c i arg1 harg1 arg2 harg2 arg3 harg3 arg4 harg4 arg5 harg5 arg6 harg6 arg7 harg7 arg8 harg8 hc0 hc1 x0 x1 x2)]
  unfold kernelRun2_A; dsimp only
  sl_unfold_words
  simp only [View.readCov_unit_zero (S := S1x128) _ hz2', View.canon_cons_unit_zero (S := S1x128) hz2', View.canon_unit_zero (S := S1x128) hz2', View.canon_unit_zero (S := S5000x128) hz2', View.readAt_eq_ld, harg1.read_unread, harg2.read_unread, harg3.read_unread, harg7.read_unread, harg8.read_unread, View.ld_unit_zero (S := S5000x128) hz2', View.ld_unit_zero (S := S128x128) hz2', View.ld_unit_zero (S := S1x128) hz2']

theorem sout2_A_0_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i) (x0 : Vec F S5000x128 .f32) (x1 : Vec F S128x128 .f32) (x2 : Vec F S1x128 .f32) :
    sout2_A_0 c i arg1 harg1 arg2 harg2 arg3 harg3 arg4 harg4 arg5 harg5 arg6 harg6 arg7 harg7 arg8 harg8 hc0 hc1 x0 x1 x2 = k2_pay4 x0 x1 x2 (k2_pay1 (F := F)) := by
  unfold sout2_A_0
  rw [View.read_writes_eq_canon _ _ _ (scover2_A_0 c i arg1 harg1 arg2 harg2 arg3 harg3 arg4 harg4 arg5 harg5 arg6 harg6 arg7 harg7 arg8 harg8 hc0 hc1 x0 x1 x2)]
  unfold kernelRun2_A; dsimp only
  sl_unfold_words
  simp only [View.readCov_unit_zero (S := S1x128) _ hz2', View.canon_cons_unit_zero (S := S1x128) hz2', View.canon_unit_zero (S := S1x128) hz2', View.canon_unit_zero (S := S5000x128) hz2', View.readAt_eq_ld, harg1.read_unread, harg2.read_unread, harg3.read_unread, harg7.read_unread, harg8.read_unread, View.ld_unit_zero (S := S5000x128) hz2', View.ld_unit_zero (S := S128x128) hz2', View.ld_unit_zero (S := S1x128) hz2']

theorem sout2_A_1_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i) (x0 : Vec F S5000x128 .f32) (x1 : Vec F S128x128 .f32) (x2 : Vec F S1x128 .f32) :
    sout2_A_1 c i arg1 harg1 arg2 harg2 arg3 harg3 arg4 harg4 arg5 harg5 arg6 harg6 arg7 harg7 arg8 harg8 hc0 hc1 x0 x1 x2 = k2_pay5 x0 x1 x2 (k2_pay2 (F := F)) := by
  unfold sout2_A_1
  rw [View.read_writes_eq_canon _ _ _ (scover2_A_1 c i arg1 harg1 arg2 harg2 arg3 harg3 arg4 harg4 arg5 harg5 arg6 harg6 arg7 harg7 arg8 harg8 hc0 hc1 x0 x1 x2)]
  unfold kernelRun2_A; dsimp only
  sl_unfold_words
  simp only [View.readCov_unit_zero (S := S1x128) _ hz2', View.canon_cons_unit_zero (S := S1x128) hz2', View.canon_unit_zero (S := S1x128) hz2', View.canon_unit_zero (S := S5000x128) hz2', View.readAt_eq_ld, harg1.read_unread, harg2.read_unread, harg3.read_unread, harg7.read_unread, harg8.read_unread, View.ld_unit_zero (S := S5000x128) hz2', View.ld_unit_zero (S := S128x128) hz2', View.ld_unit_zero (S := S1x128) hz2']

theorem out2_B_3_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i) (x0 : Vec F S5000x128 .f32) (x1 : Vec F S128x128 .f32) (x2 : Vec F S1x128 .f32) (xs0 xs1 : Vec F S1x128 .f32) :
    out2_B_3 c i arg1 harg1 arg2 harg2 arg3 harg3 arg4 harg4 arg5 harg5 arg6 harg6 arg7 harg7 arg8 harg8 hc0 hc1 x0 x1 x2 xs0 xs1 = k2_pay3 x0 x1 x2 := by
  unfold out2_B_3
  rw [View.read_writes_eq_canon _ _ _ (cover2_B_3 c i arg1 harg1 arg2 harg2 arg3 harg3 arg4 harg4 arg5 harg5 arg6 harg6 arg7 harg7 arg8 harg8 hc0 hc1 x0 x1 x2 xs0 xs1)]
  unfold kernelRun2_B; dsimp only
  sl_unfold_words
  simp only [View.readCov_unit_zero (S := S1x128) _ hz2', View.canon_cons_unit_zero (S := S1x128) hz2', View.canon_unit_zero (S := S1x128) hz2', View.canon_unit_zero (S := S5000x128) hz2', View.readAt_eq_ld, harg1.read_unread, harg2.read_unread, harg3.read_unread, harg7.read_unread, harg8.read_unread, View.ld_unit_zero (S := S5000x128) hz2', View.ld_unit_zero (S := S128x128) hz2', View.ld_unit_zero (S := S1x128) hz2']

theorem sout2_B_0_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i) (x0 : Vec F S5000x128 .f32) (x1 : Vec F S128x128 .f32) (x2 : Vec F S1x128 .f32) (xs0 xs1 : Vec F S1x128 .f32) :
    sout2_B_0 c i arg1 harg1 arg2 harg2 arg3 harg3 arg4 harg4 arg5 harg5 arg6 harg6 arg7 harg7 arg8 harg8 hc0 hc1 x0 x1 x2 xs0 xs1 = k2_pay4 x0 x1 x2 xs0 := by
  unfold sout2_B_0
  rw [View.read_writes_eq_canon _ _ _ (scover2_B_0 c i arg1 harg1 arg2 harg2 arg3 harg3 arg4 harg4 arg5 harg5 arg6 harg6 arg7 harg7 arg8 harg8 hc0 hc1 x0 x1 x2 xs0 xs1)]
  unfold kernelRun2_B; dsimp only
  sl_unfold_words
  simp only [View.readCov_unit_zero (S := S1x128) _ hz2', View.canon_cons_unit_zero (S := S1x128) hz2', View.canon_unit_zero (S := S1x128) hz2', View.canon_unit_zero (S := S5000x128) hz2', View.readAt_eq_ld, harg1.read_unread, harg2.read_unread, harg3.read_unread, harg7.read_unread, harg8.read_unread, View.ld_unit_zero (S := S5000x128) hz2', View.ld_unit_zero (S := S128x128) hz2', View.ld_unit_zero (S := S1x128) hz2']

theorem sout2_B_1_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i) (x0 : Vec F S5000x128 .f32) (x1 : Vec F S128x128 .f32) (x2 : Vec F S1x128 .f32) (xs0 xs1 : Vec F S1x128 .f32) :
    sout2_B_1 c i arg1 harg1 arg2 harg2 arg3 harg3 arg4 harg4 arg5 harg5 arg6 harg6 arg7 harg7 arg8 harg8 hc0 hc1 x0 x1 x2 xs0 xs1 = k2_pay5 x0 x1 x2 xs1 := by
  unfold sout2_B_1
  rw [View.read_writes_eq_canon _ _ _ (scover2_B_1 c i arg1 harg1 arg2 harg2 arg3 harg3 arg4 harg4 arg5 harg5 arg6 harg6 arg7 harg7 arg8 harg8 hc0 hc1 x0 x1 x2 xs0 xs1)]
  unfold kernelRun2_B; dsimp only
  sl_unfold_words
  simp only [View.readCov_unit_zero (S := S1x128) _ hz2', View.canon_cons_unit_zero (S := S1x128) hz2', View.canon_unit_zero (S := S1x128) hz2', View.canon_unit_zero (S := S5000x128) hz2', View.readAt_eq_ld, harg1.read_unread, harg2.read_unread, harg3.read_unread, harg7.read_unread, harg8.read_unread, View.ld_unit_zero (S := S5000x128) hz2', View.ld_unit_zero (S := S128x128) hz2', View.ld_unit_zero (S := S1x128) hz2']

theorem out2_C_3_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) :
    out2_C_3 c i arg1 harg1 arg2 harg2 arg3 harg3 arg4 harg4 arg5 harg5 arg6 harg6 arg7 harg7 arg8 harg8 hc0 hc1 x0 x1 x2 xs0 xs1 = k2_pay3 x0 x1 x2 := by
  unfold out2_C_3
  rw [View.read_writes_eq_canon _ _ _ (cover2_C_3 c i arg1 harg1 arg2 harg2 arg3 harg3 arg4 harg4 arg5 harg5 arg6 harg6 arg7 harg7 arg8 harg8 hc0 hc1 x0 x1 x2 xs0 xs1)]
  unfold kernelRun2_C; dsimp only
  sl_unfold_words
  simp only [View.readCov_unit_zero (S := S1x128) _ hz2', View.canon_cons_unit_zero (S := S1x128) hz2', View.canon_unit_zero (S := S1x128) hz2', View.canon_unit_zero (S := S5000x128) hz2', View.readAt_eq_ld, harg1.read_unread, harg2.read_unread, harg3.read_unread, harg7.read_unread, harg8.read_unread, View.ld_unit_zero (S := S5000x128) hz2', View.ld_unit_zero (S := S128x128) hz2', View.ld_unit_zero (S := S1x128) hz2']

theorem out2_C_4_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) :
    out2_C_4 c i arg1 harg1 arg2 harg2 arg3 harg3 arg4 harg4 arg5 harg5 arg6 harg6 arg7 harg7 arg8 harg8 hc0 hc1 x0 x1 x2 xs0 xs1 = k2_pay4 x0 x1 x2 xs0 := by
  unfold out2_C_4
  rw [View.read_writes_eq_canon _ _ _ (cover2_C_4 c i arg1 harg1 arg2 harg2 arg3 harg3 arg4 harg4 arg5 harg5 arg6 harg6 arg7 harg7 arg8 harg8 hc0 hc1 x0 x1 x2 xs0 xs1)]
  unfold kernelRun2_C; dsimp only
  sl_unfold_words
  simp only [View.readCov_unit_zero (S := S1x128) _ hz2', View.canon_cons_unit_zero (S := S1x128) hz2', View.canon_unit_zero (S := S1x128) hz2', View.canon_unit_zero (S := S5000x128) hz2', View.readAt_eq_ld, harg1.read_unread, harg2.read_unread, harg3.read_unread, harg7.read_unread, harg8.read_unread, View.ld_unit_zero (S := S5000x128) hz2', View.ld_unit_zero (S := S128x128) hz2', View.ld_unit_zero (S := S1x128) hz2']

theorem out2_C_5_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) :
    out2_C_5 c i arg1 harg1 arg2 harg2 arg3 harg3 arg4 harg4 arg5 harg5 arg6 harg6 arg7 harg7 arg8 harg8 hc0 hc1 x0 x1 x2 xs0 xs1 = k2_pay5 x0 x1 x2 xs1 := by
  unfold out2_C_5
  rw [View.read_writes_eq_canon _ _ _ (cover2_C_5 c i arg1 harg1 arg2 harg2 arg3 harg3 arg4 harg4 arg5 harg5 arg6 harg6 arg7 harg7 arg8 harg8 hc0 hc1 x0 x1 x2 xs0 xs1)]
  unfold kernelRun2_C; dsimp only
  sl_unfold_words
  simp only [View.readCov_unit_zero (S := S1x128) _ hz2', View.canon_cons_unit_zero (S := S1x128) hz2', View.canon_unit_zero (S := S1x128) hz2', View.canon_unit_zero (S := S5000x128) hz2', View.readAt_eq_ld, harg1.read_unread, harg2.read_unread, harg3.read_unread, harg7.read_unread, harg8.read_unread, View.ld_unit_zero (S := S5000x128) hz2', View.ld_unit_zero (S := S128x128) hz2', View.ld_unit_zero (S := S1x128) hz2']

theorem sout2_C_0_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) :
    sout2_C_0 c i arg1 harg1 arg2 harg2 arg3 harg3 arg4 harg4 arg5 harg5 arg6 harg6 arg7 harg7 arg8 harg8 hc0 hc1 x0 x1 x2 xs0 xs1 = k2_pay4 x0 x1 x2 xs0 := by
  unfold sout2_C_0
  rw [View.read_writes_eq_canon _ _ _ (scover2_C_0 c i arg1 harg1 arg2 harg2 arg3 harg3 arg4 harg4 arg5 harg5 arg6 harg6 arg7 harg7 arg8 harg8 hc0 hc1 x0 x1 x2 xs0 xs1)]
  unfold kernelRun2_C; dsimp only
  sl_unfold_words
  simp only [View.readCov_unit_zero (S := S1x128) _ hz2', View.canon_cons_unit_zero (S := S1x128) hz2', View.canon_unit_zero (S := S1x128) hz2', View.canon_unit_zero (S := S5000x128) hz2', View.readAt_eq_ld, harg1.read_unread, harg2.read_unread, harg3.read_unread, harg7.read_unread, harg8.read_unread, View.ld_unit_zero (S := S5000x128) hz2', View.ld_unit_zero (S := S128x128) hz2', View.ld_unit_zero (S := S1x128) hz2']

theorem sout2_C_1_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i) (x0 : Vec F S5000x128 .f32) (x1 : Vec F S128x128 .f32) (x2 : Vec F S1x128 .f32) (xs0 xs1 : Vec F S1x128 .f32) :
    sout2_C_1 c i arg1 harg1 arg2 harg2 arg3 harg3 arg4 harg4 arg5 harg5 arg6 harg6 arg7 harg7 arg8 harg8 hc0 hc1 x0 x1 x2 xs0 xs1 = k2_pay5 x0 x1 x2 xs1 := by
  unfold sout2_C_1
  rw [View.read_writes_eq_canon _ _ _ (scover2_C_1 c i arg1 harg1 arg2 harg2 arg3 harg3 arg4 harg4 arg5 harg5 arg6 harg6 arg7 harg7 arg8 harg8 hc0 hc1 x0 x1 x2 xs0 xs1)]
  unfold kernelRun2_C; dsimp only
  sl_unfold_words
  simp only [View.readCov_unit_zero (S := S1x128) _ hz2', View.canon_cons_unit_zero (S := S1x128) hz2', View.canon_unit_zero (S := S1x128) hz2', View.canon_unit_zero (S := S5000x128) hz2', View.readAt_eq_ld, harg1.read_unread, harg2.read_unread, harg3.read_unread, harg7.read_unread, harg8.read_unread, View.ld_unit_zero (S := S5000x128) hz2', View.ld_unit_zero (S := S128x128) hz2', View.ld_unit_zero (S := S1x128) hz2']

end Cert.KernelIdeal.Hand

end
-- ==== Proof.S2Acc.lean ====
/-
  The second matmul-with-statistics call: the two accumulators over the grid, in closed form. After point n the
  sum accumulator is the payload "previous accumulator + column sums of this point's h block" applied n+1 times from
  zero, and likewise the sum of squares; the contents the runs found ARE these, by induction on the point. The two
  [1,128] statistics arrays are written back once, after the last point, and so end holding the accumulators after
  point 19. The h block a point leaves is the block payload of that point's input blocks.
-/
import proofs.«151566_j35021163331665_1_alg».proof.Proof.Gen.KernelIdeal.Launch
import proofs.«151566_j35021163331665_1_alg».proof.Proof.Gen.KernelIdeal.Skeleton
import proofs.«151566_j35021163331665_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«151566_j35021163331665_1_alg».proof.Proof.S2Pieces
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The sum accumulator after point n. -/
def accS2 (c : Dev nD) : (n : ℕ) → n < cfg2.N → Vec F S1x128 .f32
  | 0, h => k2_pay4 (iblk2 V c 0 ⟨0, h⟩) (iblk2 V c 1 ⟨0, h⟩) (iblk2 V c 2 ⟨0, h⟩) (k2_pay1 (F := F))
  | n + 1, h => k2_pay4 (iblk2 V c 0 ⟨n + 1, h⟩) (iblk2 V c 1 ⟨n + 1, h⟩) (iblk2 V c 2 ⟨n + 1, h⟩) (accS2 c n (Nat.lt_of_succ_lt h))

/-- The sum-of-squares accumulator after point n. -/
def accSS2 (c : Dev nD) : (n : ℕ) → n < cfg2.N → Vec F S1x128 .f32
  | 0, h => k2_pay5 (iblk2 V c 0 ⟨0, h⟩) (iblk2 V c 1 ⟨0, h⟩) (iblk2 V c 2 ⟨0, h⟩) (k2_pay2 (F := F))
  | n + 1, h => k2_pay5 (iblk2 V c 0 ⟨n + 1, h⟩) (iblk2 V c 1 ⟨n + 1, h⟩) (iblk2 V c 2 ⟨n + 1, h⟩) (accSS2 c n (Nat.lt_of_succ_lt h))

/-- What the runs found in the two scratch accumulators after point n is the closed form. -/
theorem outsS_eq2 (c : Dev nD) : ∀ (n : ℕ) (h : n < cfg2.N),
    (outsAt2 V c n h).2.2.2.1 = accS2 V c n h ∧ (outsAt2 V c n h).2.2.2.2 = accSS2 V c n h
  | 0, h => by
    have hh0 : (⟨0, h⟩ : Fin cfg2.N).val % 20 = 0 := rfl
    have hh1 : ¬(⟨0, h⟩ : Fin cfg2.N).val % 20 = 19 := by show ¬(0 % 20 = 19); decide
    have e : outsAt2 V c 0 h = _ := outsAt2_A V c ⟨0, h⟩ hh0 hh1
    rw [e]
    exact ⟨sout2_A_0_eq c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) scM2_0 (Memref.isWhole_whole _) scM2_1 (Memref.isWhole_whole _) ((hcond2_0 ⟨0, h⟩).mpr hh0) (fun hc => hh1 ((hcond2_1 ⟨0, h⟩).mp hc)) (iblk2 V c 0 ⟨0, h⟩) (iblk2 V c 1 ⟨0, h⟩) (iblk2 V c 2 ⟨0, h⟩),
      sout2_A_1_eq c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) scM2_0 (Memref.isWhole_whole _) scM2_1 (Memref.isWhole_whole _) ((hcond2_0 ⟨0, h⟩).mpr hh0) (fun hc => hh1 ((hcond2_1 ⟨0, h⟩).mp hc)) (iblk2 V c 0 ⟨0, h⟩) (iblk2 V c 1 ⟨0, h⟩) (iblk2 V c 2 ⟨0, h⟩)⟩
  | n + 1, h => by
    have hN : cfg2.N = 20 := N_2
    have h0 : ¬(⟨n + 1, h⟩ : Fin cfg2.N).val % 20 = 0 := by dsimp only; omega
    obtain ⟨ih0, ih1⟩ := outsS_eq2 c n (Nat.lt_of_succ_lt h)
    by_cases h1 : (⟨n + 1, h⟩ : Fin cfg2.N).val % 20 = 19
    · have e : outsAt2 V c (n + 1) h = _ := outsAt2_C V c ⟨n + 1, h⟩ h0 h1
      rw [e]; dsimp only
      constructor
      · refine (sout2_C_0_eq c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) scM2_0 (Memref.isWhole_whole _) scM2_1 (Memref.isWhole_whole _) (fun hc => h0 ((hcond2_0 ⟨n + 1, h⟩).mp hc)) ((hcond2_1 ⟨n + 1, h⟩).mpr h1) (iblk2 V c 0 ⟨n + 1, h⟩) (iblk2 V c 1 ⟨n + 1, h⟩) (iblk2 V c 2 ⟨n + 1, h⟩) (outsAt2 V c n (Nat.lt_of_succ_lt h)).2.2.2.1 (outsAt2 V c n (Nat.lt_of_succ_lt h)).2.2.2.2).trans ?_
        show k2_pay4 _ _ _ (outsAt2 V c n _).2.2.2.1 = k2_pay4 _ _ _ (accS2 V c n _)
        rw [ih0]
      · refine (sout2_C_1_eq c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) scM2_0 (Memref.isWhole_whole _) scM2_1 (Memref.isWhole_whole _) (fun hc => h0 ((hcond2_0 ⟨n + 1, h⟩).mp hc)) ((hcond2_1 ⟨n + 1, h⟩).mpr h1) (iblk2 V c 0 ⟨n + 1, h⟩) (iblk2 V c 1 ⟨n + 1, h⟩) (iblk2 V c 2 ⟨n + 1, h⟩) (outsAt2 V c n (Nat.lt_of_succ_lt h)).2.2.2.1 (outsAt2 V c n (Nat.lt_of_succ_lt h)).2.2.2.2).trans ?_
        show k2_pay5 _ _ _ (outsAt2 V c n _).2.2.2.2 = k2_pay5 _ _ _ (accSS2 V c n _)
        rw [ih1]
    · have e : outsAt2 V c (n + 1) h = _ := outsAt2_B V c ⟨n + 1, h⟩ h0 h1
      rw [e]; dsimp only
      constructor
      · refine (sout2_B_0_eq c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) scM2_0 (Memref.isWhole_whole _) scM2_1 (Memref.isWhole_whole _) (fun hc => h0 ((hcond2_0 ⟨n + 1, h⟩).mp hc)) (fun hc => h1 ((hcond2_1 ⟨n + 1, h⟩).mp hc)) (iblk2 V c 0 ⟨n + 1, h⟩) (iblk2 V c 1 ⟨n + 1, h⟩) (iblk2 V c 2 ⟨n + 1, h⟩) (outsAt2 V c n (Nat.lt_of_succ_lt h)).2.2.2.1 (outsAt2 V c n (Nat.lt_of_succ_lt h)).2.2.2.2).trans ?_
        show k2_pay4 _ _ _ (outsAt2 V c n _).2.2.2.1 = k2_pay4 _ _ _ (accS2 V c n _)
        rw [ih0]
      · refine (sout2_B_1_eq c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) scM2_0 (Memref.isWhole_whole _) scM2_1 (Memref.isWhole_whole _) (fun hc => h0 ((hcond2_0 ⟨n + 1, h⟩).mp hc)) (fun hc => h1 ((hcond2_1 ⟨n + 1, h⟩).mp hc)) (iblk2 V c 0 ⟨n + 1, h⟩) (iblk2 V c 1 ⟨n + 1, h⟩) (iblk2 V c 2 ⟨n + 1, h⟩) (outsAt2 V c n (Nat.lt_of_succ_lt h)).2.2.2.1 (outsAt2 V c n (Nat.lt_of_succ_lt h)).2.2.2.2).trans ?_
        show k2_pay5 _ _ _ (outsAt2 V c n _).2.2.2.2 = k2_pay5 _ _ _ (accSS2 V c n _)
        rw [ih1]

/-- The h block every point leaves is the block payload of its input blocks. -/
theorem outs3_eq2 (c : Dev nD) (t : Fin cfg2.N) :
    (outsAt2 V c t.val t.isLt).1 = k2_pay3 (iblk2 V c 0 t) (iblk2 V c 1 t) (iblk2 V c 2 t) := by
  have hN : t.val < 20 := lt_of_lt_of_eq t.isLt (show cfg2.N = 20 from N_2)
  by_cases h0 : t.val % 20 = 0
  · have h1 : ¬t.val % 20 = 19 := by omega
    rw [outsAt2_A V c t h0 h1]; dsimp only
    exact out2_A_3_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun hc => h1 ((hcond2_1 t).mp hc)) (iblk2 V c 0 t) (iblk2 V c 1 t) (iblk2 V c 2 t)
  · by_cases h1 : t.val % 20 = 19
    · rw [outsAt2_C V c t h0 h1]; dsimp only
      exact out2_C_3_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun hc => h0 ((hcond2_0 t).mp hc)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2
    · rw [outsAt2_B V c t h0 h1]; dsimp only
      exact out2_B_3_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun hc => h0 ((hcond2_0 t).mp hc)) (fun hc => h1 ((hcond2_1 t).mp hc)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2

/-- At the last point the two statistics blocks receive the accumulators after it. -/
theorem outs4_last2 (c : Dev nD) (t : Fin cfg2.N) (h1 : t.val % 20 = 19) :
    (outsAt2 V c t.val t.isLt).2.1 = accS2 V c t.val t.isLt := by
  have hN : t.val < 20 := lt_of_lt_of_eq t.isLt (show cfg2.N = 20 from N_2)
  have h0 : ¬t.val % 20 = 0 := by omega
  rw [← (outsS_eq2 V c t.val t.isLt).1, outsAt2_C V c t h0 h1]; dsimp only
  exact (out2_C_4_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun hc => h0 ((hcond2_0 t).mp hc)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).trans
    (sout2_C_0_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun hc => h0 ((hcond2_0 t).mp hc)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).symm
theorem outs5_last2 (c : Dev nD) (t : Fin cfg2.N) (h1 : t.val % 20 = 19) :
    (outsAt2 V c t.val t.isLt).2.2.1 = accSS2 V c t.val t.isLt := by
  have hN : t.val < 20 := lt_of_lt_of_eq t.isLt (show cfg2.N = 20 from N_2)
  have h0 : ¬t.val % 20 = 0 := by omega
  rw [← (outsS_eq2 V c t.val t.isLt).2, outsAt2_C V c t h0 h1]; dsimp only
  exact (out2_C_5_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun hc => h0 ((hcond2_0 t).mp hc)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).trans
    (sout2_C_1_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun hc => h0 ((hcond2_0 t).mp hc)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).symm

theorem lt19_2 : 19 < cfg2.N := by rw [show cfg2.N = 20 from N_2]; decide
/-- The last grid point. -/
abbrev t19_2 : Fin cfg2.N := ⟨19, lt19_2⟩

/-- The one write-back of statistics window 4, at the last point, writes the accumulator after it. -/
theorem flushed2_4_eq (c : Dev nD) (t : Fin cfg2.N) (hf : (cfg2.win 4).flush t = true) :
    (dat2 V c).flushed 4 t = ((cfg2.win 4).blk t).view.read (Elt F) (accS2 V c 19 lt19_2) := by
  have hN : cfg2.N = 20 := N_2
  have h19 : t.val = 19 := by have := (flush2_4 t).mp hf; have := t.isLt; omega
  obtain rfl : t = t19_2 := Fin.ext h19
  show (cfg2.win 4).cut (grid2.coords t19_2) ((dat2 V c).after 4 t19_2) = _
  rw [after2_4, outs4_last2 V c t19_2 rfl]
  have hz' : (fun a => win2_4.index t19_2 a * main_v40_1.ty.shape.size a) = fun _ => 0 := funext fun a => by fin_cases a <;> decide
  exact (Memref.read_access_unit_zero (Elt F) main_v40_1 hz' (fun a => by rw [congrFun hz' a]; simp) (accS2 V c 19 lt19_2)).symm

/-- So that array ends holding it: the last point's block is the whole [1,128] array. -/
theorem final2_4 (c : Dev nD) : (dat2 V c).arrAt 4 cfg2.N = accS2 V c 19 lt19_2 :=
  (dat2 V c).arrAt_eq_of_cover 4 (accS2 V c 19 lt19_2) (flushed2_4_eq V c) fun i =>
    ⟨t19_2, (flush2_4 t19_2).mpr rfl, by
      show i ∈ ((View.whole main_v40_1).slice (win2_4.rect t19_2)).set
      rw [View.set_slice_whole, Rect.mem_set_unit]
      intro a
      have h0 : (i 0 : Nat) < 1 := (i 0).isLt
      have h1 : (i 1 : Nat) < 128 := (i 1).isLt
      match a with
      | ⟨0, _⟩ => show win2_4.index t19_2 0 * win2_4.size 0 ≤ (i 0 : Nat) ∧ (i 0 : Nat) < win2_4.index t19_2 0 * win2_4.size 0 + win2_4.xsize (grid2.coords t19_2) 0
                  rw [show win2_4.index t19_2 0 * win2_4.size 0 = 0 from by decide +kernel, show win2_4.xsize (grid2.coords t19_2) 0 = 1 from by decide +kernel]; omega
      | ⟨1, _⟩ => show win2_4.index t19_2 1 * win2_4.size 1 ≤ (i 1 : Nat) ∧ (i 1 : Nat) < win2_4.index t19_2 1 * win2_4.size 1 + win2_4.xsize (grid2.coords t19_2) 1
                  rw [show win2_4.index t19_2 1 * win2_4.size 1 = 0 from by decide +kernel, show win2_4.xsize (grid2.coords t19_2) 1 = 128 from by decide +kernel]; omega⟩

/-- The one write-back of statistics window 5, at the last point, writes the accumulator after it. -/
theorem flushed2_5_eq (c : Dev nD) (t : Fin cfg2.N) (hf : (cfg2.win 5).flush t = true) :
    (dat2 V c).flushed 5 t = ((cfg2.win 5).blk t).view.read (Elt F) (accSS2 V c 19 lt19_2) := by
  have hN : cfg2.N = 20 := N_2
  have h19 : t.val = 19 := by have := (flush2_5 t).mp hf; have := t.isLt; omega
  obtain rfl : t = t19_2 := Fin.ext h19
  show (cfg2.win 5).cut (grid2.coords t19_2) ((dat2 V c).after 5 t19_2) = _
  rw [after2_5, outs5_last2 V c t19_2 rfl]
  have hz' : (fun a => win2_5.index t19_2 a * main_v40_2.ty.shape.size a) = fun _ => 0 := funext fun a => by fin_cases a <;> decide
  exact (Memref.read_access_unit_zero (Elt F) main_v40_2 hz' (fun a => by rw [congrFun hz' a]; simp) (accSS2 V c 19 lt19_2)).symm

/-- So that array ends holding it: the last point's block is the whole [1,128] array. -/
theorem final2_5 (c : Dev nD) : (dat2 V c).arrAt 5 cfg2.N = accSS2 V c 19 lt19_2 :=
  (dat2 V c).arrAt_eq_of_cover 5 (accSS2 V c 19 lt19_2) (flushed2_5_eq V c) fun i =>
    ⟨t19_2, (flush2_5 t19_2).mpr rfl, by
      show i ∈ ((View.whole main_v40_2).slice (win2_5.rect t19_2)).set
      rw [View.set_slice_whole, Rect.mem_set_unit]
      intro a
      have h0 : (i 0 : Nat) < 1 := (i 0).isLt
      have h1 : (i 1 : Nat) < 128 := (i 1).isLt
      match a with
      | ⟨0, _⟩ => show win2_5.index t19_2 0 * win2_5.size 0 ≤ (i 0 : Nat) ∧ (i 0 : Nat) < win2_5.index t19_2 0 * win2_5.size 0 + win2_5.xsize (grid2.coords t19_2) 0
                  rw [show win2_5.index t19_2 0 * win2_5.size 0 = 0 from by decide +kernel, show win2_5.xsize (grid2.coords t19_2) 0 = 1 from by decide +kernel]; omega
      | ⟨1, _⟩ => show win2_5.index t19_2 1 * win2_5.size 1 ≤ (i 1 : Nat) ∧ (i 1 : Nat) < win2_5.index t19_2 1 * win2_5.size 1 + win2_5.xsize (grid2.coords t19_2) 1
                  rw [show win2_5.index t19_2 1 * win2_5.size 1 = 0 from by decide +kernel, show win2_5.xsize (grid2.coords t19_2) 1 = 128 from by decide +kernel]; omega⟩

end Cert.KernelIdeal.Hand

end
-- ==== Proof.S2Stats.lean ====
/-
  The second matmul-with-statistics call at the ideal instance: the two accumulators read at an entry. One step adds,
  in column j, the sum over the block's 5000 rows of the h entries (or of their squares) to the previous entry; so after
  point n the entry is zero plus the column sums of the blocks 0..n.
-/
import proofs.«151566_j35021163331665_1_alg».proof.Proof.S2Acc
import proofs.«151566_j35021163331665_1_alg».proof.Proof.LibColReduce
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

/-- The zero the accumulators start from. -/
theorem pay1_apply2 (i : S1x128.Idx) : (k2_pay1 (F := Ideal)) i = 0 := by
  unfold k2_pay1
  rw [shapeCast_self]
  exact Ideal.ofBits_zero_f32
theorem pay2_apply2 (i : S1x128.Idx) : (k2_pay2 (F := Ideal)) i = 0 := by
  unfold k2_pay2
  rw [shapeCast_self]
  exact Ideal.ofBits_zero_f32

/-- One step of the sum accumulator at column j: the previous entry plus the block's column sum of h. -/
theorem pay4_apply2 (v3 : Vec Ideal S5000x128 .f32) (v6 : Vec Ideal S128x128 .f32) (v9 v14 : Vec Ideal S1x128 .f32) (j : Fin 128) :
    k2_pay4 v3 v6 v9 v14 (ix2 (0 : Fin 1) j) = v14 (ix2 (0 : Fin 1) j) + ∑ i : Fin 5000, k2_pay3 v3 v6 v9 (ix2 i j) := by
  unfold k2_pay4; dsimp only
  rw [shapeCast_self, addf_apply]
  refine congrArg (v14 (ix2 (0 : Fin 1) j) + ·) ((shapeCast_a_1a_apply _ _ (0 : Fin 1) j).trans ?_)
  exact (Cert.LibColReduce.multiReduction_add_col (a := 5000) (b := 128) (k2_pay3 v3 v6 v9) 0x00000000#32 reduces_S5000x128_S128 (.inl rfl) rfl j)

/-- One step of the sum-of-squares accumulator at column j. -/
theorem pay5_apply2 (v3 : Vec Ideal S5000x128 .f32) (v6 : Vec Ideal S128x128 .f32) (v9 v21 : Vec Ideal S1x128 .f32) (j : Fin 128) :
    k2_pay5 v3 v6 v9 v21 (ix2 (0 : Fin 1) j)
      = v21 (ix2 (0 : Fin 1) j) + ∑ i : Fin 5000, k2_pay3 v3 v6 v9 (ix2 i j) * k2_pay3 v3 v6 v9 (ix2 i j) := by
  unfold k2_pay5; dsimp only
  rw [shapeCast_self, addf_apply]
  refine congrArg (v21 (ix2 (0 : Fin 1) j) + ·) ((shapeCast_a_1a_apply _ _ (0 : Fin 1) j).trans ?_)
  exact (Cert.LibColReduce.multiReduction_add_col (a := 5000) (b := 128) (mulf (k2_pay3 v3 v6 v9) (k2_pay3 v3 v6 v9)) 0x00000000#32 reduces_S5000x128_S128 (.inl rfl) rfl j)

variable (V : (c : Dev nD) → (b : Ref sig .tc) → Buf (Elt Ideal) ((c : Thread nD τ).loc b))

/-- Block t's column sum of h at column j (zero past the grid). -/
def colS2 (c : Dev nD) (t : ℕ) (j : Fin 128) : EReal :=
  if h : t < cfg2.N then ∑ i : Fin 5000, k2_pay3 (iblk2 V c 0 ⟨t, h⟩) (iblk2 V c 1 ⟨t, h⟩) (iblk2 V c 2 ⟨t, h⟩) (ix2 i j) else 0
/-- Block t's column sum of h squared at column j. -/
def colSS2 (c : Dev nD) (t : ℕ) (j : Fin 128) : EReal :=
  if h : t < cfg2.N then ∑ i : Fin 5000, k2_pay3 (iblk2 V c 0 ⟨t, h⟩) (iblk2 V c 1 ⟨t, h⟩) (iblk2 V c 2 ⟨t, h⟩) (ix2 i j) * k2_pay3 (iblk2 V c 0 ⟨t, h⟩) (iblk2 V c 1 ⟨t, h⟩) (iblk2 V c 2 ⟨t, h⟩) (ix2 i j) else 0

/-- The sum accumulator after point n, at column j: zero plus the column sums of the blocks 0..n. -/
theorem accS2_apply (c : Dev nD) : ∀ (n : ℕ) (h : n < cfg2.N) (j : Fin 128),
    accS2 V c n h (ix2 (0 : Fin 1) j) = 0 + ∑ t ∈ Finset.range (n + 1), colS2 V c t j
  | 0, h, j => by
    show k2_pay4 (F := Ideal) (iblk2 V c 0 ⟨0, h⟩) (iblk2 V c 1 ⟨0, h⟩) (iblk2 V c 2 ⟨0, h⟩) (k2_pay1 (F := Ideal)) (ix2 (0 : Fin 1) j) = _
    rw [pay4_apply2, pay1_apply2, Finset.sum_range_one, colS2, dif_pos h]
  | n + 1, h, j => by
    show k2_pay4 (F := Ideal) (iblk2 V c 0 ⟨n + 1, h⟩) (iblk2 V c 1 ⟨n + 1, h⟩) (iblk2 V c 2 ⟨n + 1, h⟩) (accS2 V c n (Nat.lt_of_succ_lt h)) (ix2 (0 : Fin 1) j) = _
    rw [pay4_apply2, accS2_apply c n (Nat.lt_of_succ_lt h) j, Finset.sum_range_succ _ (n + 1), add_assoc]
    congr 2
    rw [colS2, dif_pos h]

/-- The sum-of-squares accumulator after point n, at column j. -/
theorem accSS2_apply (c : Dev nD) : ∀ (n : ℕ) (h : n < cfg2.N) (j : Fin 128),
    accSS2 V c n h (ix2 (0 : Fin 1) j) = 0 + ∑ t ∈ Finset.range (n + 1), colSS2 V c t j
  | 0, h, j => by
    show k2_pay5 (F := Ideal) (iblk2 V c 0 ⟨0, h⟩) (iblk2 V c 1 ⟨0, h⟩) (iblk2 V c 2 ⟨0, h⟩) (k2_pay2 (F := Ideal)) (ix2 (0 : Fin 1) j) = _
    rw [pay5_apply2, pay2_apply2, Finset.sum_range_one, colSS2, dif_pos h]
  | n + 1, h, j => by
    show k2_pay5 (F := Ideal) (iblk2 V c 0 ⟨n + 1, h⟩) (iblk2 V c 1 ⟨n + 1, h⟩) (iblk2 V c 2 ⟨n + 1, h⟩) (accSS2 V c n (Nat.lt_of_succ_lt h)) (ix2 (0 : Fin 1) j) = _
    rw [pay5_apply2, accSS2_apply c n (Nat.lt_of_succ_lt h) j, Finset.sum_range_succ _ (n + 1), add_assoc]
    congr 2
    rw [colSS2, dif_pos h]

end Cert.KernelIdeal.Hand

end
-- ==== Proof.S2HValue.lean ====
/- Region 2's result array h at the exact-real instance: after the region the [100000,128] array of window 3 holds,
   at (r, j), (Σ_k a[r,k] · w[k,j]) + b[0,j] of the three arrays the region finds. Every point `t` of the 20 stores
   and writes back the block payload of its input blocks, rows 5000·t … 5000·t + 4999: its left-operand block is
   those rows of the [100000,128] array, its weight and bias blocks are the [128,128] and [1,128] arrays whole, and
   row `r` is covered by point `r / 5000`. -/
import proofs.«151566_j35021163331665_1_alg».proof.Proof.S2Acc
import proofs.«151566_j35021163331665_1_alg».proof.Proof.HPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The printed index maps, decided over the 20 points: the left operand's and the result's block index is (t, 0),
    the weight's and the bias row's is (0, 0). -/
theorem idx_factsH2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The three arrays the region finds, at their shapes: the left operand, the weight and the bias row. -/
abbrev arrA2 (c : Dev nD) : S100000x128.Idx → EReal := V c (Pipeline.arrRef spec2 0)
abbrev arrW2 (c : Dev nD) : S128x128.Idx → EReal := V c (Pipeline.arrRef spec2 1)
abbrev arrB2 (c : Dev nD) : S1x128.Idx → EReal := V c (Pipeline.arrRef spec2 2)

/-- The result array as one function of the three arrays the region finds. -/
def GH2 (c : Dev nD) : S100000x128.Idx → EReal := hArr (arrA2 V c) (arrW2 V c) (arrB2 V c)

/-- The left operand's block at point `t`, at (i, k), is the array at row 5000·t + i. -/
theorem iblk2_0_apply (c : Dev nD) (t : Fin cfg2.N) (i : Fin 5000) (k : Fin 128) (r : Fin 100000) (hr : r.val = 5000 * t.val + i.val) :
    (iblk2 V c 0 t : S5000x128.Idx → EReal) (ix2 i k) = arrA2 V c (ix2 r k) := by
  obtain ⟨e00, e01, e10, e11, e20, e21, e30, e31⟩ := idx_factsH2 t
  show (V c (Pipeline.arrRef spec2 0) : S100000x128.Idx → EReal) (((cfg2.win 0).blk t).view.emb (ix2 i k)) = _
  refine congrArg _ (funext fun a => Fin.ext ?_)
  match a with
  | ⟨0, _⟩ => show win2_0.index t (0 : Fin 2) * 5000 + 1 * i.val = r.val; omega
  | ⟨1, _⟩ => show win2_0.index t (1 : Fin 2) * 128 + 1 * k.val = k.val; omega

/-- The weight window's block at any point is the [128,128] array whole. -/
theorem iblk2_weight (c : Dev nD) (t : Fin cfg2.N) :
    (iblk2 V c 1 t : S128x128.Idx → EReal) = arrW2 V c := by
  obtain ⟨e00, e01, e10, e11, e20, e21, e30, e31⟩ := idx_factsH2 t
  funext y
  show (V c (Pipeline.arrRef spec2 1) : S128x128.Idx → EReal) (((cfg2.win 1).blk t).view.emb y) = _
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The bias window's block at any point is the [1,128] array whole. -/
theorem iblk2_bias (c : Dev nD) (t : Fin cfg2.N) :
    (iblk2 V c 2 t : S1x128.Idx → EReal) = arrB2 V c := by
  obtain ⟨e00, e01, e10, e11, e20, e21, e30, e31⟩ := idx_factsH2 t
  funext y
  show (V c (Pipeline.arrRef spec2 2) : S1x128.Idx → EReal) (((cfg2.win 2).blk t).view.emb y) = _
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- What point `t` writes back to the result array is block `t` of `GH2`. -/
theorem flushed2_3_eq (c : Dev nD) (t : Fin cfg2.N) :
    (dat2 V c).flushed 3 t = ((cfg2.win 3).blk t).view.read (Elt Ideal) (GH2 V c) := by
  show (cfg2.win 3).cut (grid2.coords t) ((dat2 V c).after 3 t) = _
  rw [after2_3, outs3_eq2]
  obtain ⟨e00, e01, e10, e11, e20, e21, e30, e31⟩ := idx_factsH2 t
  funext y
  refine h_point2 (iblk2 V c 0 t) (iblk2 V c 1 t) (iblk2 V c 2 t)
    (arrA2 V c) (arrW2 V c) (arrB2 V c) y (((cfg2.win 3).blk t).view.emb y) ?_ ?_
    (iblk2_weight V c t) (iblk2_bias V c t)
  · show win2_3.index t (1 : Fin 2) * 128 + 1 * (y 1).val = (y 1).val
    omega
  · intro k
    show (V c (Pipeline.arrRef spec2 0) : S100000x128.Idx → EReal) (((cfg2.win 0).blk t).view.emb (ix2 (y 0 : Fin 5000) k)) = _
    refine congrArg _ (funext fun a => Fin.ext ?_)
    match a with
    | ⟨0, _⟩ => show win2_0.index t (0 : Fin 2) * 5000 + 1 * (y 0).val = win2_3.index t (0 : Fin 2) * 5000 + 1 * (y 0).val; omega
    | ⟨1, _⟩ => show win2_0.index t (1 : Fin 2) * 128 + 1 * k.val = k.val; omega

/-- An index of the array is in point `t`'s block iff each coordinate is in the block's range on its axis. -/
theorem mem_blk2_3 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole (Pipeline.arrRef spec2 3)).slice (win2_3.rect t)).set ↔ _
  rw [View.set_slice_whole, Rect.mem_set_unit]
  exact Iff.rfl

/-- Every index of the array is in the block of the point its row falls in. -/
theorem cover2_3_arr (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_3 _, ?_⟩
  obtain ⟨e00, e01, e10, e11, e20, e21, e30, e31⟩ := idx_factsH2 ⟨(i 0).val / 5000, by rw [hN]; omega⟩
  rw [mem_blk2_3]
  intro a
  match a with
  | ⟨0, _⟩ =>
    show win2_3.index _ (0 : Fin 2) * 5000 ≤ (i 0).val ∧ (i 0).val < win2_3.index _ (0 : Fin 2) * 5000 + 5000
    rw [e30]; show (i 0).val / 5000 * 5000 ≤ (i 0).val ∧ (i 0).val < (i 0).val / 5000 * 5000 + 5000; omega
  | ⟨1, _⟩ =>
    show win2_3.index _ (1 : Fin 2) * 128 ≤ (i 1).val ∧ (i 1).val < win2_3.index _ (1 : Fin 2) * 128 + 128
    rw [e31]; omega

/-- The result array after the region is `GH2`. -/
theorem final2_3 (c : Dev nD) : (dat2 V c).arrAt 3 cfg2.N = GH2 V c :=
  (dat2 V c).arrAt_eq_of_cover 3 (GH2 V c) (fun t _ => flushed2_3_eq V c t) (cover2_3_arr)

/-- The result array after the region, element by element. -/
theorem h2_value (c : Dev nD) (r : Fin 100000) (j : Fin 128) :
    (dat2 V c).arrAt 3 cfg2.N (ix2 r j)
      = ((∑ k : Fin 128, arrA2 V c (ix2 r k) * arrW2 V c (ix2 k j)) + arrB2 V c (ix2 (0 : Fin 1) j) : EReal) := by
  rw [final2_3]
  rfl

end Cert.KernelIdeal.Hand

end
-- ==== Proof.S2Sums.lean ====
/-
  The second matmul-with-statistics call at the ideal instance: the two statistics rows in terms of the h array. Block t's
  column sum runs over the rows 5000 t .. 5000 t + 4999 of the h array, and the twenty blocks make up the 100000 rows; so
  after the region, statistics row 1 at column j is zero plus the sum of h(r, j) over all rows r, and row 2 the same of
  the squares.
-/
import proofs.«151566_j35021163331665_1_alg».proof.Proof.S2Stats
import proofs.«151566_j35021163331665_1_alg».proof.Proof.S2HValue
import proofs.«151566_j35021163331665_1_alg».proof.Proof.LibBlocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

variable (V : (c : Dev nD) → (b : Ref sig .tc) → Buf (Elt Ideal) ((c : Thread nD τ).loc b))

theorem blocks_rows2 : 20 * 5000 = 100000 := by norm_num

/-- Row i of block t is row 5000 t + i of the array. -/
theorem blockRow_eq2 (t : Fin 20) (i : Fin 5000) : (Cert.LibBlocks.blockRow blocks_rows2 t i).val = 5000 * t.val + i.val := by
  rw [Cert.LibBlocks.blockRow_val]; omega

/-- The h entry that block t's payload holds at (i, j) is the h array's entry at (5000 t + i, j). -/
theorem pay3_row2 (c : Dev nD) (t : Fin 20) (ht : t.val < cfg2.N) (i : Fin 5000) (j : Fin 128) :
    k2_pay3 (iblk2 V c 0 ⟨t.val, ht⟩) (iblk2 V c 1 ⟨t.val, ht⟩) (iblk2 V c 2 ⟨t.val, ht⟩) (ix2 i j) = GH2 V c (ix2 (Cert.LibBlocks.blockRow blocks_rows2 t i) j) := by
  rw [pay3_apply2]
  show _ = hArr (arrA2 V c) (arrW2 V c) (arrB2 V c) (ix2 _ j)
  rw [hArr_ix2, iblk2_weight V c ⟨t.val, ht⟩, iblk2_bias V c ⟨t.val, ht⟩]
  congr 1
  refine Finset.sum_congr rfl fun k _ => ?_
  rw [iblk2_0_apply V c ⟨t.val, ht⟩ i k (Cert.LibBlocks.blockRow blocks_rows2 t i) (blockRow_eq2 t i)]

theorem colS2_rows (c : Dev nD) (t : Fin 20) (j : Fin 128) :
    colS2 V c t.val j = ∑ i : Fin 5000, GH2 V c (ix2 (Cert.LibBlocks.blockRow blocks_rows2 t i) j) := by
  have ht : t.val < cfg2.N := by rw [show cfg2.N = 20 from N_2]; exact t.isLt
  rw [colS2, dif_pos ht]
  exact Finset.sum_congr rfl fun i _ => pay3_row2 V c t ht i j

theorem colSS2_rows (c : Dev nD) (t : Fin 20) (j : Fin 128) :
    colSS2 V c t.val j = ∑ i : Fin 5000, GH2 V c (ix2 (Cert.LibBlocks.blockRow blocks_rows2 t i) j) * GH2 V c (ix2 (Cert.LibBlocks.blockRow blocks_rows2 t i) j) := by
  have ht : t.val < cfg2.N := by rw [show cfg2.N = 20 from N_2]; exact t.isLt
  rw [colSS2, dif_pos ht]
  exact Finset.sum_congr rfl fun i _ => by rw [pay3_row2 V c t ht i j]

/-- After the region, statistics row 1 at column j: zero plus the column sum of the h array over all rows. -/
theorem stat4_rows2 (c : Dev nD) (j : Fin 128) :
    (dat2 V c).arrAt 4 cfg2.N (ix2 (0 : Fin 1) j) = 0 + ∑ r : Fin 100000, GH2 V c (ix2 r j) := by
  rw [final2_4, accS2_apply]
  show (0 : EReal) + ∑ t ∈ Finset.range 20, colS2 V c t j = _
  rw [Finset.sum_range fun t => colS2 V c t j, ← Cert.LibBlocks.sum_blocks blocks_rows2 (fun r => GH2 V c (ix2 r j))]
  exact congrArg ((0 : EReal) + ·) (Finset.sum_congr rfl fun t _ => colS2_rows V c t j)

/-- After the region, statistics row 2 at column j: zero plus the column sum of the squared h entries. -/
theorem stat5_rows2 (c : Dev nD) (j : Fin 128) :
    (dat2 V c).arrAt 5 cfg2.N (ix2 (0 : Fin 1) j) = 0 + ∑ r : Fin 100000, GH2 V c (ix2 r j) * GH2 V c (ix2 r j) := by
  rw [final2_5, accSS2_apply]
  show (0 : EReal) + ∑ t ∈ Finset.range 20, colSS2 V c t j = _
  rw [Finset.sum_range fun t => colSS2 V c t j, ← Cert.LibBlocks.sum_blocks blocks_rows2 (fun r => GH2 V c (ix2 r j) * GH2 V c (ix2 r j))]
  exact congrArg ((0 : EReal) + ·) (Finset.sum_congr rfl fun t _ => colSS2_rows V c t j)

end Cert.KernelIdeal.Hand

end
-- ==== Proof.BnPay.lean ====
/- The batch-normalisation-and-rectifier payload read at one element, at the exact-real instance: at row `p` and lane `q`
   of a [5000,128] block it is max(((h[p,q] - mean[0,q]) * rsqrt(var[0,q] + eps)) * scale[0,q] + shift[0,q], 0), where
   the four [1,128] rows are broadcast down the 5000 rows and eps is the f32 word 0x3727C5AC. Every operation of the
   payload is pointwise but the four row broadcasts; the shape casts are casts to the same shape. Then the same
   formula over the whole [100000,128] array, and the statement that a block's payload at an element is the array's
   formula at the element's place in the array. -/
import proofs.«151566_j35021163331665_1_alg».proof.Proof.Gen.KernelIdeal.Skeleton
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-- The closed form of one output element from the activation and the four rows' entries of its lane. -/
def bnRelu (h mean var scale shift : EReal) : EReal :=
  max (((h - mean) * Ideal.rsqrt (var + Ideal.ofBits .f32 0x3727C5AC#32)) * scale + shift) 0

/-- Region 1's payload at an element (the payload takes the variance row before the mean row). -/
theorem k1_pay1_apply (x0 : Vec Ideal S5000x128 .f32) (xvar xmean xscale xshift : Vec Ideal S1x128 .f32) (p : Fin 5000) (q : Fin 128) :
    k1_pay1 x0 xvar xmean xscale xshift (ix2 p q)
      = bnRelu (x0 (ix2 p q)) (xmean (ix2 (0 : Fin 1) q)) (xvar (ix2 (0 : Fin 1) q)) (xscale (ix2 (0 : Fin 1) q)) (xshift (ix2 (0 : Fin 1) q)) := by
  unfold k1_pay1 bnRelu
  simp only [shapeCast_self, maximumf_apply, addf_apply, mulf_apply, subf_apply, broadcast_apply, broadcastTo_1b_ab_apply]
  exact congrArg₂ max rfl Ideal.ofBits_zero_f32

/-- Region 3's payload at an element: the same operations. -/
theorem k3_pay1_apply (x0 : Vec Ideal S5000x128 .f32) (xvar xmean xscale xshift : Vec Ideal S1x128 .f32) (p : Fin 5000) (q : Fin 128) :
    k3_pay1 x0 xvar xmean xscale xshift (ix2 p q)
      = bnRelu (x0 (ix2 p q)) (xmean (ix2 (0 : Fin 1) q)) (xvar (ix2 (0 : Fin 1) q)) (xscale (ix2 (0 : Fin 1) q)) (xshift (ix2 (0 : Fin 1) q)) := by
  unfold k3_pay1 bnRelu
  simp only [shapeCast_self, maximumf_apply, addf_apply, mulf_apply, subf_apply, broadcast_apply, broadcastTo_1b_ab_apply]
  exact congrArg₂ max rfl Ideal.ofBits_zero_f32

/-- The whole output array: element (r, j) from the activations at (r, j) and the four rows at (0, j). -/
def bnArr (H : S100000x128.Idx → EReal) (MEAN VAR SCALE SHIFT : S1x128.Idx → EReal) : S100000x128.Idx → EReal :=
  fun i => bnRelu (H i) (MEAN (ix2 (0 : Fin 1) (i 1 : Fin 128))) (VAR (ix2 (0 : Fin 1) (i 1 : Fin 128)))
    (SCALE (ix2 (0 : Fin 1) (i 1 : Fin 128))) (SHIFT (ix2 (0 : Fin 1) (i 1 : Fin 128)))

theorem bnArr_ix2 (H : S100000x128.Idx → EReal) (MEAN VAR SCALE SHIFT : S1x128.Idx → EReal) (r : Fin 100000) (j : Fin 128) :
    bnArr H MEAN VAR SCALE SHIFT (ix2 r j)
      = max (((H (ix2 r j) - MEAN (ix2 (0 : Fin 1) j)) * Ideal.rsqrt (VAR (ix2 (0 : Fin 1) j) + Ideal.ofBits .f32 0x3727C5AC#32))
          * SCALE (ix2 (0 : Fin 1) j) + SHIFT (ix2 (0 : Fin 1) j)) 0 := rfl

/-- A block's payload at the element `y` is the array's formula at `i`, when the block of activations at `y` is
    the array at `i`, `i` is in `y`'s lane, and the four row blocks are the four rows. -/
theorem bn_point1 (x0 : Vec Ideal S5000x128 .f32) (x1 x2 x3 x4 : Vec Ideal S1x128 .f32)
    (H : S100000x128.Idx → EReal) (MEAN VAR SCALE SHIFT : S1x128.Idx → EReal) (y : S5000x128.Idx) (i : S100000x128.Idx)
    (hi : (i 1).val = (y 1).val) (h0 : x0 y = H i) (h1 : x1 = MEAN) (h2 : x2 = VAR) (h3 : x3 = SCALE) (h4 : x4 = SHIFT) :
    k1_pay1 x0 x2 x1 x3 x4 y = bnArr H MEAN VAR SCALE SHIFT i := by
  subst h1 h2 h3 h4
  obtain ⟨p, q, rfl⟩ : ∃ (p : Fin 5000) (q : Fin 128), y = ix2 p q := ⟨y 0, y 1, eq_ix2 y⟩
  have hq : (i 1 : Fin 128) = q := Fin.ext hi
  rw [k1_pay1_apply, h0]
  unfold bnArr
  rw [hq]

theorem bn_point3 (x0 : Vec Ideal S5000x128 .f32) (x1 x2 x3 x4 : Vec Ideal S1x128 .f32)
    (H : S100000x128.Idx → EReal) (MEAN VAR SCALE SHIFT : S1x128.Idx → EReal) (y : S5000x128.Idx) (i : S100000x128.Idx)
    (hi : (i 1).val = (y 1).val) (h0 : x0 y = H i) (h1 : x1 = MEAN) (h2 : x2 = VAR) (h3 : x3 = SCALE) (h4 : x4 = SHIFT) :
    k3_pay1 x0 x2 x1 x3 x4 y = bnArr H MEAN VAR SCALE SHIFT i := by
  subst h1 h2 h3 h4
  obtain ⟨p, q, rfl⟩ : ∃ (p : Fin 5000) (q : Fin 128), y = ix2 p q := ⟨y 0, y 1, eq_ix2 y⟩
  have hq : (i 1 : Fin 128) = q := Fin.ext hi
  rw [k3_pay1_apply, h0]
  unfold bnArr
  rw [hq]

end Cert.KernelIdeal.Hand

end
-- ==== Proof.Cls1Value.lean ====
/- Region 1's value at the exact-real instance: after the region the [100000,128] output array holds, at (r, j),
   max(((h[r,j] - mean[0,j]) * rsqrt(var[0,j] + eps)) * scale[0,j] + shift[0,j], 0) of the five arrays the region
   finds. Point `t` of the 20 writes back rows 5000·t … 5000·t + 4999: its activation block is those rows of the
   activations, its four row blocks are the four [1,128] arrays whole, and row `r` is covered by point `r / 5000`. -/
import proofs.«151566_j35021163331665_1_alg».proof.Proof.Cls1
import proofs.«151566_j35021163331665_1_alg».proof.Proof.BnPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_off1 : (![0, 0] : Fin 2 → Nat) = fun _ => 0 := funext fun a => by fin_cases a <;> rfl

/-- The printed index maps, decided over the 20 points: the activations' and the output's block index is (t, 0), the
    four rows' is (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The output array as one function of the five arrays the region finds. -/
def G1 (c : Dev nD) : S100000x128.Idx → EReal :=
  bnArr (V c (Pipeline.arrRef spec1 0)) (V c (Pipeline.arrRef spec1 1)) (V c (Pipeline.arrRef spec1 2))
    (V c (Pipeline.arrRef spec1 3)) (V c (Pipeline.arrRef spec1 4))

/-- Window 1's block at any point is its [1,128] array whole. -/
theorem iblk1_row1 (c : Dev nD) (t : Fin cfg1.N) :
    (iblk1 V c 1 t : S1x128.Idx → EReal) = (V c (Pipeline.arrRef spec1 1) : S1x128.Idx → EReal) := by
  obtain ⟨e00, e01, e10, e11, e20, e21, e30, e31, e40, e41, e50, e51⟩ := idx_facts1 t
  funext y
  show (V c (Pipeline.arrRef spec1 1) : S1x128.Idx → EReal) (((cfg1.win 1).blk t).view.emb y) = _
  refine congrArg _ (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- Window 2's block at any point is its [1,128] array whole. -/
theorem iblk1_row2 (c : Dev nD) (t : Fin cfg1.N) :
    (iblk1 V c 2 t : S1x128.Idx → EReal) = (V c (Pipeline.arrRef spec1 2) : S1x128.Idx → EReal) := by
  obtain ⟨e00, e01, e10, e11, e20, e21, e30, e31, e40, e41, e50, e51⟩ := idx_facts1 t
  funext y
  show (V c (Pipeline.arrRef spec1 2) : S1x128.Idx → EReal) (((cfg1.win 2).blk t).view.emb y) = _
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- Window 3's block at any point is its [1,128] array whole. -/
theorem iblk1_row3 (c : Dev nD) (t : Fin cfg1.N) :
    (iblk1 V c 3 t : S1x128.Idx → EReal) = (V c (Pipeline.arrRef spec1 3) : S1x128.Idx → EReal) := by
  obtain ⟨e00, e01, e10, e11, e20, e21, e30, e31, e40, e41, e50, e51⟩ := idx_facts1 t
  funext y
  show (V c (Pipeline.arrRef spec1 3) : S1x128.Idx → EReal) (((cfg1.win 3).blk t).view.emb y) = _
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4's block at any point is its [1,128] array whole. -/
theorem iblk1_row4 (c : Dev nD) (t : Fin cfg1.N) :
    (iblk1 V c 4 t : S1x128.Idx → EReal) = (V c (Pipeline.arrRef spec1 4) : S1x128.Idx → EReal) := by
  obtain ⟨e00, e01, e10, e11, e20, e21, e30, e31, e40, e41, e50, e51⟩ := idx_facts1 t
  funext y
  show (V c (Pipeline.arrRef spec1 4) : S1x128.Idx → EReal) (((cfg1.win 4).blk t).view.emb y) = _
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- What point `t` writes back is block `t` of `G1`. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero zero_off1]
  simp only [View.ld_unit_zero (S := S5000x128) zero_off1, View.ld_unit_zero (S := S1x128) zero_off1]
  obtain ⟨e00, e01, e10, e11, e20, e21, e30, e31, e40, e41, e50, e51⟩ := idx_facts1 t
  funext y
  refine bn_point1 (iblk1 V c 0 t) (iblk1 V c 1 t) (iblk1 V c 2 t) (iblk1 V c 3 t) (iblk1 V c 4 t)
    (V c (Pipeline.arrRef spec1 0)) (V c (Pipeline.arrRef spec1 1)) (V c (Pipeline.arrRef spec1 2))
    (V c (Pipeline.arrRef spec1 3)) (V c (Pipeline.arrRef spec1 4)) y (((cfg1.win 5).blk t).view.emb y) ?_ ?_
    (iblk1_row1 V c t) (iblk1_row2 V c t) (iblk1_row3 V c t) (iblk1_row4 V c t)
  · show win1_5.index t (1 : Fin 2) * 128 + 1 * (y 1).val = (y 1).val
    omega
  · show (V c (Pipeline.arrRef spec1 0) : S100000x128.Idx → EReal) (((cfg1.win 0).blk t).view.emb y)
      = (V c (Pipeline.arrRef spec1 0) : S100000x128.Idx → EReal) (((cfg1.win 5).blk t).view.emb y)
    refine congrArg _ (funext fun a => Fin.ext ?_)
    match a with
    | ⟨0, _⟩ => show win1_0.index t (0 : Fin 2) * 5000 + 1 * (y 0).val = win1_5.index t (0 : Fin 2) * 5000 + 1 * (y 0).val; omega
    | ⟨1, _⟩ => show win1_0.index t (1 : Fin 2) * 128 + 1 * (y 1).val = win1_5.index t (1 : Fin 2) * 128 + 1 * (y 1).val; omega

/-- An index of the array is in point `t`'s block iff each coordinate is in the block's range on its axis. -/
theorem mem_blk1_5 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole (Pipeline.arrRef spec1 5)).slice (win1_5.rect t)).set ↔ _
  rw [View.set_slice_whole, Rect.mem_set_unit]
  exact Iff.rfl

/-- Every index of the array is in the block of the point its row falls in. -/
theorem cover1_arr (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  obtain ⟨e00, e01, e10, e11, e20, e21, e30, e31, e40, e41, e50, e51⟩ := idx_facts1 ⟨(i 0).val / 5000, by rw [hN]; omega⟩
  rw [mem_blk1_5]
  intro a
  match a with
  | ⟨0, _⟩ =>
    show win1_5.index _ (0 : Fin 2) * 5000 ≤ (i 0).val ∧ (i 0).val < win1_5.index _ (0 : Fin 2) * 5000 + 5000
    rw [e50]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e51]; omega

/-- The output array after the region is `G1`. -/
theorem final1 (c : Dev nD) : (dat1 V c).arrAt 5 cfg1.N = G1 V c :=
  (dat1 V c).arrAt_eq_of_cover 5 (G1 V c) (fun t _ => flushed1_eq V c t) (cover1_arr)

/-- The five arrays the region finds, at their shapes: the activations, and the mean, variance, scale and shift rows. -/
abbrev arrH1 (c : Dev nD) : S100000x128.Idx → EReal := V c (Pipeline.arrRef spec1 0)
abbrev arrMean1 (c : Dev nD) : S1x128.Idx → EReal := V c (Pipeline.arrRef spec1 1)
abbrev arrVar1 (c : Dev nD) : S1x128.Idx → EReal := V c (Pipeline.arrRef spec1 2)
abbrev arrScale1 (c : Dev nD) : S1x128.Idx → EReal := V c (Pipeline.arrRef spec1 3)
abbrev arrShift1 (c : Dev nD) : S1x128.Idx → EReal := V c (Pipeline.arrRef spec1 4)

/-- The output array after the region, element by element. -/
theorem value1 (c : Dev nD) (r : Fin 100000) (j : Fin 128) :
    (dat1 V c).arrAt 5 cfg1.N (ix2 r j)
      = (max (((arrH1 V c (ix2 r j) - arrMean1 V c (ix2 (0 : Fin 1) j))
            * Ideal.rsqrt (arrVar1 V c (ix2 (0 : Fin 1) j) + Ideal.ofBits .f32 0x3727C5AC#32))
          * arrScale1 V c (ix2 (0 : Fin 1) j) + arrShift1 V c (ix2 (0 : Fin 1) j)) 0 : EReal) := by
  rw [final1]
  rfl

end Cert.KernelIdeal.Hand

end
-- ==== Proof.Cls3Value.lean ====
/- Region 3's value at the exact-real instance: after the region the [100000,128] output array holds, at (r, j),
   max(((h[r,j] - mean[0,j]) * rsqrt(var[0,j] + eps)) * scale[0,j] + shift[0,j], 0) of the five arrays the region
   finds. Point `t` of the 20 writes back rows 5000·t … 5000·t + 4999: its activation block is those rows of the
   activations, its four row blocks are the four [1,128] arrays whole, and row `r` is covered by point `r / 5000`. -/
import proofs.«151566_j35021163331665_1_alg».proof.Proof.Cls3
import proofs.«151566_j35021163331665_1_alg».proof.Proof.BnPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_off3 : (![0, 0] : Fin 2 → Nat) = fun _ => 0 := funext fun a => by fin_cases a <;> rfl

/-- The printed index maps, decided over the 20 points: the activations' and the output's block index is (t, 0), the
    four rows' is (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The output array as one function of the five arrays the region finds. -/
def G3 (c : Dev nD) : S100000x128.Idx → EReal :=
  bnArr (V c (Pipeline.arrRef spec3 0)) (V c (Pipeline.arrRef spec3 1)) (V c (Pipeline.arrRef spec3 2))
    (V c (Pipeline.arrRef spec3 3)) (V c (Pipeline.arrRef spec3 4))

/-- Window 1's block at any point is its [1,128] array whole. -/
theorem iblk3_row1 (c : Dev nD) (t : Fin cfg3.N) :
    (iblk3 V c 1 t : S1x128.Idx → EReal) = (V c (Pipeline.arrRef spec3 1) : S1x128.Idx → EReal) := by
  obtain ⟨e00, e01, e10, e11, e20, e21, e30, e31, e40, e41, e50, e51⟩ := idx_facts3 t
  funext y
  show (V c (Pipeline.arrRef spec3 1) : S1x128.Idx → EReal) (((cfg3.win 1).blk t).view.emb y) = _
  refine congrArg _ (funext fun a => Fin.ext ?_)
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- Window 2's block at any point is its [1,128] array whole. -/
theorem iblk3_row2 (c : Dev nD) (t : Fin cfg3.N) :
    (iblk3 V c 2 t : S1x128.Idx → EReal) = (V c (Pipeline.arrRef spec3 2) : S1x128.Idx → EReal) := by
  obtain ⟨e00, e01, e10, e11, e20, e21, e30, e31, e40, e41, e50, e51⟩ := idx_facts3 t
  funext y
  show (V c (Pipeline.arrRef spec3 2) : S1x128.Idx → EReal) (((cfg3.win 2).blk t).view.emb y) = _
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- Window 3's block at any point is its [1,128] array whole. -/
theorem iblk3_row3 (c : Dev nD) (t : Fin cfg3.N) :
    (iblk3 V c 3 t : S1x128.Idx → EReal) = (V c (Pipeline.arrRef spec3 3) : S1x128.Idx → EReal) := by
  obtain ⟨e00, e01, e10, e11, e20, e21, e30, e31, e40, e41, e50, e51⟩ := idx_facts3 t
  funext y
  show (V c (Pipeline.arrRef spec3 3) : S1x128.Idx → EReal) (((cfg3.win 3).blk t).view.emb y) = _
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Window 4's block at any point is its [1,128] array whole. -/
theorem iblk3_row4 (c : Dev nD) (t : Fin cfg3.N) :
    (iblk3 V c 4 t : S1x128.Idx → EReal) = (V c (Pipeline.arrRef spec3 4) : S1x128.Idx → EReal) := by
  obtain ⟨e00, e01, e10, e11, e20, e21, e30, e31, e40, e41, e50, e51⟩ := idx_facts3 t
  funext y
  show (V c (Pipeline.arrRef spec3 4) : S1x128.Idx → EReal) (((cfg3.win 4).blk t).view.emb y) = _
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- What point `t` writes back is block `t` of `G3`. -/
theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero zero_off3]
  simp only [View.ld_unit_zero (S := S5000x128) zero_off3, View.ld_unit_zero (S := S1x128) zero_off3]
  obtain ⟨e00, e01, e10, e11, e20, e21, e30, e31, e40, e41, e50, e51⟩ := idx_facts3 t
  funext y
  refine bn_point3 (iblk3 V c 0 t) (iblk3 V c 1 t) (iblk3 V c 2 t) (iblk3 V c 3 t) (iblk3 V c 4 t)
    (V c (Pipeline.arrRef spec3 0)) (V c (Pipeline.arrRef spec3 1)) (V c (Pipeline.arrRef spec3 2))
    (V c (Pipeline.arrRef spec3 3)) (V c (Pipeline.arrRef spec3 4)) y (((cfg3.win 5).blk t).view.emb y) ?_ ?_
    (iblk3_row1 V c t) (iblk3_row2 V c t) (iblk3_row3 V c t) (iblk3_row4 V c t)
  · show win3_5.index t (1 : Fin 2) * 128 + 1 * (y 1).val = (y 1).val
    omega
  · show (V c (Pipeline.arrRef spec3 0) : S100000x128.Idx → EReal) (((cfg3.win 0).blk t).view.emb y)
      = (V c (Pipeline.arrRef spec3 0) : S100000x128.Idx → EReal) (((cfg3.win 5).blk t).view.emb y)
    refine congrArg _ (funext fun a => Fin.ext ?_)
    match a with
    | ⟨0, _⟩ => show win3_0.index t (0 : Fin 2) * 5000 + 1 * (y 0).val = win3_5.index t (0 : Fin 2) * 5000 + 1 * (y 0).val; omega
    | ⟨1, _⟩ => show win3_0.index t (1 : Fin 2) * 128 + 1 * (y 1).val = win3_5.index t (1 : Fin 2) * 128 + 1 * (y 1).val; omega

/-- An index of the array is in point `t`'s block iff each coordinate is in the block's range on its axis. -/
theorem mem_blk3_5 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole (Pipeline.arrRef spec3 5)).slice (win3_5.rect t)).set ↔ _
  rw [View.set_slice_whole, Rect.mem_set_unit]
  exact Iff.rfl

/-- Every index of the array is in the block of the point its row falls in. -/
theorem cover3_arr (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  refine ⟨⟨(i 0).val / 5000, by rw [hN]; omega⟩, flush3_5 _, ?_⟩
  obtain ⟨e00, e01, e10, e11, e20, e21, e30, e31, e40, e41, e50, e51⟩ := idx_facts3 ⟨(i 0).val / 5000, by rw [hN]; omega⟩
  rw [mem_blk3_5]
  intro a
  match a with
  | ⟨0, _⟩ =>
    show win3_5.index _ (0 : Fin 2) * 5000 ≤ (i 0).val ∧ (i 0).val < win3_5.index _ (0 : Fin 2) * 5000 + 5000
    rw [e50]; show (i 0).val / 5000 * 5000 ≤ (i 0).val ∧ (i 0).val < (i 0).val / 5000 * 5000 + 5000; omega
  | ⟨1, _⟩ =>
    show win3_5.index _ (1 : Fin 2) * 128 ≤ (i 1).val ∧ (i 1).val < win3_5.index _ (1 : Fin 2) * 128 + 128
    rw [e51]; omega

/-- The output array after the region is `G3`. -/
theorem final3 (c : Dev nD) : (dat3 V c).arrAt 5 cfg3.N = G3 V c :=
  (dat3 V c).arrAt_eq_of_cover 5 (G3 V c) (fun t _ => flushed3_eq V c t) (cover3_arr)

/-- The five arrays the region finds, at their shapes: the activations, and the mean, variance, scale and shift rows. -/
abbrev arrH3 (c : Dev nD) : S100000x128.Idx → EReal := V c (Pipeline.arrRef spec3 0)
abbrev arrMean3 (c : Dev nD) : S1x128.Idx → EReal := V c (Pipeline.arrRef spec3 1)
abbrev arrVar3 (c : Dev nD) : S1x128.Idx → EReal := V c (Pipeline.arrRef spec3 2)
abbrev arrScale3 (c : Dev nD) : S1x128.Idx → EReal := V c (Pipeline.arrRef spec3 3)
abbrev arrShift3 (c : Dev nD) : S1x128.Idx → EReal := V c (Pipeline.arrRef spec3 4)

/-- The output array after the region, element by element. -/
theorem value3 (c : Dev nD) (r : Fin 100000) (j : Fin 128) :
    (dat3 V c).arrAt 5 cfg3.N (ix2 r j)
      = (max (((arrH3 V c (ix2 r j) - arrMean3 V c (ix2 (0 : Fin 1) j))
            * Ideal.rsqrt (arrVar3 V c (ix2 (0 : Fin 1) j) + Ideal.ofBits .f32 0x3727C5AC#32))
          * arrScale3 V c (ix2 (0 : Fin 1) j) + arrShift3 V c (ix2 (0 : Fin 1) j)) 0 : EReal) := by
  rw [final3]
  rfl

end Cert.KernelIdeal.Hand

end
-- ==== Proof.MmPay.lean ====
/- The matmul-plus-bias payload read at one element, at the exact-real instance: at row `p` and column `q` of a
   [5000,40] block it is (Σ_k a[p,k] · w[k,q]) + b[0,q]. The two narrowings to bf16 are the identity on extended reals,
   the matrix unit's product into a zero accumulator is the plain sum over the one contracted axis, and the [1,40]
   bias row is broadcast down the rows. Then the same formula over the whole [100000,40] array. -/
import proofs.«151566_j35021163331665_1_alg».proof.Proof.Gen.KernelIdeal.Skeleton
import proofs.«151566_j35021163331665_1_alg».proof.Proof.LibDot
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- The kernel's dimension numbers: the left operand's axis 1 against the right operand's axis 0, no batch axis. -/
abbrev mmDims : DotDims S5000x128 S128x40 S5000x40 := dot_S5000x128_S128x40_S5000x40_1_0_0_1_n_n

theorem mmDims_rank : mmDims.contr.rank = 1 := rfl
theorem mmDims_size : mmDims.contr.size ⟨0, by rw [mmDims_rank]; exact Nat.one_pos⟩ = 128 := rfl
theorem mmDims_l0 (j : S5000x40.Idx) (k : mmDims.contr.Idx) : (mmDims.lhsIdx j k 0).val = (j 0).val := rfl
theorem mmDims_l1 (j : S5000x40.Idx) (k : mmDims.contr.Idx) : (mmDims.lhsIdx j k 1).val = (k ⟨0, by rw [mmDims_rank]; exact Nat.one_pos⟩).val := rfl
theorem mmDims_r0 (j : S5000x40.Idx) (k : mmDims.contr.Idx) : (mmDims.rhsIdx j k 0).val = (k ⟨0, by rw [mmDims_rank]; exact Nat.one_pos⟩).val := rfl
theorem mmDims_r1 (j : S5000x40.Idx) (k : mmDims.contr.Idx) : (mmDims.rhsIdx j k 1).val = (j 1).val := rfl

/-- Region 4's payload at an element. -/
theorem k4_pay1_apply (x0 : Vec Ideal S5000x128 .f32) (x1 : Vec Ideal S128x40 .f32) (x2 : Vec Ideal S1x40 .f32) (p : Fin 5000) (q : Fin 40) :
    k4_pay1 x0 x1 x2 (ix2 p q) = (∑ k : Fin 128, x0 (ix2 p k) * x1 (ix2 k q)) + x2 (ix2 (0 : Fin 1) q) := by
  unfold k4_pay1
  simp only [shapeCast_self, addf_apply, broadcastTo_1b_ab_apply]
  exact congrArg (· + x2 (ix2 (0 : Fin 1) q))
    (Cert.LibDot.matmul_zero_apply mmDims mmDims_rank mmDims_size mmDims_l0 mmDims_l1 mmDims_r0 mmDims_r1 none
      (truncf .bf16 x0 bitsLt_bf16_f32) (truncf .bf16 x1 bitsLt_bf16_f32) p q)

/-- The whole output array: element (r, j) is row r of the left operand against column j of the weight, plus the
    bias row's entry j. -/
def mmArr (A : S100000x128.Idx → EReal) (W : S128x40.Idx → EReal) (B : S1x40.Idx → EReal) : S100000x40.Idx → EReal :=
  fun i => (∑ k : Fin 128, A (ix2 (i 0 : Fin 100000) k) * W (ix2 k (i 1 : Fin 40))) + B (ix2 (0 : Fin 1) (i 1 : Fin 40))

theorem mmArr_ix2 (A : S100000x128.Idx → EReal) (W : S128x40.Idx → EReal) (B : S1x40.Idx → EReal) (r : Fin 100000) (j : Fin 40) :
    mmArr A W B (ix2 r j) = (∑ k : Fin 128, A (ix2 r k) * W (ix2 k j)) + B (ix2 (0 : Fin 1) j) := rfl

/-- A block's payload at the element `y` is the array's formula at `i`, when row `y 0` of the block of the left
    operand is row `i 0` of the array, `i` is in `y`'s column, and the weight and bias blocks are the two arrays. -/
theorem mm_point4 (x0 : Vec Ideal S5000x128 .f32) (x1 : Vec Ideal S128x40 .f32) (x2 : Vec Ideal S1x40 .f32)
    (A : S100000x128.Idx → EReal) (W : S128x40.Idx → EReal) (B : S1x40.Idx → EReal) (y : S5000x40.Idx) (i : S100000x40.Idx)
    (hi : (i 1).val = (y 1).val) (h0 : ∀ k : Fin 128, x0 (ix2 (y 0 : Fin 5000) k) = A (ix2 (i 0 : Fin 100000) k))
    (h1 : x1 = W) (h2 : x2 = B) :
    k4_pay1 x0 x1 x2 y = mmArr A W B i := by
  subst h1 h2
  obtain ⟨p, q, rfl⟩ : ∃ (p : Fin 5000) (q : Fin 40), y = ix2 p q := ⟨y 0, y 1, eq_ix2 y⟩
  have hq : (i 1 : Fin 40) = q := Fin.ext hi
  rw [k4_pay1_apply]
  unfold mmArr
  rw [hq]
  exact congrArg (· + x2 (ix2 (0 : Fin 1) q)) (Finset.sum_congr rfl fun k _ => congrArg (· * x1 (ix2 k q)) (h0 k))

end Cert.KernelIdeal.Hand

end
-- ==== Proof.Cls4Value.lean ====
/- Region 4's value at the exact-real instance: after the region the [100000,40] output array holds, at (r, j),
   (Σ_k a[r,k] · w[k,j]) + b[0,j] of the three arrays the region finds. Point `t` of the 20 writes back rows
   5000·t … 5000·t + 4999: its left-operand block is those rows of the [100000,128] array, its weight and bias blocks
   are the [128,40] and [1,40] arrays whole, and row `r` is covered by point `r / 5000`. -/
import proofs.«151566_j35021163331665_1_alg».proof.Proof.Cls4
import proofs.«151566_j35021163331665_1_alg».proof.Proof.MmPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem zero_off4 : (![0, 0] : Fin 2 → Nat) = fun _ => 0 := funext fun a => by fin_cases a <;> rfl

/-- The printed index maps, decided over the 20 points: the left operand's and the output's block index is (t, 0), the
    weight's and the bias row's is (0, 0). -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The output array as one function of the three arrays the region finds. -/
def G4 (c : Dev nD) : S100000x40.Idx → EReal :=
  mmArr (V c (Pipeline.arrRef spec4 0)) (V c (Pipeline.arrRef spec4 1)) (V c (Pipeline.arrRef spec4 2))

/-- The weight window's block at any point is the [128,40] array whole. -/
theorem iblk4_weight (c : Dev nD) (t : Fin cfg4.N) :
    (iblk4 V c 1 t : S128x40.Idx → EReal) = (V c (Pipeline.arrRef spec4 1) : S128x40.Idx → EReal) := by
  obtain ⟨e00, e01, e10, e11, e20, e21, e30, e31⟩ := idx_facts4 t
  funext y
  show (V c (Pipeline.arrRef spec4 1) : S128x40.Idx → EReal) (((cfg4.win 1).blk t).view.emb y) = _
  refine congrArg _ (funext fun a => Fin.ext ?_)
  match a with
  | ⟨0, _⟩ => show win4_1.index t (0 : Fin 2) * 128 + 1 * (y 0).val = (y 0).val; omega
  | ⟨1, _⟩ => show win4_1.index t (1 : Fin 2) * 40 + 1 * (y 1).val = (y 1).val; omega

/-- The bias window's block at any point is the [1,40] array whole. -/
theorem iblk4_bias (c : Dev nD) (t : Fin cfg4.N) :
    (iblk4 V c 2 t : S1x40.Idx → EReal) = (V c (Pipeline.arrRef spec4 2) : S1x40.Idx → EReal) := by
  obtain ⟨e00, e01, e10, e11, e20, e21, e30, e31⟩ := idx_facts4 t
  funext y
  show (V c (Pipeline.arrRef spec4 2) : S1x40.Idx → EReal) (((cfg4.win 2).blk t).view.emb y) = _
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 40 + 1 * (y 1).val = (y 1).val; omega

/-- What point `t` writes back is block `t` of `G4`. -/
theorem flushed4_eq (c : Dev nD) (t : Fin cfg4.N) :
    (dat4 V c).flushed 3 t = ((cfg4.win 3).blk t).view.read (Elt Ideal) (G4 V c) := by
  show (cfg4.win 3).cut (grid4.coords t) ((dat4 V c).after 3 t) = _
  rw [after4_3]
  unfold out4_3
  rw [View.canon_unit_zero zero_off4]
  simp only [View.ld_unit_zero (S := S5000x128) zero_off4, View.ld_unit_zero (S := S128x40) zero_off4, View.ld_unit_zero (S := S1x40) zero_off4]
  obtain ⟨e00, e01, e10, e11, e20, e21, e30, e31⟩ := idx_facts4 t
  funext y
  refine mm_point4 (iblk4 V c 0 t) (iblk4 V c 1 t) (iblk4 V c 2 t)
    (V c (Pipeline.arrRef spec4 0)) (V c (Pipeline.arrRef spec4 1)) (V c (Pipeline.arrRef spec4 2)) y (((cfg4.win 3).blk t).view.emb y) ?_ ?_
    (iblk4_weight V c t) (iblk4_bias V c t)
  · show win4_3.index t (1 : Fin 2) * 40 + 1 * (y 1).val = (y 1).val
    omega
  · intro k
    show (V c (Pipeline.arrRef spec4 0) : S100000x128.Idx → EReal) (((cfg4.win 0).blk t).view.emb (ix2 (y 0 : Fin 5000) k)) = _
    refine congrArg _ (funext fun a => Fin.ext ?_)
    match a with
    | ⟨0, _⟩ => show win4_0.index t (0 : Fin 2) * 5000 + 1 * (y 0).val = win4_3.index t (0 : Fin 2) * 5000 + 1 * (y 0).val; omega
    | ⟨1, _⟩ => show win4_0.index t (1 : Fin 2) * 128 + 1 * k.val = k.val; omega

/-- An index of the array is in point `t`'s block iff each coordinate is in the block's range on its axis. -/
theorem mem_blk4_3 (t : Fin cfg4.N) (i : S100000x40.Idx) :
    i ∈ ((cfg4.win 3).blk t).view.set ↔ ∀ a : Fin 2, win4_3.index t a * S5000x40.size a ≤ (i a).val ∧ (i a).val < win4_3.index t a * S5000x40.size a + S5000x40.size a := by
  show i ∈ ((View.whole (Pipeline.arrRef spec4 3)).slice (win4_3.rect t)).set ↔ _
  rw [View.set_slice_whole, Rect.mem_set_unit]
  exact Iff.rfl

/-- Every index of the array is in the block of the point its row falls in. -/
theorem cover4_arr (i : S100000x40.Idx) :
    ∃ t : Fin cfg4.N, (cfg4.win 3).flush t = true ∧ i ∈ ((cfg4.win 3).blk t).view.set := by
  have hi0 : (i 0).val < 100000 := (i 0).isLt
  have hi1 : (i 1).val < 40 := (i 1).isLt
  have hN : cfg4.N = 20 := N_4
  refine ⟨⟨(i 0).val / 5000, by rw [hN]; omega⟩, flush4_3 _, ?_⟩
  obtain ⟨e00, e01, e10, e11, e20, e21, e30, e31⟩ := idx_facts4 ⟨(i 0).val / 5000, by rw [hN]; omega⟩
  rw [mem_blk4_3]
  intro a
  match a with
  | ⟨0, _⟩ =>
    show win4_3.index _ (0 : Fin 2) * 5000 ≤ (i 0).val ∧ (i 0).val < win4_3.index _ (0 : Fin 2) * 5000 + 5000
    rw [e30]; show (i 0).val / 5000 * 5000 ≤ (i 0).val ∧ (i 0).val < (i 0).val / 5000 * 5000 + 5000; omega
  | ⟨1, _⟩ =>
    show win4_3.index _ (1 : Fin 2) * 40 ≤ (i 1).val ∧ (i 1).val < win4_3.index _ (1 : Fin 2) * 40 + 40
    rw [e31]; omega

/-- The output array after the region is `G4`. -/
theorem final4 (c : Dev nD) : (dat4 V c).arrAt 3 cfg4.N = G4 V c :=
  (dat4 V c).arrAt_eq_of_cover 3 (G4 V c) (fun t _ => flushed4_eq V c t) (cover4_arr)

/-- The three arrays the region finds, at their shapes: the left operand, the weight and the bias row. -/
abbrev arrA4 (c : Dev nD) : S100000x128.Idx → EReal := V c (Pipeline.arrRef spec4 0)
abbrev arrW4 (c : Dev nD) : S128x40.Idx → EReal := V c (Pipeline.arrRef spec4 1)
abbrev arrB4 (c : Dev nD) : S1x40.Idx → EReal := V c (Pipeline.arrRef spec4 2)

/-- The output array after the region, element by element. -/
theorem value4 (c : Dev nD) (r : Fin 100000) (j : Fin 40) :
    (dat4 V c).arrAt 3 cfg4.N (ix2 r j)
      = ((∑ k : Fin 128, arrA4 V c (ix2 r k) * arrW4 V c (ix2 k j)) + arrB4 V c (ix2 (0 : Fin 1) j) : EReal) := by
  rw [final4]
  rfl

end Cert.KernelIdeal.Hand

end
-- ==== Proof.RefRead.lean ====
/- The normalisation layer read at an entry, at the ideal values: plain extended-real arithmetic.

   Column `j` of the hidden layer `h` has mean `mu h j` — the column's sum over the real 100000 — and
   variance `sigma2 h j` — the sum of the squared deviations from that mean, over the same 100000 (the
   degrees-of-freedom correction is zero, so the divisor `100000 - 0` is positive and the guard of the
   variance always takes its first branch). Entry `(r, j)` of the layer's result is the deviation of
   `h (r, j)` from the mean, times the reciprocal square root of the variance plus `eps`, times
   `gamma j`, plus `beta j`, and zero if that is negative. None of this needs a finiteness
   hypothesis: it only reads the operations. -/
import Idealize.ShloMosaic.PureOps.Ideal.Laws
import Idealize.ShloMosaic.Lib.ValueIdx
import Idealize.ShloMosaic.Lib.IdealHost
import Idealize.ShloMosaic.Lib.Pipeline.Value
import proofs.«151566_j35021163331665_1_alg».proof.Proof.RefFn
import proofs.«151566_j35021163331665_1_alg».proof.Proof.LibColReduce

noncomputable section

namespace Cert.ReferenceIdeal.Hand

open Cert.ReferenceIdeal Cert.ReferenceIdeal.Gen Idealize.ShloMosaic Idealize.ShloMosaic.ValueIdx
open scoped BigOperators

/-! ## The float words -/

/-- The word `0x47C35000` is the real 100000: exponent field 143, fraction `0x435000`, so
    `(2^23 + 4411392) · 2^(143 - 127 - 23) = 12800000 / 128`. -/
theorem word_nodes : Ideal.ofBits .f32 0x47C35000#32 = ((100000 : ℝ) : EReal) := by
  simp [Ideal.ofBits, Ideal.ieee, -EReal.coe_mul]; norm_num

/-- The small constant added to the variance: the float nearest `1e-5`. -/
def eps : EReal := Ideal.ofBits .f32 0x3727C5AC#32

/-! ## Broadcasts read at an entry -/

section Layout
variable {α : Type}

/-- A `[128]` array as one row `[1, 128]`: entry `(u, j)` is entry `j`. -/
theorem asRow_apply (v : S128.Idx → α) (u : Fin 1) (j : Fin 128) :
    broadcastInDim S1x128 ![1] bcast_S128_S1x128_1 v (ix2 u j) = v (ix1 j) :=
  broadcastInDim_apply ![1] bcast_S128_S1x128_1 v (ix2 u j) (ix1 j) fun a => match a with | ⟨0, _⟩ => rfl

/-- One row `[1, 128]` under every row of `[100000, 128]`: entry `(r, j)` is the row's entry `j`. -/
theorem underRows_apply (v : S1x128.Idx → α) (r : Fin 100000) (j : Fin 128) :
    broadcastInDim S100000x128 ![0, 1] bcast_S1x128_S100000x128_0_1 v (ix2 r j) = v (ix2 (0 : Fin 1) j) :=
  broadcastInDim_apply ![0, 1] bcast_S1x128_S100000x128_0_1 v (ix2 r j) (ix2 (0 : Fin 1) j) fun a =>
    match a with | ⟨0, _⟩ => rfl | ⟨1, _⟩ => rfl

/-- A `[128]` array laid under every row: entry `(r, j)` is entry `j`. -/
theorem everyRow_apply (v : S128.Idx → α) (r : Fin 100000) (j : Fin 128) :
    broadcastInDim S100000x128 ![0, 1] bcast_S1x128_S100000x128_0_1
      (broadcastInDim S1x128 ![1] bcast_S128_S1x128_1 v) (ix2 r j) = v (ix1 j) :=
  (underRows_apply _ r j).trans (asRow_apply v 0 j)

end Layout

/-! ## The column statistics -/

/-- The mean of column `j`. -/
def mu (h : FVec Ideal S100000x128 .f32) (j : Fin 128) : EReal :=
  Ideal.div (∑ i : Fin 100000, h (ix2 i j)) ((100000 : ℝ) : EReal)

/-- The variance of column `j` (divisor 100000). -/
def sigma2 (h : FVec Ideal S100000x128 .f32) (j : Fin 128) : EReal :=
  Ideal.div (∑ i : Fin 100000, (h (ix2 i j) - mu h j) * (h (ix2 i j) - mu h j)) ((100000 : ℝ) : EReal)

/-- The column sums, from the zero word. -/
theorem colSum_apply (h : FVec Ideal S100000x128 .f32) (j : Fin 128) :
    colSum h (ix1 j) = ∑ i : Fin 100000, h (ix2 i j) := by
  have hR : S100000x128.Reduces [0] S128 := by decide
  refine (Ideal.hostReduceAdd_single reducesTo_S100000x128_S128_d0 hR h _ (ix1 j)).trans ?_
  show Ideal.ofBits .f32 0x00000000#32 + _ = _
  rw [Ideal.ofBits_zero_f32, zero_add]
  exact Finset.sum_congr rfl fun r _ => congrArg h (Cert.LibColReduce.lift_col hR j r)

theorem mean128_apply (h : FVec Ideal S100000x128 .f32) (j : Fin 128) : mean128 h (ix1 j) = mu h j := by
  show Ideal.div (colSum h (ix1 j)) (Ideal.ofBits .f32 0x47C35000#32) = _
  rw [colSum_apply, word_nodes]; rfl

theorem meanRow_apply (h : FVec Ideal S100000x128 .f32) (u : Fin 1) (j : Fin 128) : meanRow h (ix2 u j) = mu h j := by
  show Ideal.div (broadcastInDim S1x128 ![1] bcast_S128_S1x128_1 (colSum h) (ix2 u j)) (Ideal.ofBits .f32 0x47C35000#32) = _
  rw [asRow_apply, colSum_apply, word_nodes]; rfl

theorem centered_apply (h : FVec Ideal S100000x128 .f32) (r : Fin 100000) (j : Fin 128) :
    centered h (ix2 r j) = h (ix2 r j) - mu h j := by
  show h (ix2 r j) - broadcastInDim S100000x128 ![0, 1] bcast_S1x128_S100000x128_0_1 (meanRow h) (ix2 r j) = _
  rw [underRows_apply, meanRow_apply]

/-- The variance's divisor is the real 100000: the correction is the integer zero. -/
theorem count_apply (i : S_.Idx) : count (F := Ideal) i = ((100000 : ℝ) : EReal) := by
  show Ideal.ofBits .f32 0x47C35000#32 - (((0#32 : BitVec 32).toInt : ℝ) : EReal) = _
  rw [word_nodes]; simp

theorem var128_apply (h : FVec Ideal S100000x128 .f32) (j : Fin 128) : var128 h (ix1 j) = sigma2 h j := by
  show Scalar.select (Ideal.cmp .ogt (count (F := Ideal) _) (Ideal.ofBits .f32 0x00000000#32))
      (Ideal.div (colSum (mulf (centered h) (centered h)) (ix1 j)) (count (F := Ideal) _))
      (Ideal.ofBits .f32 0x7FC00000#32) = _
  rw [count_apply, Ideal.ofBits_zero_f32, colSum_apply]
  have hpos : Ideal.cmp .ogt ((100000 : ℝ) : EReal) 0 = 1#1 := by
    show BitVec.ofBool (decide ((0 : EReal) < ((100000 : ℝ) : EReal))) = 1#1
    rw [decide_eq_true (EReal.coe_pos.mpr (by norm_num))]; rfl
  rw [hpos, select_one]
  unfold sigma2
  refine congrArg (fun s => Ideal.div s ((100000 : ℝ) : EReal)) ?_
  refine Finset.sum_congr rfl fun i _ => ?_
  show centered h (ix2 i j) * centered h (ix2 i j) = _
  rw [centered_apply]

/-! ## The layer at an entry -/

theorem bnRelu_apply (h : FVec Ideal S100000x128 .f32) (gamma beta : FVec Ideal S128 .f32) (r : Fin 100000) (j : Fin 128) :
    bnRelu h gamma beta (ix2 r j)
      = max ((h (ix2 r j) - mu h j) * Ideal.rsqrt (sigma2 h j + eps) * gamma (ix1 j) + beta (ix1 j)) 0 := by
  show max
      ((h (ix2 r j)
          - broadcastInDim S100000x128 ![0, 1] bcast_S1x128_S100000x128_0_1
              (broadcastInDim S1x128 ![1] bcast_S128_S1x128_1 (mean128 h)) (ix2 r j))
        * broadcastInDim S100000x128 ![0, 1] bcast_S1x128_S100000x128_0_1
              (broadcastInDim S1x128 ![1] bcast_S128_S1x128_1
                (Host.rsqrt (addf (var128 h)
                  (broadcastInDim S128 ![] bcast_S_S128 (constant (F := Ideal) S_ .f32 0x3727C5AC#32))))) (ix2 r j)
        * broadcastInDim S100000x128 ![0, 1] bcast_S1x128_S100000x128_0_1
              (broadcastInDim S1x128 ![1] bcast_S128_S1x128_1 gamma) (ix2 r j)
        + broadcastInDim S100000x128 ![0, 1] bcast_S1x128_S100000x128_0_1
              (broadcastInDim S1x128 ![1] bcast_S128_S1x128_1 beta) (ix2 r j))
      (Ideal.ofBits .f32 0x00000000#32) = _
  rw [everyRow_apply, everyRow_apply, everyRow_apply, everyRow_apply, mean128_apply, Ideal.ofBits_zero_f32]
  show max ((h (ix2 r j) - mu h j) * Ideal.rsqrt (var128 h (ix1 j) + eps) * gamma (ix1 j) + beta (ix1 j)) 0 = _
  rw [var128_apply]

end Cert.ReferenceIdeal.Hand

end
-- ==== Proof.LibMoment.lean ====
import Idealize.ShloMosaic.PureOps.Ideal
import Mathlib.Data.EReal.Basic
import Mathlib.Data.EReal.Operations
import Mathlib.Data.EReal.Inv
import Mathlib.Algebra.BigOperators.Group.Finset.Basic
import Mathlib.Tactic

/-!
# Finite extended reals and the second-moment law

`IsReal x` says that an extended real is a real number. The finite values are closed under
the ring operations, `max`, finite sums, division by a nonzero real and the reciprocal square
root of a positive value. On finite values every operation is the operation of `ℝ`, so an
identity between extended reals reduces to the identity between the real witnesses.

The moment law: for `n` finite values `y r` with mean `μ = (∑ y) / n` and a finite scale `s`,
the mean of the squared deviations from `s · μ` is

  `(∑ (y r - s μ)²) / n = (∑ y r²) / n - μ² (2 s - s²)`,

because `∑ (y r - t)² = ∑ y r² - 2 t ∑ y r + n t²` and `∑ y r = n μ`.
-/

noncomputable section

namespace Cert.LibMoment

open Idealize.ShloMosaic
open scoped BigOperators

/-- An extended real that is a real number. -/
def IsReal (x : EReal) : Prop := ∃ a : ℝ, x = (a : EReal)

theorem isReal_coe (a : ℝ) : IsReal (a : EReal) := ⟨a, rfl⟩

theorem isReal_zero : IsReal (0 : EReal) := ⟨0, EReal.coe_zero.symm⟩

theorem isReal_one : IsReal (1 : EReal) := ⟨1, rfl⟩

theorem IsReal.ne_top {x : EReal} (hx : IsReal x) : x ≠ ⊤ := by
  obtain ⟨a, rfl⟩ := hx
  exact EReal.coe_ne_top a

theorem IsReal.ne_bot {x : EReal} (hx : IsReal x) : x ≠ ⊥ := by
  obtain ⟨a, rfl⟩ := hx
  exact EReal.coe_ne_bot a

/-- A value that is neither infinity is a real number. -/
theorem isReal_of_ne {x : EReal} (h1 : x ≠ ⊤) (h2 : x ≠ ⊥) : IsReal x :=
  ⟨x.toReal, (EReal.coe_toReal h1 h2).symm⟩

theorem isReal_iff {x : EReal} : IsReal x ↔ x ≠ ⊤ ∧ x ≠ ⊥ :=
  ⟨fun h => ⟨h.ne_top, h.ne_bot⟩, fun h => isReal_of_ne h.1 h.2⟩

/-- A value whose absolute value `max x (-x)` is below `⊤` is a real number. -/
theorem isReal_of_abs_lt_top {x : EReal} (h : max x (-x) < ⊤) : IsReal x := by
  have h1 : x < ⊤ := lt_of_le_of_lt (le_max_left _ _) h
  have h2 : -x < ⊤ := lt_of_le_of_lt (le_max_right _ _) h
  refine isReal_of_ne h1.ne ?_
  intro hx
  rw [hx, EReal.neg_bot] at h2
  exact lt_irrefl _ h2

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

theorem IsReal.min {x y : EReal} (hx : IsReal x) (hy : IsReal y) : IsReal (min x y) := by
  rcases le_total x y with h | h
  · rw [min_eq_left h]; exact hx
  · rw [min_eq_right h]; exact hy

/-- The coercion of reals commutes with a finite sum. -/
theorem coe_finset_sum {α : Type*} (s : Finset α) (f : α → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

/-- A finite sum of real numbers is a real number. -/
theorem IsReal.sum {α : Type*} (s : Finset α) (f : α → EReal) (h : ∀ i ∈ s, IsReal (f i)) :
    IsReal (∑ i ∈ s, f i) := by
  classical
  revert h
  refine Finset.induction_on s ?_ ?_
  · intro _
    rw [Finset.sum_empty]
    exact isReal_zero
  · intro a s ha ih h
    rw [Finset.sum_insert ha]
    exact (h a (Finset.mem_insert_self a s)).add
      (ih (fun i hi => h i (Finset.mem_insert_of_mem hi)))

theorem IsReal.sum' {α : Type*} (s : Finset α) (f : α → EReal) (h : ∀ i, IsReal (f i)) :
    IsReal (∑ i ∈ s, f i) :=
  IsReal.sum s f (fun i _ => h i)

theorem IsReal.sum_univ {α : Type*} [Fintype α] (f : α → EReal) (h : ∀ i, IsReal (f i)) :
    IsReal (∑ i, f i) :=
  IsReal.sum Finset.univ f (fun i _ => h i)

/-- Division of a real number by a nonzero real is a real number. -/
theorem IsReal.div_coe {x : EReal} (hx : IsReal x) {n : ℝ} (hn : n ≠ 0) :
    IsReal (Ideal.div x (n : EReal)) := by
  rw [Ideal.div_coe hn]
  exact hx.mul (isReal_coe _)

/-- The reciprocal square root of a positive real number is a real number. -/
theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact isReal_coe _

/-- Sum of squared deviations from a constant `t`, over the reals:
    `∑ (a r - t)² = ∑ a r² - 2 t ∑ a r + n t²`. -/
theorem sum_sq_dev {ι : Type} [Fintype ι] (a : ι → ℝ) (t : ℝ) :
    ∑ r, (a r - t) * (a r - t)
      = (∑ r, a r * a r) - 2 * t * (∑ r, a r) + (Fintype.card ι : ℝ) * (t * t) := by
  have h : ∀ r, (a r - t) * (a r - t) = a r * a r - 2 * t * a r + t * t := fun r => by ring
  simp only [h, Finset.sum_add_distrib, Finset.sum_sub_distrib, ← Finset.mul_sum,
    Finset.sum_const, Finset.card_univ, nsmul_eq_mul]
  ring

/-- The moment law over the reals. -/
theorem var_eq_real {ι : Type} [Fintype ι] (n : ℝ) (hn : n = (Fintype.card ι : ℝ)) (hn0 : n ≠ 0)
    (a : ι → ℝ) (m : ℝ) :
    (∑ r, (a r - m * ((∑ r, a r) * (1 / n))) * (a r - m * ((∑ r, a r) * (1 / n)))) * (1 / n)
      = (∑ r, a r * a r) * (1 / n)
        - ((∑ r, a r) * (1 / n)) * ((∑ r, a r) * (1 / n)) * (2 * m - m * m) := by
  rw [sum_sq_dev, ← hn]
  field_simp
  ring

/-- THE MOMENT LAW: the mean of the squared deviations from `ms · mean` is the mean of the
    squares minus `mean² · (2 ms - ms²)`. -/
theorem var_eq {ι : Type} [Fintype ι] (n : ℝ) (hn : n = (Fintype.card ι : ℝ))
    (hpos : 0 < Fintype.card ι)
    (y : ι → EReal) (hy : ∀ r, IsReal (y r)) (ms : EReal) (hms : IsReal ms) :
    Ideal.div (∑ r, (y r - ms * Ideal.div (∑ r, y r) (n : EReal))
        * (y r - ms * Ideal.div (∑ r, y r) (n : EReal))) (n : EReal)
      = Ideal.div (∑ r, y r * y r) (n : EReal)
        - (Ideal.div (∑ r, y r) (n : EReal) * Ideal.div (∑ r, y r) (n : EReal))
          * (((2 : ℝ) : EReal) * ms - ms * ms) := by
  choose a ha using hy
  obtain ⟨m, rfl⟩ := hms
  have hy' : y = fun r => ((a r : ℝ) : EReal) := funext ha
  subst hy'
  have hn0 : n ≠ 0 := by
    rw [hn]
    exact_mod_cast hpos.ne'
  simp only [Ideal.div_coe hn0, coe_finset_sum, ← EReal.coe_mul, ← EReal.coe_sub]
  rw [EReal.coe_eq_coe_iff]
  exact var_eq_real n hn hn0 a m

end Cert.LibMoment
-- ==== Proof.BrLaw.lean ====
import Idealize.ShloMosaic.PureOps.Ideal
import Idealize.ShloMosaic.PureOps.Ideal.Laws
import proofs.«151566_j35021163331665_1_alg».proof.Proof.LibMoment

/-!
# The variance law between the two programs' forms, and the words they share

Over `n = 100000` real values `y i` with mean `μ = (∑ y i) / n`,

  `(∑ y i²) / n - μ · μ = (∑ (y i - μ)²) / n`,

because `∑ (y i - μ)² = ∑ y i² - 2 μ ∑ y i + n μ²` and `∑ y i = n μ`. One program computes the
left side (mean of squares minus squared mean), the other the right side (mean of squared
deviations). The identity is an identity of real numbers: on the extended reals it needs
every `y i` to be a real number, since `⊤ - ⊤` is not `0` there.

The right side is a sum of squares over a positive number, so the common value is a real
number that is not negative; adding the positive constant `1e-5` makes it positive, so its
reciprocal square root is a real number, and so is the normalised, scaled, shifted and
rectified entry.

Words: `0x47C35000` is the real number `100000`, `0x3727C5AC` is `10995116 / 2^40`
(the f32 nearest `1e-5`), a positive real number.
-/

noncomputable section

namespace Cert.Bridge

open Idealize.ShloMosaic Cert.LibMoment
open scoped BigOperators

/-! ### The words -/

/-- The f32 word `0x47C35000` is the real number `100000`. -/
theorem n_word : Ideal.ofBits .f32 0x47C35000#32 = ((100000 : ℝ) : EReal) := by
  simp [Ideal.ofBits, Ideal.ieee, -EReal.coe_mul]; norm_num

/-- The f32 word `0x3727C5AC` (the float nearest `1e-5`) is `10995116 / 2^40`. -/
theorem eps_word : Ideal.ofBits .f32 0x3727C5AC#32 = ((10995116 / 2 ^ 40 : ℝ) : EReal) := by
  simp [Ideal.ofBits, Ideal.ieee, -EReal.coe_mul]; norm_num

theorem eps_real : IsReal (Ideal.ofBits .f32 0x3727C5AC#32) := ⟨_, eps_word⟩

theorem eps_pos : (0 : EReal) < Ideal.ofBits .f32 0x3727C5AC#32 := by
  rw [eps_word]
  exact EReal.coe_pos.mpr (by norm_num)

theorem n_real : IsReal (Ideal.ofBits .f32 0x47C35000#32) := ⟨_, n_word⟩

theorem n_pos : (0 : EReal) < Ideal.ofBits .f32 0x47C35000#32 := by
  rw [n_word]
  exact EReal.coe_pos.mpr (by norm_num)

theorem hundred_thousand_ne_zero : (100000 : ℝ) ≠ 0 := by norm_num

/-- The float sum starts from the initial value `0`. -/
theorem zero_add_sum (s : EReal) : (0 : EReal) + s = s := zero_add s

/-! ### The law over any index type of 100000 elements -/

section gen

variable {ι : Type} [Fintype ι]

/-- THE LAW: mean of squares minus squared mean is the mean of squared deviations. -/
theorem var_forms_gen (hc : Fintype.card ι = 100000) (y : ι → EReal) (hy : ∀ i, IsReal (y i)) :
    Ideal.div (∑ i, y i * y i) ((100000 : ℝ) : EReal)
        - Ideal.div (∑ i, y i) ((100000 : ℝ) : EReal) * Ideal.div (∑ i, y i) ((100000 : ℝ) : EReal)
      = Ideal.div (∑ i, (y i - Ideal.div (∑ i, y i) ((100000 : ℝ) : EReal))
          * (y i - Ideal.div (∑ i, y i) ((100000 : ℝ) : EReal))) ((100000 : ℝ) : EReal) := by
  have h := var_eq (100000 : ℝ) (by rw [hc]; norm_num) (by rw [hc]; norm_num) y hy 1 isReal_one
  have h2 : ((2 : ℝ) : EReal) * 1 - 1 * 1 = 1 := by
    rw [mul_one, mul_one, ← EReal.coe_one, ← EReal.coe_sub]; norm_num
  rw [h2, mul_one] at h
  simp only [one_mul] at h
  exact h.symm

/-- The mean of real numbers is a real number. -/
theorem mean_real_gen (y : ι → EReal) (hy : ∀ i, IsReal (y i)) :
    IsReal (Ideal.div (∑ i, y i) ((100000 : ℝ) : EReal)) :=
  (IsReal.sum_univ y hy).div_coe hundred_thousand_ne_zero

/-- The variance (mean of squares minus squared mean) of real numbers is a real number. -/
theorem var_real_gen (y : ι → EReal) (hy : ∀ i, IsReal (y i)) :
    IsReal (Ideal.div (∑ i, y i * y i) ((100000 : ℝ) : EReal)
      - Ideal.div (∑ i, y i) ((100000 : ℝ) : EReal) * Ideal.div (∑ i, y i) ((100000 : ℝ) : EReal)) :=
  ((IsReal.sum_univ _ (fun i => (hy i).mul (hy i))).div_coe hundred_thousand_ne_zero).sub
    ((mean_real_gen y hy).mul (mean_real_gen y hy))

/-- The mean of squared deviations is not negative. -/
theorem dev_nonneg_gen (y : ι → EReal) (hy : ∀ i, IsReal (y i)) :
    0 ≤ Ideal.div (∑ i, (y i - Ideal.div (∑ i, y i) ((100000 : ℝ) : EReal))
          * (y i - Ideal.div (∑ i, y i) ((100000 : ℝ) : EReal))) ((100000 : ℝ) : EReal) := by
  choose a ha using hy
  have hy' : y = fun r => ((a r : ℝ) : EReal) := funext ha
  subst hy'
  simp only [Ideal.div_coe hundred_thousand_ne_zero, coe_finset_sum, ← EReal.coe_mul,
    ← EReal.coe_sub]
  exact EReal.coe_nonneg.mpr
    (mul_nonneg (Finset.sum_nonneg fun i _ => mul_self_nonneg _) (by norm_num))

/-- The variance of real numbers is not negative. -/
theorem var_nonneg_gen (hc : Fintype.card ι = 100000) (y : ι → EReal) (hy : ∀ i, IsReal (y i)) :
    0 ≤ Ideal.div (∑ i, y i * y i) ((100000 : ℝ) : EReal)
      - Ideal.div (∑ i, y i) ((100000 : ℝ) : EReal) * Ideal.div (∑ i, y i) ((100000 : ℝ) : EReal) := by
  rw [var_forms_gen hc y hy]
  exact dev_nonneg_gen y hy

end gen

/-! ### The law over the node axis `Fin 100000` -/

theorem var_forms (y : Fin 100000 → EReal) (hy : ∀ i, IsReal (y i)) :
    Ideal.div (∑ i, y i * y i) ((100000 : ℝ) : EReal)
        - Ideal.div (∑ i, y i) ((100000 : ℝ) : EReal) * Ideal.div (∑ i, y i) ((100000 : ℝ) : EReal)
      = Ideal.div (∑ i, (y i - Ideal.div (∑ i, y i) ((100000 : ℝ) : EReal))
          * (y i - Ideal.div (∑ i, y i) ((100000 : ℝ) : EReal))) ((100000 : ℝ) : EReal) :=
  var_forms_gen (Fintype.card_fin 100000) y hy

theorem mean_real (y : Fin 100000 → EReal) (hy : ∀ i, IsReal (y i)) :
    IsReal (Ideal.div (∑ i, y i) ((100000 : ℝ) : EReal)) :=
  mean_real_gen y hy

theorem var_real (y : Fin 100000 → EReal) (hy : ∀ i, IsReal (y i)) :
    IsReal (Ideal.div (∑ i, y i * y i) ((100000 : ℝ) : EReal)
      - Ideal.div (∑ i, y i) ((100000 : ℝ) : EReal) * Ideal.div (∑ i, y i) ((100000 : ℝ) : EReal)) :=
  var_real_gen y hy

theorem var_nonneg (y : Fin 100000 → EReal) (hy : ∀ i, IsReal (y i)) :
    0 ≤ Ideal.div (∑ i, y i * y i) ((100000 : ℝ) : EReal)
      - Ideal.div (∑ i, y i) ((100000 : ℝ) : EReal) * Ideal.div (∑ i, y i) ((100000 : ℝ) : EReal) :=
  var_nonneg_gen (Fintype.card_fin 100000) y hy

theorem dev_nonneg (y : Fin 100000 → EReal) (hy : ∀ i, IsReal (y i)) :
    0 ≤ Ideal.div (∑ i, (y i - Ideal.div (∑ i, y i) ((100000 : ℝ) : EReal))
          * (y i - Ideal.div (∑ i, y i) ((100000 : ℝ) : EReal))) ((100000 : ℝ) : EReal) :=
  dev_nonneg_gen y hy

/-- The same law with each float sum read as the initial value `0` plus the sum. -/
theorem var_forms_zero (y : Fin 100000 → EReal) (hy : ∀ i, IsReal (y i)) :
    Ideal.div (0 + ∑ i, y i * y i) ((100000 : ℝ) : EReal)
        - Ideal.div (0 + ∑ i, y i) ((100000 : ℝ) : EReal)
          * Ideal.div (0 + ∑ i, y i) ((100000 : ℝ) : EReal)
      = Ideal.div (0 + ∑ i, (y i - Ideal.div (0 + ∑ i, y i) ((100000 : ℝ) : EReal))
          * (y i - Ideal.div (0 + ∑ i, y i) ((100000 : ℝ) : EReal))) ((100000 : ℝ) : EReal) := by
  simp only [zero_add]
  exact var_forms y hy

/-! ### The normalised entry -/

/-- A value that is not negative plus the positive constant is positive. -/
theorem add_eps_pos {v : EReal} (hv : 0 ≤ v) : 0 < v + Ideal.ofBits .f32 0x3727C5AC#32 := by
  have h : (0 : EReal) + Ideal.ofBits .f32 0x3727C5AC#32 ≤ v + Ideal.ofBits .f32 0x3727C5AC#32 :=
    add_le_add hv le_rfl
  rw [zero_add] at h
  exact lt_of_lt_of_le eps_pos h

/-- The reciprocal square root of a real variance that is not negative, plus the constant. -/
theorem rsqrt_add_eps_real {v : EReal} (hr : IsReal v) (hv : 0 ≤ v) :
    IsReal (Ideal.rsqrt (v + Ideal.ofBits .f32 0x3727C5AC#32)) :=
  (hr.add eps_real).rsqrt (add_eps_pos hv)

/-- The normalised, scaled, shifted and rectified entry is a real number. -/
theorem bn_entry_real {x mean v g b : EReal} (hx : IsReal x) (hm : IsReal mean) (hr : IsReal v)
    (hv : 0 ≤ v) (hg : IsReal g) (hb : IsReal b) :
    IsReal (max (((x - mean) * Ideal.rsqrt (v + Ideal.ofBits .f32 0x3727C5AC#32)) * g + b) 0) :=
  ((((hx.sub hm).mul (rsqrt_add_eps_real hr hv)).mul hg).add hb).max isReal_zero

/-- The same with the rectifier's zero spelt as the f32 word `0x00000000`. -/
theorem bn_entry_real_word {x mean v g b : EReal} (hx : IsReal x) (hm : IsReal mean) (hr : IsReal v)
    (hv : 0 ≤ v) (hg : IsReal g) (hb : IsReal b) :
    IsReal (max (((x - mean) * Ideal.rsqrt (v + Ideal.ofBits .f32 0x3727C5AC#32)) * g + b)
      (Ideal.ofBits .f32 0x00000000#32)) := by
  rw [Ideal.ofBits_zero_f32]
  exact bn_entry_real hx hm hr hv hg hb

end Cert.Bridge

end
-- ==== Proof.LibFiniteOps.lean ====
import Idealize.ShloMosaic.PureOps
import Idealize.ShloMosaic.PureOps.Ideal
import proofs.«151566_j35021163331665_1_alg».proof.Proof.LibMoment

/-!
# Operations that keep every entry a real number

A vector of extended reals is `AllReal` when every entry is a real number. At the ideal values
each operation below is a textbook operation on the entries — a sum, a product, a maximum, a
choice between two entries, a re-indexing, a finite sum of entries or of products of entries —
so it keeps that property, by the closure of the real numbers under the operation.
-/

noncomputable section

namespace Cert.LibFiniteOps

open Idealize.ShloMosaic Cert.LibMoment
open scoped BigOperators

/-- Every entry of the vector is a real number. -/
def AllReal {s : Shape} (v : s.Idx → EReal) : Prop := ∀ i, IsReal (v i)

theorem AllReal.apply {s : Shape} {v : s.Idx → EReal} (h : AllReal v) (i : s.Idx) : IsReal (v i) := h i

/-! ### Re-indexings: every entry of the result is an entry of the operand -/

/-- A vector read through any map of indices. -/
theorem allReal_comp {s t : Shape} {x : s.Idx → EReal} (g : t.Idx → s.Idx) (hx : AllReal x) :
    AllReal (fun j => x (g j)) :=
  fun j => hx (g j)

theorem allReal_broadcastInDim {s t : Shape} (dims : Fin s.rank → Fin t.rank)
    (h : s.BroadcastsInDim t dims) {x : s.Idx → EReal} (hx : AllReal x) :
    AllReal (broadcastInDim t dims h x) :=
  fun _ => hx _

theorem allReal_transpose {s t : Shape} (perm : List (Fin s.rank)) {x : s.Idx → EReal}
    (h : s.Transposes perm t) (hx : AllReal x) :
    AllReal (transpose t perm x h) :=
  fun _ => hx _

theorem allReal_shapeCast {s t : Shape} {x : s.Idx → EReal} (h : s.ShapeCasts t) (hx : AllReal x) :
    AllReal (shapeCast t x h) :=
  fun _ => hx _

/-- A gather reads, at each result index, one entry of the operand. -/
theorem allReal_gather {s si t : Shape} {w : Nat} (d : GatherDims s si t) {x : s.Idx → EReal}
    (idx : IVec si w) (hx : AllReal x) :
    AllReal (Host.gather d x idx) :=
  fun _ => hx _

/-! ### Constants -/

/-- The splat of a pattern that denotes a real number. -/
theorem allReal_constant (s : Shape) (φ : FTy) (b : BitVec φ.bits)
    (hb : IsReal (Ideal.ofBits φ b)) :
    AllReal (constant (F := Ideal) s φ b) :=
  fun _ => hb

/-- A rank-zero constant broadcast to any shape. -/
theorem allReal_broadcast_constant {s0 t : Shape} (dims : Fin s0.rank → Fin t.rank)
    (h : s0.BroadcastsInDim t dims) (φ : FTy) (b : BitVec φ.bits)
    (hb : IsReal (Ideal.ofBits φ b)) :
    AllReal (broadcastInDim t dims h (constant (F := Ideal) s0 φ b)) :=
  allReal_broadcastInDim dims h (allReal_constant s0 φ b hb)

/-! ### Entrywise operations -/

theorem allReal_addf {s : Shape} {φ : FTy} {x y : FVec Ideal s φ} (hx : AllReal x) (hy : AllReal y) :
    AllReal (addf x y) :=
  fun i => (hx i).add (hy i)

theorem allReal_subf {s : Shape} {φ : FTy} {x y : FVec Ideal s φ} (hx : AllReal x) (hy : AllReal y) :
    AllReal (subf x y) :=
  fun i => (hx i).sub (hy i)

theorem allReal_mulf {s : Shape} {φ : FTy} {x y : FVec Ideal s φ} (hx : AllReal x) (hy : AllReal y) :
    AllReal (mulf x y) :=
  fun i => (hx i).mul (hy i)

theorem allReal_maximumf {s : Shape} {φ : FTy} {x y : FVec Ideal s φ} (hx : AllReal x)
    (hy : AllReal y) :
    AllReal (maximumf x y) :=
  fun i => (hx i).max (hy i)

/-- A choice, entry by entry, between two vectors of real numbers. -/
theorem allReal_select {s : Shape} (c : IVec s 1) {x y : s.Idx → EReal} (hx : AllReal x)
    (hy : AllReal y) :
    AllReal (select c x y) := by
  intro i
  show IsReal (if c i = 1 then x i else y i)
  split
  · exact hx i
  · exact hy i

/-- The reciprocal square root of positive real numbers. -/
theorem allReal_rsqrt {s : Shape} {φ : FTy} {x : FVec Ideal s φ} (hx : AllReal x)
    (hpos : ∀ i, (0 : EReal) < x i) :
    AllReal (Host.rsqrt x) :=
  fun i => (hx i).rsqrt (hpos i)

/-- Division by real numbers none of which is zero. -/
theorem allReal_divf {s : Shape} {φ : FTy} {x y : FVec Ideal s φ} (hx : AllReal x)
    (hy : AllReal y) (hne : ∀ i, y i ≠ 0) :
    AllReal (Host.divf x y) := by
  intro i
  obtain ⟨n, hn⟩ := hy i
  have hn0 : n ≠ 0 := by
    intro h
    apply hne i
    rw [hn, h]
    exact EReal.coe_zero
  show IsReal (Ideal.div (x i) (y i))
  rw [hn]
  exact (hx i).div_coe hn0

/-! ### Finite sums -/

/-- Scatter with addition: each entry of the operand plus the finite sum of the updates that
    land on it. -/
theorem allReal_scatterAdd {s si u : Shape} {w : Nat} {φ : FTy} (d : ScatterDims s si u)
    {x : FVec Ideal s φ} (idx : IVec si w) {upd : FVec Ideal u φ}
    (hx : AllReal x) (hu : AllReal upd) :
    AllReal (Host.scatterAdd d x idx upd) :=
  fun i => (hx i).add (IsReal.sum _ _ (fun j _ => hu j))

/-- A reduction by addition: the initial value plus the finite sum of the entries that reduce to
    each index. -/
theorem allReal_reduceAdd {s t u : Shape} {φ : FTy} {axes : List (Fin s.rank)}
    {x : FVec Ideal s φ} {init : u.Idx → Ideal φ} (h : s.ReducesTo axes t) (hu : 0 < u.numel)
    (hx : AllReal x) (hi : AllReal init) :
    AllReal (Host.reduceAdd x init h hu) :=
  fun _ => (hi _).add (IsReal.sum _ _ (fun i _ => hx i))

/-- A contraction: at each index, zero plus the finite sum of products of entries. -/
theorem allReal_dotGeneral {sl sr so : Shape} {φ₁ φ₂ : FTy} (d : DotDims sl sr so)
    (prec : Option ContractPrecision) {x : FVec Ideal sl φ₁} {y : FVec Ideal sr φ₂}
    (hx : AllReal x) (hy : AllReal y) :
    AllReal (Host.dotGeneral d prec x y) :=
  fun _ => isReal_zero.add (IsReal.sum_univ _ (fun _ => (hx _).mul (hy _)))

end Cert.LibFiniteOps

end
-- ==== Proof.BrBn.lean ====
/-
  One normalisation layer, kernel against reference, as whole arrays at the ideal instance. Given the pre-activation h with
  every entry real, its column sums S and column sums of squares SS, the kernel normalises with mean = S/n and variance =
  SS/n - mean*mean; the reference with the same mean and variance = (sum of squared deviations)/n. On real data these are
  one function (the second-moment law), so the two layers agree entry by entry.
-/
import proofs.«151566_j35021163331665_1_alg».proof.Proof.BnPay
import proofs.«151566_j35021163331665_1_alg».proof.Proof.RefRead
import proofs.«151566_j35021163331665_1_alg».proof.Proof.BrLaw
import proofs.«151566_j35021163331665_1_alg».proof.Proof.LibFiniteOps
import Idealize.ShloMosaic.Lib.ValueIdx
import Idealize.ShloMosaic.Lib.ValueLayout

set_option maxRecDepth 16384

noncomputable section

namespace Cert.Bridge

open Idealize.ShloMosaic Idealize.ShloMosaic.ValueIdx
open Cert.LibMoment Cert.LibFiniteOps
open scoped BigOperators

/-- The kernel's normalisation of h from the column sums S, SS, the node count row nr, and gamma, beta as rows, is the
    reference's normalisation of h. -/
theorem bn_eq (H : Cert.KernelIdeal.S100000x128.Idx → EReal) (S SS nr G B : Cert.KernelIdeal.S1x128.Idx → EReal)
    (g b : Cert.ReferenceIdeal.S128.Idx → EReal)
    (hH : AllReal H)
    (hS : ∀ j : Fin 128, S (ix2 (0 : Fin 1) j) = 0 + ∑ r : Fin 100000, H (ix2 r j))
    (hSS : ∀ j : Fin 128, SS (ix2 (0 : Fin 1) j) = 0 + ∑ r : Fin 100000, H (ix2 r j) * H (ix2 r j))
    (hn : ∀ j : Fin 128, nr (ix2 (0 : Fin 1) j) = ((100000 : ℝ) : EReal))
    (hG : ∀ j : Fin 128, G (ix2 (0 : Fin 1) j) = g (ix1 j)) (hB : ∀ j : Fin 128, B (ix2 (0 : Fin 1) j) = b (ix1 j)) :
    Cert.KernelIdeal.Hand.bnArr H (fun i => Ideal.div (S i) (nr i))
        (fun i => Ideal.div (SS i) (nr i) - Ideal.div (S i) (nr i) * Ideal.div (S i) (nr i)) G B
      = Cert.ReferenceIdeal.Hand.bnRelu (F := Ideal) H g b := by
  funext i
  obtain ⟨r, j, rfl⟩ : ∃ (r : Fin 100000) (j : Fin 128), i = ix2 r j := ⟨i 0, i 1, eq_ix2 i⟩
  rw [Cert.KernelIdeal.Hand.bnArr_ix2, Cert.ReferenceIdeal.Hand.bnRelu_apply]
  have hy : ∀ r : Fin 100000, IsReal (H (ix2 r j)) := fun r => hH _
  have hmean : Ideal.div (S (ix2 (0 : Fin 1) j)) (nr (ix2 (0 : Fin 1) j)) = Cert.ReferenceIdeal.Hand.mu H j := by
    rw [hS, hn, zero_add]; rfl
  have hvar : Ideal.div (SS (ix2 (0 : Fin 1) j)) (nr (ix2 (0 : Fin 1) j))
        - Ideal.div (S (ix2 (0 : Fin 1) j)) (nr (ix2 (0 : Fin 1) j)) * Ideal.div (S (ix2 (0 : Fin 1) j)) (nr (ix2 (0 : Fin 1) j))
      = Cert.ReferenceIdeal.Hand.sigma2 H j := by
    rw [hS, hSS, hn, zero_add, zero_add]
    exact var_forms (fun r => H (ix2 r j)) hy
  show max (((H (ix2 r j) - Ideal.div (S (ix2 (0 : Fin 1) j)) (nr (ix2 (0 : Fin 1) j)))
      * Ideal.rsqrt ((Ideal.div (SS (ix2 (0 : Fin 1) j)) (nr (ix2 (0 : Fin 1) j))
        - Ideal.div (S (ix2 (0 : Fin 1) j)) (nr (ix2 (0 : Fin 1) j)) * Ideal.div (S (ix2 (0 : Fin 1) j)) (nr (ix2 (0 : Fin 1) j)))
        + Ideal.ofBits .f32 0x3727C5AC#32)) * G (ix2 (0 : Fin 1) j) + B (ix2 (0 : Fin 1) j)) 0 = _
  rw [hvar, hmean, hG, hB]
  rfl

/-- The same with the means and variances spelt by the host operations that compute them. -/
theorem bn_eq' (H : Cert.KernelIdeal.S100000x128.Idx → EReal) (S SS nr G B : FVec Ideal Cert.KernelIdeal.S1x128 .f32)
    (g b : Cert.ReferenceIdeal.S128.Idx → EReal)
    (hH : AllReal H)
    (hS : ∀ j : Fin 128, S (ix2 (0 : Fin 1) j) = 0 + ∑ r : Fin 100000, H (ix2 r j))
    (hSS : ∀ j : Fin 128, SS (ix2 (0 : Fin 1) j) = 0 + ∑ r : Fin 100000, H (ix2 r j) * H (ix2 r j))
    (hn : ∀ j : Fin 128, nr (ix2 (0 : Fin 1) j) = ((100000 : ℝ) : EReal))
    (hG : ∀ j : Fin 128, G (ix2 (0 : Fin 1) j) = g (ix1 j)) (hB : ∀ j : Fin 128, B (ix2 (0 : Fin 1) j) = b (ix1 j)) :
    Cert.KernelIdeal.Hand.bnArr H (Host.divf (F := Ideal) S nr)
        (subf (Host.divf (F := Ideal) SS nr) (mulf (Host.divf (F := Ideal) S nr) (Host.divf (F := Ideal) S nr))) G B
      = Cert.ReferenceIdeal.Hand.bnRelu (F := Ideal) H g b :=
  bn_eq H S SS nr G B g b hH hS hSS hn hG hB

end Cert.Bridge

end
-- ==== Proof.RefDot.lean ====
/- The layers' contractions read at an entry, at the ideal values: entry `(r, c)` of a `[100000, 128]` array
   times a weight matrix is the sum over the 128 hidden coordinates `k` of the array's `(r, k)` times the
   matrix's `(k, c)`. The host's product contracts axis 1 of its left operand with axis 0 of its right
   one and starts from zero: its one-coordinate contraction index is re-indexed by `Fin 128`. -/
import Idealize.ShloMosaic.PureOps.Ideal.Laws
import Idealize.ShloMosaic.Lib.ValueIdx
import Idealize.ShloMosaic.Lib.Pipeline.Value
import proofs.«151566_j35021163331665_1_alg».proof.Proof.RefFn

noncomputable section

namespace Cert.ReferenceIdeal.Hand

open Cert.ReferenceIdeal Cert.ReferenceIdeal.Gen Idealize.ShloMosaic Idealize.ShloMosaic.ValueIdx
open scoped BigOperators

/-! ### The contraction with a `[128, 128]` matrix -/

theorem lhs128_0 (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
theorem lhs128_1 (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
theorem rhs128_0 (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem rhs128_1 (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- Entry `(r, c)` of the product: the sum over `k` of `a (r, k) · w (k, c)`. -/
theorem dot128_apply (a : FVec Ideal S100000x128 .f32) (w : FVec Ideal S128x128 .f32) (r : Fin 100000) (c : Fin 128) :
    Host.dotGeneral dot_S100000x128_S128x128_S100000x128_1_0_0_1_n_n none a w (ix2 r c) = ∑ k : Fin 128, a (ix2 r k) * w (ix2 k c) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r c) ((ValueIdx.contrEquiv1 dot_S100000x128_S128x128_S100000x128_1_0_0_1_n_n 128 rfl rfl).symm k) = ix2 r k :=
    funext fun a => Fin.ext (by
      match a with
      | ⟨0, _⟩ => exact lhs128_0 _ _
      | ⟨1, _⟩ => exact (lhs128_1 _ _).trans hk)
  have er : dot_S100000x128_S128x128_S100000x128_1_0_0_1_n_n.rhsIdx (ix2 r c) ((ValueIdx.contrEquiv1 dot_S100000x128_S128x128_S100000x128_1_0_0_1_n_n 128 rfl rfl).symm k) = ix2 k c :=
    funext fun a => Fin.ext (by
      match a with
      | ⟨0, _⟩ => exact (rhs128_0 _ _).trans hk
      | ⟨1, _⟩ => exact rhs128_1 _ _)
  rw [el, er]

/-! ### The contraction with a `[128, 40]` matrix -/

theorem lhs40_0 (i : S100000x40.Idx) (q : dot_S100000x128_S128x40_S100000x40_1_0_0_1_n_n.contr.Idx) : (dot_S100000x128_S128x40_S100000x40_1_0_0_1_n_n.lhsIdx i q 0).val = (i 0).val := by
  unfold DotDims.lhsIdx
  rw [dif_neg (show ¬(0 : Fin S100000x128.rank) ∈ dot_S100000x128_S128x40_S100000x40_1_0_0_1_n_n.lhsBatch by decide),
    dif_pos (show (0 : Fin S100000x128.rank) ∈ dot_S100000x128_S128x40_S100000x40_1_0_0_1_n_n.lhsNonContracting by decide)]
  rfl
theorem lhs40_1 (i : S100000x40.Idx) (q : dot_S100000x128_S128x40_S100000x40_1_0_0_1_n_n.contr.Idx) : (dot_S100000x128_S128x40_S100000x40_1_0_0_1_n_n.lhsIdx i q 1).val = (q ⟨0, by decide⟩).val :=
  dot_S100000x128_S128x40_S100000x40_1_0_0_1_n_n.lhsIdx_val_of_single rfl i q
theorem rhs40_0 (i : S100000x40.Idx) (q : dot_S100000x128_S128x40_S100000x40_1_0_0_1_n_n.contr.Idx) : (dot_S100000x128_S128x40_S100000x40_1_0_0_1_n_n.rhsIdx i q 0).val = (q ⟨0, by decide⟩).val :=
  dot_S100000x128_S128x40_S100000x40_1_0_0_1_n_n.rhsIdx_val_of_single rfl i q
theorem rhs40_1 (i : S100000x40.Idx) (q : dot_S100000x128_S128x40_S100000x40_1_0_0_1_n_n.contr.Idx) : (dot_S100000x128_S128x40_S100000x40_1_0_0_1_n_n.rhsIdx i q 1).val = (i 1).val := by
  unfold DotDims.rhsIdx
  rw [dif_neg (show ¬(1 : Fin S128x40.rank) ∈ dot_S100000x128_S128x40_S100000x40_1_0_0_1_n_n.rhsBatch by decide),
    dif_pos (show (1 : Fin S128x40.rank) ∈ dot_S100000x128_S128x40_S100000x40_1_0_0_1_n_n.rhsNonContracting by decide)]
  rfl

/-- Entry `(r, c)` of the product: the sum over `k` of `a (r, k) · w (k, c)`. -/
theorem dot40_apply (a : FVec Ideal S100000x128 .f32) (w : FVec Ideal S128x40 .f32) (r : Fin 100000) (c : Fin 40) :
    Host.dotGeneral dot_S100000x128_S128x40_S100000x40_1_0_0_1_n_n none a w (ix2 r c) = ∑ k : Fin 128, a (ix2 r k) * w (ix2 k c) := by
  simp only [Host.dotGeneral]
  rw [Ideal.dotGeneral_apply, ← Equiv.sum_comp (ValueIdx.contrEquiv1 dot_S100000x128_S128x40_S100000x40_1_0_0_1_n_n 128 rfl rfl).symm]
  refine Finset.sum_congr rfl fun k _ => ?_
  have hk := ValueIdx.contrEquiv1_symm_val dot_S100000x128_S128x40_S100000x40_1_0_0_1_n_n 128 rfl rfl k
  have el : dot_S100000x128_S128x40_S100000x40_1_0_0_1_n_n.lhsIdx (ix2 r c) ((ValueIdx.contrEquiv1 dot_S100000x128_S128x40_S100000x40_1_0_0_1_n_n 128 rfl rfl).symm k) = ix2 r k :=
    funext fun a => Fin.ext (by
      match a with
      | ⟨0, _⟩ => exact lhs40_0 _ _
      | ⟨1, _⟩ => exact (lhs40_1 _ _).trans hk)
  have er : dot_S100000x128_S128x40_S100000x40_1_0_0_1_n_n.rhsIdx (ix2 r c) ((ValueIdx.contrEquiv1 dot_S100000x128_S128x40_S100000x40_1_0_0_1_n_n 128 rfl rfl).symm k) = ix2 k c :=
    funext fun a => Fin.ext (by
      match a with
      | ⟨0, _⟩ => exact (rhs40_0 _ _).trans hk
      | ⟨1, _⟩ => exact rhs40_1 _ _)
  rw [el, er]

end Cert.ReferenceIdeal.Hand

end
-- ==== Proof.BrLin.lean ====
import proofs.«151566_j35021163331665_1_alg».proof.Proof.KHost
import proofs.«151566_j35021163331665_1_alg».proof.Proof.HPay
import proofs.«151566_j35021163331665_1_alg».proof.Proof.MmPay
import proofs.«151566_j35021163331665_1_alg».proof.Proof.RefDot
import proofs.«151566_j35021163331665_1_alg».proof.Proof.BrLaw
import Idealize.ShloMosaic.Lib.ValueLayout
import Idealize.ShloMosaic.Lib.Pipeline.Value

/-!
# The linear layers of the two programs are the same arrays

Both programs aggregate the features along the edges by the same composed operations (gather
the source rows, scale by the edge weights, sum into the destination rows of a zero array); the
two printed texts differ only in the namespace their shape records live in, so the two
aggregates are the same array.

The kernel's hidden layer at `(r, j)` is `(∑ k, A (r, k) · W (k, j)) + B (0, j)` with a zero bias
row `B`; the reference's is the host contraction `∑ k, A (r, k) · W (k, j)`. Adding the extended
real `0` changes nothing, so no finiteness is needed. The output layer adds the bias `b j`: the
kernel reads it from `b` reshaped to a `[1, 40]` row, the reference from `b` broadcast down the
rows.
-/

noncomputable section

namespace Cert.Bridge

open Idealize.ShloMosaic Idealize.ShloMosaic.ValueIdx
open scoped BigOperators

/-- The two programs' edge aggregations are the same composed term. -/
theorem aggK_eq (x : FVec Ideal Cert.KernelIdeal.S100000x128 .f32)
    (src dst : Vec Ideal Cert.KernelIdeal.S1600000 .i32)
    (ew : FVec Ideal Cert.KernelIdeal.S1600000 .f32) :
    Cert.KernelIdeal.Hand.aggK (F := Ideal) x src dst ew
      = Cert.ReferenceIdeal.Hand.agg (F := Ideal) x src dst ew :=
  rfl

/-- The zero bias row reads `0`. -/
theorem zeroRow_apply (j : Fin 128) :
    Cert.KernelIdeal.Hand.zeroRow (F := Ideal) (ix2 (0 : Fin 1) j) = 0 := by
  show Ideal.ofBits .f32 0x00000000#32 = 0
  exact Ideal.ofBits_zero_f32

/-- The node-count row reads `100000`. -/
theorem nRow_apply (j : Fin 128) :
    Cert.KernelIdeal.Hand.nRow (F := Ideal) (ix2 (0 : Fin 1) j) = ((100000 : ℝ) : EReal) := by
  show Ideal.ofBits .f32 0x47C35000#32 = _
  exact n_word

/-- THE HIDDEN LAYER: the kernel's product plus a zero bias row is the reference's contraction. -/
theorem hid_eq (x : FVec Ideal Cert.KernelIdeal.S100000x128 .f32)
    (src dst : Vec Ideal Cert.KernelIdeal.S1600000 .i32)
    (ew : FVec Ideal Cert.KernelIdeal.S1600000 .f32)
    (w : FVec Ideal Cert.KernelIdeal.S128x128 .f32) :
    Cert.KernelIdeal.Hand.hArr (Cert.KernelIdeal.Hand.aggK (F := Ideal) x src dst ew) w
        (Cert.KernelIdeal.Hand.zeroRow (F := Ideal))
      = Cert.ReferenceIdeal.Hand.hidden (F := Ideal) x src dst ew w := by
  funext i
  obtain ⟨r, c, rfl⟩ : ∃ (r : Fin 100000) (c : Fin 128), i = ix2 r c := ⟨i 0, i 1, eq_ix2 i⟩
  rw [Cert.KernelIdeal.Hand.hArr_ix2, zeroRow_apply, add_zero, aggK_eq]
  exact (Cert.ReferenceIdeal.Hand.dot128_apply
    (Cert.ReferenceIdeal.Hand.agg (F := Ideal) x src dst ew) w r c).symm

/-- A `[40]` row broadcast to `[1, 40]` and then down the rows, read at `(r, c)`: entry `c`. -/
theorem bcast_bias_ix (b : FVec Ideal Cert.ReferenceIdeal.S40 .f32) (r : Fin 100000) (c : Fin 40) :
    broadcastInDim Cert.ReferenceIdeal.S100000x40 ![0, 1]
        Cert.ReferenceIdeal.Gen.bcast_S1x40_S100000x40_0_1
        (broadcastInDim Cert.ReferenceIdeal.S1x40 ![1] Cert.ReferenceIdeal.Gen.bcast_S40_S1x40_1 b)
        (ix2 r c)
      = b (ix1 c) :=
  (broadcastInDim_apply _ _ _ (ix2 r c) (ix2 (0 : Fin 1) c)
      (fun a => by fin_cases a <;> rfl)).trans
    (broadcastInDim_apply _ _ b (ix2 (0 : Fin 1) c) (ix1 c) (fun a => by fin_cases a; rfl))

/-- THE OUTPUT LAYER: the kernel's product plus the bias reshaped to a row is the reference's
    contraction plus the bias broadcast down the rows. -/
theorem out_eq (x : FVec Ideal Cert.KernelIdeal.S100000x128 .f32)
    (src dst : Vec Ideal Cert.KernelIdeal.S1600000 .i32)
    (ew : FVec Ideal Cert.KernelIdeal.S1600000 .f32)
    (w : FVec Ideal Cert.KernelIdeal.S128x40 .f32) (b : FVec Ideal Cert.KernelIdeal.S40 .f32) :
    Cert.KernelIdeal.Hand.mmArr (Cert.KernelIdeal.Hand.aggK (F := Ideal) x src dst ew) w
        (shapeCast Cert.KernelIdeal.S1x40 b Cert.KernelIdeal.Gen.shapeCasts_S40_S1x40)
      = Cert.ReferenceIdeal.Hand.outLayer (F := Ideal) x src dst ew w b := by
  funext i
  obtain ⟨r, c, rfl⟩ : ∃ (r : Fin 100000) (c : Fin 40), i = ix2 r c := ⟨i 0, i 1, eq_ix2 i⟩
  rw [Cert.KernelIdeal.Hand.mmArr_ix2, shapeCast_a_1a_apply, aggK_eq]
  unfold Cert.ReferenceIdeal.Hand.outLayer
  rw [addf_apply, bcast_bias_ix, Cert.ReferenceIdeal.Hand.dot40_apply]

end Cert.Bridge

end
-- ==== Proof.KValue.lean ====
/-
  The kernel program's result, stage by stage, as the reference's function of the arguments. Each layer's host stretch
  forms the edge aggregation of the current activations; the statistics region multiplies by the layer's weights and sums
  the columns of the product and of its squares; the next host stretch forms the column means and the variances as mean of
  squares minus squared mean; the normalisation region normalises, scales, shifts and rectifies. With every entry real,
  that variance is the reference's mean of squared deviations, so each normalised layer is the reference's. The last
  region multiplies the third aggregation by the output weights and adds the bias row.
-/
import proofs.«151566_j35021163331665_1_alg».proof.Proof.KHost
import proofs.«151566_j35021163331665_1_alg».proof.Proof.KArgs
import proofs.«151566_j35021163331665_1_alg».proof.Proof.S0Sums
import proofs.«151566_j35021163331665_1_alg».proof.Proof.S2Sums
import proofs.«151566_j35021163331665_1_alg».proof.Proof.Cls1Value
import proofs.«151566_j35021163331665_1_alg».proof.Proof.Cls3Value
import proofs.«151566_j35021163331665_1_alg».proof.Proof.Cls4Value
import proofs.«151566_j35021163331665_1_alg».proof.Proof.BrBn
import proofs.«151566_j35021163331665_1_alg».proof.Proof.BrLin

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.ValueIdx
open Idealize.SL.Sem
open Cert.LibMoment Cert.LibFiniteOps Cert.Bridge
open scoped BigOperators

variable (m : (ℓ : Loc nD τ sig) → Buf (Elt Ideal) ℓ)

/-! ## Layer 1: the statistics region, the means and variances, the normalisation region -/

/-- After the statistics region of layer 1 its h array is the reference's pre-activation of that layer. -/
theorem h1_eq (c : Dev nD) : W2 m c (Proc.devRef .tc main_v15_0) = (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  have e0 : U1 m c (Pipeline.arrRef spec0 0) = (aggK (F := Ideal) (m ((c : Thread nD τ).loc main_arg0)) (m ((c : Thread nD τ).loc main_arg1)) (m ((c : Thread nD τ).loc main_arg2)) (m ((c : Thread nD τ).loc main_arg3))) := W1_v12 m c
  have e1 : U1 m c (Pipeline.arrRef spec0 1) = (m ((c : Thread nD τ).loc main_arg4)) := W1_a m c main_arg4 (by decide)
  have e2 : U1 m c (Pipeline.arrRef spec0 2) = zeroRow (F := Ideal) := W1_v14 m c
  refine (W2_arr m c 3).trans ((final0_3 (U1 m) c).trans ?_)
  show hArr (U1 m c (Pipeline.arrRef spec0 0)) (U1 m c (Pipeline.arrRef spec0 1)) (U1 m c (Pipeline.arrRef spec0 2)) = _
  rw [e0, e1, e2]
  exact hid_eq _ _ _ _ _

/-- The statistics rows of layer 1, in terms of that h array. -/
theorem s1_eq (c : Dev nD) (j : Fin 128) :
    W2 m c (Proc.devRef .tc main_v15_1) (ix2 (0 : Fin 1) j) = 0 + ∑ r : Fin 100000, (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (ix2 r j) := by
  have e := stat4_rows (U1 m) c j
  rw [← (final0_3 (U1 m) c), ← W2_arr m c 3, h1_eq m c] at e
  exact (congrFun (W2_arr m c 4) _).trans e
theorem ss1_eq (c : Dev nD) (j : Fin 128) :
    W2 m c (Proc.devRef .tc main_v15_2) (ix2 (0 : Fin 1) j) = 0 + ∑ r : Fin 100000, (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (ix2 r j) * (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (ix2 r j) := by
  have e := stat5_rows (U1 m) c j
  rw [← (final0_3 (U1 m) c), ← W2_arr m c 3, h1_eq m c] at e
  exact (congrFun (W2_arr m c 5) _).trans e

/-- After the normalisation region of layer 1: the reference's normalised, rectified activations. -/
theorem y1_eq (c : Dev nD) (hH : AllReal (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)))) :
    W4 m c (Proc.devRef .tc main_v24) = Cert.ReferenceIdeal.Hand.bnRelu (F := Ideal) (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg8)) (m ((c : Thread nD τ).loc main_arg9)) := by
  have eH : U3 m c (Pipeline.arrRef spec1 0) = (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) :=
    (W3_keep m c main_v15_0 (by decide)).trans (h1_eq m c)
  have eM : U3 m c (Pipeline.arrRef spec1 1) = Host.divf (W2 m c (Proc.devRef .tc main_v15_1)) (nRow (F := Ideal)) := W3_v17 m c
  have eV : U3 m c (Pipeline.arrRef spec1 2) = subf (Host.divf (W2 m c (Proc.devRef .tc main_v15_2)) (nRow (F := Ideal)))
      (mulf (Host.divf (W2 m c (Proc.devRef .tc main_v15_1)) (nRow (F := Ideal))) (Host.divf (W2 m c (Proc.devRef .tc main_v15_1)) (nRow (F := Ideal)))) := W3_v21 m c
  have eG : U3 m c (Pipeline.arrRef spec1 3) = shapeCast S1x128 (m ((c : Thread nD τ).loc main_arg8)) shapeCasts_S128_S1x128 :=
    (W3_v22 m c).trans (by rw [W2_a m c main_arg8 (by decide) (by decide)])
  have eB : U3 m c (Pipeline.arrRef spec1 4) = shapeCast S1x128 (m ((c : Thread nD τ).loc main_arg9)) shapeCasts_S128_S1x128 :=
    (W3_v23 m c).trans (by rw [W2_a m c main_arg9 (by decide) (by decide)])
  refine (W4_arr m c 5).trans ((final1 (U3 m) c).trans ?_)
  show bnArr (U3 m c (Pipeline.arrRef spec1 0)) (U3 m c (Pipeline.arrRef spec1 1)) (U3 m c (Pipeline.arrRef spec1 2))
    (U3 m c (Pipeline.arrRef spec1 3)) (U3 m c (Pipeline.arrRef spec1 4)) = _
  rw [eH, eM, eV, eG, eB]
  exact bn_eq' _ _ _ _ _ _ _ _ hH (s1_eq m c) (ss1_eq m c) nRow_apply
    (fun j => shapeCast_a_1a_apply _ _ (0 : Fin 1) j) (fun j => shapeCast_a_1a_apply _ _ (0 : Fin 1) j)

/-- The second statistics region finds the aggregation of layer 1's activations. -/
theorem H2_in (c : Dev nD) (hH1 : AllReal (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)))) : U5 m c (Pipeline.arrRef spec2 0) = (aggK (F := Ideal) (Cert.ReferenceIdeal.Hand.bnRelu (F := Ideal) (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg8)) (m ((c : Thread nD τ).loc main_arg9))) (m ((c : Thread nD τ).loc main_arg1)) (m ((c : Thread nD τ).loc main_arg2)) (m ((c : Thread nD τ).loc main_arg3))) := by
  refine (W5_v37 m c).trans ?_
  rw [y1_eq m c hH1, W4_a m c main_arg1 (by decide) (by decide) (by decide) (by decide), W4_a m c main_arg2 (by decide) (by decide) (by decide) (by decide), W4_a m c main_arg3 (by decide) (by decide) (by decide) (by decide)]

/-! ## Layer 2: the statistics region, the means and variances, the normalisation region -/

/-- After the statistics region of layer 2 its h array is the reference's pre-activation of that layer. -/
theorem h2_eq (c : Dev nD) (hH1 : AllReal (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)))) : W6 m c (Proc.devRef .tc main_v40_0) = (Cert.ReferenceIdeal.Hand.hidden (F := Ideal) (Cert.ReferenceIdeal.Hand.bnRelu (F := Ideal) (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg8)) (m ((c : Thread nD τ).loc main_arg9))) (m ((c : Thread nD τ).loc main_arg1)) (m ((c : Thread nD τ).loc main_arg2)) (m ((c : Thread nD τ).loc main_arg3)) (m ((c : Thread nD τ).loc main_arg5))) := by
  have e0 : U5 m c (Pipeline.arrRef spec2 0) = (aggK (F := Ideal) (Cert.ReferenceIdeal.Hand.bnRelu (F := Ideal) (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg8)) (m ((c : Thread nD τ).loc main_arg9))) (m ((c : Thread nD τ).loc main_arg1)) (m ((c : Thread nD τ).loc main_arg2)) (m ((c : Thread nD τ).loc main_arg3))) := H2_in m c hH1
  have e1 : U5 m c (Pipeline.arrRef spec2 1) = (m ((c : Thread nD τ).loc main_arg5)) := W5_a m c main_arg5 (by decide) (by decide) (by decide) (by decide) (by decide)
  have e2 : U5 m c (Pipeline.arrRef spec2 2) = zeroRow (F := Ideal) := W5_v39 m c
  refine (W6_arr m c 3).trans ((final2_3 (U5 m) c).trans ?_)
  show hArr (U5 m c (Pipeline.arrRef spec2 0)) (U5 m c (Pipeline.arrRef spec2 1)) (U5 m c (Pipeline.arrRef spec2 2)) = _
  rw [e0, e1, e2]
  exact hid_eq _ _ _ _ _

/-- The statistics rows of layer 2, in terms of that h array. -/
theorem s2_eq (c : Dev nD) (hH1 : AllReal (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)))) (j : Fin 128) :
    W6 m c (Proc.devRef .tc main_v40_1) (ix2 (0 : Fin 1) j) = 0 + ∑ r : Fin 100000, (Cert.ReferenceIdeal.Hand.hidden (F := Ideal) (Cert.ReferenceIdeal.Hand.bnRelu (F := Ideal) (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg8)) (m ((c : Thread nD τ).loc main_arg9))) (m ((c : Thread nD τ).loc main_arg1)) (m ((c : Thread nD τ).loc main_arg2)) (m ((c : Thread nD τ).loc main_arg3)) (m ((c : Thread nD τ).loc main_arg5))) (ix2 r j) := by
  have e := stat4_rows2 (U5 m) c j
  rw [← (final2_3 (U5 m) c), ← W6_arr m c 3, h2_eq m c hH1] at e
  exact (congrFun (W6_arr m c 4) _).trans e
theorem ss2_eq (c : Dev nD) (hH1 : AllReal (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)))) (j : Fin 128) :
    W6 m c (Proc.devRef .tc main_v40_2) (ix2 (0 : Fin 1) j) = 0 + ∑ r : Fin 100000, (Cert.ReferenceIdeal.Hand.hidden (F := Ideal) (Cert.ReferenceIdeal.Hand.bnRelu (F := Ideal) (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg8)) (m ((c : Thread nD τ).loc main_arg9))) (m ((c : Thread nD τ).loc main_arg1)) (m ((c : Thread nD τ).loc main_arg2)) (m ((c : Thread nD τ).loc main_arg3)) (m ((c : Thread nD τ).loc main_arg5))) (ix2 r j) * (Cert.ReferenceIdeal.Hand.hidden (F := Ideal) (Cert.ReferenceIdeal.Hand.bnRelu (F := Ideal) (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg8)) (m ((c : Thread nD τ).loc main_arg9))) (m ((c : Thread nD τ).loc main_arg1)) (m ((c : Thread nD τ).loc main_arg2)) (m ((c : Thread nD τ).loc main_arg3)) (m ((c : Thread nD τ).loc main_arg5))) (ix2 r j) := by
  have e := stat5_rows2 (U5 m) c j
  rw [← (final2_3 (U5 m) c), ← W6_arr m c 3, h2_eq m c hH1] at e
  exact (congrFun (W6_arr m c 5) _).trans e

/-- After the normalisation region of layer 2: the reference's normalised, rectified activations. -/
theorem y2_eq (c : Dev nD) (hH1 : AllReal (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)))) (hH : AllReal (Cert.ReferenceIdeal.Hand.hidden (F := Ideal) (Cert.ReferenceIdeal.Hand.bnRelu (F := Ideal) (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg8)) (m ((c : Thread nD τ).loc main_arg9))) (m ((c : Thread nD τ).loc main_arg1)) (m ((c : Thread nD τ).loc main_arg2)) (m ((c : Thread nD τ).loc main_arg3)) (m ((c : Thread nD τ).loc main_arg5)))) :
    W8 m c (Proc.devRef .tc main_v49) = Cert.ReferenceIdeal.Hand.bnRelu (F := Ideal) (Cert.ReferenceIdeal.Hand.hidden (F := Ideal) (Cert.ReferenceIdeal.Hand.bnRelu (F := Ideal) (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg8)) (m ((c : Thread nD τ).loc main_arg9))) (m ((c : Thread nD τ).loc main_arg1)) (m ((c : Thread nD τ).loc main_arg2)) (m ((c : Thread nD τ).loc main_arg3)) (m ((c : Thread nD τ).loc main_arg5))) (m ((c : Thread nD τ).loc main_arg10)) (m ((c : Thread nD τ).loc main_arg11)) := by
  have eH : U7 m c (Pipeline.arrRef spec3 0) = (Cert.ReferenceIdeal.Hand.hidden (F := Ideal) (Cert.ReferenceIdeal.Hand.bnRelu (F := Ideal) (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg8)) (m ((c : Thread nD τ).loc main_arg9))) (m ((c : Thread nD τ).loc main_arg1)) (m ((c : Thread nD τ).loc main_arg2)) (m ((c : Thread nD τ).loc main_arg3)) (m ((c : Thread nD τ).loc main_arg5))) :=
    (W7_keep m c main_v40_0 (by decide)).trans (h2_eq m c hH1)
  have eM : U7 m c (Pipeline.arrRef spec3 1) = Host.divf (W6 m c (Proc.devRef .tc main_v40_1)) (nRow (F := Ideal)) := W7_v42 m c
  have eV : U7 m c (Pipeline.arrRef spec3 2) = subf (Host.divf (W6 m c (Proc.devRef .tc main_v40_2)) (nRow (F := Ideal)))
      (mulf (Host.divf (W6 m c (Proc.devRef .tc main_v40_1)) (nRow (F := Ideal))) (Host.divf (W6 m c (Proc.devRef .tc main_v40_1)) (nRow (F := Ideal)))) := W7_v46 m c
  have eG : U7 m c (Pipeline.arrRef spec3 3) = shapeCast S1x128 (m ((c : Thread nD τ).loc main_arg10)) shapeCasts_S128_S1x128 :=
    (W7_v47 m c).trans (by rw [W6_a m c main_arg10 (by decide) (by decide) (by decide) (by decide) (by decide) (by decide)])
  have eB : U7 m c (Pipeline.arrRef spec3 4) = shapeCast S1x128 (m ((c : Thread nD τ).loc main_arg11)) shapeCasts_S128_S1x128 :=
    (W7_v48 m c).trans (by rw [W6_a m c main_arg11 (by decide) (by decide) (by decide) (by decide) (by decide) (by decide)])
  refine (W8_arr m c 5).trans ((final3 (U7 m) c).trans ?_)
  show bnArr (U7 m c (Pipeline.arrRef spec3 0)) (U7 m c (Pipeline.arrRef spec3 1)) (U7 m c (Pipeline.arrRef spec3 2))
    (U7 m c (Pipeline.arrRef spec3 3)) (U7 m c (Pipeline.arrRef spec3 4)) = _
  rw [eH, eM, eV, eG, eB]
  exact bn_eq' _ _ _ _ _ _ _ _ hH (s2_eq m c hH1) (ss2_eq m c hH1) nRow_apply
    (fun j => shapeCast_a_1a_apply _ _ (0 : Fin 1) j) (fun j => shapeCast_a_1a_apply _ _ (0 : Fin 1) j)

/-! ## The output layer -/

/-- After the last region the result array is the reference's output layer of layer 2's activations. -/
theorem out_value (c : Dev nD) (hH1 : AllReal (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)))) (hH2 : AllReal (Cert.ReferenceIdeal.Hand.hidden (F := Ideal) (Cert.ReferenceIdeal.Hand.bnRelu (F := Ideal) (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg8)) (m ((c : Thread nD τ).loc main_arg9))) (m ((c : Thread nD τ).loc main_arg1)) (m ((c : Thread nD τ).loc main_arg2)) (m ((c : Thread nD τ).loc main_arg3)) (m ((c : Thread nD τ).loc main_arg5)))) :
    W10 m c (Proc.devRef .tc main_v64) = Cert.ReferenceIdeal.Hand.outLayer (F := Ideal) (Cert.ReferenceIdeal.Hand.bnRelu (F := Ideal) (Cert.ReferenceIdeal.Hand.hidden (F := Ideal) (Cert.ReferenceIdeal.Hand.bnRelu (F := Ideal) (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg8)) (m ((c : Thread nD τ).loc main_arg9))) (m ((c : Thread nD τ).loc main_arg1)) (m ((c : Thread nD τ).loc main_arg2)) (m ((c : Thread nD τ).loc main_arg3)) (m ((c : Thread nD τ).loc main_arg5))) (m ((c : Thread nD τ).loc main_arg10)) (m ((c : Thread nD τ).loc main_arg11))) (m ((c : Thread nD τ).loc main_arg1)) (m ((c : Thread nD τ).loc main_arg2)) (m ((c : Thread nD τ).loc main_arg3)) (m ((c : Thread nD τ).loc main_arg6)) (m ((c : Thread nD τ).loc main_arg7)) := by
  have e0 : U9 m c (Pipeline.arrRef spec4 0) = (aggK (F := Ideal) (Cert.ReferenceIdeal.Hand.bnRelu (F := Ideal) (Cert.ReferenceIdeal.Hand.hidden (F := Ideal) (Cert.ReferenceIdeal.Hand.bnRelu (F := Ideal) (Cert.ReferenceIdeal.Hand.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg8)) (m ((c : Thread nD τ).loc main_arg9))) (m ((c : Thread nD τ).loc main_arg1)) (m ((c : Thread nD τ).loc main_arg2)) (m ((c : Thread nD τ).loc main_arg3)) (m ((c : Thread nD τ).loc main_arg5))) (m ((c : Thread nD τ).loc main_arg10)) (m ((c : Thread nD τ).loc main_arg11))) (m ((c : Thread nD τ).loc main_arg1)) (m ((c : Thread nD τ).loc main_arg2)) (m ((c : Thread nD τ).loc main_arg3))) := by
    refine (W9_v62 m c).trans ?_
    rw [y2_eq m c hH1 hH2, W8_a m c main_arg1 (by decide) (by decide) (by decide) (by decide) (by decide) (by decide) (by decide) (by decide), W8_a m c main_arg2 (by decide) (by decide) (by decide) (by decide) (by decide) (by decide) (by decide) (by decide), W8_a m c main_arg3 (by decide) (by decide) (by decide) (by decide) (by decide) (by decide) (by decide) (by decide)]
  have e1 : U9 m c (Pipeline.arrRef spec4 1) = (m ((c : Thread nD τ).loc main_arg6)) := W9_a m c main_arg6 (by decide) (by decide) (by decide) (by decide) (by decide) (by decide) (by decide) (by decide) (by decide)
  have e2 : U9 m c (Pipeline.arrRef spec4 2) = shapeCast S1x40 (m ((c : Thread nD τ).loc main_arg7)) shapeCasts_S40_S1x40 :=
    (W9_v63 m c).trans (by rw [W8_a m c main_arg7 (by decide) (by decide) (by decide) (by decide) (by decide) (by decide) (by decide) (by decide)])
  refine (W10_arr m c 3).trans ((final4 (U9 m) c).trans ?_)
  show mmArr (U9 m c (Pipeline.arrRef spec4 0)) (U9 m c (Pipeline.arrRef spec4 1)) (U9 m c (Pipeline.arrRef spec4 2)) = _
  rw [e0, e1, e2]
  exact out_eq _ _ _ _ _ _

end Cert.KernelIdeal.Hand

end
-- ==== Proof.BrPre.lean ====
import proofs.«151566_j35021163331665_1_alg».proof.Pre_finite_inputs
import proofs.«151566_j35021163331665_1_alg».proof.Proof.LibFiniteOps
import Idealize.ShloMosaic.Lib.ReduceAll
import Idealize.ShloMosaic.Lib.ValueIdx

/-!
# From the precondition to real entries

The precondition tests, for each float argument, `|x| < +∞` at every entry, takes the
conjunction over all entries of the argument, and then the conjunction over the ten float
arguments. At the ideal values `|x|` is `max x (-x)` and the word `0x7F800000` is `⊤`, so
an entry that passes the test is neither `⊤` nor `⊥`: it is a real number. A conjunction
that is `1` has every conjunct `1`, so the precondition says that every entry of every float
argument is a real number.
-/

noncomputable section

namespace Cert.Bridge

open Idealize.ShloMosaic Cert.LibMoment Cert.LibFiniteOps Cert.Pre_finite_inputs

/-- The rank-zero shape has one index. -/
instance subsingleton_scalar_idx : Subsingleton S_.Idx := ⟨fun _ _ => funext fun d => d.elim0⟩

/-- The f32 word `0x7F800000` denotes `+∞`. -/
theorem inf_word : Ideal.ofBits .f32 0x7F800000#32 = (⊤ : EReal) := by
  simp [Ideal.ofBits, Ideal.ieee]

/-- An extended real whose absolute value compares below `+∞` is a real number. -/
theorem isReal_of_test (x : EReal)
    (h : Ideal.cmp .olt (max x (-x)) (Ideal.ofBits .f32 0x7F800000#32) = 1#1) : IsReal x := by
  rw [inf_word] at h
  have h' : BitVec.ofBool (decide (max x (-x) < (⊤ : EReal))) = 1#1 := h
  have hlt : max x (-x) < (⊤ : EReal) := by
    by_contra hc
    rw [decide_eq_false hc] at h'
    exact absurd h' (by decide)
  exact isReal_of_abs_lt_top hlt

/-- One argument's test: if the conjunction over all entries of `|x| < +∞` is `1`, every
    entry of `x` is a real number. -/
theorem allReal_of_all {s : Shape} {axes : List (Fin s.rank)} (x : FVec Ideal s .f32)
    (bc : S_.BroadcastsInDim s (![] : Fin 0 → Fin s.rank)) (rt : s.ReducesTo axes S_)
    (hu : 0 < S_.numel) (init : IVec S_ 1)
    (e : Host.reduce IntOp.andi
        (cmpf .olt (Host.absf x)
          (broadcastInDim s ![] bc (constant (F := Ideal) S_ .f32 0x7F800000#32)))
        init rt hu ValueIdx.ix0 = 1#1) :
    AllReal x := by
  intro i
  have hi := Host.reduce_andi_all _ init rt hu ValueIdx.ix0 e i
  exact isReal_of_test (x i) hi

variable [Cert.Pre_finite_inputs.Facts]

/-- THE PRECONDITION DECODED: every entry of every float argument is a real number. -/
theorem pre_real (x0 : FVec Ideal S100000x128 .f32) (x1 x2 : IVec S1600000 32)
    (x3 : FVec Ideal S1600000 .f32) (x4 x5 : FVec Ideal S128x128 .f32)
    (x6 : FVec Ideal S128x40 .f32) (x7 : FVec Ideal S40 .f32)
    (x8 x9 x10 x11 : FVec Ideal S128 .f32)
    (h : Cert.Pre_finite_inputs.fn (F := Ideal) x0 x1 x2 x3 x4 x5 x6 x7 x8 x9 x10 x11
      = (fun _ => 1#1)) :
    AllReal x0 ∧ AllReal x3 ∧ AllReal x4 ∧ AllReal x5 ∧ AllReal x6 ∧ AllReal x7 ∧ AllReal x8
      ∧ AllReal x9 ∧ AllReal x10 ∧ AllReal x11 := by
  have e := congrFun h ValueIdx.ix0
  dsimp only [Cert.Pre_finite_inputs.fn, Cert.Pre_finite_inputs.fn_part1,
    Cert.Pre_finite_inputs.fn_part2, andi] at e
  simp only [IntOp.andi_eq_one] at e
  obtain ⟨⟨⟨⟨⟨⟨⟨⟨⟨e0, e3⟩, e4⟩, e5⟩, e6⟩, e7⟩, e8⟩, e9⟩, e10⟩, e11⟩ := e
  exact ⟨allReal_of_all x0 _ _ _ _ e0, allReal_of_all x3 _ _ _ _ e3,
    allReal_of_all x4 _ _ _ _ e4, allReal_of_all x5 _ _ _ _ e5,
    allReal_of_all x6 _ _ _ _ e6, allReal_of_all x7 _ _ _ _ e7,
    allReal_of_all x8 _ _ _ _ e8, allReal_of_all x9 _ _ _ _ e9,
    allReal_of_all x10 _ _ _ _ e10, allReal_of_all x11 _ _ _ _ e11⟩

end Cert.Bridge

end
-- ==== Proof.BrLayers.lean ====
import proofs.«151566_j35021163331665_1_alg».proof.Proof.RefFn
import proofs.«151566_j35021163331665_1_alg».proof.Proof.LibFiniteOps
import proofs.«151566_j35021163331665_1_alg».proof.Proof.BrLaw

/-!
# Every intermediate array of the reference is an array of real numbers

The reference is three layers of: gather the source rows, scale by the edge weights, sum into the
destination rows of a zero array, multiply by the weight matrix; the first two layers then
normalise each column (subtract the column mean, multiply by the reciprocal square root of the
column variance plus `1e-5`, scale, shift) and keep the positive part. Starting from arrays of
real numbers every one of these operations gives real numbers: sums, products and maxima of real
numbers are real numbers; a division by `100000` is a product with a real number; the column
variance is a sum of squares of real numbers over `100000`, so it is a real number that is not
negative, its sum with the positive constant is positive, and the reciprocal square root of a
positive real number is a real number.

The variance's divisor is printed as `100000 - 0` (the number of rows minus a zero correction,
the zero converted from the integer `0`), and the quotient is chosen when this divisor is
positive — it is `100000`, so the quotient is always the one chosen.
-/

noncomputable section

namespace Cert.Bridge

open Idealize.ShloMosaic Cert.LibMoment Cert.LibFiniteOps
open Cert.ReferenceIdeal Cert.ReferenceIdeal.Gen Cert.ReferenceIdeal.Hand
open scoped BigOperators

/-! ### Small facts on real numbers among the extended reals -/

theorem zero_word_real : IsReal (Ideal.ofBits .f32 0x00000000#32) := by
  rw [Ideal.ofBits_zero_f32]; exact isReal_zero

/-- The square of a real number is not negative. -/
theorem isReal_mul_self_nonneg {x : EReal} (hx : IsReal x) : 0 ≤ x * x := by
  obtain ⟨a, rfl⟩ := hx
  rw [← EReal.coe_mul]
  exact EReal.coe_nonneg.mpr (_root_.mul_self_nonneg a)

/-- A real number that is not negative, over a positive real number, is not negative. -/
theorem div_coe_nonneg {x : EReal} (hx : IsReal x) (h0 : 0 ≤ x) {n : ℝ} (hn : 0 < n) :
    0 ≤ Ideal.div x (n : EReal) := by
  obtain ⟨a, rfl⟩ := hx
  rw [Ideal.div_coe hn.ne', ← EReal.coe_mul]
  exact EReal.coe_nonneg.mpr (mul_nonneg (EReal.coe_nonneg.mp h0) (by positivity))

/-! ### The aggregation and the contractions -/

/-- The edge aggregation of real features with real edge weights. -/
theorem agg_allReal {x : FVec Ideal S100000x128 .f32} (src dst : Vec Ideal S1600000 .i32)
    {ew : FVec Ideal S1600000 .f32} (hx : AllReal x) (hew : AllReal ew) :
    AllReal (agg (F := Ideal) x src dst ew) := by
  unfold agg
  exact allReal_scatterAdd _ _
    (allReal_broadcast_constant _ _ _ _ zero_word_real)
    (allReal_mulf (allReal_gather _ _ hx)
      (allReal_broadcastInDim _ _ (allReal_broadcastInDim _ _ hew)))

/-- The contraction with a square weight matrix. -/
theorem dot128_allReal {a : FVec Ideal S100000x128 .f32} {w : FVec Ideal S128x128 .f32}
    (ha : AllReal a) (hw : AllReal w) :
    AllReal (Host.dotGeneral (F := Ideal) dot_S100000x128_S128x128_S100000x128_1_0_0_1_n_n none a w) :=
  allReal_dotGeneral _ _ ha hw

/-- The contraction with the `[128, 40]` weight matrix. -/
theorem dot40_allReal {a : FVec Ideal S100000x128 .f32} {w : FVec Ideal S128x40 .f32}
    (ha : AllReal a) (hw : AllReal w) :
    AllReal (Host.dotGeneral (F := Ideal) dot_S100000x128_S128x40_S100000x40_1_0_0_1_n_n none a w) :=
  allReal_dotGeneral _ _ ha hw

theorem hidden_allReal {x : FVec Ideal S100000x128 .f32} (src dst : Vec Ideal S1600000 .i32)
    {ew : FVec Ideal S1600000 .f32} {w : FVec Ideal S128x128 .f32}
    (hx : AllReal x) (hew : AllReal ew) (hw : AllReal w) :
    AllReal (hidden (F := Ideal) x src dst ew w) :=
  dot128_allReal (agg_allReal src dst hx hew) hw

theorem outLayer_allReal {x : FVec Ideal S100000x128 .f32} (src dst : Vec Ideal S1600000 .i32)
    {ew : FVec Ideal S1600000 .f32} {w : FVec Ideal S128x40 .f32} {b : FVec Ideal S40 .f32}
    (hx : AllReal x) (hew : AllReal ew) (hw : AllReal w) (hb : AllReal b) :
    AllReal (outLayer (F := Ideal) x src dst ew w b) :=
  allReal_addf (dot40_allReal (agg_allReal src dst hx hew) hw)
    (allReal_broadcastInDim _ _ (allReal_broadcastInDim _ _ hb))

/-! ### The column statistics -/

theorem colSum_allReal {h : FVec Ideal S100000x128 .f32} (hh : AllReal h) :
    AllReal (colSum (F := Ideal) h) :=
  allReal_reduceAdd _ _ hh (allReal_constant S_ .f32 _ zero_word_real)

theorem n_word_ne_zero : Ideal.ofBits .f32 0x47C35000#32 ≠ 0 := n_pos.ne'

theorem mean128_allReal {h : FVec Ideal S100000x128 .f32} (hh : AllReal h) :
    AllReal (mean128 (F := Ideal) h) :=
  allReal_divf (colSum_allReal hh) (allReal_broadcast_constant _ _ _ _ n_real)
    (fun _ => n_word_ne_zero)

theorem meanRow_allReal {h : FVec Ideal S100000x128 .f32} (hh : AllReal h) :
    AllReal (meanRow (F := Ideal) h) :=
  allReal_divf (allReal_broadcastInDim _ _ (colSum_allReal hh))
    (allReal_broadcast_constant _ _ _ _ n_real) (fun _ => n_word_ne_zero)

theorem centered_allReal {h : FVec Ideal S100000x128 .f32} (hh : AllReal h) :
    AllReal (centered (F := Ideal) h) :=
  allReal_subf hh (allReal_broadcastInDim _ _ (meanRow_allReal hh))

/-- The variance's divisor `100000 - 0` is `100000`. -/
theorem count_val (i : S_.Idx) : count (F := Ideal) i = ((100000 : ℝ) : EReal) := by
  show Ideal.ofBits .f32 0x47C35000#32 - (((0#32 : BitVec 32).toInt : ℝ) : EReal) = _
  rw [n_word]
  have h0 : (0#32 : BitVec 32).toInt = 0 := by decide
  rw [h0, Int.cast_zero, EReal.coe_zero, sub_zero]

/-- The divisor is positive, so the variance is the quotient. -/
theorem var128_eq (h : FVec Ideal S100000x128 .f32) :
    var128 (F := Ideal) h
      = Host.divf
          (Host.reduceAdd (mulf (centered h) (centered h)) (constant (F := Ideal) S_ .f32 0x00000000#32)
            reducesTo_S100000x128_S128_d0 h_S_)
          (broadcastInDim S128 ![] bcast_S_S128 (count (F := Ideal))) := by
  funext j
  have hc : Ideal.cmp .ogt (count (F := Ideal) (fun a => a.elim0)) (Ideal.ofBits .f32 0x00000000#32) = 1#1 := by
    rw [count_val, Ideal.ofBits_zero_f32]
    show BitVec.ofBool (decide ((0 : EReal) < ((100000 : ℝ) : EReal))) = 1#1
    rw [decide_eq_true (EReal.coe_pos.mpr (by norm_num))]
    rfl
  unfold var128
  exact if_pos hc

/-- The column variance at a column: the sum of the squared centred entries over `100000`. -/
theorem var128_apply (h : FVec Ideal S100000x128 .f32) (j : S128.Idx) :
    var128 (F := Ideal) h j
      = Ideal.div
          (Host.reduceAdd (mulf (centered h) (centered h)) (constant (F := Ideal) S_ .f32 0x00000000#32)
            reducesTo_S100000x128_S128_d0 h_S_ j)
          ((100000 : ℝ) : EReal) := by
  rw [var128_eq]
  show Ideal.div _ (count (F := Ideal) _) = _
  rw [count_val]

theorem sumSq_allReal {h : FVec Ideal S100000x128 .f32} (hh : AllReal h) :
    AllReal (Host.reduceAdd (mulf (centered (F := Ideal) h) (centered h))
      (constant (F := Ideal) S_ .f32 0x00000000#32) reducesTo_S100000x128_S128_d0 h_S_) :=
  allReal_reduceAdd _ _ (allReal_mulf (centered_allReal hh) (centered_allReal hh))
    (allReal_constant S_ .f32 _ zero_word_real)

/-- A sum of squares of real numbers, from zero, is not negative. -/
theorem sumSq_nonneg {h : FVec Ideal S100000x128 .f32} (hh : AllReal h) (j : S128.Idx) :
    0 ≤ Host.reduceAdd (mulf (centered (F := Ideal) h) (centered h))
      (constant (F := Ideal) S_ .f32 0x00000000#32) reducesTo_S100000x128_S128_d0 h_S_ j := by
  show (0 : EReal) ≤ Ideal.ofBits .f32 0x00000000#32 + ∑ i ∈ _, (centered (F := Ideal) h i * centered h i)
  rw [Ideal.ofBits_zero_f32, zero_add]
  exact Finset.sum_nonneg fun i _ => isReal_mul_self_nonneg (centered_allReal hh i)

theorem var128_allReal {h : FVec Ideal S100000x128 .f32} (hh : AllReal h) :
    AllReal (var128 (F := Ideal) h) := by
  intro j
  rw [var128_apply]
  exact (sumSq_allReal hh j).div_coe hundred_thousand_ne_zero

theorem var128_nonneg {h : FVec Ideal S100000x128 .f32} (hh : AllReal h) (j : S128.Idx) :
    0 ≤ var128 (F := Ideal) h j := by
  rw [var128_apply]
  exact div_coe_nonneg (sumSq_allReal hh j) (sumSq_nonneg hh j) (by norm_num)

/-! ### The normalisation and the rectifier -/

theorem bnRelu_allReal {h : FVec Ideal S100000x128 .f32} {gamma beta : FVec Ideal S128 .f32}
    (hh : AllReal h) (hg : AllReal gamma) (hb : AllReal beta) :
    AllReal (bnRelu (F := Ideal) h gamma beta) := by
  unfold bnRelu
  refine allReal_maximumf (allReal_addf (allReal_mulf (allReal_mulf
      (allReal_subf hh (allReal_broadcastInDim _ _ (allReal_broadcastInDim _ _ (mean128_allReal hh))))
      (allReal_broadcastInDim _ _ (allReal_broadcastInDim _ _ (allReal_rsqrt
        (allReal_addf (var128_allReal hh) (allReal_broadcast_constant _ _ _ _ eps_real))
        (fun i => ?_)))))
      (allReal_broadcastInDim _ _ (allReal_broadcastInDim _ _ hg)))
      (allReal_broadcastInDim _ _ (allReal_broadcastInDim _ _ hb)))
    (allReal_broadcast_constant _ _ _ _ zero_word_real)
  exact add_eps_pos (var128_nonneg hh i)

/-! ### The whole reference -/

/-- Every array the reference computes on the way to its result is an array of real numbers. -/
theorem result_allReal {a0 : FVec Ideal S100000x128 .f32} (a1 a2 : Vec Ideal S1600000 .i32)
    {a3 : FVec Ideal S1600000 .f32} {a4 a5 : FVec Ideal S128x128 .f32} {a6 : FVec Ideal S128x40 .f32}
    {a7 : FVec Ideal S40 .f32} {a8 a9 a10 a11 : FVec Ideal S128 .f32}
    (h0 : AllReal a0) (h3 : AllReal a3) (h4 : AllReal a4) (h5 : AllReal a5) (h6 : AllReal a6)
    (h7 : AllReal a7) (h8 : AllReal a8) (h9 : AllReal a9) (h10 : AllReal a10) (h11 : AllReal a11) :
    AllReal (hidden (F := Ideal) a0 a1 a2 a3 a4)
      ∧ AllReal (bnRelu (F := Ideal) (hidden a0 a1 a2 a3 a4) a8 a9)
      ∧ AllReal (hidden (F := Ideal) (bnRelu (hidden a0 a1 a2 a3 a4) a8 a9) a1 a2 a3 a5)
      ∧ AllReal (bnRelu (F := Ideal) (hidden (bnRelu (hidden a0 a1 a2 a3 a4) a8 a9) a1 a2 a3 a5) a10 a11)
      ∧ AllReal (result (F := Ideal) a0 a1 a2 a3 a4 a5 a6 a7 a8 a9 a10 a11) := by
  have e1 := hidden_allReal a1 a2 h0 h3 h4
  have e2 := bnRelu_allReal e1 h8 h9
  have e3 := hidden_allReal a1 a2 e2 h3 h5
  have e4 := bnRelu_allReal e3 h10 h11
  exact ⟨e1, e2, e3, e4, outLayer_allReal a1 a2 e4 h3 h6 h7⟩

end Cert.Bridge

end
-- ==== Proof.Algebraic.lean ====
import proofs.«151566_j35021163331665_1_alg».proof.Defs
import proofs.«151566_j35021163331665_1_alg».proof.Proof.Gen.KernelIdeal
import proofs.«151566_j35021163331665_1_alg».proof.Proof.Gen.ReferenceIdeal
import proofs.«151566_j35021163331665_1_alg».proof.Proof.Gen.Pre_finite_inputs
import proofs.«151566_j35021163331665_1_alg».proof.Proof.KFrame
import proofs.«151566_j35021163331665_1_alg».proof.Proof.KValue
import proofs.«151566_j35021163331665_1_alg».proof.Proof.RefRun
import proofs.«151566_j35021163331665_1_alg».proof.Proof.BrPre
import proofs.«151566_j35021163331665_1_alg».proof.Proof.BrLayers

/-!
# The two idealized programs compute the same result

From memories that agree on the twelve argument arrays, both programs terminate, the argument
arrays unchanged, with the same `[100000, 40]` result: the reference's function `result` of the
arguments. The reference's run ends at that function by its own chain of operations. The
kernel program's run ends at the same function provided the two hidden layers' pre-activations
are arrays of real numbers — that is where the variance law (mean of squares minus squared mean
against mean of squared deviations) is used — and they are, because the precondition makes
every entry of every float argument a real number and every operation of the layers keeps
real numbers real.
-/

set_option maxRecDepth 16384

noncomputable section

namespace Cert.Proof.Claims2

open Idealize.ShloMosaic Idealize.ShloMosaic.TcCoe Idealize.SL.Sem
open Cert.LibFiniteOps

/-- The value conjunct: both idealized programs end with equal results and unchanged arguments. -/
theorem algebraic :
    Cert.algebraic_KernelIdeal_ReferenceIdeal (hKernelIdeal := Cert.KernelIdeal.Gen.facts)
      (hReferenceIdeal := Cert.ReferenceIdeal.Gen.facts)
      (hPre_finite_inputs := Cert.Pre_finite_inputs.Gen.facts) := by
  intro m ρ m' ρ' hpre hagree
  -- the precondition makes the two hidden layers' pre-activations arrays of real numbers
  have hreal : ∀ c : Dev Cert.KernelIdeal.nD,
      AllReal (Cert.ReferenceIdeal.Hand.hidden (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      ∧ AllReal (Cert.ReferenceIdeal.Hand.hidden (F := Ideal) (Cert.ReferenceIdeal.Hand.bnRelu (F := Ideal) (Cert.ReferenceIdeal.Hand.hidden (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5))) := fun c => by
    obtain ⟨h0, h3, h4, h5, h6, h7, h8, h9, h10, h11⟩ :=
      Cert.Bridge.pre_real _ _ _ _ _ _ _ _ _ _ _ _ (hpre c)
    have hr := Cert.Bridge.result_allReal (m ((c.tc : Thread Cert.KernelIdeal.nD Cert.KernelIdeal.τ).loc Cert.KernelIdeal.main_arg1)) (m ((c.tc : Thread Cert.KernelIdeal.nD Cert.KernelIdeal.τ).loc Cert.KernelIdeal.main_arg2)) h0 h3 h4 h5 h6 h7 h8 h9 h10 h11
    exact ⟨hr.1, hr.2.2.1⟩
  refine ⟨fun c => Cert.ReferenceIdeal.Hand.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · -- the kernel program: its run, the value of its result array, its arguments as launched
    refine (θ_run Cert.KernelIdeal.defs _ _).mono (fun _ h c => ⟨?_,
      (h c _ (Cert.KernelIdeal.Hand.mem_uc Cert.KernelIdeal.main_arg0 (by decide))).trans (Cert.KernelIdeal.Hand.W10_arg m c Cert.KernelIdeal.main_arg0 (by decide) (by decide) (by decide) (by decide) (by decide) (by decide) (by decide) (by decide) (by decide) (by decide)),
      (h c _ (Cert.KernelIdeal.Hand.mem_uc Cert.KernelIdeal.main_arg1 (by decide))).trans (Cert.KernelIdeal.Hand.W10_arg m c Cert.KernelIdeal.main_arg1 (by decide) (by decide) (by decide) (by decide) (by decide) (by decide) (by decide) (by decide) (by decide) (by decide)),
      (h c _ (Cert.KernelIdeal.Hand.mem_uc Cert.KernelIdeal.main_arg2 (by decide))).trans (Cert.KernelIdeal.Hand.W10_arg m c Cert.KernelIdeal.main_arg2 (by decide) (by decide) (by decide) (by decide) (by decide) (by decide) (by decide) (by decide) (by decide) (by decide)),
      (h c _ (Cert.KernelIdeal.Hand.mem_uc Cert.KernelIdeal.main_arg3 (by decide))).trans (Cert.KernelIdeal.Hand.W10_arg m c Cert.KernelIdeal.main_arg3 (by decide) (by decide) (by decide) (by decide) (by decide) (by decide) (by decide) (by decide) (by decide) (by decide)),
      (h c _ (Cert.KernelIdeal.Hand.mem_uc Cert.KernelIdeal.main_arg4 (by decide))).trans (Cert.KernelIdeal.Hand.W10_arg m c Cert.KernelIdeal.main_arg4 (by decide) (by decide) (by decide) (by decide) (by decide) (by decide) (by decide) (by decide) (by decide) (by decide)),
      (h c _ (Cert.KernelIdeal.Hand.mem_uc Cert.KernelIdeal.main_arg5 (by decide))).trans (Cert.KernelIdeal.Hand.W10_arg m c Cert.KernelIdeal.main_arg5 (by decide) (by decide) (by decide) (by decide) (by decide) (by decide) (by decide) (by decide) (by decide) (by decide)),
      (h c _ (Cert.KernelIdeal.Hand.mem_uc Cert.KernelIdeal.main_arg6 (by decide))).trans (Cert.KernelIdeal.Hand.W10_arg m c Cert.KernelIdeal.main_arg6 (by decide) (by decide) (by decide) (by decide) (by decide) (by decide) (by decide) (by decide) (by decide) (by decide)),
      (h c _ (Cert.KernelIdeal.Hand.mem_uc Cert.KernelIdeal.main_arg7 (by decide))).trans (Cert.KernelIdeal.Hand.W10_arg m c Cert.KernelIdeal.main_arg7 (by decide) (by decide) (by decide) (by decide) (by decide) (by decide) (by decide) (by decide) (by decide) (by decide)),
      (h c _ (Cert.KernelIdeal.Hand.mem_uc Cert.KernelIdeal.main_arg8 (by decide))).trans (Cert.KernelIdeal.Hand.W10_arg m c Cert.KernelIdeal.main_arg8 (by decide) (by decide) (by decide) (by decide) (by decide) (by decide) (by decide) (by decide) (by decide) (by decide)),
      (h c _ (Cert.KernelIdeal.Hand.mem_uc Cert.KernelIdeal.main_arg9 (by decide))).trans (Cert.KernelIdeal.Hand.W10_arg m c Cert.KernelIdeal.main_arg9 (by decide) (by decide) (by decide) (by decide) (by decide) (by decide) (by decide) (by decide) (by decide) (by decide)),
      (h c _ (Cert.KernelIdeal.Hand.mem_uc Cert.KernelIdeal.main_arg10 (by decide))).trans (Cert.KernelIdeal.Hand.W10_arg m c Cert.KernelIdeal.main_arg10 (by decide) (by decide) (by decide) (by decide) (by decide) (by decide) (by decide) (by decide) (by decide) (by decide)),
      (h c _ (Cert.KernelIdeal.Hand.mem_uc Cert.KernelIdeal.main_arg11 (by decide))).trans (Cert.KernelIdeal.Hand.W10_arg m c Cert.KernelIdeal.main_arg11 (by decide) (by decide) (by decide) (by decide) (by decide) (by decide) (by decide) (by decide) (by decide) (by decide))⟩)
      (Cert.KernelIdeal.Hand.run_all (F := Ideal) m ρ)
    exact (h c _ (Cert.KernelIdeal.Hand.mem_uc Cert.KernelIdeal.main_v64 (by decide))).trans
      (Cert.KernelIdeal.Hand.out_value m c (hreal c).1 (hreal c).2)
  · -- the reference: its run, with its arguments rewritten to the kernel program's
    refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

end Cert.Proof.Claims2

end
-- ==== Proof.lean ====
/-
  The proof of the five claims about a three-layer graph convolution with batch normalisation.

  Both programs compute, three times over, the edge aggregation agg[v] = sum over the edges (u -> v) of w_e * x[u] followed by a
  product with the layer's weight matrix; after layers 1 and 2 the columns of the product h are normalised over the 100000
  nodes (subtract the column mean, multiply by the reciprocal square root of the column variance plus a small constant, scale,
  shift) and rectified; layer 3 adds a bias row. The kernel program does the products, the column sums and the normalisation in
  five kernel regions over blocks of 5000 rows, the aggregation in host operations between them; the reference does everything
  in host operations.

  The frames. Each program runs to the end, faults nowhere, and leaves its twelve argument arrays as launched. For the kernel
  program (at the word-level instance and at the extended reals alike, one proof over any float instance) @main is five host
  stretches alternating with five regions; every region's body is run once per case of its branches on the grid point, the two
  statistics regions carrying two accumulators in scratch from one point to the next; the contents of the unscoped buffers
  between the items are named one after the other, and nothing writes an argument.

  The idealization rewrote nothing, so the preservation claim is trivial.

  The value. At the extended reals both programs apply the same aggregation; a block product plus a zero bias row is the host's
  contraction; the kernel's column sums, accumulated block by block over the twenty grid points, are the sums over all rows.
  The kernel forms the variance as (mean of squares) - (mean)^2, the reference as the mean of squared deviations from the mean:
  on real numbers these agree (the second-moment law), and the precondition makes every input entry real, which every
  operation of a layer preserves (the variance is then real and nonnegative, so the reciprocal square root of variance plus the
  constant is real). So layer by layer the kernel's arrays are the reference's, and so are the results.
-/
import proofs.«151566_j35021163331665_1_alg».proof.Defs
import proofs.«151566_j35021163331665_1_alg».proof.Proof.Gen.Kernel
import proofs.«151566_j35021163331665_1_alg».proof.Proof.Gen.Kernel.Skeleton
import proofs.«151566_j35021163331665_1_alg».proof.Proof.Gen.Kernel.Launch
import proofs.«151566_j35021163331665_1_alg».proof.Proof.Gen.Kernel.Regions
import proofs.«151566_j35021163331665_1_alg».proof.Proof.Gen.Kernel.Points
import proofs.«151566_j35021163331665_1_alg».proof.Proof.Gen.KernelIdeal
import proofs.«151566_j35021163331665_1_alg».proof.Proof.Gen.KernelIdeal.Skeleton
import proofs.«151566_j35021163331665_1_alg».proof.Proof.Gen.KernelIdeal.Launch
import proofs.«151566_j35021163331665_1_alg».proof.Proof.Gen.KernelIdeal.Regions
import proofs.«151566_j35021163331665_1_alg».proof.Proof.Gen.KernelIdeal.Points
import proofs.«151566_j35021163331665_1_alg».proof.Proof.Gen.ReferenceIdeal
import proofs.«151566_j35021163331665_1_alg».proof.Proof.Gen.Pre_finite_inputs
import proofs.«151566_j35021163331665_1_alg».proof.Proof.Claims
import proofs.«151566_j35021163331665_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims2.algebraic⟩

end Cert.Proof

end
